-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_20" .f32 0x3D4CCCCD#32 ((1 / 20 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S100000x128 : Shape := ⟨2, ![100000, 128]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x20 : S_.BroadcastsInDim S1024x20 (![] : Fin 0 → Fin S1024x20.rank)
  reducesTo_S1024x20_S_d0_1 : S1024x20.ReducesTo [0, 1] S_

variable [Facts]

def fn_part1 {F : FTy → Type} [FloatOps F] (main_arg0 : IVec S1024x20 32) (main_v13 : IVec S_ 1) (main_v15 : IVec S1024x20 1) (main_c_5 : IVec S_ 32) : IVec S_ 1 :=
  let main_v16 : IVec S1024x20 32 := broadcastInDim S1024x20 ![] bcast_S_S1024x20 main_c_5
  let main_v17 : IVec S1024x20 1 := cmpi .sle main_arg0 main_v16
  let main_v18 : IVec S1024x20 1 := andi main_v15 main_v17
  let main_c_6 : IVec S_ 1 := constantI S_ 1 1#1
  let main_v19 : IVec S_ 1 := (fun x v => Host.reduce IntOp.andi x v reducesTo_S1024x20_S_d0_1 h_S_) main_v18 main_c_6
  let main_v20 : IVec S_ 1 := andi main_v13 main_v19
  main_v20

def fn {F : FTy → Type} [FloatOps F] (main_arg0 : IVec S1024x20 32) (main_arg1 : FVec F S100000x128 .f32) (main_arg2 : FVec F S100000x128 .f32) (main_arg3 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x20 32 := broadcastInDim S1024x20 ![] bcast_S_S1024x20 main_c_4
  let main_v15 : IVec S1024x20 1 := cmpi .sge main_arg0 main_v14
  let main_c_5 : IVec S_ 32 := constantI S_ 32 99999#32
  fn_part1 (F := F) main_arg0 main_v13 main_v15 main_c_5
-- ==== Kernel.lean ====
abbrev S1024x20 : Shape := ⟨2, ![1024, 20]⟩
abbrev S100000x128 : Shape := ⟨2, ![100000, 128]⟩
abbrev S100000 : Shape := ⟨1, ![100000]⟩
abbrev S20480 : Shape := ⟨1, ![20480]⟩
abbrev S20480x128 : Shape := ⟨2, ![20480, 128]⟩
abbrev S640 : Shape := ⟨1, ![640]⟩
abbrev S640x128 : Shape := ⟨2, ![640, 128]⟩
abbrev S_ : Shape := ⟨0, ![]⟩
abbrev S1024x20x128 : Shape := ⟨3, ![1024, 20, 128]⟩
abbrev S1024x128 : Shape := ⟨2, ![1024, 128]⟩
abbrev S256x20x128 : Shape := ⟨3, ![256, 20, 128]⟩
abbrev S256x128 : Shape := ⟨2, ![256, 128]⟩
abbrev S256x20 : Shape := ⟨2, ![256, 20]⟩
abbrev S256x20x1 : Shape := ⟨3, ![256, 20, 1]⟩
abbrev S100352 : Shape := ⟨1, ![100352]⟩
abbrev S1024x100000 : Shape := ⟨2, ![1024, 100000]⟩
abbrev S2048x128 : Shape := ⟨2, ![2048, 128]⟩
abbrev S2048 : Shape := ⟨1, ![2048]⟩
abbrev S4x1024x2048 : Shape := ⟨3, ![4, 1024, 2048]⟩
abbrev S4 : Shape := ⟨1, ![4]⟩
abbrev S1024x2048 : Shape := ⟨2, ![1024, 2048]⟩
abbrev S1 : Shape := ⟨1, ![1]⟩
abbrev S1x1024x2048 : Shape := ⟨3, ![1, 1024, 2048]⟩
abbrev S1x2048 : Shape := ⟨2, ![1, 2048]⟩
abbrev S1024x1536 : Shape := ⟨2, ![1024, 1536]⟩
abbrev S1x1024x1536 : Shape := ⟨3, ![1, 1024, 1536]⟩
abbrev S160x128 : Shape := ⟨2, ![160, 128]⟩
abbrev S160 : Shape := ⟨1, ![160]⟩
abbrev S1024x160 : Shape := ⟨2, ![1024, 160]⟩
abbrev S1x160 : Shape := ⟨2, ![1, 160]⟩

abbrev nBuf : Table → Nat
  | .hbm => 18
  | .local .tc .vmem => 14
  | .local .scVector .vmem => 2
  | _ => 0

abbrev bufTy : (tb : Table) → Fin (nBuf tb) → BufTy
  | .hbm, ⟨0, _⟩ => ⟨S1024x20, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S20480, .i32⟩
  | .hbm, ⟨5, _⟩ => ⟨S20480x128, .f32⟩
  | .hbm, ⟨6, _⟩ => ⟨S1024x20x128, .f32⟩
  | .hbm, ⟨7, _⟩ => ⟨S1024x128, .f32⟩
  | .hbm, ⟨8, _⟩ => ⟨S_, .i32⟩
  | .hbm, ⟨9, _⟩ => ⟨S_, .f32⟩
  | .hbm, ⟨10, _⟩ => ⟨S100352, .f32⟩
  | .hbm, ⟨11, _⟩ => ⟨S1024x100000, .f32⟩
  | .hbm, ⟨12, _⟩ => ⟨S160x128, .f32⟩
  | .hbm, ⟨13, _⟩ => ⟨S160, .f32⟩
  | .hbm, ⟨14, _⟩ => ⟨S1024x160, .f32⟩
  | .hbm, ⟨15, _⟩ => ⟨S_, .i32⟩
  | .hbm, ⟨16, _⟩ => ⟨S_, .i32⟩
  | .hbm, ⟨17, _⟩ => ⟨S1024x100000, .f32⟩
  | .local .tc .vmem, ⟨0, _⟩ => ⟨S256x20x128, .f32⟩
  | .local .tc .vmem, ⟨1, _⟩ => ⟨S256x20x128, .f32⟩
  | .local .tc .vmem, ⟨2, _⟩ => ⟨S256x128, .f32⟩
  | .local .tc .vmem, ⟨3, _⟩ => ⟨S256x128, .f32⟩
  | .local .tc .vmem, ⟨4, _⟩ => ⟨S1024x128, .f32⟩
  | .local .tc .vmem, ⟨5, _⟩ => ⟨S2048x128, .f32⟩
  | .local .tc .vmem, ⟨6, _⟩ => ⟨S2048x128, .f32⟩
  | .local .tc .vmem, ⟨7, _⟩ => ⟨S2048, .f32⟩
  | .local .tc .vmem, ⟨8, _⟩ => ⟨S2048, .f32⟩
  | .local .tc .vmem, ⟨9, _⟩ => ⟨S4x1024x2048, .f32⟩
  | .local .tc .vmem, ⟨10, _⟩ => ⟨S1024x128, .f32⟩
  | .local .tc .vmem, ⟨11, _⟩ => ⟨S160x128, .f32⟩
  | .local .tc .vmem, ⟨12, _⟩ => ⟨S160, .f32⟩
  | .local .tc .vmem, ⟨13, _⟩ => ⟨S1024x160, .f32⟩
  | .local .scVector .vmem, ⟨0, _⟩ => ⟨S640, .i32⟩
  | .local .scVector .vmem, ⟨1, _⟩ => ⟨S640x128, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_v9 : Ref sig .tc := ⟨.hbm, 17, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_scratch0 : Ref sig .tc := ⟨.vmem, 9, rfl⟩
abbrev cc3_stg0_0 : Ref sig .tc := ⟨.vmem, 10, rfl⟩
abbrev cc3_stg1_0 : Ref sig .tc := ⟨.vmem, 11, rfl⟩
abbrev cc3_stg2_0 : Ref sig .tc := ⟨.vmem, 12, rfl⟩
abbrev cc3_stg3_0 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev cc3_sem0_0 : DmaSem sig := 16
abbrev cc3_sem1_0 : DmaSem sig := 17
abbrev cc3_sem2_0 : DmaSem sig := 18
abbrev cc3_sem3_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_3_r1 : BitVec 32 := 0#32
  ![v2.toNat, 0]
abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x20x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![49], ![false]⟩

def k2_cond1 (i : grid2.Coords) : BitVec 1 :=
  let arg0 : BitVec 32 := BitVec.ofNat 32 (i 0).val
  let c4_i32_3 : BitVec 32 := 4#32
  let v5 : BitVec 1 := Scalar.cmpi .sge arg0 c4_i32_3
  let v6 : BitVec 32 := Scalar.extui v5
  let c0_i32 : BitVec 32 := 0#32
  let v7 : BitVec 1 := Scalar.cmpi .ne v6 c0_i32
  v7

def k2_off1 (i : grid2.Coords) : Fin 1 → Nat :=
  let arg0 : BitVec 32 := BitVec.ofNat 32 (i 0).val
  let c4_i32 : BitVec 32 := 4#32
  let v0 : BitVec 32 := Scalar.remsi arg0 c4_i32
  ![v0.toNat]
def k2_off2 (i : grid2.Coords) : Fin 2 → Nat :=
  let c0_i32_11 : BitVec 32 := 0#32
  let arg0 : BitVec 32 := BitVec.ofNat 32 (i 0).val
  let c4_i32_10 : BitVec 32 := 4#32
  let v23 : BitVec 32 := Scalar.subi arg0 c4_i32_10
  let c2048_i32 : BitVec 32 := 2048#32
  let v24 : BitVec 32 := Scalar.muli v23 c2048_i32
  ![0, v24.toNat]
def k2_off3 (i : grid2.Coords) : Fin 3 → Nat :=
  let arg0 : BitVec 32 := BitVec.ofNat 32 (i 0).val
  let c4_i32 : BitVec 32 := 4#32
  let v0 : BitVec 32 := Scalar.remsi arg0 c4_i32
  let c0_i32_12 : BitVec 32 := 0#32
  let c0_i32_13 : BitVec 32 := 0#32
  ![v0.toNat, 0, 0]
def k2_off4 (i : grid2.Coords) : Fin 3 → Nat :=
  let arg0 : BitVec 32 := BitVec.ofNat 32 (i 0).val
  let c4_i32 : BitVec 32 := 4#32
  let v0 : BitVec 32 := Scalar.remsi arg0 c4_i32
  let v13 : Index := Scalar.indexCast v0
  let c0_5 : Index := 0#32
  let c0_6 : Index := 0#32
  ![v13.toNat, 0, 0]
def k2_cond2 (i : grid2.Coords) : BitVec 1 :=
  let arg0 : BitVec 32 := BitVec.ofNat 32 (i 0).val
  let c48_i32 : BitVec 32 := 48#32
  let v17 : BitVec 1 := Scalar.cmpi .slt arg0 c48_i32
  let v18 : BitVec 32 := Scalar.extui v17
  let c0_i32_7 : BitVec 32 := 0#32
  let v19 : BitVec 1 := Scalar.cmpi .ne v18 c0_i32_7
  v19

def k2_off5 (i : grid2.Coords) : Fin 1 → Nat :=
  let arg0 : BitVec 32 := BitVec.ofNat 32 (i 0).val
  let c4_i32 : BitVec 32 := 4#32
  let v0 : BitVec 32 := Scalar.remsi arg0 c4_i32
  ![v0.toNat]
def k2_off6 (i : grid2.Coords) : Fin 2 → Nat :=
  let c0_i32_10 : BitVec 32 := 0#32
  let arg0 : BitVec 32 := BitVec.ofNat 32 (i 0).val
  let c2048_i32 : BitVec 32 := 2048#32
  let v23 : BitVec 32 := Scalar.muli arg0 c2048_i32
  ![0, v23.toNat]
def k2_off7 (i : grid2.Coords) : Fin 3 → Nat :=
  let arg0 : BitVec 32 := BitVec.ofNat 32 (i 0).val
  let c4_i32 : BitVec 32 := 4#32
  let v0 : BitVec 32 := Scalar.remsi arg0 c4_i32
  let c0_i32_11 : BitVec 32 := 0#32
  let c0_i32_12 : BitVec 32 := 0#32
  ![v0.toNat, 0, 0]
def k2_cond3 (i : grid2.Coords) : BitVec 1 :=
  let arg0 : BitVec 32 := BitVec.ofNat 32 (i 0).val
  let c48_i32_8 : BitVec 32 := 48#32
  let v20 : BitVec 1 := Scalar.cmpi .eq arg0 c48_i32_8
  let v21 : BitVec 32 := Scalar.extui v20
  let c0_i32_9 : BitVec 32 := 0#32
  let v22 : BitVec 1 := Scalar.cmpi .ne v21 c0_i32_9
  v22

def k2_off8 (i : grid2.Coords) : Fin 1 → Nat :=
  let arg0 : BitVec 32 := BitVec.ofNat 32 (i 0).val
  let c4_i32 : BitVec 32 := 4#32
  let v0 : BitVec 32 := Scalar.remsi arg0 c4_i32
  ![v0.toNat]
def k2_off9 (i : grid2.Coords) : Fin 2 → Nat :=
  let c0_i32_10 : BitVec 32 := 0#32
  let arg0 : BitVec 32 := BitVec.ofNat 32 (i 0).val
  let c2048_i32 : BitVec 32 := 2048#32
  let v23 : BitVec 32 := Scalar.muli arg0 c2048_i32
  ![0, v23.toNat]
def k2_off10 (i : grid2.Coords) : Fin 3 → Nat :=
  let arg0 : BitVec 32 := BitVec.ofNat 32 (i 0).val
  let c4_i32 : BitVec 32 := 4#32
  let v0 : BitVec 32 := Scalar.remsi arg0 c4_i32
  let c0_i32_11 : BitVec 32 := 0#32
  let c0_i32_12 : BitVec 32 := 0#32
  ![v0.toNat, 0, 0]
def k2_off11 (i : grid2.Coords) (c1_i32 : BitVec 32) : Fin 1 → Nat :=
  let arg0 : BitVec 32 := BitVec.ofNat 32 (i 0).val
  let v34 : BitVec 32 := Scalar.subi arg0 c1_i32
  let c4_i32_16 : BitVec 32 := 4#32
  let v35 : BitVec 32 := Scalar.remsi v34 c4_i32_16
  ![v35.toNat]
def k2_off12 (i : grid2.Coords) (c1_i32 : BitVec 32) : Fin 2 → Nat :=
  let c0_i32_18 : BitVec 32 := 0#32
  let arg0 : BitVec 32 := BitVec.ofNat 32 (i 0).val
  let v34 : BitVec 32 := Scalar.subi arg0 c1_i32
  let c2048_i32_17 : BitVec 32 := 2048#32
  let v36 : BitVec 32 := Scalar.muli v34 c2048_i32_17
  ![0, v36.toNat]
def k2_off13 (i : grid2.Coords) (c1_i32 : BitVec 32) : Fin 3 → Nat :=
  let arg0 : BitVec 32 := BitVec.ofNat 32 (i 0).val
  let v34 : BitVec 32 := Scalar.subi arg0 c1_i32
  let c4_i32_16 : BitVec 32 := 4#32
  let v35 : BitVec 32 := Scalar.remsi v34 c4_i32_16
  let c0_i32_19 : BitVec 32 := 0#32
  let c0_i32_20 : BitVec 32 := 0#32
  ![v35.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := .none

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S160x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S160 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x160 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x20_S20480 : S1024x20.ShapeCasts S20480
  inb_S100000x128_S100000x128_0_0 : ∀ a, (![0, 0] : Fin 2 → Nat) a + S100000x128.size a ≤ S100000x128.size a
  gathers_S100000x128_S640x128 : S100000x128.Gathers 0 S640x128
  shapeCasts_S20480x128_S1024x20x128 : S20480x128.ShapeCasts S1024x20x128
  inb_S256x20x128_S256x20x128_0_0_0 : ∀ a, (![0, 0, 0] : Fin 3 → Nat) a + S256x20x128.size a ≤ S256x20x128.size a
  h_S256x20x128 : 0 < S256x20x128.numel
  shapeCasts_S256x20x128_S256x20x128 : S256x20x128.ShapeCasts S256x20x128
  reduces_S256x20x128_S256x20 : S256x20x128.Reduces [2] S256x20
  shapeCasts_S256x20_S256x20x1 : S256x20.ShapeCasts S256x20x1
  broadcasts_S256x20x1_S256x20x128 : S256x20x1.Broadcasts S256x20x128
  reduces_S256x20x128_S256x128 : S256x20x128.Reduces [1] S256x128
  inb_S256x128_S256x128_0_0 : ∀ a, (![0, 0] : Fin 2 → Nat) a + S256x128.size a ≤ S256x128.size a
  h_S256x128 : 0 < S256x128.numel
  pads_S100000_S100352_03520 : S100000.Pads (![0] : Fin 1 → Nat) ![352] ![0] S100352
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  squeezes_S1_S_ : S1.Squeezes S_
  squeezes_S1x1024x2048_S1024x2048 : S1x1024x2048.Squeezes S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S1024x2048 : S1x2048.Broadcasts S1024x2048
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  squeezes_S1x1024x1536_S1024x1536 : S1x1024x1536.Squeezes S1024x1536
  slices_S100000x128_S160x128_99840_0 : S100000x128.Slices ![99840, 0] S160x128
  slices_S100000_S160_99840 : S100000.Slices ![99840] S160
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S160_S160_0 : ∀ a, (![0] : Fin 1 → Nat) a + S160.size a ≤ S160.size a
  h_S160 : 0 < S160.numel
  shapeCasts_S160_S160 : S160.ShapeCasts S160
  shapeCasts_S160_S1x160 : S160.ShapeCasts S1x160
  broadcasts_S1x160_S1024x160 : S1x160.Broadcasts S1024x160
  inb_S1024x160_S1024x160_0_0 : ∀ a, (![0, 0] : Fin 2 → Nat) a + S1024x160.size a ≤ S1024x160.size a
  h_S1024x160 : 0 < S1024x160.numel
  updateFits_S1024x100000_S1024x160 : S1024x100000.Slices (fun _ => 0) S1024x160
  dot_S1024x128_S2048x128_S1024x2048_1_1_0_0_n_n_wf : DotDims.WF S1024x128 S2048x128 S1024x2048 [1] [1] [0] [0] [] []
  dot_S1024x128_S160x128_S1024x160_1_1_0_0_n_n_wf : DotDims.WF S1024x128 S160x128 S1024x160 [1] [1] [0] [0] [] []
  hcc0_scratch2 : 0 + S_.numel ≤ 20
  hcc0_scoped0 : 1 + S_.numel ≤ 20
  hcc0_scoped1 : 2 + S_.numel ≤ 20
  hcc2_scratch1 : 12 + S4.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S640.size a ≤ S20480.size a
  k0_off2_inb : ∀ i : grid0.Coords, ∀ a, (k0_off2 i) a + S640x128.size a ≤ S20480x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x20x128.size a ≤ S1024x20x128.size a
  hwx1_0 : ∀ i : grid1.Coords, EltTy.bits .f32 = 32 ∨ (Rect.block (s := S1024x20x128) S256x20x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S1024x128.size a
  hwx1_1 : ∀ i : grid1.Coords, EltTy.bits .f32 = 32 ∨ (Rect.block (s := S1024x128) S256x128.size (cc1_transform_1 i) (hinb1_1 i)).WholeWords (EltTy.packing .f32)
  hrank2 : 0 < grid2.rank
  k2_off1_inb : ∀ i : grid2.Coords, ∀ (k2_h1 : k2_cond1 i = 1#1), ∀ a, (k2_off1 i) a + S1.size a ≤ S4.size a
  k2_off2_inb : ∀ i : grid2.Coords, ∀ (k2_h1 : k2_cond1 i = 1#1), ∀ a, (k2_off2 i) a + S1024x2048.size a ≤ S1024x100000.size a
  k2_off3_inb : ∀ i : grid2.Coords, ∀ (k2_h1 : k2_cond1 i = 1#1), ∀ a, (k2_off3 i) a + S1x1024x2048.size a ≤ S4x1024x2048.size a
  k2_off4_inb : ∀ i : grid2.Coords, ∀ a, (k2_off4 i) a + S1x1024x2048.size a ≤ S4x1024x2048.size a
  k2_off5_inb : ∀ i : grid2.Coords, ∀ (k2_h2 : k2_cond2 i = 1#1), ∀ a, (k2_off5 i) a + S1.size a ≤ S4.size a
  k2_off6_inb : ∀ i : grid2.Coords, ∀ (k2_h2 : k2_cond2 i = 1#1), ∀ a, (k2_off6 i) a + S1024x2048.size a ≤ S1024x100000.size a
  k2_off7_inb : ∀ i : grid2.Coords, ∀ (k2_h2 : k2_cond2 i = 1#1), ∀ a, (k2_off7 i) a + S1x1024x2048.size a ≤ S4x1024x2048.size a
  k2_off8_inb : ∀ i : grid2.Coords, ∀ (k2_h3 : k2_cond3 i = 1#1), ∀ a, (k2_off8 i) a + S1.size a ≤ S4.size a
  k2_off9_inb : ∀ i : grid2.Coords, ∀ (k2_h3 : k2_cond3 i = 1#1), ∀ a, (k2_off9 i) a + S1024x1536.size a ≤ S1024x100000.size a
  k2_off10_inb : ∀ i : grid2.Coords, ∀ (k2_h3 : k2_cond3 i = 1#1), ∀ a, (k2_off10 i) a + S1x1024x1536.size a ≤ S4x1024x2048.size a
  k2_off11_inb : ∀ i : grid2.Coords, ∀ (k2_h3 : k2_cond3 i = 1#1), ∀ (r : Fin 3), ∀ a, (k2_off11 i (BitVec.ofNat 32 (1 + r.val))) a + S1.size a ≤ S4.size a
  k2_off12_inb : ∀ i : grid2.Coords, ∀ (k2_h3 : k2_cond3 i = 1#1), ∀ (r : Fin 3), ∀ a, (k2_off12 i (BitVec.ofNat 32 (1 + r.val))) a + S1024x2048.size a ≤ S1024x100000.size a
  k2_off13_inb : ∀ i : grid2.Coords, ∀ (k2_h3 : k2_cond3 i = 1#1), ∀ (r : Fin 3), ∀ a, (k2_off13 i (BitVec.ofNat 32 (1 + r.val))) a + S1x1024x2048.size a ≤ S4x1024x2048.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x128.size a < S100000x128.size a
  hwx2_1 : ∀ i : grid2.Coords, EltTy.bits .f32 = 32 ∨ (Rect.unit (s := S100000x128) (fun a => cc2_transform_1 i a * S2048x128.size a) (fun a => (Pipeline.Clip.of (cc2_transform_1 i a) (S2048x128.size a) (S100000x128.size a)).extent (S2048x128.size a)) fun a => Pipeline.Clip.inb (Pipeline.Clip.ok_of (hstart2_1 i a))).WholeWords (EltTy.packing .f32)
  hwxs2_1 : ∀ i : grid2.Coords, EltTy.bits .f32 = 32 ∨ (Rect.unit (s := S2048x128) (fun _ => 0) (fun a => (Pipeline.Clip.of (cc2_transform_1 i a) (S2048x128.size a) (S100000x128.size a)).extent (S2048x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S100352.size a
  hwx2_2 : ∀ i : grid2.Coords, EltTy.bits .f32 = 32 ∨ (Rect.block (s := S100352) S2048.size (cc2_transform_2 i) (hinb2_2 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc2_scratch1 : DmaSems sig S4 := SemArray.consecutive 12 S4 hcc2_scratch1
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x128_S160x128_S1024x160_1_1_0_0_n_n : DotDims S1024x128 S160x128 S1024x160 where
  lhsContracting := [1]
  rhsContracting := [1]
  lhsNonContracting := [0]
  rhsNonContracting := [0]
  lhsBatch := []
  rhsBatch := []
  wf := dot_S1024x128_S160x128_S1024x160_1_1_0_0_n_n_wf

abbrev win1_0 : Pipeline.Window sig grid1 :=
  Pipeline.Window.ofSpec (Memref.whole main_v2) S256x20x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg2) S2048x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v4) S2048.size cc2_transform_2 reads2_2 false false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.whole (Memref.whole main_v3) false false (stage3_0 0) (sem3_0 0) (Memref.isWhole_whole _) (hstage3_0 0)

abbrev win3_1 : Pipeline.Window sig grid3 :=
  Pipeline.Window.whole (Memref.whole main_v6) false false (stage3_1 0) (sem3_1 0) (Memref.isWhole_whole _) (hstage3_1 0)

abbrev win3_2 : Pipeline.Window sig grid3 :=
  Pipeline.Window.whole (Memref.whole main_v7) false false (stage3_2 0) (sem3_2 0) (Memref.isWhole_whole _) (hstage3_2 0)

abbrev win3_3 : Pipeline.Window sig grid3 :=
  Pipeline.Window.whole (Memref.whole main_v8) true false (stage3_3 0) (sem3_3 0) (Memref.isWhole_whole _) (hstage3_3 0)

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1024x20 : Shape := ⟨2, ![1024, 20]⟩
abbrev S100000x128 : Shape := ⟨2, ![100000, 128]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x128 : Shape := ⟨3, ![1024, 20, 128]⟩
abbrev S1024x128 : Shape := ⟨2, ![1024, 128]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 57
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S_, .i32⟩
  | .hbm, ⟨5, _⟩ => ⟨S1024x20, .i32⟩
  | .hbm, ⟨6, _⟩ => ⟨S1024x20, .i1⟩
  | .hbm, ⟨7, _⟩ => ⟨S_, .i32⟩
  | .hbm, ⟨8, _⟩ => ⟨S1024x20, .i32⟩
  | .hbm, ⟨9, _⟩ => ⟨S1024x20, .i32⟩
  | .hbm, ⟨10, _⟩ => ⟨S1024x20, .i32⟩
  | .hbm, ⟨11, _⟩ => ⟨S1024x20x1, .i32⟩
  | .hbm, ⟨12, _⟩ => ⟨S1, .i32⟩
  | .hbm, ⟨13, _⟩ => ⟨S_, .i32⟩
  | .hbm, ⟨14, _⟩ => ⟨S1024x20x1, .i32⟩
  | .hbm, ⟨15, _⟩ => ⟨S1024x20x1, .i1⟩
  | .hbm, ⟨16, _⟩ => ⟨S1x1x1, .i32⟩
  | .hbm, ⟨17, _⟩ => ⟨S1024x20x1, .i32⟩
  | .hbm, ⟨18, _⟩ => ⟨S1024x20x1, .i1⟩
  | .hbm, ⟨19, _⟩ => ⟨S1024x20x1, .i1⟩
  | .hbm, ⟨20, _⟩ => ⟨S_, .i1⟩
  | .hbm, ⟨21, _⟩ => ⟨S1024x20, .i1⟩
  | .hbm, ⟨22, _⟩ => ⟨S1024x20x128, .f32⟩
  | .hbm, ⟨23, _⟩ => ⟨S1024x20x128, .i1⟩
  | .hbm, ⟨24, _⟩ => ⟨S_, .f32⟩
  | .hbm, ⟨25, _⟩ => ⟨S1024x20x128, .f32⟩
  | .hbm, ⟨26, _⟩ => ⟨S1024x20x128, .f32⟩
  | .hbm, ⟨27, _⟩ => ⟨S1024x20x128, .f32⟩
  | .hbm, ⟨28, _⟩ => ⟨S_, .f32⟩
  | .hbm, ⟨29, _⟩ => ⟨S1024x20, .f32⟩
  | .hbm, ⟨30, _⟩ => ⟨S1024x20x1, .f32⟩
  | .hbm, ⟨31, _⟩ => ⟨S1024x20x1, .f32⟩
  | .hbm, ⟨32, _⟩ => ⟨S_, .f32⟩
  | .hbm, ⟨33, _⟩ => ⟨S1024x20x1, .f32⟩
  | .hbm, ⟨34, _⟩ => ⟨S1024x20x1, .i1⟩
  | .hbm, ⟨35, _⟩ => ⟨S_, .f32⟩
  | .hbm, ⟨36, _⟩ => ⟨S1024x20x1, .f32⟩
  | .hbm, ⟨37, _⟩ => ⟨S1024x20x1, .f32⟩
  | .hbm, ⟨38, _⟩ => ⟨S_, .f32⟩
  | .hbm, ⟨39, _⟩ => ⟨S1024x20x1, .f32⟩
  | .hbm, ⟨40, _⟩ => ⟨S1024x20x1, .f32⟩
  | .hbm, ⟨41, _⟩ => ⟨S_, .f32⟩
  | .hbm, ⟨42, _⟩ => ⟨S_, .f32⟩
  | .hbm, ⟨43, _⟩ => ⟨S1024x20x1, .f32⟩
  | .hbm, ⟨44, _⟩ => ⟨S1024x20x1, .f32⟩
  | .hbm, ⟨45, _⟩ => ⟨S1024x20x128, .f32⟩
  | .hbm, ⟨46, _⟩ => ⟨S1024x20x128, .f32⟩
  | .hbm, ⟨47, _⟩ => ⟨S_, .f32⟩
  | .hbm, ⟨48, _⟩ => ⟨S1024x128, .f32⟩
  | .hbm, ⟨49, _⟩ => ⟨S_, .f32⟩
  | .hbm, ⟨50, _⟩ => ⟨S1024x128, .f32⟩
  | .hbm, ⟨51, _⟩ => ⟨S1024x128, .f32⟩
  | .hbm, ⟨52, _⟩ => ⟨S128x100000, .f32⟩
  | .hbm, ⟨53, _⟩ => ⟨S1024x100000, .f32⟩
  | .hbm, ⟨54, _⟩ => ⟨S1x100000, .f32⟩
  | .hbm, ⟨55, _⟩ => ⟨S1024x100000, .f32⟩
  | .hbm, ⟨56, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩
abbrev main_cst_2 : Ref sig .tc := ⟨.hbm, 41, rfl⟩
abbrev main_call2_v0 : Ref sig .tc := ⟨.hbm, 42, rfl⟩
abbrev main_call2_v1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_cst_4 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩

abbrev nD : Nat := 1
abbrev τ : Topo := Topo.v7x

variable {F : FTy → Type} [FloatOps F]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S_S1024x20x1 : S_.BroadcastsInDim S1024x20x1 (![] : Fin 0 → Fin S1024x20x1.rank)
  bcast_S1_S1x1x1_2 : S1.BroadcastsInDim S1x1x1 (![2] : Fin 1 → Fin S1x1x1.rank)
  bcast_S1x1x1_S1024x20x1_0_1_2 : S1x1x1.BroadcastsInDim S1024x20x1 (![0, 1, 2] : Fin 3 → Fin S1024x20x1.rank)
  reducesTo_S1024x20x1_S1024x20_d2 : S1024x20x1.ReducesTo [2] S1024x20
  h_S_ : 0 < S_.numel
  bcast_S1024x20_S1024x20x128_0_1 : S1024x20.BroadcastsInDim S1024x20x128 (![0, 1] : Fin 2 → Fin S1024x20x128.rank)
  bcast_S_S1024x20x128 : S_.BroadcastsInDim S1024x20x128 (![] : Fin 0 → Fin S1024x20x128.rank)
  reducesTo_S1024x20x128_S1024x20_d2 : S1024x20x128.ReducesTo [2] S1024x20
  bcast_S1024x20x1_S1024x20x128_0_1_2 : S1024x20x1.BroadcastsInDim S1024x20x128 (![0, 1, 2] : Fin 3 → Fin S1024x20x128.rank)
  reducesTo_S1024x20x128_S1024x128_d1 : S1024x20x128.ReducesTo [1] S1024x128
  bcast_S_S1024x128 : S_.BroadcastsInDim S1024x128 (![] : Fin 0 → Fin S1024x128.rank)
  transposes_S100000x128_S128x100000_1_0 : S100000x128.Transposes [1, 0] S128x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x128_S1024x20x1_S1024x20x128_2_0_n_n_0_2_1128_wf : GatherDims.WF S100000x128 S1024x20x1 S1024x20x128 [2] [0] [] [0] [] 2 ![1, 128]
  dot_S1024x128_S128x100000_S1024x100000_1_0_0_1_n_n_wf : DotDims.WF S1024x128 S128x100000 S1024x100000 [1] [0] [0] [1] [] []

variable [Facts₀]

def gather_S100000x128_S1024x20x1_S1024x20x128_2_0_n_n_0_2_1128 : GatherDims S100000x128 S1024x20x1 S1024x20x128 where
  offsetDims := [2]
  collapsedSliceDims := [0]
  operandBatchingDims := []
  startIndicesBatchingDims := []
  startIndexMap := [0]
  indexVectorDim := 2
  sliceSizes := ![1, 128]
  wf := gather_S100000x128_S1024x20x1_S1024x20x128_2_0_n_n_0_2_1128_wf
def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.TcSetup.lean ====
/-
  The ghost state of the whole launch, and the program as the launch theorem sees it.

  Three kinds of protocol run side by side: the handshakes between the TensorCore, the two sequencers and the 32
  vector subcores (rounds with natural-number duties), the staging cells of the three TensorCore pipelines (rounds
  with unit duties), and the local copies of the gather kernel and of the matmul's ring (exclusive counters). The
  certificate's algebra is the product of the three.
-/
import proofs.«204097_g52673478918828_cont_9to1c4b_838_31_alg».proof.Proof.Gen.KernelIdeal
import proofs.«204097_g52673478918828_cont_9to1c4b_838_31_alg».proof.Proof.Gen.KernelIdeal.Launch
import Idealize.ShloMosaic.Lib.SparseCore.Launch
import Idealize.ShloMosaic.Lib.Pipeline.Regions
import Idealize.ShloMosaic.Lib.Transfers

noncomputable section

namespace Cert.KernelIdeal.Tc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The label signature: the kernels' labels under the three pipelines' regions. -/
abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipelines' rounds, the counters of local copies. -/
abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

example : CountersIn UU := inferInstance

/-- No pipeline has a prefetched table. -/
abbrev adm : (p : Fin 3) → (pcfgs (F := F) p).Adm := fun p => (cfgs p).toPCfg_adm

end Cert.KernelIdeal.Tc

end
-- ==== Proof.TcMain.lean ====
/-
  The TensorCore's program as the launch sees it: one host operation, the SparseCore call, and then a program of the
  three pipelines alone — four stretches of host operations with the three regions between them.
-/
import proofs.«204097_g52673478918828_cont_9to1c4b_838_31_alg».proof.Proof.TcSetup

noncomputable section

namespace Cert.KernelIdeal.Tc

open Cert.KernelIdeal Cert.KernelIdeal.Gen
open Idealize.ShloMosaic
open Idealize.SL Idealize.SL.Sem

variable {F : FTy → Type} [FloatOps F] [Named F]

/-- The index array flattened to [20480]. -/
abbrev ops0 : List (HloOp τ sig (Elt F)) :=
  [StableHlo.reshape main_arg0 main_v0 rfl shapeCasts_S1024x20_S20480]
/-- The gathered rows [20480, 128] regrouped as [1024, 20, 128]. -/
abbrev ops1 : List (HloOp τ sig (Elt F)) :=
  [StableHlo.reshape main_v1 main_v2 rfl shapeCasts_S20480x128_S1024x20x128]
/-- The bias padded with zeros to [100352]. -/
abbrev ops2 : List (HloOp τ sig (Elt F)) :=
  [StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_arg3 : StableHlo.TRef sig ⟨S100000, .f32⟩) main_call0.v0 main_call0.v1 (fun x v => pad S100352 ![0] ![352] ![0] x v pads_S100000_S100352_03520 h_S_)]
/-- The last 160 rows of W and entries of b. -/
abbrev ops3 : List (HloOp τ sig (Elt F)) :=
  [StableHlo.unary main_arg2 main_v6 ((extractStridedSlice S160x128 ![99840, 0] · slices_S100000x128_S160x128_99840_0) : (⟨S100000x128, .f32⟩ : BufTy).Contents (Elt F) → (⟨S160x128, .f32⟩ : BufTy).Contents (Elt F)),
   StableHlo.unary main_arg3 main_v7 ((extractStridedSlice S160 ![99840] · slices_S100000_S160_99840) : (⟨S100000, .f32⟩ : BufTy).Contents (Elt F) → (⟨S160, .f32⟩ : BufTy).Contents (Elt F))]
/-- The tail's 160 columns written over columns 99840 … 99999 of the big product. -/
abbrev ops4 : List (HloOp τ sig (Elt F)) :=
  [StableHlo.nullary main_c_0 (constantI S_ 32 0#32),
   StableHlo.nullary main_c_1 (constantI S_ 32 99840#32),
   StableHlo.binaryIndexed main_v5 main_v8 ![main_c_0, main_c_1] ⟨S_, .i32⟩ main_v9 ((fun x u i => Host.dynamicUpdateSlice x u (fun k => (i k (Shape.Idx.first h_S_)).toInt) updateFits_S1024x100000_S1024x160) : (⟨S1024x100000, .f32⟩ : BufTy).Contents (Elt F) → (⟨S1024x160, .f32⟩ : BufTy).Contents (Elt F) → (Fin 2 → (⟨S_, .i32⟩ : BufTy).Contents (Elt F)) → (⟨S1024x100000, .f32⟩ : BufTy).Contents (Elt F))]

/-- Every host operation touches TensorCore references only, and none allocates a buffer. -/
theorem ops0_sub : (ops0 : List (HloOp τ sig (Elt F))).Forall fun op => op.bufs ⊆ StableHlo.tcRefs τ sig :=
  StableHlo.reshape_bufs_sub ..
theorem ops1_sub : (ops1 : List (HloOp τ sig (Elt F))).Forall fun op => op.bufs ⊆ StableHlo.tcRefs τ sig :=
  StableHlo.reshape_bufs_sub ..
theorem ops2_sub : (ops2 : List (HloOp τ sig (Elt F))).Forall fun op => op.bufs ⊆ StableHlo.tcRefs τ sig :=
  ⟨StableHlo.nullary_bufs_sub .., StableHlo.unary_bufs_sub .., StableHlo.binary_bufs_sub ..⟩
theorem ops3_sub : (ops3 : List (HloOp τ sig (Elt F))).Forall fun op => op.bufs ⊆ StableHlo.tcRefs τ sig :=
  ⟨StableHlo.unary_bufs_sub .., StableHlo.unary_bufs_sub ..⟩
theorem ops4_sub : (ops4 : List (HloOp τ sig (Elt F))).Forall fun op => op.bufs ⊆ StableHlo.tcRefs τ sig :=
  ⟨StableHlo.nullary_bufs_sub .., StableHlo.nullary_bufs_sub .., StableHlo.binaryIndexed_bufs_sub ..⟩
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor

/-- What follows the SparseCore call, as a program of the pipelines' signature. -/
def tail : Prog (TpuEff nD τ sig (Elt F) (ΛP (F := F)) .tc) PUnit :=
  Pipeline.chain [StableHlo.seq ops1, Prog.lift (.customCall (Pipeline.entry 0) ()), StableHlo.seq ops2,
    Prog.lift (.customCall (Pipeline.entry 1) ()), StableHlo.seq ops3, Prog.lift (.customCall (Pipeline.entry 2) ()), StableHlo.seq ops4]

/-- The TensorCore's program: the reshape, the call, the tail. -/
theorem main_eq (d : Dev nD) :
    main (F := F) d = (StableHlo.seq (ops0 (F := F)) >>= fun _ =>
      (K (F := F)).run d 0 >>= fun _ => SparseCore.liftProg (tail (F := F))) := by
  chain_rfl

end Cert.KernelIdeal.Tc

end
-- ==== Proof.TcRegion.lean ====
/-
  A pipeline region whose body keeps nothing between grid points, as a segment of the TensorCore's program.

  Between segments the TensorCore holds every unscoped buffer whole at a valuation, and owes nothing, the pairs its
  waits have recorded all at level at most 8 (the level bound the launch asks back at the end: the pipelines' own
  waits are recorded at the index of level 0). A region whose body has no semaphore of its own and whose invariant is
  just the scoped buffers no window stages is entered from the valuation before it and left at the valuation that
  has the pipeline's arrays at their final contents and every other buffer as it was.
-/
import proofs.«204097_g52673478918828_cont_9to1c4b_838_31_alg».proof.Proof.TcSetup
import Idealize.ShloMosaic.Lib.Pipeline.RegionsLoop
import Idealize.ShloMosaic.Lib.Pipeline.Frame

noncomputable section

namespace Cert.KernelIdeal.Tc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig (HIx 1) (Elt F) ℕ UU ℕ

/-- The recorded pairs the TensorCore may hold after the call: those at level at most 8. -/
def Bset (c : Dev nD) : Set (SemLoc sig × HIx 1) := {p | (K (F := F)).lev ((c.tc : Thread nD τ), p.1) p.2 ≤ 8}

/-- What rides beside the buffers through every segment: the TensorCore owing nothing, its recorded pairs bounded. -/
abbrev R (c : Dev nD) : sProp 𝕄 := Pipeline.owesWithin c (0 : CellTallies nD τ sig (HIx 1)) (Bset (F := F) c)

/-- The pipelines' own waits are recorded at the index of level 0. -/
theorem waitPairs_sub (cfg : Pipeline.Cfg sig Λ₀) (c : Dev nD) : cfg.waitPairs (none : HIx 1) ⊆ Bset (F := F) c := by
  rintro p ⟨w, s, rfl⟩
  show (K (F := F)).lev _ none ≤ 8
  rw [SparseCore.Cfg.lev_none]; exact Nat.zero_le _

section Region

variable (pdats : (p : Fin 3) → (c : Dev nD) → Dat τ (Elt F) (HIx 1) ℕ UU ℕ (Pipeline.pin (pcfgs (F := F)) adm p) c)
variable (p : Fin 3)
variable (hw : Pipeline.WinFacts (Pipeline.pin (pcfgs (F := F)) adm p).spec)
variable (hpos : ∀ w : Fin (Pipeline.pin (pcfgs (F := F)) adm p).W, 0 < ((Pipeline.pin (pcfgs (F := F)) adm p).spec w).block.numel)
variable (harr : ∀ w, ((Pipeline.pin (pcfgs (F := F)) adm p).spec w).arr.IsWhole)
variable (hstage : ∀ (w : Fin (Pipeline.pin (pcfgs (F := F)) adm p).W) (s : Fin ((Pipeline.pin (pcfgs (F := F)) adm p).spec w).nbuf), (((Pipeline.pin (pcfgs (F := F)) adm p).spec w).stage s).IsWhole)
variable (Wpre Wpost : Dev nD → Valuation τ sig (Elt F))
variable (hA : ∀ c w, (pdats p c).A w = Wpre c (Proc.devRef .tc (Pipeline.arrRef (Pipeline.pin (pcfgs (F := F)) adm p).spec w)))
variable (hΦ : ∀ c t, (pdats p c).Φ t = Pipeline.scopedRest (Ix := HIx 1) (Name := ℕ) (U := UU) (Lvl := ℕ) (Val := Elt F) (Pipeline.pin (pcfgs (F := F)) adm p).spec c)
variable (howed : ∀ c t, (pdats p c).owed t = 0)
variable (hq : ∀ c w, (pdats p c).q w = fullShare)
variable (hrec : ∀ c t, (pdats p c).recorded t = Bset (F := F) c)
variable (hbody : ∀ c, Pipeline.BodyObligationLoose (pdats p c) (defs₀ (F := F)) 𝒱₀ (none : HIx 1) Set.univ)
variable (hF : ∀ c w, (pdats p c).arrAt w (Pipeline.pin (pcfgs (F := F)) adm p).N = Wpost c (Proc.devRef .tc (Pipeline.arrRef (Pipeline.pin (pcfgs (F := F)) adm p).spec w)))
variable (hrest : ∀ c (b : Ref sig .tc), b ∉ Finset.univ.image (Pipeline.arrRef (Pipeline.pin (pcfgs (F := F)) adm p).spec) → Wpost c (Proc.devRef .tc b) = Wpre c (Proc.devRef .tc b))

set_option backward.isDefEq.respectTransparency.types false in
/-- The region as a segment: entered from every unscoped buffer at `Wpre`, left at `Wpost`. -/
def regionSeg : Pipeline.RegionSeg (pcfgs (F := F)) adm pdats (none : HIx 1) defs₀ 𝒱₀ (K (F := F)).L (K (F := F)).lev p where
  win := hw.to₀
  block_pos := hpos
  stage_whole := hstage
  K := PEmpty
  osem k := k.elim
  ho := Pipeline.OwnSemFacts.none _
  hbody := hbody
  hwaits := Pipeline.hwaits_of_owed_zero _ _ _ _ (K (F := F)).L (K (F := F)).lev p howed
  pre c := iprop(StableHlo.held (c.tc : Thread nD τ) (Pipeline.ucRefs τ sig) (Wpre c) ∗ R (F := F) c)
  post c := iprop(StableHlo.held (c.tc : Thread nD τ) (Pipeline.ucRefs τ sig) (Wpost c) ∗ R (F := F) c)
  X _ := iprop(emp)
  Y _ := iprop(emp)
  Z c := Pipeline.unscopedRest (Ix := HIx 1) (Name := ℕ) (U := UU) (Lvl := ℕ) (Pipeline.pin (pcfgs (F := F)) adm p).spec c (fun b => Wpre c (Proc.devRef .tc b))
  hentry c := by
    rw [Pipeline.ownSems0_none]
    have hsplit := Pipeline.arrays_of_unscopedBufs (p := p) (pcfgs (F := F)) adm pdats hw harr c
      ((pdats p c).share_full (hq c)) (fun b => Wpre c (Proc.devRef .tc b)) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      rw [howed c 0]
      iapply (Pipeline.owesWithin_mono c (0 : CellTallies nD τ sig (HIx 1)) (B := Bset (F := F) c) (B' := (pdats p c).bound none 0)
        (by unfold Pipeline.Dat.bound; rw [hrec c 0]; exact Set.subset_union_left))
      iexact HO
    isplitr; · iempintro
    iexact Hrest
  hin c := by
    rw [hΦ c 0]
    iintro ⟨-, -, Hr⟩
    iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      hw harr c pdats ((pdats p c).share_full (hq c))
      (fun b => Wpre c (Proc.devRef .tc b)) (fun b => Wpost c (Proc.devRef .tc b)) ((pdats p c).arrAt · (Pipeline.pin (pcfgs (F := F)) adm p).N) (hF c) (hrest c)
    rw [Pipeline.unscopedBufs_held] at hjoin
    iintro ⟨Ha, HO, -, Hrest⟩
    imodintro
    isplitl [Ha Hrest]
    · iapply hjoin; isplitl [Ha] <;> iassumption
    unfold Pipeline.Dat.owesAt
    rw [howed c (Fin.last _)]
    iapply (Pipeline.owesWithin_mono c (0 : CellTallies nD τ sig (HIx 1)) (B := (pdats p c).bound none (Fin.last _)) (B' := Bset (F := F) c)
      (by unfold Pipeline.Dat.bound; rw [hrec c (Fin.last _)]; exact Set.union_subset (fun _ h => h) (waitPairs_sub _ c)))
    iexact HO

end Region

/-! ## The same with part of the state known only to exist

After the big product's region its buffer is known to hold SOME contents satisfying a stated property (the clipped
last block of W leaves the unwritten rows of its staging buffer at contents not chosen); the thread state from then on
is "there are contents g with the property, and every unscoped buffer is held at a valuation that depends on g". -/

section RegionEx

variable (pdats : (p : Fin 3) → (c : Dev nD) → Dat τ (Elt F) (HIx 1) ℕ UU ℕ (Pipeline.pin (pcfgs (F := F)) adm p) c)
variable (p : Fin 3)
variable (hw : Pipeline.WinFacts (Pipeline.pin (pcfgs (F := F)) adm p).spec)
variable (hpos : ∀ w : Fin (Pipeline.pin (pcfgs (F := F)) adm p).W, 0 < ((Pipeline.pin (pcfgs (F := F)) adm p).spec w).block.numel)
variable (harr : ∀ w, ((Pipeline.pin (pcfgs (F := F)) adm p).spec w).arr.IsWhole)
variable (hstage : ∀ (w : Fin (Pipeline.pin (pcfgs (F := F)) adm p).W) (s : Fin ((Pipeline.pin (pcfgs (F := F)) adm p).spec w).nbuf), (((Pipeline.pin (pcfgs (F := F)) adm p).spec w).stage s).IsWhole)
variable {γ : Dev nD → Type} (φ : ∀ c, γ c → Prop)
variable (Wpre Wpost : ∀ c, γ c → Valuation τ sig (Elt F))
variable (hA : ∀ c g w, (pdats p c).A w = Wpre c g (Proc.devRef .tc (Pipeline.arrRef (Pipeline.pin (pcfgs (F := F)) adm p).spec w)))
variable (hΦ : ∀ c t, (pdats p c).Φ t = Pipeline.scopedRest (Ix := HIx 1) (Name := ℕ) (U := UU) (Lvl := ℕ) (Val := Elt F) (Pipeline.pin (pcfgs (F := F)) adm p).spec c)
variable (howed : ∀ c t, (pdats p c).owed t = 0)
variable (hq : ∀ c w, (pdats p c).q w = fullShare)
variable (hrec : ∀ c t, (pdats p c).recorded t = Bset (F := F) c)
variable (hbody : ∀ c, Pipeline.BodyObligationLoose (pdats p c) (defs₀ (F := F)) 𝒱₀ (none : HIx 1) Set.univ)
variable (hF : ∀ c g w, (pdats p c).arrAt w (Pipeline.pin (pcfgs (F := F)) adm p).N = Wpost c g (Proc.devRef .tc (Pipeline.arrRef (Pipeline.pin (pcfgs (F := F)) adm p).spec w)))
variable (hrest : ∀ c g (b : Ref sig .tc), b ∉ Finset.univ.image (Pipeline.arrRef (Pipeline.pin (pcfgs (F := F)) adm p).spec) → Wpost c g (Proc.devRef .tc b) = Wpre c g (Proc.devRef .tc b))

/-- The thread state: contents g with the property, the unscoped buffers at the valuation g gives, nothing owed. -/
abbrev TS (W : ∀ c, γ c → Valuation τ sig (Elt F)) (c : Dev nD) : sProp 𝕄 :=
  iprop(∃ g : γ c, ⌜φ c g⌝ ∗ StableHlo.held (c.tc : Thread nD τ) (Pipeline.ucRefs τ sig) (W c g) ∗ R (F := F) c)

set_option backward.isDefEq.respectTransparency.types false in
def regionSegEx : Pipeline.RegionSeg (pcfgs (F := F)) adm pdats (none : HIx 1) defs₀ 𝒱₀ (K (F := F)).L (K (F := F)).lev p where
  win := hw.to₀
  block_pos := hpos
  stage_whole := hstage
  K := PEmpty
  osem k := k.elim
  ho := Pipeline.OwnSemFacts.none _
  hbody := hbody
  hwaits := Pipeline.hwaits_of_owed_zero _ _ _ _ (K (F := F)).L (K (F := F)).lev p howed
  pre c := iprop(∃ g : γ c, ⌜φ c g⌝ ∗ StableHlo.held (c.tc : Thread nD τ) (Pipeline.ucRefs τ sig) (Wpre c g) ∗ R (F := F) c)
  post c := iprop(∃ g : γ c, ⌜φ c g⌝ ∗ StableHlo.held (c.tc : Thread nD τ) (Pipeline.ucRefs τ sig) (Wpost c g) ∗ R (F := F) c)
  X _ := iprop(emp)
  Y _ := iprop(emp)
  Z c := iprop(∃ g : γ c, ⌜φ c g⌝ ∗ Pipeline.unscopedRest (Ix := HIx 1) (Name := ℕ) (U := UU) (Lvl := ℕ) (Pipeline.pin (pcfgs (F := F)) adm p).spec c (fun b => Wpre c g (Proc.devRef .tc b)))
  hentry c := by
    rw [Pipeline.ownSems0_none]
    iintro ⟨⟨%g, %hg, Hub, HO⟩, -, -⟩
    have hsplit := Pipeline.arrays_of_unscopedBufs (p := p) (pcfgs (F := F)) adm pdats hw harr c
      ((pdats p c).share_full (hq c)) (fun b => Wpre c g (Proc.devRef .tc b)) (hA c g)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      rw [howed c 0]
      iapply (Pipeline.owesWithin_mono c (0 : CellTallies nD τ sig (HIx 1)) (B := Bset (F := F) c) (B' := (pdats p c).bound none 0)
        (by unfold Pipeline.Dat.bound; rw [hrec c 0]; exact Set.subset_union_left))
      iexact HO
    isplitr; · iempintro
    iexists g; isplitr; · ipureintro; exact hg
    iexact Hrest
  hin c := by
    rw [hΦ c 0]
    iintro ⟨-, -, Hr⟩
    iexact Hr
  hout c := by
    rw [Pipeline.ownSems0_none, hΦ c (Fin.last _)]
    iintro Hr
    isplitr; · iempintro
    isplitr; · iempintro
    iexact Hr
  hexit c := by
    have hjoin : ∀ g : γ c, iprop((pdats p c).arrays ((pdats p c).arrAt · (Pipeline.pin (pcfgs (F := F)) adm p).N)
          ∗ Pipeline.unscopedRest (Pipeline.pin (pcfgs (F := F)) adm p).spec c (fun b => Wpre c g (Proc.devRef .tc b)))
        ⊢ (StableHlo.held (c.tc : Thread nD τ) (Pipeline.ucRefs τ sig) (Wpost c g) : sProp 𝕄) := fun g => by
      have h := Pipeline.unscopedBufs_of_arrays (p := p) (pcfgs (F := F)) adm (Ix := HIx 1) (Name := ℕ) (U := UU) (Lvl := ℕ)
        hw harr c pdats ((pdats p c).share_full (hq c))
        (fun b => Wpre c g (Proc.devRef .tc b)) (fun b => Wpost c g (Proc.devRef .tc b)) ((pdats p c).arrAt · (Pipeline.pin (pcfgs (F := F)) adm p).N) (hF c g) (hrest c g)
      rw [Pipeline.unscopedBufs_held] at h
      exact h
    iintro ⟨Ha, HO, -, ⟨%g, %hg, Hrest⟩⟩
    imodintro
    iexists g; isplitr; · ipureintro; exact hg
    isplitl [Ha Hrest]
    · iapply (hjoin g); isplitl [Ha] <;> iassumption
    unfold Pipeline.Dat.owesAt
    rw [howed c (Fin.last _)]
    iapply (Pipeline.owesWithin_mono c (0 : CellTallies nD τ sig (HIx 1)) (B := (pdats p c).bound none (Fin.last _)) (B' := Bset (F := F) c)
      (by unfold Pipeline.Dat.bound; rw [hrec c (Fin.last _)]; exact Set.union_subset (fun _ h => h) (waitPairs_sub _ c)))
    iexact HO

end RegionEx

section HostEx

variable {γ : Dev nD → Type} (φ : ∀ c, γ c → Prop)

set_option backward.isDefEq.respectTransparency.types false in
/-- A stretch of host operations over such a state: it runs at every g alike. -/
def hostSegEx (ops : List (HloOp τ sig (Elt F))) (hsub : ops.Forall fun op => op.bufs ⊆ StableHlo.tcRefs τ sig)
    (hfresh : ops.Forall fun op => op.fresh = ∅) (W : ∀ c, γ c → Valuation τ sig (Elt F)) :
    Pipeline.HostSeg (Name := ℕ) (U := UU) (pcfgs (F := F)) defs₀ 𝒱₀ (K (F := F)).L (K (F := F)).lev where
  prog := StableHlo.seq ops
  pre c := iprop(∃ g : γ c, ⌜φ c g⌝ ∗ StableHlo.held (c.tc : Thread nD τ) (Pipeline.ucRefs τ sig) (W c g) ∗ R (F := F) c)
  post c := iprop(∃ g : γ c, ⌜φ c g⌝ ∗ StableHlo.held (c.tc : Thread nD τ) (Pipeline.ucRefs τ sig) (StableHlo.after ops (W c g)) ∗ R (F := F) c)
  run c {β} k Kp := by
    iintro ⟨Hk, Hbd, ⟨%g, %hg, Hh, HR⟩, -⟩
    have hseq := StableHlo.wp_seq (defs := Pipeline.defs (pcfgs (F := F)) defs₀) (Variants.lift 𝒱₀) none Set.univ c (Pipeline.ucRefs τ sig) k (K := Kp) ops
      (fun op h => Pipeline.sub_ucRefs op ((List.forall_iff_forall_mem.mp hsub) op h))
      (fun op h => (List.forall_iff_forall_mem.mp hfresh) op h) (W c g)
    iapply hseq $$ [Hbd Hh]
    · isplitl [Hbd] <;> iassumption
    iintro ⟨Hbd, Hh⟩
    iapply Hk
    isplitl [Hbd]; · iexact Hbd
    iexists g; isplitr; · ipureintro; exact hg
    isplitl [Hh] <;> iassumption

end HostEx

end Cert.KernelIdeal.Tc

end
-- ==== Proof.TcLaunch.lean ====
/-
  The launch element of the certificate's ghost state: the handshakes' rounds go to the launch theorem, the pipelines'
  rounds are funded into each TensorCore's staging cells' ghost state and duty tokens (what each region's entry
  allocates its cells' invariants from), and the counters' component is kept for the local copies.
-/
import proofs.«204097_g52673478918828_cont_9to1c4b_838_31_alg».proof.Proof.TcSetup

noncomputable section

namespace Cert.KernelIdeal.Tc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The launch element: the handshake cells' rounds, the staging cells' rounds, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

/-- What the TensorCore's proof starts from beside the launch's deal: the three pipelines' ghost state. -/
abbrev G (d : Dev nD) : sProp 𝕄 := Pipeline.ghostOn (pcfgs (F := F)) adm (EP (F := F)) Finset.univ d

theorem ownU_split (a : UH) (b : UP) : (ownU ((a, (b, (1 : Counters))) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ (P : (K (F := F)).Pay (nD := nD) (Val := Elt F) (Name := ℕ) (U := UU)) (hPx : ∀ q thr, P.x q thr = iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
          ∗ bigSep Finset.univ fun thr : Thread nD τ => bigSep Finset.univ fun q : Fin 1 => P.x q thr) := by
  have hghost : iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => (Pipeline.toksInit (Pipeline.pin (pcfgs (F := F)) adm) (EP (F := F)) p c : sProp 𝕄)))
      ⊢ bigSep Finset.univ fun c : Dev nD => G (F := F) c := by
    rw [← bigSep_sep']
    exact bigSep_mono fun c _ => show iprop((bigSep Finset.univ fun p => Pipeline.cellsGhost (Pipeline.pin (pcfgs (F := F)) adm) (EP (F := F)) p c)
          ∗ bigSep Finset.univ fun p => (Pipeline.toksInit (Pipeline.pin (pcfgs (F := F)) adm) (EP (F := F)) p c : sProp 𝕄)) ⊢ G (F := F) c
      from Entails.of_eq (by rw [← bigSep_sep']; rfl)
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · iapply hghost; isplitl [Hg] <;> iassumption
  have hx : (bigSep Finset.univ fun thr : Thread nD τ => bigSep Finset.univ fun q : Fin 1 => P.x q thr) = (iprop(emp) : sProp 𝕄) :=
    (bigSep_congr fun thr _ => (bigSep_univ_of_subsingleton (0 : Fin 1)).trans (hPx 0 thr)).trans (bigSep_emp_const _)
  rw [hx]
  iempintro

end Cert.KernelIdeal.Tc

end
-- ==== Proof.TcVals.lean ====
/-
  The TensorCore's buffers at the first boundaries of its program: at launch, after the index array is flattened, and
  after the SparseCore call has left the gathered rows.
-/
import proofs.«204097_g52673478918828_cont_9to1c4b_838_31_alg».proof.Proof.TcMain
import proofs.«204097_g52673478918828_cont_9to1c4b_838_31_alg».proof.Proof.TcRegion
import proofs.«204097_g52673478918828_cont_9to1c4b_838_31_alg».proof.Proof.TcLaunch

noncomputable section

namespace Cert.KernelIdeal.Tc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The buffers at launch, and after the index array is flattened. -/
abbrev W0 : Dev nD → Valuation τ sig (Elt F) := fun d b => m (d, b)
abbrev W1 : Dev nD → Valuation τ sig (Elt F) := fun d => StableHlo.after (ops0 (F := F)) (W0 m d)

/-- The three buffers the SparseCore call works on. -/
abbrev Sop : Finset (DevRef τ sig) :=
  insert (Proc.devRef .tc main_v0) (insert (Proc.devRef .tc main_arg1) {Proc.devRef .tc main_v1})

theorem Sop_sub : (Sop : Finset (DevRef τ sig)) ⊆ Pipeline.ucRefs τ sig := by
  intro b hb
  simp only [Sop, Finset.mem_insert, Finset.mem_singleton] at hb
  rcases hb with rfl | rfl | rfl <;> exact Finset.mem_filter.mpr ⟨StableHlo.devRef_mem_tcRefs _, by decide⟩

variable (gO : (d : Dev nD) → (Proc.devRef (τ := τ) .tc main_v1 : DevRef τ sig).ty.Contents (Elt F))

/-- After the call: the rows' buffer at what the call left, every other buffer as before. -/
abbrev W2 : Dev nD → Valuation τ sig (Elt F) := fun d => Function.update (W1 m d) (Proc.devRef .tc main_v1) (gO d)

theorem held_rest (d : Dev nD) :
    (StableHlo.held (T d) (Pipeline.ucRefs τ sig \ Sop) (W1 m d) : sProp 𝕄) = StableHlo.held (T d) (Pipeline.ucRefs τ sig \ Sop) (W2 m gO d) :=
  StableHlo.held_congr (T d) fun b hb => by
    have hne : b ≠ Proc.devRef .tc main_v1 := fun e => (Finset.mem_sdiff.mp hb).2 (by
      rw [e]; simp only [Sop, Finset.mem_insert, Finset.mem_singleton, or_true])
    exact (Function.update_of_ne hne _ _).symm

end Cert.KernelIdeal.Tc

end
-- ==== Proof.TcRun.lean ====
/-
  The TensorCore's obligation in the launch: the index array is flattened; the SparseCore call takes the flattened
  indices, the table and the rows' buffer and brings them back with the rows' buffer at the gathered rows; what
  follows is a program of the three pipelines alone, run segment by segment from the valuation the call left to the
  last one; the handshake state comes back at call 1, the recorded pairs still at level at most 8.
-/
import proofs.«204097_g52673478918828_cont_9to1c4b_838_31_alg».proof.Proof.TcMain
import proofs.«204097_g52673478918828_cont_9to1c4b_838_31_alg».proof.Proof.TcRegion
import proofs.«204097_g52673478918828_cont_9to1c4b_838_31_alg».proof.Proof.TcLaunch
import proofs.«204097_g52673478918828_cont_9to1c4b_838_31_alg».proof.Proof.TcVals

noncomputable section

namespace Cert.KernelIdeal.Tc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (gO : (d : Dev nD) → (Proc.devRef (τ := τ) .tc main_v1 : DevRef τ sig).ty.Contents (Elt F))

/-- The launch's unscoped buffers are the unscoped references held at the launch valuation. -/
theorem tcBufs_eq (d : Dev nD) :
    (unscopedBufs d (fun b => m ((SparseCore.T d : Thread nD τ).loc b)) : sProp 𝕄) = unscopedBufs d (fun b => W0 m d b) := by
  chain_rfl

theorem tcBufs_held (d : Dev nD) :
    (unscopedBufs d (fun b => m ((SparseCore.T d : Thread nD τ).loc b)) : sProp 𝕄) = StableHlo.held (SparseCore.T d : Thread nD τ) (Pipeline.ucRefs τ sig) (W0 m d) :=
  (tcBufs_eq m d).trans (Pipeline.unscopedBufs_held d (W0 m d))

section Main

set_option backward.isDefEq.respectTransparency.types false in
set_option maxHeartbeats 1000000 in
theorem hmain
    (P : (K (F := F)).Pay (nD := nD) (Val := Elt F) (Name := ℕ) (U := UU))
    (hst : ∀ d : Dev nD, ((StableHlo.held (SparseCore.T d : Thread nD τ) Sop (W1 m d) : sProp 𝕄) ⊢ (bigSep Finset.univ fun c : Fin ((K (F := F)).nCore 0) => P.st 0 d c)))
    (hdn : ∀ d : Dev nD, ((bigSep Finset.univ fun c : Fin ((K (F := F)).nCore 0) => P.dn 0 d c) ⊢ (StableHlo.held (SparseCore.T d : Thread nD τ) Sop (W2 m gO d) : sProp 𝕄)))
    (pdats : (p : Fin 3) → (c : Dev nD) → Dat τ (Elt F) (HIx 1) ℕ UU ℕ (Pipeline.pin (pcfgs (F := F)) adm p) c)
    (segs : List (Pipeline.Seg (pcfgs (F := F)) adm pdats (none : HIx 1) defs₀ 𝒱₀ (K (F := F)).L (K (F := F)).lev))
    (hrun : tail (F := F) = Pipeline.Seg.run segs)
    (hnd : (Pipeline.Seg.pipes segs).Nodup)
    (T9 : Dev nD → sProp 𝕄)
    (hch : Pipeline.Seg.Chains (fun c => iprop(StableHlo.held (c.tc : Thread nD τ) (Pipeline.ucRefs τ sig) (W2 m gO c) ∗ R (F := F) c)) segs
      (fun c => iprop(T9 c ∗ R (F := F) c)))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d : Thread nD τ) none) Set.univ (main d)
          fun _ => iprop((K (F := F)).tcSt EH d 1 ∗ T9 d) := by
  rewrite [main_eq]
  unfold SparseCore.Cfg.tcRes
  rewrite [tcBufs_held m d]
  iintro ⟨#Hctx, Hst, ⟨Hb, Hub, -, -⟩, HG⟩
  -- the index array flattened
  iapply (StableHlo.wp_seq (defs := (K (F := F)).defs (D (F := F))) 𝒱 none Set.univ d (Pipeline.ucRefs τ sig) _ (ops0 (F := F))
    (fun op h => Pipeline.sub_ucRefs op ((List.forall_iff_forall_mem.mp ops0_sub) op h))
    (fun op h => (List.forall_iff_forall_mem.mp ops0_fresh) op h) (W0 m d)) $$ [Hb Hub]
  · isplitl [Hb] <;> iassumption
  iintro ⟨Hb, Hub⟩
  -- the SparseCore call
  rw [wp_bind]
  ihave Hub' := (Entails.of_eq (StableHlo.held_sub_split (SparseCore.T d : Thread nD τ) Sop_sub (W1 m d))) $$ Hub
  icases Hub' with ⟨Hop, Hrest⟩
  ihave Hstc := (hst d) $$ Hop
  iapply ((K (F := F)).wp_run (D (F := F)) 𝒱 (EH := EH) (P := P) κ d 0) $$ [Hst Hstc Hb Hrest HG]
  isplitr; · iexact Hctx
  isplitl [Hst]; · iexact Hst
  isplitl [Hstc]; · iexact Hstc
  iintro ⟨Hst, Hdn⟩
  ihave Hop := (hdn d) $$ Hdn
  ihave Hrest := (Entails.of_eq (held_rest m gO d)) $$ Hrest
  ihave Hub := (Entails.of_eq (StableHlo.held_sub_split (SparseCore.T d : Thread nD τ) Sop_sub (W2 m gO d)).symm) $$ [Hop Hrest]
  · isplitl [Hop] <;> iassumption
  -- the pipelines' program
  unfold SparseCore.Cfg.tcSt
  icases Hst with ⟨⟨%W, %hW, HO⟩, Hpos⟩
  rw [(K (F := F)).Otc_end d (le_refl 1)]
  ihave Hlv := (show (K (F := F)).ctx EH P κ ⊢ (levAts (K (F := F)).L (K (F := F)).lev : sProp 𝕄) from by
    unfold SparseCore.Cfg.ctx; exact sep_elim_left) $$ Hctx
  iapply ((K (F := F)).wp_liftProg (D (F := F)) 𝒱 (SparseCore.T d : Thread nD τ) Set.univ none (tail (F := F)) _)
  rw [hrun]
  iapply (Pipeline.wp_segs (pcfgs (F := F)) adm pdats (none : HIx 1) cellOf_inj (EP (F := F)) defs₀ 𝒱₀ (K (F := F)).L (K (F := F)).lev d segs Finset.univ _ _
    hnd (fun p _ => Finset.mem_univ p) hch) $$ [Hb Hub HO Hpos HG]
  isplitl [Hpos]
  · iintro ⟨-, Hub, %W', %hW', HO⟩
    isplitr [Hub]
    · isplitl [HO]
      · iexists W'; isplitr
        · ipureintro; intro p hp; have := hW' hp; simpa [Bset] using this
        iexact HO
      iexact Hpos
    iexact Hub
  isplitl [Hb]; · iexact Hb
  isplitl [Hub HO]
  · isplitl [Hub]; · iexact Hub
    iexists W; isplitr
    · ipureintro; intro p hp; have := hW p hp; simpa [Bset] using this
    iexact HO
  isplitr; · iexact Hlv
  iexact HG

end Main

end Cert.KernelIdeal.Tc

end
-- ==== Proof.ScSetup.lean ====
/-
  The SparseCore side of the launch, part one: the program as the launch theorem sees it, the arrays the vector-subcore
  kernel works on, and what the handshakes carry.

  The kernel runs once on each of 2 SparseCores × 16 vector subcores. Worker (c, s) has number w = 2 s + c and owns rows
  [640 w, 640 (w + 1)) of the index array (20480 words) and of the result (20480 × 128): it fetches its 640 row numbers,
  gathers the table rows they name, and writes them to its rows of the result. So the index array and the result are cut
  into 32 pieces along axis 0 (`Rect.part`), piece w going to worker w; the table, which every worker reads whole, goes
  out as read shares: the full share cut in two (one piece per SparseCore), each piece cut in sixteen (one per subcore).

  The result is stated by ONE whole-array function `gOut`: row i of the result is the table row that entry i of the
  index array names. Every worker's piece is held at that one function, so the pieces join to the whole array at it.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204097_g52673478918828_cont_9to1c4b_838_31_alg».proof.Proof.Gen.KernelIdeal
import proofs.«204097_g52673478918828_cont_9to1c4b_838_31_alg».proof.Proof.Gen.KernelIdeal.Skeleton

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: any user algebra with a copy of the transfers' counters -/

variable {U : Type} [URA U] [CountersIn U]

local notation "𝕄" => MT nD τ sig (HIx 1) (Elt F) ℕ U ℕ

/-! ## The arrays at the call, and the kernel's memrefs -/

abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

-- The contents at the call: the index array (written by a host reshape before it), the table, the result's buffer.
variable (I0 : (d : Dev nD) → Buf (Elt F) (iLoc d)) (T0 : (d : Dev nD) → Buf (Elt F) (tLoc d)) (O0 : (d : Dev nD) → Buf (Elt F) (oLoc d))

local notation "iV" => (Memref.whole Cert.KernelIdeal.main_v0_scv : Memref Cert.KernelIdeal.sig Kind.scVector Space.hbm Cert.KernelIdeal.S20480 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S20480x128 EltTy.f32)

/-- Every entry of the index array names a row of the table. -/
def PreOK : Prop := ∀ (d : Dev nD) (j : S20480.Idx), (I0 d j).toNat < 100000

/-! ## Workers and their pieces -/

/-- Worker (c, s) has number 2 s + c. -/
def wk (c : Fin 2) (i : Fin 16) : Fin 32 := ⟨2 * i.val + c.val, by omega⟩

/-- The workers, numbered: (SparseCore, subcore) pairs are the numbers below 32. -/
def wkEquiv : Fin 2 × Fin 16 ≃ Fin 32 where
  toFun p := wk p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem idiv : 32 ∣ S20480.size 0 := ⟨640, rfl⟩
theorem odiv : 32 ∣ S20480x128.size 0 := ⟨640, rfl⟩
/-- Piece w of the index array and of the result: rows [640 w, 640 (w + 1)). -/
abbrev irow (w : Fin 32) : Rect S20480 := Rect.part (s := S20480) (a₀ := 0) idiv w
abbrev orow (w : Fin 32) : Rect S20480x128 := Rect.part (s := S20480x128) (a₀ := 0) odiv w
abbrev iRowSet (w : Fin 32) : Finset S20480.Idx := ((iV).view.slice (irow w)).set
abbrev oRowSet (w : Fin 32) : Finset S20480x128.Idx := ((oV).view.slice (orow w)).set

theorem iRowSet_eq (w : Fin 32) : iRowSet w = (irow w).set := by
  show ((View.whole (main_v0_scv : Ref sig .scVector)).slice (irow w)).set = _
  rw [View.set_slice]; exact Finset.map_refl
theorem oRowSet_eq (w : Fin 32) : oRowSet w = (orow w).set := by
  show ((View.whole (main_v1_scv : Ref sig .scVector)).slice (orow w)).set = _
  rw [View.set_slice]; exact Finset.map_refl

theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The table's read share for worker (c, s): the full share cut in two, piece c cut in sixteen, piece s of that. -/
def tq (c : Fin 2) (i : Fin 16) : PosShare TreeShare := pieceOf (pieceOf fullShare 2 (by omega) c) 16 (by omega) i

/-! ## The result, as one whole-array function -/

/-- The table row entry r of the index array names (clamped into the table, so that the function is total). -/
def gRow (d : Dev nD) (r : Fin 20480) : Fin 100000 := ⟨min (I0 d (ix1 r)).toNat 99999, by omega⟩

/-- Row i of the result is the table row that entry i of the index array names. -/
def gOut (d : Dev nD) : Buf (Elt F) (oLoc d) :=
  show S20480x128.Idx → Elt F .f32 from fun x => T0 d (ix2 (gRow I0 d (x 0)) (x 1))

theorem gOut_apply (hpre : PreOK I0) (d : Dev nD) (i : Fin 20480) (k : Fin 128) :
    gOut I0 T0 d (ix2 i k) = T0 d (ix2 ⟨(I0 d (ix1 i)).toNat, hpre d _⟩ k) := by
  have h := hpre d (ix1 i)
  show T0 d (ix2 (gRow I0 d i) k) = _
  congr 2
  exact Fin.ext (show min (I0 d (ix1 i)).toNat 99999 = (I0 d (ix1 i)).toNat from Nat.min_eq_left (by omega))

/-! ## What the handshakes carry -/

abbrev iRowPts (d : Dev nD) (w : Fin 32) : sProp 𝕄 := iLoc d ↦[iRowSet w]{fullShare} I0 d
abbrev tShPts (d : Dev nD) (c : Fin 2) (i : Fin 16) : sProp 𝕄 := tLoc d ↦{tq c i} T0 d
abbrev oRowPts (d : Dev nD) (w : Fin 32) (f : Buf (Elt F) (oLoc d)) : sProp 𝕄 := oLoc d ↦[oRowSet w]{fullShare} f

/-- Worker (c, s)'s operands: its piece of the index array, its read share of the table, its piece of the result at `f`. -/
def goPay (d : Dev nD) (c : Fin 2) (i : Fin 16) (f : Buf (Elt F) (oLoc d)) : sProp 𝕄 :=
  iprop(iRowPts I0 d (wk c i) ∗ tShPts T0 d c i ∗ oRowPts d (wk c i) f)
/-- SparseCore c's operands: its sixteen workers'. -/
def stPay (d : Dev nD) (c : Fin 2) (f : Buf (Elt F) (oLoc d)) : sProp 𝕄 :=
  bigSep Finset.univ fun i : Fin 16 => goPay I0 T0 d c i f

instance goPay_storable (d : Dev nD) (c : Fin 2) (i : Fin 16) (f : Buf (Elt F) (oLoc d)) :
    BI.Storable (upEmb : UEmb _ 𝕄) (goPay (U := U) I0 T0 d c i f) := by unfold goPay; infer_instance
instance stPay_storable (d : Dev nD) (c : Fin 2) (f : Buf (Elt F) (oLoc d)) :
    BI.Storable (upEmb : UEmb _ 𝕄) (stPay (U := U) I0 T0 d c f) := by unfold stPay; infer_instance

/-- The one call hands SparseCore c its sixteen workers' operands, the result's pieces at what the buffer held, and takes
    them back with the result's pieces at `gOut`; each worker is handed and hands back its own. -/
def P : (K (F := F)).Pay (nD := nD) (Val := Elt F) (Name := ℕ) (U := U) where
  st := fun q d c => match q with | 0 => stPay I0 T0 d (Fin.cast nCore_zero c) (O0 d)
  dn := fun q d c => match q with | 0 => stPay I0 T0 d (Fin.cast nCore_zero c) (gOut I0 T0 d)
  go := fun q d c i => match q with | 0 => goPay I0 T0 d (Fin.cast nCore_zero c) (Fin.cast nSub_zero i) (O0 d)
  td := fun q d c i => match q with | 0 => goPay I0 T0 d (Fin.cast nCore_zero c) (Fin.cast nSub_zero i) (gOut I0 T0 d)
  x := fun _ _ => iprop(emp)

instance P_storable : (P (U := U) I0 T0 O0).IsStorable where
  st q d c := match q with | 0 => (inferInstance : BI.Storable (upEmb : UEmb _ 𝕄) (stPay I0 T0 d (Fin.cast nCore_zero c) (O0 d)))
  dn q d c := match q with | 0 => (inferInstance : BI.Storable (upEmb : UEmb _ 𝕄) (stPay I0 T0 d (Fin.cast nCore_zero c) (gOut I0 T0 d)))
  go q d c i := match q with | 0 => (inferInstance : BI.Storable (upEmb : UEmb _ 𝕄) (goPay I0 T0 d (Fin.cast nCore_zero c) (Fin.cast nSub_zero i) (O0 d)))
  td q d c i := match q with | 0 => (inferInstance : BI.Storable (upEmb : UEmb _ 𝕄) (goPay I0 T0 d (Fin.cast nCore_zero c) (Fin.cast nSub_zero i) (gOut I0 T0 d)))

theorem P_st (d : Dev nD) (c : Fin ((K (F := F)).nCore 0)) : (P (U := U) I0 T0 O0).st 0 d c = stPay I0 T0 d (Fin.cast nCore_zero c) (O0 d) := rfl
theorem P_dn (d : Dev nD) (c : Fin ((K (F := F)).nCore 0)) : (P (U := U) I0 T0 O0).dn 0 d c = stPay I0 T0 d (Fin.cast nCore_zero c) (gOut I0 T0 d) := rfl
theorem P_go (d : Dev nD) (c : Fin ((K (F := F)).nCore 0)) (i : Fin ((K (F := F)).nSub 0)) :
    (P (U := U) I0 T0 O0).go 0 d c i = goPay I0 T0 d (Fin.cast nCore_zero c) (Fin.cast nSub_zero i) (O0 d) := rfl
theorem P_td (d : Dev nD) (c : Fin ((K (F := F)).nCore 0)) (i : Fin ((K (F := F)).nSub 0)) :
    (P (U := U) I0 T0 O0).td 0 d c i = goPay I0 T0 d (Fin.cast nCore_zero c) (Fin.cast nSub_zero i) (gOut I0 T0 d) := rfl

/-! ## The pieces split and join -/

/-- A family over the 32 workers, SparseCore by SparseCore. -/
theorem bigSep_workers (Φ : Fin 32 → sProp 𝕄) :
    bigSep Finset.univ Φ = bigSep Finset.univ fun c : Fin 2 => bigSep Finset.univ fun i : Fin 16 => Φ (wk c i) := by
  rw [bigSep_univ_equiv wkEquiv Φ, bigSep_univ_prod]; rfl

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
/-- The table at the full share is the table at the 32 workers' read shares. -/
theorem tPts_shares (d : Dev nD) (f : Buf (Elt F) (tLoc d)) :
    (tLoc d ↦{fullShare} f : sProp 𝕄) = bigSep Finset.univ fun c : Fin 2 => bigSep Finset.univ fun i : Fin 16 => tLoc d ↦{tq c i} f := by
  rw [pointsTo_piecesOf Finset.univ f (o := 2) (by omega) fullShare]
  exact bigSep_congr fun c _ => pointsTo_piecesOf Finset.univ f (o := 16) (by omega) _

/-- The three arrays whole, the result's at `f`, are the workers' operands, SparseCore by SparseCore. -/
theorem arrays_split (d : Dev nD) (f : Buf (Elt F) (oLoc d)) :
    (iprop((iLoc d ↦{fullShare} I0 d) ∗ (tLoc d ↦{fullShare} T0 d) ∗ (oLoc d ↦{fullShare} f)) : sProp 𝕄)
      = bigSep Finset.univ fun c : Fin 2 => stPay I0 T0 d c f := by
  rw [iPts_rows, tPts_shares, oPts_rows, bigSep_workers (fun w => iLoc d ↦[iRowSet w]{fullShare} I0 d),
    bigSep_workers (fun w => oLoc d ↦[oRowSet w]{fullShare} f)]
  simp only [stPay, goPay, bigSep_sep']

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays at the call are what the start hands the two SparseCores. -/
theorem st_intro (d : Dev nD) :
    iprop((iLoc d ↦{fullShare} I0 d) ∗ (tLoc d ↦{fullShare} T0 d) ∗ (oLoc d ↦{fullShare} O0 d))
      ⊢ bigSep Finset.univ fun c : Fin ((K (F := F)).nCore 0) => (P (U := U) I0 T0 O0).st 0 d c := by
  rw [arrays_split I0 T0 d (O0 d)]
  exact Entails.of_eq (bigSep_cores (fun c => stPay I0 T0 d c (O0 d))).symm

/-- What the two SparseCores hand back is the index array and the table unchanged and the result whole at `gOut`. -/
theorem dn_elim (d : Dev nD) :
    (bigSep Finset.univ fun c : Fin ((K (F := F)).nCore 0) => (P (U := U) I0 T0 O0).dn 0 d c)
      ⊢ iprop((iLoc d ↦{fullShare} I0 d) ∗ (tLoc d ↦{fullShare} T0 d) ∗ (oLoc d ↦{fullShare} gOut I0 T0 d)) := by
  rw [arrays_split I0 T0 d (gOut I0 T0 d)]
  exact Entails.of_eq (bigSep_cores (fun c => stPay I0 T0 d c (gOut I0 T0 d)))

/-- A SparseCore's operands are its sixteen workers', and their results its own. -/
theorem vecSplit : (K (F := F)).VecSplit' (P (U := U) I0 T0 O0) 0 := by
  intro d c
  show stPay I0 T0 d (Fin.cast nCore_zero c) (O0 d) ⊢ |={Set.univ}=> iprop(
      (bigSep Finset.univ fun i : Fin ((K (F := F)).nSub 0) => goPay I0 T0 d (Fin.cast nCore_zero c) (Fin.cast nSub_zero i) (O0 d))
      ∗ ((bigSep Finset.univ fun i : Fin ((K (F := F)).nSub 0) => goPay I0 T0 d (Fin.cast nCore_zero c) (Fin.cast nSub_zero i) (gOut I0 T0 d))
          -∗ stPay I0 T0 d (Fin.cast nCore_zero c) (gOut I0 T0 d)))
  rw [bigSep_tasks (fun i => goPay I0 T0 d (Fin.cast nCore_zero c) i (O0 d)),
    bigSep_tasks (fun i => goPay I0 T0 d (Fin.cast nCore_zero c) i (gOut I0 T0 d))]
  unfold stPay
  iintro H; imodintro
  isplitl [H]; · iexact H
  iintro H; iexact H

end Cert.KernelIdeal.Sc

end
-- ==== Proof.TcCall.lean ====
/-
  The SparseCore call seen from the TensorCore: of the buffers it holds at a valuation, the flattened index array,
  the table and the rows' buffer go to the call, and come back with the rows' buffer at the gathered rows.
-/
import proofs.«204097_g52673478918828_cont_9to1c4b_838_31_alg».proof.Proof.TcVals
import proofs.«204097_g52673478918828_cont_9to1c4b_838_31_alg».proof.Proof.ScSetup

noncomputable section

namespace Cert.KernelIdeal.Tc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (m : (ℓ : Loc nD τ sig) → Buf (Elt F) ℓ)

/-- The call's operands as the valuation before it holds them. -/
abbrev I0 : (d : Dev nD) → Buf (Elt F) (Sc.iLoc d) := fun d => W1 m d (Proc.devRef .tc main_v0)
abbrev T0 : (d : Dev nD) → Buf (Elt F) (Sc.tLoc d) := fun d => W1 m d (Proc.devRef .tc main_arg1)
abbrev O0 : (d : Dev nD) → Buf (Elt F) (Sc.oLoc d) := fun d => W1 m d (Proc.devRef .tc main_v1)

/-- What the handshakes carry, at those operands. -/
abbrev PP : (K (F := F)).Pay (nD := nD) (Val := Elt F) (Name := ℕ) (U := UU) := Sc.P (U := UU) (I0 m) (T0 m) (O0 m)

/-- The rows' buffer after the call. -/
abbrev gO : (d : Dev nD) → (Proc.devRef (τ := τ) .tc main_v1 : DevRef τ sig).ty.Contents (Elt F) := fun d => Sc.gOut (I0 m) (T0 m) d

theorem held_Sop (d : Dev nD) (W : Valuation τ sig (Elt F)) :
    (StableHlo.held (T d) Sop W : sProp 𝕄)
      = iprop((Sc.iLoc d ↦{fullShare} W (Proc.devRef .tc main_v0)) ∗ (Sc.tLoc d ↦{fullShare} W (Proc.devRef .tc main_arg1)) ∗ (Sc.oLoc d ↦{fullShare} W (Proc.devRef .tc main_v1))) := by
  unfold StableHlo.held Sop
  rw [bigSep_insert (by
      simp only [Finset.mem_insert, Finset.mem_singleton, not_or]
      exact ⟨StableHlo.devRef_ne_of_ne (by decide), StableHlo.devRef_ne_of_ne (by decide)⟩),
    bigSep_insert (by
      simp only [Finset.mem_singleton]
      exact StableHlo.devRef_ne_of_ne (by decide)), bigSep_singleton]
  rfl

theorem hst (d : Dev nD) : (StableHlo.held (T d) Sop (W1 m d) : sProp 𝕄) ⊢ bigSep Finset.univ fun c : Fin ((K (F := F)).nCore 0) => (PP m).st 0 d c := by
  rw [held_Sop]
  exact Sc.st_intro (U := UU) (I0 m) (T0 m) (O0 m) d

theorem hdn (d : Dev nD) : (bigSep Finset.univ fun c : Fin ((K (F := F)).nCore 0) => (PP m).dn 0 d c) ⊢ (StableHlo.held (T d) Sop (W2 m (gO m) d) : sProp 𝕄) := by
  rw [held_Sop]
  refine (Sc.dn_elim (U := UU) (I0 m) (T0 m) (O0 m) d).trans (Entails.of_eq ?_)
  unfold W2
  rw [Function.update_self, Function.update_of_ne (StableHlo.devRef_ne_of_ne (by decide)), Function.update_of_ne (StableHlo.devRef_ne_of_ne (by decide))]

end Cert.KernelIdeal.Tc

end
-- ==== Proof.PoolRegion.lean ====
/-
  The pooling region (the first TensorCore pallas_call): the proof data of its pipeline on one core, the body's
  triple at every grid point, and what the region leaves in its output array.

  The grid has four points. Point t fetches rows [256 t, 256 t + 256) of the [1024, 20, 128] input array into a
  staging buffer, the body computes a [256, 128] block from that block alone, and the block is written back to rows
  [256 t, 256 t + 256) of the [1024, 128] output array. So the output array ends as ONE function of the input array,
  `poolArr`: row r is computed from the 256-row block that holds row r.

  Everything is stated for any float instance and any choice of the logic's ghost parameters; the contents of the
  core's buffers when the region is entered are a parameter `V`.
-/
import proofs.«204097_g52673478918828_cont_9to1c4b_838_31_alg».proof.Proof.Gen.KernelIdeal.Launch
import proofs.«204097_g52673478918828_cont_9to1c4b_838_31_alg».proof.Proof.Gen.KernelIdeal.Skeleton
import proofs.«204097_g52673478918828_cont_9to1c4b_838_31_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] {Ix : Type} [DecidableEq Ix] {Name : Type} [DecidableEq Name]
  {U : Type} [URA U] {Lvl : Type} [Preorder Lvl]

local notation "𝕄" => MT nD τ sig Ix (Elt F) Name U Lvl

-- `V`: the contents of each core's TensorCore buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window's buffer -/

/-- The whole input staging buffer, as the body's one load reads it. -/
abbrev rIn : Rect S256x20x128 := Rect.unit (s := S256x20x128) ![0, 0, 0] S256x20x128.size inb_S256x20x128_S256x20x128_0_0_0
/-- The whole output staging buffer, as the body's one store writes it. -/
abbrev rOut : Rect S256x128 := Rect.unit (s := S256x128) ![0, 0] S256x128.size inb_S256x128_S256x128_0_0

/-- The output window's staging buffer after the body, from the input window's block: its one store as a piece. -/
def out1 (x0 : Vec F S256x20x128 .f32) : Vec F S256x128 .f32 :=
  View.canon [⟨rOut, k1_pay1 (View.ld x0 rIn)⟩]

/-- The store fills the buffer. -/
theorem cover1 (p0 : Vec F S256x128 .f32) (y : S256x128.Idx) :
    ∃ pc ∈ ([⟨rOut, p0⟩] : List (View.Piece (Elt F) S256x128 .f32)), y ∈ pc.1.set :=
  View.cover_of_tiled [⟨rOut, p0⟩] S256x128.size (by rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result is its payload of the whole input block. -/
theorem out1_eq (x0 : Vec F S256x20x128 .f32) : out1 x0 = k1_pay1 x0 := by
  unfold out1
  rw [View.canon_unit_zero hz2]
  simp only [View.ld_unit_zero (S := S256x20x128) hz3]

/-! ## The body's triple -/

set_option maxHeartbeats 1000000 in
/-- The body on whole staging memrefs, the input's at contents `x0` and the output's at anything, runs to the
    continuation holding the input's as it was and the output's at `out1 x0`. -/
theorem sound_kernel (c : Dev nD) (E : Set Name) (i : grid1.Coords)
    (arg1 : Memref sig .tc .vmem S256x20x128 .f32) (harg1 : arg1.IsWhole)
    (arg2 : Memref sig .tc .vmem S256x128 .f32) (harg2 : arg2.IsWhole)
    (x0 : Vec F S256x20x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := F)) Variants.none c none) E (cc1__pool_body i arg1 harg1 arg2 harg2) K := by
  simp only [cc1__pool_body_eq_skeleton]; unfold cc1__pool_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-! ## The pipeline's proof data -/

/-- The proof data of the pooling pipeline on core `c`: the arrays as the region finds them (`V`); after the body
    at point `t` the input's buffer at its block and the output's at `out1` of that block; the invariant the core's
    other scoped buffers, untouched; nothing owed; full shares; the recorded wait pairs bounded by `B` throughout. -/
def dat (B : Set (SemLoc sig × Ix)) (c : Dev nD) : Dat τ (Elt F) Ix Name U Lvl cfg1 c where
  A w := V c (Pipeline.arrRef spec1 w)
  after w t := match w with
    | ⟨0, _⟩ => iblk V c 0 t
    | ⟨1, _⟩ => out1 (iblk V c 0 t)
  Φ _ := Pipeline.scopedRest (Ix := Ix) (Name := Name) (U := U) (Lvl := Lvl) (Val := Elt F) spec1 c
  q _ := fullShare
  owed _ := 0
  recorded _ := B

variable (B : Set (SemLoc sig × Ix))

local notation "𝔇" => dat (Name := Name) (U := U) (Lvl := Lvl) V B

/-- The proof data's arrays are the region-entry contents. -/
theorem A_eq (c : Dev nD) (w : Fin cfg1.W) : (𝔇 c).A w = V c (Pipeline.arrRef spec1 w) := by
  dsimp only [dat]

/-- What the body leaves, window by window. -/
theorem after_0 (c : Dev nD) (t : Fin cfg1.N) : (𝔇 c).after 0 t = iblk V c 0 t := by dsimp only [dat]
theorem after_1 (c : Dev nD) (t : Fin cfg1.N) : (𝔇 c).after 1 t = out1 (iblk V c 0 t) := by dsimp only [dat]

/-- The input's current staging buffer holds its block at every point: the window is uncut, never idle, and the body
    leaves the block in place. -/
theorem before_0 (c : Dev nD) (t : Fin cfg1.N) (d) : (𝔇 c).before 0 t d = iblk V c 0 t :=
  ((𝔇 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (ι : Ix) (c : Dev nD) (t : Fin cfg1.N) : sProp 𝕄 :=
  iprop((𝔇 c).Φ t.castSucc ∗ (𝔇 c).owesAt ι t.castSucc
    ∗ (∃ d, owns (c : Thread nD τ) (st1_0 t) fullShare ((𝔇 c).before 0 t d))
    ∗ (∃ d, owns (c : Thread nD τ) (st1_1 t) fullShare ((𝔇 c).before 1 t d)))

/-- and what it returns. -/
def bodyPost (ι : Ix) (c : Dev nD) (t : Fin cfg1.N) : sProp 𝕄 :=
  iprop((𝔇 c).Φ t.succ ∗ (𝔇 c).owesAt ι t.succ
    ∗ owns (c : Thread nD τ) (st1_0 t) fullShare ((𝔇 c).after 0 t)
    ∗ owns (c : Thread nD τ) (st1_1 t) fullShare ((𝔇 c).after 1 t))

/-- The body at any point: the input's memref holds its block, so `sound_kernel` applies; the invariant and the core's
    `owes` pass through unread. -/
theorem sound_body (ι : Ix) (c : Dev nD) (t : Fin cfg1.N) :
    bodyPre (Name := Name) (U := U) (Lvl := Lvl) V B ι c t
      ⊢ wp frame (wpE (defs₀ (F := F)) Variants.none c none) Set.univ (bodyAt1 t) (fun _ => bodyPost (Name := Name) (U := U) (Lvl := Lvl) V B ι c t) := by
  unfold bodyPre bodyPost bodyAt1
  simp only [before_0]
  rw [show (𝔇 c).Φ t.succ = (𝔇 c).Φ t.castSucc from rfl,
    show (𝔇 c).owesAt ι t.succ = (𝔇 c).owesAt ι t.castSucc from rfl,
    after_0, after_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (ι : Ix) (c : Dev nD) : BodyObligation (𝔇 c) (defs₀ (F := F)) Variants.none ι Set.univ := fun t => by
  rw [bigSep_W1, bigSep_W1]
  exact sound_body V B ι c t

/-! ## The output array after the region, as one function of the input array -/

/-- Rows [256 q, 256 q + 256) of a [1024, 20, 128] array, as a [256, 20, 128] block. -/
def rowsOf (X : S1024x20x128.Idx → Elt F .f32) (q : Fin 4) : Vec F S256x20x128 .f32 :=
  fun j => X (ix3 (⟨q.val * 256 + (j 0).val, by
    have h : (j 0).val < 256 := (j 0).isLt
    have := q.isLt
    omega⟩ : Fin 1024) (j 1) (j 2))

/-- The pooled array: entry (r, k) is entry (r mod 256, k) of the body's payload on the 256-row block holding row r. -/
def poolArr (X : S1024x20x128.Idx → Elt F .f32) : S1024x128.Idx → Elt F .f32 :=
  fun i => k1_pay1 (rowsOf X ⟨(i 0).val / 256, by
      have h : (i 0).val < 1024 := (i 0).isLt
      omega⟩)
    (ix2 (⟨(i 0).val % 256, Nat.mod_lt _ (by decide)⟩ : Fin 256) (i 1))

/-- The pooled array at entry j of block q. -/
theorem poolArr_block (X : S1024x20x128.Idx → Elt F .f32) (q : Fin 4) (j : S256x128.Idx) (i : S1024x128.Idx)
    (h0 : (i 0).val = q.val * 256 + (j 0).val) (h1 : (i 1).val = (j 1).val) :
    poolArr X i = k1_pay1 (rowsOf X q) j := by
  have hj0 : (j 0).val < 256 := (j 0).isLt
  have hq : (⟨(i 0).val / 256, by
      have h : (i 0).val < 1024 := (i 0).isLt
      omega⟩ : Fin 4) = q := Fin.ext (by show (i 0).val / 256 = q.val; omega)
  have hj : (ix2 (⟨(i 0).val % 256, Nat.mod_lt _ (by decide)⟩ : Fin 256) (i 1) : S256x128.Idx) = j := by
    funext a
    match a with
    | ⟨0, _⟩ => exact Fin.ext (by show (i 0).val % 256 = (j 0).val; omega)
    | ⟨1, _⟩ => exact Fin.ext h1
  unfold poolArr
  rw [hq, hj]

/-- The printed index maps, decided over the grid: both windows' block index is the point's number on the row axis
    and zero on the others. -/
theorem idx_facts : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 ∧ t.val < 4 :=
  (by decide +kernel : ∀ t : Fin grid1.N, _)

/-- Every row block is some point's. -/
theorem idx_onto : ∀ q : Fin 4, ∃ t : Fin cfg1.N, win1_1.index t = ![q.val, 0] :=
  (by decide +kernel : ∀ q : Fin 4, ∃ t : Fin grid1.N, win1_1.index t = ![q.val, 0])

/-- The input window's block at point `t` is rows [256 t, 256 t + 256) of the input array. -/
theorem iblk_0 (c : Dev nD) (t : Fin cfg1.N) (ht : t.val < 4) :
    (iblk V c 0 t : Vec F S256x20x128 .f32) = rowsOf (V c main_v2) ⟨t.val, ht⟩ := by
  obtain ⟨e0, e1, e2, e3, e4, e5⟩ := idx_facts t
  funext y
  show V c main_v2 (((cfg1.win 0).blk t).view.emb y) = V c main_v2 (ix3 (⟨t.val * 256 + (y 0).val, _⟩ : Fin 1024) (y 1) (y 2))
  congr 1
  funext a; apply Fin.ext
  match a with
  | ⟨0, _⟩ => show win1_0.index t (0 : Fin 3) * 256 + 1 * (y 0).val = t.val * 256 + (y 0).val; omega
  | ⟨1, _⟩ => show win1_0.index t (1 : Fin 3) * 20 + 1 * (y 1).val = (y 1).val; omega
  | ⟨2, _⟩ => show win1_0.index t (2 : Fin 3) * 128 + 1 * (y 2).val = (y 2).val; omega

/-- What point `t` writes back is the body's result on the input block there. -/
theorem flushed_out (c : Dev nD) (t : Fin cfg1.N) :
    (𝔇 c).flushed 1 t = (cfg1.win 1).cut (grid1.coords t) (out1 (iblk V c 0 t)) := by
  show (cfg1.win 1).cut (grid1.coords t) ((𝔇 c).after 1 t) = _
  rw [after_1]

/-- What point `t` writes back is block `t` of the pooled array of the input array as the region finds it. -/
theorem flushed (c : Dev nD) (t : Fin cfg1.N) :
    (𝔇 c).flushed 1 t = ((cfg1.win 1).blk t).view.read (Elt F) (poolArr (V c main_v2)) := by
  show (cfg1.win 1).cut (grid1.coords t) ((𝔇 c).after 1 t) = _
  rw [after_1, out1_eq]
  obtain ⟨e0, e1, e2, e3, e4, e5⟩ := idx_facts t
  rw [iblk_0 V c t e5]
  funext j
  show k1_pay1 (rowsOf (V c main_v2) ⟨t.val, e5⟩) j = poolArr (V c main_v2) (((cfg1.win 1).blk t).view.emb j)
  refine (poolArr_block (V c main_v2) ⟨t.val, e5⟩ j _ ?_ ?_).symm
  · show win1_1.index t (0 : Fin 2) * 256 + 1 * (j 0).val = t.val * 256 + (j 0).val; omega
  · show win1_1.index t (1 : Fin 2) * 128 + 1 * (j 1).val = (j 1).val; omega

/-- An index of the output array is in point `t`'s block iff each coordinate is in the block's range on its axis. -/
theorem mem_blk (t : Fin cfg1.N) (i : S1024x128.Idx) :
    i ∈ ((cfg1.win 1).blk t).view.set ↔ ∀ a : Fin 2, win1_1.index t a * S256x128.size a ≤ (i a).val ∧ (i a).val < win1_1.index t a * S256x128.size a + S256x128.size a := by
  show i ∈ ((View.whole main_v3).slice (win1_1.rect t)).set ↔ _
  rw [View.set_slice_whole, Rect.mem_set_unit]
  exact Iff.rfl

/-- Every index of the output array is in the block of the point numbered by its row block. -/
theorem cover (i : S1024x128.Idx) : ∃ t : Fin cfg1.N, (cfg1.win 1).flush t = true ∧ i ∈ ((cfg1.win 1).blk t).view.set := by
  have hi0 : (i 0).val < 1024 := (i 0).isLt
  have hi1 : (i 1).val < 128 := (i 1).isLt
  obtain ⟨t, ht⟩ := idx_onto ⟨(i 0).val / 256, by omega⟩
  have q0 : win1_1.index t (0 : Fin 2) = (i 0).val / 256 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 128 ≤ (i 1).val ∧ (i 1).val < win1_1.index t (1 : Fin 2) * 128 + 128; omega

/-- THE OUTPUT ARRAY after the region: the pooled array of the input array as the region finds it. -/
theorem final (c : Dev nD) : (𝔇 c).arrAt 1 cfg1.N = poolArr (V c main_v2) :=
  (𝔇 c).arrAt_eq_of_cover 1 (poolArr (V c main_v2)) (fun t _ => flushed V B c t) cover

/-- The input array is as the region found it. -/
theorem final_in (c : Dev nD) : (𝔇 c).arrAt 0 cfg1.N = V c main_v2 :=
  ((𝔇 c).arrAt_in 0 rfl _).trans (A_eq V B c 0)

end Cert.KernelIdeal.Pool

end
-- ==== Proof.TailRegion.lean ====
import proofs.«204097_g52673478918828_cont_9to1c4b_838_31_alg».proof.Proof.Gen.KernelIdeal.Launch
import proofs.«204097_g52673478918828_cont_9to1c4b_838_31_alg».proof.Proof.Gen.KernelIdeal.Skeleton
import proofs.«204097_g52673478918828_cont_9to1c4b_838_31_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # The tail matmul's region: proof data, body obligation and the final array

The third TensorCore kernel of the program has a grid of no axis: ONE point, at which every window's block is its
whole array. Windows 0, 1, 2 (the pooled rows `f32[1024,128]`, the last 160 rows of the weights `f32[160,128]`, the
last 160 biases `f32[160]`) are fetched; window 3 (`f32[1024,160]`) is written back. The body loads the three input
buffers whole, and stores ONE payload over the whole output buffer. Everything is stated for arbitrary contents `V`
of the TensorCore's buffers at the moment the region is entered, and generically in the logic's parameters. -/

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] {Ix : Type} [DecidableEq Ix] {Name : Type} [DecidableEq Name]
  {U : Type} [URA U] {Lvl : Type} [Preorder Lvl]

local notation "𝕄" => MT nD τ sig Ix (Elt F) Name U Lvl

-- The contents of each TensorCore's buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point, for ANY proof data whose array is `V`'s and whose
    body leaves the block in place: the window is uncut and never idle. -/
theorem before_0_of {c : Dev nD} (dat : Dat τ (Elt F) Ix Name U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1, -/
theorem before_1_of {c : Dev nD} (dat : Dat τ (Elt F) Ix Name U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for input window 2. -/
theorem before_2_of {c : Dev nD} (dat : Dat τ (Elt F) Ix Name U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole-buffer rectangles through which the body loads its inputs and stores its result. -/
abbrev rP : Rect S1024x128 := Rect.unit (s := S1024x128) ![0, 0] S1024x128.size inb_S1024x128_S1024x128_0_0
abbrev rW : Rect S160x128 := Rect.unit (s := S160x128) ![0, 0] S160x128.size inb_S160x128_S160x128_0_0
abbrev rB : Rect S160 := Rect.unit (s := S160) ![0] S160.size inb_S160_S160_0
abbrev rO : Rect S1024x160 := Rect.unit (s := S1024x160) ![0, 0] S1024x160.size inb_S1024x160_S1024x160_0_0

/-! ## What the body leaves in the output window's buffer -/

/-- Window 3's staging buffer after the body, from the input windows' blocks: its one store as a piece. -/
def out3 (x0 : Vec F S1024x128 .f32) (x1 : Vec F S160x128 .f32) (x2 : Vec F S160 .f32) : Vec F S1024x160 .f32 :=
  View.canon [⟨rO, k3_pay1 (View.ld x0 rP) (View.ld x1 rW) (View.ld x2 rB)⟩]

/-- The store covers the buffer. -/
theorem cover3 (p0 : Vec F S1024x160 .f32) (y : S1024x160.Idx) :
    ∃ pc ∈ ([⟨rO, p0⟩] : List (View.Piece (Elt F) S1024x160 .f32)), y ∈ pc.1.set :=
  View.cover_of_tiled [⟨rO, p0⟩] S1024x160.size (by rfl) y

theorem hz2 : (![0, 0] : Fin 2 → Nat) = fun _ => 0 := funext fun a => by fin_cases a <;> rfl
theorem hz1 : (![0] : Fin 1 → Nat) = fun _ => 0 := funext fun a => by fin_cases a; rfl

/-- The one store being over the whole buffer and the loads of the whole buffers, what the body leaves is the
    payload of the three blocks. -/
theorem out3_eq (x0 : Vec F S1024x128 .f32) (x1 : Vec F S160x128 .f32) (x2 : Vec F S160 .f32) :
    out3 x0 x1 x2 = k3_pay1 x0 x1 x2 := by
  unfold out3
  rw [View.canon_unit_zero hz2]
  rw [View.ld_unit_zero (S := S1024x128) hz2, View.ld_unit_zero (S := S160x128) hz2, View.ld_unit_zero (S := S160) hz1]

/-! ## The body's triple -/

set_option maxHeartbeats 1000000 in
/-- The kernel body on whole staging memrefs, the inputs' at contents `x0`, `x1`, `x2` and the output's at anything,
    runs to the continuation holding the inputs' as they were and the output's at `out3` of the inputs'. -/
theorem sound_kernel (c : Dev nD) (E : Set Name) (arg0 : Memref sig .tc .vmem S1024x128 .f32) (harg0 : arg0.IsWhole)
    (arg1 : Memref sig .tc .vmem S160x128 .f32) (harg1 : arg1.IsWhole) (arg2 : Memref sig .tc .vmem S160 .f32) (harg2 : arg2.IsWhole)
    (arg3 : Memref sig .tc .vmem S1024x160 .f32) (harg3 : arg3.IsWhole)
    (x0 : Vec F S1024x128 .f32) (x1 : Vec F S160x128 .f32) (x2 : Vec F S160 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ K ⟨⟩))
      ⊢ wp frame (wpE (defs₀ (F := F)) Variants.none c none) E (cc3__tail_body arg0 harg0 arg1 harg1 arg2 harg2 arg3 harg3) K := by
  simp only [cc3__tail_body_eq_skeleton]; unfold cc3__tail_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the tail kernel's pipeline on core `c`: the arrays as the region finds them (`V`); after the
    body each input's buffer at its block and the output's at `out3` of the input blocks; the invariant the scoped
    buffers no window stages, untouched (the body has no scratch); nothing owed; full shares; the core's recorded
    pairs within `B` throughout (the body makes no wait). -/
def dat (B : Set (SemLoc sig × Ix)) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.scopedRest (Ix := Ix) (Name := Name) (U := U) (Lvl := Lvl) (Val := Elt F) spec3 c
  q _ := fullShare
  owed _ := 0
  recorded _ := B

variable (B : Set (SemLoc sig × Ix))

local notation "𝔡" => dat (F := F) (Ix := Ix) (Name := Name) (U := U) (Lvl := Lvl) V B

/-- The proof data's arrays are the region-entry contents. -/
theorem A_eq (c : Dev nD) (w : Fin cfg3.W) : (𝔡 c).A w = V c (Pipeline.arrRef spec3 w) := by
  dsimp only [dat]

/-- What the body leaves, window by window. -/
theorem after_0 (c : Dev nD) (t : Fin cfg3.N) : (𝔡 c).after 0 t = iblk V c 0 t := by dsimp only [dat]
theorem after_1 (c : Dev nD) (t : Fin cfg3.N) : (𝔡 c).after 1 t = iblk V c 1 t := by dsimp only [dat]
theorem after_2 (c : Dev nD) (t : Fin cfg3.N) : (𝔡 c).after 2 t = iblk V c 2 t := by dsimp only [dat]
theorem after_3 (c : Dev nD) (t : Fin cfg3.N) :
    (𝔡 c).after 3 t = out3 (iblk V c 0 t) (iblk V c 1 t) (iblk V c 2 t) := by dsimp only [dat]

/-- Each input's staging buffer holds its block at the point. -/
theorem before_0 (c : Dev nD) (t : Fin cfg3.N) (d) : (𝔡 c).before 0 t d = iblk V c 0 t :=
  before_0_of V (𝔡 c) (A_eq V B c 0) (after_0 V B c) t d
theorem before_1 (c : Dev nD) (t : Fin cfg3.N) (d) : (𝔡 c).before 1 t d = iblk V c 1 t :=
  before_1_of V (𝔡 c) (A_eq V B c 1) (after_1 V B c) t d
theorem before_2 (c : Dev nD) (t : Fin cfg3.N) (d) : (𝔡 c).before 2 t d = iblk V c 2 t :=
  before_2_of V (𝔡 c) (A_eq V B c 2) (after_2 V B c) t d

/-! ## The body obligation -/

/-- What the body is called with at point `t`, the windows one by one, -/
def bodyPre (ι : Ix) (c : Dev nD) (t : Fin cfg3.N) : sProp 𝕄 :=
  iprop((𝔡 c).Φ t.castSucc ∗ (𝔡 c).owesAt ι t.castSucc
    ∗ (∃ d, owns (c : Thread nD τ) (st3_0 t) fullShare ((𝔡 c).before 0 t d))
    ∗ (∃ d, owns (c : Thread nD τ) (st3_1 t) fullShare ((𝔡 c).before 1 t d))
    ∗ (∃ d, owns (c : Thread nD τ) (st3_2 t) fullShare ((𝔡 c).before 2 t d))
    ∗ (∃ d, owns (c : Thread nD τ) (st3_3 t) fullShare ((𝔡 c).before 3 t d)))

/-- and what it returns. -/
def bodyPost (ι : Ix) (c : Dev nD) (t : Fin cfg3.N) : sProp 𝕄 :=
  iprop((𝔡 c).Φ t.succ ∗ (𝔡 c).owesAt ι t.succ
    ∗ owns (c : Thread nD τ) (st3_0 t) fullShare ((𝔡 c).after 0 t)
    ∗ owns (c : Thread nD τ) (st3_1 t) fullShare ((𝔡 c).after 1 t)
    ∗ owns (c : Thread nD τ) (st3_2 t) fullShare ((𝔡 c).after 2 t)
    ∗ owns (c : Thread nD τ) (st3_3 t) fullShare ((𝔡 c).after 3 t))

/-- The body at the point: the inputs' memrefs hold their blocks, so `sound_kernel` applies; the invariant and the
    core's `owes` pass through unread. -/
theorem sound_body (ι : Ix) (c : Dev nD) (t : Fin cfg3.N) :
    bodyPre (Name := Name) (U := U) (Lvl := Lvl) V B ι c t ⊢ wp frame (wpE (defs₀ (F := F)) Variants.none c none) Set.univ (bodyAt3 t) (fun _ => bodyPost (Name := Name) (U := U) (Lvl := Lvl) V B ι c t) := by
  unfold bodyPre bodyPost bodyAt3
  simp only [before_0, before_1, before_2]
  rw [show (𝔡 c).Φ t.succ = (𝔡 c).Φ t.castSucc from rfl,
    show (𝔡 c).owesAt ι t.succ = (𝔡 c).owesAt ι t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation (ι : Ix) (c : Dev nD) :
    BodyObligation (𝔡 c) (defs₀ (F := F)) Variants.none ι Set.univ := fun t => by
  rw [bigSep_W3, bigSep_W3]
  exact sound_body V B ι c t

/-! ## The final array -/

/-- At the one point every input block is its whole array: a block's index is the array's. -/
theorem iblk_0 (c : Dev nD) (t : Fin cfg3.N) : iblk V c 0 t = V c main_v3 := by
  funext y
  show V c main_v3 (((cfg3.win 0).blk t).view.emb y) = V c main_v3 y
  refine congrArg _ (funext fun a => Fin.ext ?_)
  match a with
  | ⟨0, _⟩ => show 0 * 1024 + 1 * (y 0).val = (y 0).val; omega
  | ⟨1, _⟩ => show 0 * 128 + 1 * (y 1).val = (y 1).val; omega
theorem iblk_1 (c : Dev nD) (t : Fin cfg3.N) : iblk V c 1 t = V c main_v6 := by
  funext y
  show V c main_v6 (((cfg3.win 1).blk t).view.emb y) = V c main_v6 y
  refine congrArg _ (funext fun a => Fin.ext ?_)
  match a with
  | ⟨0, _⟩ => show 0 * 160 + 1 * (y 0).val = (y 0).val; omega
  | ⟨1, _⟩ => show 0 * 128 + 1 * (y 1).val = (y 1).val; omega
theorem iblk_2 (c : Dev nD) (t : Fin cfg3.N) : iblk V c 2 t = V c main_v7 := by
  funext y
  show V c main_v7 (((cfg3.win 2).blk t).view.emb y) = V c main_v7 y
  refine congrArg _ (funext fun a => Fin.ext ?_)
  match a with
  | ⟨0, _⟩ => show 0 * 160 + 1 * (y 0).val = (y 0).val; omega

/-- Read through the output's block, the whole array, any contents are themselves, -/
theorem read_blk3 (t : Fin cfg3.N) (G : S1024x160.Idx → Elt F .f32) : ((cfg3.win 3).blk t).view.read (Elt F) G = G := by
  funext y
  show G (((cfg3.win 3).blk t).view.emb y) = G y
  refine congrArg G (funext fun a => Fin.ext ?_)
  match a with
  | ⟨0, _⟩ => show 0 * 1024 + 1 * (y 0).val = (y 0).val; omega
  | ⟨1, _⟩ => show 0 * 160 + 1 * (y 1).val = (y 1).val; omega

/-- and the write-back moves all of the staging buffer. -/
theorem cut3 (t : Fin cfg3.N) (G : S1024x160.Idx → Elt F .f32) : (cfg3.win 3).cut (grid3.coords t) G = G := rfl

set_option maxHeartbeats 1000000 in
/-- What the point writes back is the output block, the whole array, of `out3` of the three input arrays. -/
theorem flushed_eq (c : Dev nD) (t : Fin cfg3.N) :
    (𝔡 c).flushed 3 t = ((cfg3.win 3).blk t).view.read (Elt F) (out3 (V c main_v3) (V c main_v6) (V c main_v7)) := by
  rw [read_blk3]
  refine (cut3 t ((𝔡 c).after 3 t)).trans ?_
  rw [after_3]
  exact congr (congr (congrArg (out3 (F := F)) (iblk_0 V c t)) (iblk_1 V c t)) (iblk_2 V c t)

/-- Every index of the output array is in the point's block. -/
theorem mem_blk3 (t : Fin cfg3.N) (i : S1024x160.Idx) : i ∈ ((cfg3.win 3).blk t).view.set := by
  show i ∈ ((View.whole main_v8).slice (win3_3.rect t)).set
  rw [View.set_slice_whole, Rect.mem_set_unit]
  intro a
  match a with
  | ⟨0, _⟩ => exact ⟨Nat.zero_le _, by show (i 0).val < 0 * 1024 + 1024; have h : (i 0).val < 1024 := (i 0).isLt; omega⟩
  | ⟨1, _⟩ => exact ⟨Nat.zero_le _, by show (i 1).val < 0 * 160 + 160; have h : (i 1).val < 160 := (i 1).isLt; omega⟩

/-- THE ARRAY after the region: `out3` of the three input arrays as the region found them. -/
theorem final (c : Dev nD) : (𝔡 c).arrAt 3 cfg3.N = out3 (V c main_v3) (V c main_v6) (V c main_v7) :=
  (𝔡 c).arrAt_eq_of_cover 3 _ (fun t _ => flushed_eq V B c t) (fun i => ⟨t3_0, flush3_3 t3_0, mem_blk3 t3_0 i⟩)

/-- An input's array is never written. -/
theorem final_in (c : Dev nD) (w : Fin cfg3.W) (hw : (cfg3.win w).isOut = false) (n : Nat) : (𝔡 c).arrAt w n = V c (Pipeline.arrRef spec3 w) :=
  ((𝔡 c).arrAt_in w hw n).trans (A_eq V B c w)

end Cert.KernelIdeal.Tail

end
-- ==== Proof.MmRegion.lean ====
import proofs.«204097_g52673478918828_cont_9to1c4b_838_31_alg».proof.Proof.Gen.KernelIdeal.Launch
import proofs.«204097_g52673478918828_cont_9to1c4b_838_31_alg».proof.Proof.Gen.KernelIdeal.Skeleton
import proofs.«204097_g52673478918828_cont_9to1c4b_838_31_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The three conditions of the body, in closed form over the grid -/

/-- The coordinate of a point of the one-axis grid is its number. -/
theorem crd_val : ∀ t : Fin cfg2.N, ((grid2.coords t) 0).val = t.val :=
  (by decide +kernel : ∀ t : Fin grid2.N, ((grid2.coords t) 0).val = t.val)

/-- The wait for the copy issued four points earlier happens from the fifth point on. -/
theorem hcond1 : ∀ t : Fin cfg2.N, k2_cond1 (grid2.coords t) = 1#1 ↔ 4 ≤ t.val :=
  (by decide +kernel : ∀ t : Fin grid2.N, k2_cond1 (grid2.coords t) = 1#1 ↔ 4 ≤ t.val)
/-- A full column block is copied out at every point but the last. -/
theorem hcond2 : ∀ t : Fin cfg2.N, k2_cond2 (grid2.coords t) = 1#1 ↔ t.val < 48 :=
  (by decide +kernel : ∀ t : Fin grid2.N, k2_cond2 (grid2.coords t) = 1#1 ↔ t.val < 48)
/-- The clipped last block and the drain of the ring happen at the last point only. -/
theorem hcond3 : ∀ t : Fin cfg2.N, k2_cond3 (grid2.coords t) = 1#1 ↔ t.val = 48 :=
  (by decide +kernel : ∀ t : Fin grid2.N, k2_cond3 (grid2.coords t) = 1#1 ↔ t.val = 48)

/-- The same over the coordinates. -/
theorem cond1_iff : ∀ i : grid2.Coords, k2_cond1 i = 1#1 ↔ 4 ≤ (i 0).val := by decide +kernel
theorem cond2_iff : ∀ i : grid2.Coords, k2_cond2 i = 1#1 ↔ (i 0).val < 48 := by decide +kernel
theorem cond3_iff : ∀ i : grid2.Coords, k2_cond3 i = 1#1 ↔ (i 0).val = 48 := by decide +kernel

/-- Closed forms of the remaining offsets: the output columns of the copy waited for, four blocks back, -/
theorem k2_off2_eq : ∀ i : grid2.Coords, k2_cond1 i = 1#1 → k2_off2 i = ![0, 2048 * ((i 0).val - 4)] := by decide +kernel
/-- and at the last point the cells, output columns and slots of the three copies still outstanding. -/
theorem k2_off11_eq1 : ∀ i : grid2.Coords, k2_cond3 i = 1#1 → k2_off11 i 1#32 = ![47 % 4] := by decide +kernel
theorem k2_off11_eq2 : ∀ i : grid2.Coords, k2_cond3 i = 1#1 → k2_off11 i 2#32 = ![46 % 4] := by decide +kernel
theorem k2_off11_eq3 : ∀ i : grid2.Coords, k2_cond3 i = 1#1 → k2_off11 i 3#32 = ![45 % 4] := by decide +kernel

/-! ## The ring's slots, the output's column blocks and the cells, by number -/

/-- The ring buffer and the output array, whole, as the body is handed them. -/
abbrev ringM : Memref sig .tc .vmem S4x1024x2048 .f32 := Memref.whole cc2_scratch0
abbrev outM : Memref sig .tc .hbm S1024x100000 .f32 := Memref.whole main_v5

theorem inb_slot (n : ℕ) : ∀ a, (![n % 4, 0, 0] : Fin 3 → Nat) a + S1x1024x2048.size a ≤ S4x1024x2048.size a := by
  have := Nat.mod_lt n (by decide : 0 < 4); intro a; fin_cases a <;> simp <;> omega
theorem inb_cell (n : ℕ) : ∀ a, (![n % 4] : Fin 1 → Nat) a + S1.size a ≤ S4.size a := by
  have := Nat.mod_lt n (by decide : 0 < 4); intro a; fin_cases a <;> simp <;> omega
theorem inb_col (j : Fin 48) : ∀ a, (![0, 2048 * j.val] : Fin 2 → Nat) a + S1024x2048.size a ≤ S1024x100000.size a := by
  have := j.isLt; intro a; fin_cases a <;> simp <;> omega

/-- Slot `n % 4` of the ring, spelt as a copy out of it spells its source. -/
def rslot (n : ℕ) : Memref sig .tc .vmem S1024x2048 .f32 :=
  (ringM.slice (Rect.unit (s := S4x1024x2048) ![n % 4, 0, 0] S1x1024x2048.size (inb_slot n)) (fun _ => rfl)).squeeze S1024x2048 squeezes_S1x1024x2048_S1024x2048
/-- Column block `j` of the output, columns `[2048 j, 2048 (j + 1))`, spelt as a copy into it spells its destination. -/
def colB (j : Fin 48) : Memref sig .tc .hbm S1024x2048 .f32 :=
  outM.slice (Rect.unit (s := S1024x100000) ![0, 2048 * j.val] S1024x2048.size (inb_col j)) (fun _ => rfl)
/-- Cell `n % 4` of the kernel's four DMA semaphores, spelt as the body spells a cell. -/
def cellA (n : ℕ) : DmaSems sig S_ := (cc2_scratch1.slice (Rect.unit (s := S4) ![n % 4] S1.size (inb_cell n))).squeeze S_ squeezes_S1_S_
abbrev cellR (n : ℕ) : SemLoc sig := SemLoc.dma (cellA n).sem

theorem cellR_0 : cellR 0 = SemLoc.dma 12 := by decide
theorem cellR_1 : cellR 1 = SemLoc.dma 13 := by decide
theorem cellR_2 : cellR 2 = SemLoc.dma 14 := by decide
theorem cellR_3 : cellR 3 = SemLoc.dma 15 := by decide

theorem rslot_congr {n n' : ℕ} (h : n % 4 = n' % 4) : rslot n = rslot n' := by
  unfold rslot
  exact congrArg (fun M : Memref sig .tc .vmem S1x1024x2048 .f32 => M.squeeze S1024x2048 squeezes_S1x1024x2048_S1024x2048)
    (Memref.slice_unit_congr _ (by rw [h]) _ _ (fun _ => rfl) (fun _ => rfl))
theorem cellA_congr {n n' : ℕ} (h : n % 4 = n' % 4) : cellA n = cellA n' := by
  unfold cellA
  exact congrArg (fun A : DmaSems sig S1 => A.squeeze S_ squeezes_S1_S_) (SemArray.slice_unit_congr _ (by rw [h]) _ _)

theorem lt48_of_cond2 : ∀ i : grid2.Coords, k2_cond2 i = 1#1 → (i 0).val < 48 := fun i h => (cond2_iff i).mp h

/-! ## The body's operands at a point are the slots, blocks and cells by number -/

@[sl_canon] theorem canon_cell1 (i : grid2.Coords) (h1 : k2_cond1 i = 1#1) :
    (cc2_scratch1.slice (Rect.unit (s := S4) (k2_off1 i) S1.size (k2_off1_inb i h1))).squeeze S_ squeezes_S1_S_ = cellA (i 0).val :=
  congrArg (fun A : DmaSems sig S1 => A.squeeze S_ squeezes_S1_S_) (SemArray.slice_unit_congr _ (k2_off1_eq i) _ _)
@[sl_canon] theorem canon_cell5 (i : grid2.Coords) (h2 : k2_cond2 i = 1#1) :
    (cc2_scratch1.slice (Rect.unit (s := S4) (k2_off5 i) S1.size (k2_off5_inb i h2))).squeeze S_ squeezes_S1_S_ = cellA (i 0).val :=
  congrArg (fun A : DmaSems sig S1 => A.squeeze S_ squeezes_S1_S_) (SemArray.slice_unit_congr _ (k2_off5_eq i) _ _)
@[sl_canon] theorem canon_cell8 (i : grid2.Coords) (h3 : k2_cond3 i = 1#1) :
    (cc2_scratch1.slice (Rect.unit (s := S4) (k2_off8 i) S1.size (k2_off8_inb i h3))).squeeze S_ squeezes_S1_S_ = cellA (i 0).val :=
  congrArg (fun A : DmaSems sig S1 => A.squeeze S_ squeezes_S1_S_) (SemArray.slice_unit_congr _ (k2_off8_eq i) _ _)
@[sl_canon] theorem canon_slot3 (i : grid2.Coords) (h1 : k2_cond1 i = 1#1) :
    (ringM.slice (Rect.unit (s := S4x1024x2048) (k2_off3 i) S1x1024x2048.size (k2_off3_inb i h1)) (fun _ => rfl)).squeeze S1024x2048 squeezes_S1x1024x2048_S1024x2048 = rslot (i 0).val :=
  congrArg (fun M : Memref sig .tc .vmem S1x1024x2048 .f32 => M.squeeze S1024x2048 squeezes_S1x1024x2048_S1024x2048)
    (Memref.slice_unit_congr _ (k2_off3_eq i) _ _ (fun _ => rfl) (fun _ => rfl))
@[sl_canon] theorem canon_slot7 (i : grid2.Coords) (h2 : k2_cond2 i = 1#1) :
    (ringM.slice (Rect.unit (s := S4x1024x2048) (k2_off7 i) S1x1024x2048.size (k2_off7_inb i h2)) (fun _ => rfl)).squeeze S1024x2048 squeezes_S1x1024x2048_S1024x2048 = rslot (i 0).val :=
  congrArg (fun M : Memref sig .tc .vmem S1x1024x2048 .f32 => M.squeeze S1024x2048 squeezes_S1x1024x2048_S1024x2048)
    (Memref.slice_unit_congr _ (k2_off7_eq i) _ _ (fun _ => rfl) (fun _ => rfl))
@[sl_canon] theorem canon_col6 (i : grid2.Coords) (h2 : k2_cond2 i = 1#1) :
    outM.slice (Rect.unit (s := S1024x100000) (k2_off6 i) S1024x2048.size (k2_off6_inb i h2)) (fun _ => rfl) = colB ⟨(i 0).val, lt48_of_cond2 i h2⟩ :=
  Memref.slice_unit_congr _ (k2_off6_eq i) _ _ (fun _ => rfl) (fun _ => rfl)

/-! ## What the body holds of a slot, a cell, a column block; a copy in flight -/

section Pieces
variable (ι : Ix) (c : Dev nD)

/-- The contents of the ring buffer and of the output array on core `c`. -/
abbrev RBuf : Type := Buf (Elt F) ((c : Thread nD τ).loc cc2_scratch0)
abbrev OBuf : Type := Buf (Elt F) ((c : Thread nD τ).loc main_v5)

/-- Slot `n % 4` held by exactly its own elements at contents `f`; its cell at zero; column block `j` held by its own elements. -/
abbrev slotP (n : ℕ) (f : RBuf (F := F) c) : sProp 𝕄 :=
  (rslot n).view.loc (c : Thread nD τ) ↦[(rslot n).view.set]{fullShare} f
abbrev cellP (n : ℕ) : sProp 𝕄 := semVal ((c : Thread nD τ), cellR n) 0
abbrev colP (j : Fin 48) (g : OBuf (F := F) c) : sProp 𝕄 :=
  (colB j).view.loc (c : Thread nD τ) ↦[(colB j).view.set]{fullShare} g
/-- The copy of slot `n % 4` (at contents `fs`) to column block `j` in flight on cell `n % 4`, delivering the block at `g`
    and the slot back. -/
abbrev flightP (n : ℕ) (j : Fin 48) (g : OBuf (F := F) c) (fs : RBuf (F := F) c) : sProp 𝕄 :=
  Transfers.Flight countersEmb (c : Thread nD τ) (cellR n) ι ((colB j).view.amount (cellR n)) iprop(colP c j g ∗ slotP c n fs)

/-- What the three loads of the staged blocks read: the blocks, through the staging memrefs. -/
abbrev ld0 (arg1 : Memref sig .tc .vmem S1024x128 .f32) (harg1 : arg1.IsWhole) (x0 : Vec F S1024x128 .f32) : Vec F S1024x128 .f32 :=
  View.readAt (Elt F) arg1.view (Rect.unit (s := S1024x128) ![0, 0] S1024x128.size inb_S1024x128_S1024x128_0_0).toLoadRect (harg1.unread x0)
abbrev ld1 (arg2 : Memref sig .tc .vmem S2048x128 .f32) (harg2 : arg2.IsWhole) (x1 : Vec F S2048x128 .f32) : Vec F S2048x128 .f32 :=
  View.readAt (Elt F) arg2.view (Rect.unit (s := S2048x128) ![0, 0] S2048x128.size inb_S2048x128_S2048x128_0_0).toLoadRect (harg2.unread x1)
abbrev ld2 (arg3 : Memref sig .tc .vmem S2048 .f32) (harg3 : arg3.IsWhole) (x2 : Vec F S2048 .f32) : Vec F S2048 .f32 :=
  View.readAt (Elt F) arg3.view (Rect.unit (s := S2048) ![0] S2048.size inb_S2048_S2048_0).toLoadRect (harg3.unread x2)

/-- The ring buffer after the point's store of the value `w` into the point's slot, over contents `fs0`. -/
abbrev storedW (i : grid2.Coords) (fs0 : RBuf (F := F) c) (w : FVec F S1x1024x2048 .f32) : RBuf (F := F) c :=
  View.write (Elt F) (ringM.access (Rect.unit (s := S4x1024x2048) (k2_off4 i) S1x1024x2048.size (k2_off4_inb i))) fs0 w Finset.univ
/-- Column block `j` after the copy of slot `n % 4` at contents `fs` has landed in it whole, over contents `G`. -/
abbrev landedW (n : ℕ) (j : Fin 48) (G : OBuf (F := F) c) (fs : RBuf (F := F) c) : OBuf (F := F) c :=
  (colB j).view.writes (Elt F) G [⟨Rect.whole S1024x2048, ReadAs.same.apply ((rslot n).view.read (Elt F) fs)⟩]
end Pieces

/-! ## The body at a point: it waits for the copy issued four points earlier (from the fifth point on), stores, issues -/

set_option maxHeartbeats 4000000 in
/-- At a point `4 ≤ t < 48`: from the staged blocks, the flight of the slot's previous copy (block `jw`), the point's own column
    block still at contents `G` and the core's `owes`, the body runs to the staged blocks as they were, block `jw` as delivered,
    the flight of the point's own copy, and the wait recorded. -/
theorem run_mid (ι : Ix) (c : Dev nD) (i : grid2.Coords) (h1 : k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw : Fin 48) (g0 : OBuf (F := F) c) (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c (i 0).val jw g0 fs0
        ∗ colP c ⟨(i 0).val, lt48_of_cond2 i h2⟩ G
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0
            ∗ flightP ι c (i 0).val ⟨(i 0).val, lt48_of_cond2 i h2⟩
                (landedW c (i 0).val ⟨(i 0).val, lt48_of_cond2 i h2⟩ G
                  (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 (insert (cellR (i 0).val, ι) W)) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  simp only [cc2__mm_body_eq_skeleton]; unfold cc2__mm_body_skel
  unfold owns
  iintro ⟨⟨%f0, %hf0, H0⟩, ⟨%f1, %hf1, H1⟩, ⟨%f2, %hf2, H2⟩, Hfl, Hcol, HW, Hk⟩
  obtain rfl := harg1.eq_unread hf0
  obtain rfl := harg2.eq_unread hf1
  obtain rfl := harg3.eq_unread hf2
  letI : Inhabited Ix := ⟨ι⟩
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hfl_dst]; · iexact Hfl_dst
  isplitl [Hfl]; · iexact Hfl
  iexact HW

set_option maxHeartbeats 4000000 in
/-- At a point `t < 4`: no copy is outstanding on the point's slot; the body finds the slot at any contents and its cell at zero. -/
theorem run_early (ι : Ix) (c : Dev nD) (i : grid2.Coords) (h1 : ¬ k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ cellP c (i 0).val ∗ slotP c (i 0).val fs0
        ∗ colP c ⟨(i 0).val, lt48_of_cond2 i h2⟩ G
        ∗ owes (c : Thread nD τ) 0 W
        ∗ (iprop(owns (c : Thread nD τ) arg1 fullShare x0 ∗ owns (c : Thread nD τ) arg2 fullShare x1 ∗ owns (c : Thread nD τ) arg3 fullShare x2
            ∗ flightP ι c (i 0).val ⟨(i 0).val, lt48_of_cond2 i h2⟩
                (landedW c (i 0).val ⟨(i 0).val, lt48_of_cond2 i h2⟩ G
                  (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 W) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  simp only [cc2__mm_body_eq_skeleton]; unfold cc2__mm_body_skel
  unfold owns
  iintro ⟨⟨%f0, %hf0, H0⟩, ⟨%f1, %hf1, H1⟩, ⟨%f2, %hf2, H2⟩, Hcell, Hslot, Hcol, HW, Hk⟩
  obtain rfl := harg1.eq_unread hf0
  obtain rfl := harg2.eq_unread hf1
  obtain rfl := harg3.eq_unread hf2
  letI : Inhabited Ix := ⟨ι⟩
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hcell]; · iexact Hcell
  iexact HW

/-! ## The clipped last block and the columns the kernel never writes -/

theorem inb_colL : ∀ a, (![0, 2048 * 48] : Fin 2 → Nat) a + S1024x1536.size a ≤ S1024x100000.size a := by decide
theorem inb_tail : ∀ a, (![0, 99840] : Fin 2 → Nat) a + S1024x160.size a ≤ S1024x100000.size a := by decide
theorem inb_slotL : ∀ a, (![48 % 4, 0, 0] : Fin 3 → Nat) a + S1x1024x1536.size a ≤ S4x1024x2048.size a := by decide
/-- Output columns `[98304, 99840)`: the part of the last block inside the array that the kernel copies out. -/
def colL : Memref sig .tc .hbm S1024x1536 .f32 :=
  outM.slice (Rect.unit (s := S1024x100000) ![0, 2048 * 48] S1024x1536.size inb_colL) (fun _ => rfl)
/-- Output columns `[99840, 100000)`, which this kernel leaves as it finds them. -/
def tailM : Memref sig .tc .hbm S1024x160 .f32 :=
  outM.slice (Rect.unit (s := S1024x100000) ![0, 99840] S1024x160.size inb_tail) (fun _ => rfl)
/-- The first 1536 columns of slot 0, the source of the last block's copy. -/
def rslotL : Memref sig .tc .vmem S1024x1536 .f32 :=
  (ringM.slice (Rect.unit (s := S4x1024x2048) ![48 % 4, 0, 0] S1x1024x1536.size inb_slotL) (fun _ => rfl)).squeeze S1024x1536 squeezes_S1x1024x1536_S1024x1536

/-- The same two runs with the point's number named: `n` is the coordinate. -/
theorem run_mid' (ι : Ix) (c : Dev nD) (i : grid2.Coords) (n : ℕ) (hn : (i 0).val = n) (hlt : n < 48)
    (h1 : k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw : Fin 48) (g0 : OBuf (F := F) c) (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c n jw g0 fs0
        ∗ colP c ⟨n, hlt⟩ G
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0
            ∗ flightP ι c n ⟨n, hlt⟩
                (landedW c n ⟨n, hlt⟩ G (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 (insert (cellR n, ι) W)) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  subst hn
  exact run_mid ι c i h1 h2 h3 arg1 harg1 arg2 harg2 arg3 harg3 x0 x1 x2 jw g0 fs0 G W K

theorem run_early' (ι : Ix) (c : Dev nD) (i : grid2.Coords) (n : ℕ) (hn : (i 0).val = n) (hlt : n < 48)
    (h1 : ¬ k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ cellP c n ∗ slotP c n fs0
        ∗ colP c ⟨n, hlt⟩ G
        ∗ owes (c : Thread nD τ) 0 W
        ∗ (iprop(owns (c : Thread nD τ) arg1 fullShare x0 ∗ owns (c : Thread nD τ) arg2 fullShare x1 ∗ owns (c : Thread nD τ) arg3 fullShare x2
            ∗ flightP ι c n ⟨n, hlt⟩
                (landedW c n ⟨n, hlt⟩ G (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 W) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  subst hn
  exact run_early ι c i h1 h2 h3 arg1 harg1 arg2 harg2 arg3 harg3 x0 x1 x2 fs0 G W K

/-! ## The invariant between points -/

/-- A run of blocks grows by its next number. -/
theorem bigSep_rangeSet_snoc {M : Type _} [URA M] {NB : ℕ} {Φ : Fin NB → sProp M} {lo hi : ℕ} (h : lo ≤ hi) (hhi : hi < NB) :
    bigSep (Ring.rangeSet NB lo (hi + 1)) Φ = iprop(Φ ⟨hi, hhi⟩ ∗ bigSep (Ring.rangeSet NB lo hi) Φ) := by
  have e : Ring.rangeSet NB lo (hi + 1) = insert ⟨hi, hhi⟩ (Ring.rangeSet NB lo hi) := by
    ext b; rw [Finset.mem_insert, Ring.mem_rangeSet, Ring.mem_rangeSet, Fin.ext_iff]; dsimp only; omega
  have hm : (⟨hi, hhi⟩ : Fin NB) ∉ Ring.rangeSet NB lo hi := by rw [Ring.mem_rangeSet]; dsimp only; omega
  rw [e, BI.bigSep_insert hm]; rfl

section Inv
variable (V : (c : Dev nD) → (b : Ref sig .tc) → Buf (Elt F) ((c : Thread nD τ).loc b)) (ι : Ix) (c : Dev nD)

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the second window's staging buffer holds at point `t`: the block's rows inside the array, `d` on the rows that overhang it. -/
def wblk (t : Fin cfg2.N) (d : (cfg2.win 1).block.Idx → Elt F (cfg2.win 1).elt) : (cfg2.win 1).block.Idx → Elt F (cfg2.win 1).elt :=
  (cfg2.win 1).fill (cfg2.grid.coords t) d (iblk V c 1 t)

/-- Contents for the overhanging rows that nothing reads: the array's first element. -/
def junk1 : (cfg2.win 1).block.Idx → Elt F (cfg2.win 1).elt :=
  fun _ => (Memref.whole main_arg2 : Memref sig .tc .hbm S100000x128 .f32).view.read (Elt F) (V c main_arg2) (fun a => ⟨0, by fin_cases a <;> decide⟩)

/-- The point at which column block `j` is computed and its copy issued. -/
def tpt (j : Fin 48) : Fin cfg2.N := ⟨j.val, Nat.lt_trans j.isLt (by rw [show cfg2.N = 49 from N_2]; decide)⟩

/-- The value the body stores at point `t`: the product of the first window's block with the second's, plus the third's row. -/
def payAt (t : Fin cfg2.N) (d : (cfg2.win 1).block.Idx → Elt F (cfg2.win 1).elt) : FVec F S1x1024x2048 .f32 :=
  k2_pay1 (ld0 (st2_0 t) (hstage2_0 ((cfg2.slots t 0).cast nbuf2_0)) (iblk V c 0 t))
    (ld1 (st2_1 t) (hstage2_1 ((cfg2.slots t 1).cast nbuf2_1)) (wblk V c t d))
    (ld2 (st2_2 t) (hstage2_2 ((cfg2.slots t 2).cast nbuf2_2)) (iblk V c 2 t))

/-- Column block `j` of the output at its final contents: the slot's value at point `j`, landed over the entry contents. -/
def BlockOk (j : Fin 48) (g : OBuf (F := F) c) : Prop :=
  ∃ (fs0 : RBuf (F := F) c) (d : (cfg2.win 1).block.Idx → Elt F (cfg2.win 1).elt),
    g = landedW c j.val j (V c main_v5) (storedW c (grid2.coords (tpt j)) fs0 (payAt V c (tpt j) d))

/-- Block `j` written; its copy in flight; not yet computed. A slot not yet used, with its cell. -/
def doneP (j : Fin 48) : sProp 𝕄 := iprop(∃ g, ⌜BlockOk V c j g⌝ ∗ colP c j g)
def flightAt (j : Fin 48) : sProp 𝕄 := iprop(∃ g fs, ⌜BlockOk V c j g⌝ ∗ flightP ι c j.val j g fs)
def pendP (j : Fin 48) : sProp 𝕄 := colP c j (V c main_v5)
def freeP (s : Fin 4) : sProp 𝕄 := iprop(cellP (F := F) (Ix := Ix) (Name := Name) (U := U) (Lvl := Lvl) c s.val ∗ ∃ f, slotP c s.val f)
end Inv

section Inv2
variable (V : (c : Dev nD) → (b : Ref sig .tc) → Buf (Elt F) ((c : Thread nD τ).loc b)) (ι : Ix) (c : Dev nD)

/-- The last point of the grid. -/
def t48 : Fin cfg2.N := ⟨48, by rw [show cfg2.N = 49 from N_2]; decide⟩

/-- The last block's columns inside the array held by their own elements; the columns never written. -/
abbrev colLP (g : OBuf (F := F) c) : sProp 𝕄 := colL.view.loc (c : Thread nD τ) ↦[colL.view.set]{fullShare} g
abbrev tailP (g : OBuf (F := F) c) : sProp 𝕄 := tailM.view.loc (c : Thread nD τ) ↦[tailM.view.set]{fullShare} g

/-- The last block's columns at their final contents: the first 1536 columns of slot 0's value at the last point. -/
def LastOk (g : OBuf (F := F) c) : Prop :=
  ∃ (fs0 : RBuf (F := F) c) (d : (cfg2.win 1).block.Idx → Elt F (cfg2.win 1).elt),
    g = colL.view.writes (Elt F) (V c main_v5)
      [⟨Rect.whole S1024x1536, ReadAs.same.apply (rslotL.view.read (Elt F) (storedW c (grid2.coords t48) fs0 (payAt V c t48 d)))⟩]

/-- The scoped buffers of the core that are neither a staging buffer of this pipeline nor the ring. -/
def restP : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f))

/-- What never changes between points: the last block's columns and the unwritten columns at their entry contents, the other
    scoped buffers. -/
def constP : sProp 𝕄 := iprop(colLP c (V c main_v5) ∗ tailP c (V c main_v5) ∗ restP (F := F) (Ix := Ix) (Name := Name) (U := U) (Lvl := Lvl) c)

/-- THE INVARIANT before point `p ≤ 48`: the blocks below `p - 4` written; the copies of blocks `p - 4 … p - 1` in flight, each
    on its slot's cell; the blocks from `p` on at their entry contents; the slots `p … 3` not yet used (when `p < 4`), each with its
    cell at zero. -/
def PhiMid (p : ℕ) : sProp 𝕄 :=
  iprop(bigSep (Ring.rangeSet 48 0 (p - 4)) (doneP V c) ∗ bigSep (Ring.rangeSet 48 (p - 4) p) (flightAt V ι c)
    ∗ bigSep (Ring.rangeSet 48 p 48) (pendP V c) ∗ bigSep (Ring.rangeSet 4 p 4) (freeP (F := F) (Ix := Ix) (Name := Name) (U := U) (Lvl := Lvl) c)
    ∗ constP V c)
/-- and after the last point: every block written, the last block's columns too, every slot free, every cell at zero. -/
def PhiEnd : sProp 𝕄 :=
  iprop(bigSep Finset.univ (doneP V c) ∗ bigSep Finset.univ (freeP (F := F) (Ix := Ix) (Name := Name) (U := U) (Lvl := Lvl) c)
    ∗ (∃ g, ⌜LastOk V c g⌝ ∗ colLP c g) ∗ tailP c (V c main_v5) ∗ restP (F := F) (Ix := Ix) (Name := Name) (U := U) (Lvl := Lvl) c)
def PhiN (p : ℕ) : sProp 𝕄 := if p = 49 then PhiEnd V c else PhiMid V ι c p
end Inv2

end Cert.KernelIdeal.Mm

end
-- ==== Proof.MmBody.lean ====
import proofs.«204097_g52673478918828_cont_9to1c4b_838_31_alg».proof.Proof.MmRegion
import Idealize.ShloMosaic.Lib.Pipeline.FrameBody
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## Slots and cells by residue -/

private theorem rect_unit_congr {s : Shape} {off off' size : Fin s.rank → ℕ} (h : off = off') (p : ∀ a, off a + size a ≤ s.size a)
    (p' : ∀ a, off' a + size a ≤ s.size a) : Rect.unit off size p = Rect.unit off' size p' := by subst h; rfl

/-- Slot `n % 4`'s elements of the ring buffer. -/
private def slotSet (n : ℕ) : Finset S4x1024x2048.Idx := (Rect.unit (s := S4x1024x2048) ![n % 4, 0, 0] S1x1024x2048.size (inb_slot n)).set
private theorem slotSet_eq (n : ℕ) : (rslot n).view.set = slotSet n := by
  simp only [rslot, Memref.view_squeeze, View.set_reshape]; exact View.set_slice_whole _ _
private theorem slotSet_congr {m n : ℕ} (h : m % 4 = n % 4) : slotSet m = slotSet n := by
  unfold slotSet; rw [rect_unit_congr (by rw [h]) (inb_slot m) (inb_slot n)]

section Congr
variable (ι : Ix) (c : Dev nD)
private theorem slotP_eq (n : ℕ) (f : RBuf (F := F) c) :
    (slotP c n f : sProp 𝕄) = (((c : Thread nD τ).loc cc2_scratch0) ↦[slotSet n]{fullShare} f) := by
  unfold slotP; rw [slotSet_eq]; rfl
private theorem slotP_congr {m n : ℕ} (h : m % 4 = n % 4) (f : RBuf (F := F) c) : (slotP c m f : sProp 𝕄) = slotP c n f := by
  rw [slotP_eq, slotP_eq, slotSet_congr h]
/-- A flight named by two numbers of one residue is one flight. -/
private theorem flightP_congr {m n : ℕ} (h : m % 4 = n % 4) (j : Fin 48) (g : OBuf (F := F) c) (fs : RBuf (F := F) c) :
    (flightP ι c m j g fs : sProp 𝕄) = flightP ι c n j g fs := by
  unfold flightP cellR
  rw [cellA_congr h, slotP_congr c h]
end Congr

/-! ## The invariant from point to point -/

section Steps
variable (V : (c : Dev nD) → (b : Ref sig .tc) → Buf (Elt F) ((c : Thread nD τ).loc b)) (ι : Ix) (c : Dev nD)

/-- What a point `4 ≤ t < 48` leaves alone. -/
def frameMid (t : ℕ) : sProp 𝕄 :=
  iprop(bigSep (Ring.rangeSet 48 0 (t - 4)) (doneP V c) ∗ bigSep (Ring.rangeSet 48 (t - 4 + 1) t) (flightAt V ι c)
    ∗ bigSep (Ring.rangeSet 48 (t + 1) 48) (pendP V c) ∗ constP V c)

theorem here_mid (t : ℕ) (h4 : 4 ≤ t) (ht : t < 48) :
    (PhiN V ι c t : sProp 𝕄) ⊢ iprop((∃ g fs, ⌜BlockOk V c ⟨t - 4, by omega⟩ g⌝ ∗ flightP ι c t ⟨t - 4, by omega⟩ g fs)
      ∗ colP c ⟨t, ht⟩ (V c main_v5) ∗ frameMid V ι c t) := by
  unfold PhiN; rw [if_neg (by omega)]; unfold PhiMid frameMid
  rw [Ring.bigSep_rangeSet_head (lo := t - 4) (hi := t) (by omega) (by omega),
    Ring.bigSep_rangeSet_head (lo := t) (hi := 48) ht (by omega), Ring.bigSep_rangeSet_empty (lo := t) (hi := 4) (by omega)]
  iintro ⟨Hd, ⟨Hf, Hfs⟩, ⟨Hp, Hps⟩, -, Hc⟩
  isplitl [Hf]
  · unfold flightAt; icases Hf with ⟨%g, %fs, %hok, Hf⟩
    iexists g, fs; isplitr; · ipureintro; exact hok
    iapply (Entails.of_eq (flightP_congr ι c (m := t - 4) (n := t) (by omega) _ g fs)) $$ Hf
  isplitl [Hp]; · unfold pendP; iexact Hp
  isplitl [Hd]; · iexact Hd
  isplitl [Hfs]; · iexact Hfs
  isplitl [Hps]; · iexact Hps
  iexact Hc

theorem next_mid (t : ℕ) (h4 : 4 ≤ t) (ht : t < 48) :
    iprop(doneP V c ⟨t - 4, by omega⟩ ∗ flightAt V ι c ⟨t, ht⟩ ∗ frameMid V ι c t) ⊢ (PhiN V ι c (t + 1) : sProp 𝕄) := by
  unfold PhiN; rw [if_neg (by omega)]; unfold PhiMid frameMid
  have e : t + 1 - 4 = t - 4 + 1 := by omega
  rw [e, bigSep_rangeSet_snoc (lo := 0) (hi := t - 4) (by omega) (by omega),
    bigSep_rangeSet_snoc (lo := t - 4 + 1) (hi := t) (by omega) ht, Ring.bigSep_rangeSet_empty (lo := t + 1) (hi := 4) (by omega)]
  iintro ⟨Hd, Hf, Hds, Hfs, Hps, Hc⟩
  isplitl [Hd Hds]
  · isplitl [Hd]; · iexact Hd
    iexact Hds
  isplitl [Hf Hfs]
  · isplitl [Hf]; · iexact Hf
    iexact Hfs
  isplitl [Hps]; · iexact Hps
  isplitr; · iempintro
  iexact Hc

/-- What a point `t < 4` leaves alone. -/
def frameEarly (t : ℕ) : sProp 𝕄 :=
  iprop(bigSep (Ring.rangeSet 48 0 t) (flightAt V ι c) ∗ bigSep (Ring.rangeSet 48 (t + 1) 48) (pendP V c)
    ∗ bigSep (Ring.rangeSet 4 (t + 1) 4) (freeP (F := F) (Ix := Ix) (Name := Name) (U := U) (Lvl := Lvl) c) ∗ constP V c)

theorem here_early (t : ℕ) (h4 : t < 4) :
    (PhiN V ι c t : sProp 𝕄) ⊢ iprop(freeP (F := F) (Ix := Ix) (Name := Name) (U := U) (Lvl := Lvl) c ⟨t, h4⟩ ∗ colP c ⟨t, by omega⟩ (V c main_v5) ∗ frameEarly V ι c t) := by
  unfold PhiN; rw [if_neg (by omega)]; unfold PhiMid frameEarly
  have e : t - 4 = 0 := by omega
  rw [e, Ring.bigSep_rangeSet_empty (lo := 0) (hi := 0) (le_refl _),
    Ring.bigSep_rangeSet_head (lo := t) (hi := 48) (by omega) (by omega), Ring.bigSep_rangeSet_head (lo := t) (hi := 4) h4 h4]
  iintro ⟨-, Hfs, ⟨Hp, Hps⟩, ⟨Hfr, Hfrs⟩, Hc⟩
  isplitl [Hfr]; · iexact Hfr
  isplitl [Hp]; · unfold pendP; iexact Hp
  isplitl [Hfs]; · iexact Hfs
  isplitl [Hps]; · iexact Hps
  isplitl [Hfrs]; · iexact Hfrs
  iexact Hc

theorem next_early (t : ℕ) (h4 : t < 4) :
    iprop(flightAt V ι c ⟨t, by omega⟩ ∗ frameEarly V ι c t) ⊢ (PhiN V ι c (t + 1) : sProp 𝕄) := by
  unfold PhiN; rw [if_neg (by omega)]; unfold PhiMid frameEarly
  have e : t + 1 - 4 = 0 := by omega
  rw [e, Ring.bigSep_rangeSet_empty (lo := 0) (hi := 0) (le_refl _), bigSep_rangeSet_snoc (lo := 0) (hi := t) (Nat.zero_le _) (by omega)]
  iintro ⟨Hf, Hfs, Hps, Hfrs, Hc⟩
  isplitr; · iempintro
  isplitl [Hf Hfs]
  · isplitl [Hf]; · iexact Hf
    iexact Hfs
  isplitl [Hps]; · iexact Hps
  isplitl [Hfrs]; · iexact Hfrs
  iexact Hc
end Steps

/-! ## The pipeline's proof data -/

section Data
variable (V : (c : Dev nD) → (b : Ref sig .tc) → Buf (Elt F) ((c : Thread nD τ).loc b)) (ι : Ix) (B : Set (SemLoc sig × Ix)) (c : Dev nD)

/-- The proof data of the matmul's pipeline on core `c`: the arrays as the region finds them; the body leaves every staged block
    in place; the invariant `PhiN`; nothing owed; full shares; the recorded waits within `B`. -/
def dat : Dat τ (Elt F) Ix Name U Lvl cfg2 c where
  A w := V c (Pipeline.arrRef spec2 w)
  after w t := match w with
    | ⟨0, _⟩ => iblk V c 0 t
    | ⟨1, _⟩ => wblk V c t (junk1 V c)
    | ⟨2, _⟩ => iblk V c 2 t
  Φ p := PhiN V ι c p.val
  q _ := fullShare
  owed _ := 0
  recorded _ := B

theorem A_eq (w : Fin cfg2.W) : (dat V ι B c : Dat τ (Elt F) Ix Name U Lvl cfg2 c).A w = V c (Pipeline.arrRef spec2 w) := by dsimp only [dat]
theorem after2_0 (t : Fin cfg2.N) : (dat V ι B c : Dat τ (Elt F) Ix Name U Lvl cfg2 c).after 0 t = iblk V c 0 t := by dsimp only [dat]
theorem after2_1 (t : Fin cfg2.N) : (dat V ι B c : Dat τ (Elt F) Ix Name U Lvl cfg2 c).after 1 t = wblk V c t (junk1 V c) := by dsimp only [dat]
theorem after2_2 (t : Fin cfg2.N) : (dat V ι B c : Dat τ (Elt F) Ix Name U Lvl cfg2 c).after 2 t = iblk V c 2 t := by dsimp only [dat]
theorem Phi_castSucc (t : Fin cfg2.N) : (dat V ι B c : Dat τ (Elt F) Ix Name U Lvl cfg2 c).Φ t.castSucc = PhiN V ι c t.val := by
  dsimp only [dat]; simp only [Fin.coe_castSucc]
theorem Phi_succ (t : Fin cfg2.N) : (dat V ι B c : Dat τ (Elt F) Ix Name U Lvl cfg2 c).Φ t.succ = PhiN V ι c (t.val + 1) := by
  dsimp only [dat]; simp only [Fin.val_succ]

/-- The first and third windows' staging buffers hold their blocks at every point, fetched there or not. -/
theorem before2_0 (t : Fin cfg2.N) (d) : (dat V ι B c : Dat τ (Elt F) Ix Name U Lvl cfg2 c).before 0 t d = iblk V c 0 t :=
  ((dat V ι B c : Dat τ (Elt F) Ix Name U Lvl cfg2 c).before_in_eq_fetched 0 rfl (fun _ => rfl) (fun _ _ _ => rfl)
      (fun t => by rw [after2_0]; unfold Dat.blockOf iblk; rw [A_eq]; try rfl) t d).trans
    (by unfold Dat.fetched Dat.blockOf iblk; rw [A_eq]; try rfl)
theorem before2_2 (t : Fin cfg2.N) (d) : (dat V ι B c : Dat τ (Elt F) Ix Name U Lvl cfg2 c).before 2 t d = iblk V c 2 t :=
  ((dat V ι B c : Dat τ (Elt F) Ix Name U Lvl cfg2 c).before_in_eq_fetched 2 rfl (fun _ => rfl) (fun _ _ _ => rfl)
      (fun t => by rw [after2_2]; unfold Dat.blockOf iblk; rw [A_eq]; try rfl) t d).trans
    (by unfold Dat.fetched Dat.blockOf iblk; rw [A_eq]; try rfl)
/-- The second window is fetched at every point: its buffer holds the block's rows inside the array, `d` on the others. -/
theorem before2_1 (t : Fin cfg2.N) (d) : (dat V ι B c : Dat τ (Elt F) Ix Name U Lvl cfg2 c).before 1 t d = wblk V c t d := by
  unfold Dat.before; rw [if_pos (fetch2_1 t)]; unfold Dat.fetched Dat.blockOf wblk iblk; rw [A_eq]; try rfl
/-- What the second window's buffer is left at, on the rows the transfers move. -/
theorem leaves2_1 (t : Fin cfg2.N) (d) :
    (cfg2.win 1).fill (cfg2.grid.coords t) d ((cfg2.win 1).cut (cfg2.grid.coords t) ((dat V ι B c : Dat τ (Elt F) Ix Name U Lvl cfg2 c).after 1 t)) = wblk V c t d := by
  rw [after2_1]; unfold wblk; rw [(cfg2.win 1).cut_fill]

/-- What the body is called with at point `t`, the windows one by one, -/
def bodyPre (t : Fin cfg2.N) : sProp 𝕄 :=
  iprop((dat V ι B c : Dat τ (Elt F) Ix Name U Lvl cfg2 c).Φ t.castSucc ∗ (dat V ι B c : Dat τ (Elt F) Ix Name U Lvl cfg2 c).owesAt ι t.castSucc
    ∗ (∃ d, owns (c : Thread nD τ) (st2_0 t) fullShare ((dat V ι B c : Dat τ (Elt F) Ix Name U Lvl cfg2 c).before 0 t d))
    ∗ (∃ d, owns (c : Thread nD τ) (st2_1 t) fullShare ((dat V ι B c : Dat τ (Elt F) Ix Name U Lvl cfg2 c).before 1 t d))
    ∗ (∃ d, owns (c : Thread nD τ) (st2_2 t) fullShare ((dat V ι B c : Dat τ (Elt F) Ix Name U Lvl cfg2 c).before 2 t d)))
/-- and what it returns (the second window on the rows its transfers move). -/
def bodyPost (t : Fin cfg2.N) : sProp 𝕄 :=
  iprop((dat V ι B c : Dat τ (Elt F) Ix Name U Lvl cfg2 c).Φ t.succ ∗ (dat V ι B c : Dat τ (Elt F) Ix Name U Lvl cfg2 c).owesAt ι t.succ
    ∗ owns (c : Thread nD τ) (st2_0 t) fullShare ((dat V ι B c : Dat τ (Elt F) Ix Name U Lvl cfg2 c).after 0 t)
    ∗ (∃ d, owns (c : Thread nD τ) (st2_1 t) fullShare
        ((cfg2.win 1).fill (cfg2.grid.coords t) d ((cfg2.win 1).cut (cfg2.grid.coords t) ((dat V ι B c : Dat τ (Elt F) Ix Name U Lvl cfg2 c).after 1 t))))
    ∗ owns (c : Thread nD τ) (st2_2 t) fullShare ((dat V ι B c : Dat τ (Elt F) Ix Name U Lvl cfg2 c).after 2 t))

set_option maxHeartbeats 2000000 in
/-- The body at a point before the last. -/
theorem sound_body_lt (hB : ∀ n : ℕ, (cellR n, ι) ∈ B) (t : Fin cfg2.N) (ht : t.val < 48) :
    (bodyPre V ι B c t : sProp 𝕄) ⊢ wp frame (wpE (defs₀ (F := F)) Variants.none c none) Set.univ (bodyAt2 t) (fun _ => bodyPost V ι B c t) := by
  unfold bodyPre bodyPost bodyAt2
  simp only [before2_0, before2_1, before2_2, leaves2_1]
  rw [after2_0, after2_2, Phi_castSucc, Phi_succ]
  unfold Dat.owesAt Pipeline.owesWithin
  rw [show (dat V ι B c : Dat τ (Elt F) Ix Name U Lvl cfg2 c).owed t.castSucc = 0 from rfl, show (dat V ι B c : Dat τ (Elt F) Ix Name U Lvl cfg2 c).owed t.succ = 0 from rfl]
  have hi := crd_val t
  have hc2 := (hcond2 t).mpr ht
  have hc3 : ¬ k2_cond3 (grid2.coords t) = 1#1 := fun h => by have := (hcond3 t).mp h; omega
  by_cases h4 : 4 ≤ t.val
  · have hc1 := (hcond1 t).mpr h4
    iintro ⟨HΦ, ⟨%W, %hW, HW⟩, ⟨%d0, H0⟩, ⟨%d1, H1⟩, ⟨%d2, H2⟩⟩
    ihave HΦ' := (here_mid V ι c t.val h4 ht) $$ HΦ
    icases HΦ' with ⟨⟨%g0, %fs0, %hok, Hfl⟩, Hpend, Hframe⟩
    iapply (run_mid' ι c (grid2.coords t) t.val hi ht hc1 hc2 hc3 _ _ _ _ _ _ (iblk V c 0 t) (wblk V c t d1) (iblk V c 2 t)
      ⟨t.val - 4, by omega⟩ g0 fs0 (V c main_v5) W _)
    isplitl [H0]; · iexact H0
    isplitl [H1]; · iexact H1
    isplitl [H2]; · iexact H2
    isplitl [Hfl]; · iexact Hfl
    isplitl [Hpend]; · iexact Hpend
    isplitl [HW]; · iexact HW
    iintro ⟨H0, H1, H2, Hdone, Hfl', HW'⟩
    isplitl [Hdone Hfl' Hframe]
    · iapply (next_mid V ι c t.val h4 ht)
      isplitl [Hdone]
      · unfold doneP; iexists g0; isplitr; · ipureintro; exact hok
        iexact Hdone
      isplitl [Hfl']
      · unfold flightAt; iexists _, _; isplitr; · ipureintro; exact ⟨fs0, d1, rfl⟩
        iexact Hfl'
      iexact Hframe
    isplitl [HW']
    · iexists _; isplitr
      · ipureintro; rw [Finset.coe_insert]; exact Set.insert_subset (Or.inl (hB t.val)) hW
      iexact HW'
    isplitl [H0]; · iexact H0
    isplitl [H1]
    · iexists d1
      iapply (Entails.of_eq (congrArg (fun X => owns (c : Thread nD τ) (st2_1 t) fullShare X) (leaves2_1 V ι B c t d1).symm)) $$ H1
    iexact H2
  · have h4' : t.val < 4 := by omega
    have hc1 : ¬ k2_cond1 (grid2.coords t) = 1#1 := fun h => h4 ((hcond1 t).mp h)
    iintro ⟨HΦ, ⟨%W, %hW, HW⟩, ⟨%d0, H0⟩, ⟨%d1, H1⟩, ⟨%d2, H2⟩⟩
    ihave HΦ' := (here_early V ι c t.val h4') $$ HΦ
    unfold freeP
    icases HΦ' with ⟨⟨Hcell, ⟨%fs0, Hslot⟩⟩, Hpend, Hframe⟩
    iapply (run_early' ι c (grid2.coords t) t.val hi ht hc1 hc2 hc3 _ _ _ _ _ _ (iblk V c 0 t) (wblk V c t d1) (iblk V c 2 t)
      fs0 (V c main_v5) W _)
    isplitl [H0]; · iexact H0
    isplitl [H1]; · iexact H1
    isplitl [H2]; · iexact H2
    isplitl [Hcell]; · iexact Hcell
    isplitl [Hslot]; · iexact Hslot
    isplitl [Hpend]; · iexact Hpend
    isplitl [HW]; · iexact HW
    iintro ⟨H0, H1, H2, Hfl', HW'⟩
    isplitl [Hfl' Hframe]
    · iapply (next_early V ι c t.val h4')
      isplitl [Hfl']
      · unfold flightAt; iexists _, _; isplitr; · ipureintro; exact ⟨fs0, d1, rfl⟩
        iexact Hfl'
      iexact Hframe
    isplitl [HW']
    · iexists _; isplitr; · ipureintro; exact hW
      iexact HW'
    isplitl [H0]; · iexact H0
    isplitl [H1]
    · iexists d1
      iapply (Entails.of_eq (congrArg (fun X => owns (c : Thread nD τ) (st2_1 t) fullShare X) (leaves2_1 V ι B c t d1).symm)) $$ H1
    iexact H2
end Data

/-! ## The invariant around the last point -/

section StepsLast
variable (V : (c : Dev nD) → (b : Ref sig .tc) → Buf (Elt F) ((c : Thread nD τ).loc b)) (ι : Ix) (c : Dev nD)

theorem here_last :
    (PhiN V ι c 48 : sProp 𝕄) ⊢ iprop((∃ g fs, ⌜BlockOk V c ⟨44, by decide⟩ g⌝ ∗ flightP ι c 48 ⟨44, by decide⟩ g fs)
      ∗ flightAt V ι c ⟨45, by decide⟩ ∗ flightAt V ι c ⟨46, by decide⟩ ∗ flightAt V ι c ⟨47, by decide⟩
      ∗ bigSep (Ring.rangeSet 48 0 44) (doneP V c) ∗ constP V c) := by
  unfold PhiN; rw [if_neg (by decide)]; unfold PhiMid
  rw [show (48 : ℕ) - 4 = 44 from rfl,
    Ring.bigSep_rangeSet_head (lo := 44) (hi := 48) (by decide) (by decide),
    Ring.bigSep_rangeSet_head (lo := 44 + 1) (hi := 48) (by decide) (by decide),
    Ring.bigSep_rangeSet_head (lo := 44 + 1 + 1) (hi := 48) (by decide) (by decide),
    Ring.bigSep_rangeSet_head (lo := 44 + 1 + 1 + 1) (hi := 48) (by decide) (by decide),
    Ring.bigSep_rangeSet_empty (lo := 44 + 1 + 1 + 1 + 1) (hi := 48) (by decide),
    Ring.bigSep_rangeSet_empty (lo := 48) (hi := 48) (le_refl _), Ring.bigSep_rangeSet_empty (lo := 48) (hi := 4) (by decide)]
  iintro ⟨Hd, ⟨Hf4, Hf5, Hf6, Hf7, -⟩, -, -, Hc⟩
  isplitl [Hf4]
  · unfold flightAt; icases Hf4 with ⟨%g, %fs, %hok, Hf⟩
    iexists g, fs; isplitr; · ipureintro; exact hok
    iapply (Entails.of_eq (flightP_congr ι c (m := 44) (n := 48) (by decide) _ g fs)) $$ Hf
  isplitl [Hf5]; · iexact Hf5
  isplitl [Hf6]; · iexact Hf6
  isplitl [Hf7]; · iexact Hf7
  isplitl [Hd]; · iexact Hd
  iexact Hc

theorem next_last :
    iprop(doneP V c ⟨44, by decide⟩ ∗ doneP V c ⟨45, by decide⟩ ∗ doneP V c ⟨46, by decide⟩ ∗ doneP V c ⟨47, by decide⟩
      ∗ bigSep (Ring.rangeSet 48 0 44) (doneP V c)
      ∗ freeP (F := F) (Ix := Ix) (Name := Name) (U := U) (Lvl := Lvl) c ⟨0, by decide⟩ ∗ freeP (F := F) (Ix := Ix) (Name := Name) (U := U) (Lvl := Lvl) c ⟨1, by decide⟩
      ∗ freeP (F := F) (Ix := Ix) (Name := Name) (U := U) (Lvl := Lvl) c ⟨2, by decide⟩ ∗ freeP (F := F) (Ix := Ix) (Name := Name) (U := U) (Lvl := Lvl) c ⟨3, by decide⟩
      ∗ (∃ g, ⌜LastOk V c g⌝ ∗ colLP c g) ∗ tailP c (V c main_v5) ∗ restP (F := F) (Ix := Ix) (Name := Name) (U := U) (Lvl := Lvl) c)
      ⊢ (PhiN V ι c 49 : sProp 𝕄) := by
  unfold PhiN; rw [if_pos rfl]; unfold PhiEnd
  rw [← Ring.rangeSet_univ (NB := 48), ← Ring.rangeSet_univ (NB := 4),
    bigSep_rangeSet_snoc (NB := 48) (lo := 0) (hi := 47) (by decide) (by decide),
    bigSep_rangeSet_snoc (NB := 48) (lo := 0) (hi := 46) (by decide) (by decide),
    bigSep_rangeSet_snoc (NB := 48) (lo := 0) (hi := 45) (by decide) (by decide),
    bigSep_rangeSet_snoc (NB := 48) (lo := 0) (hi := 44) (by decide) (by decide),
    Ring.bigSep_rangeSet_head (NB := 4) (lo := 0) (hi := 4) (by decide) (by decide),
    Ring.bigSep_rangeSet_head (NB := 4) (lo := 0 + 1) (hi := 4) (by decide) (by decide),
    Ring.bigSep_rangeSet_head (NB := 4) (lo := 0 + 1 + 1) (hi := 4) (by decide) (by decide),
    Ring.bigSep_rangeSet_head (NB := 4) (lo := 0 + 1 + 1 + 1) (hi := 4) (by decide) (by decide),
    Ring.bigSep_rangeSet_empty (NB := 4) (lo := 0 + 1 + 1 + 1 + 1) (hi := 4) (by decide)]
  iintro ⟨H4, H5, H6, H7, Hd, F0, F1, F2, F3, HL, HT, HR⟩
  isplitl [H4 H5 H6 H7 Hd]
  · isplitl [H7]; · iexact H7
    isplitl [H6]; · iexact H6
    isplitl [H5]; · iexact H5
    isplitl [H4]; · iexact H4
    iexact Hd
  isplitl [F0 F1 F2 F3]
  · isplitl [F0]; · iexact F0
    isplitl [F1]; · iexact F1
    isplitl [F2]; · iexact F2
    isplitl [F3]; · iexact F3
    iempintro
  isplitl [HL]; · iexact HL
  isplitl [HT]; · iexact HT
  iexact HR
end StepsLast

end Cert.KernelIdeal.Mm

end
-- ==== Proof.MmLast.lean ====
/-
  The big product's body at the LAST point of its grid.

  At point 48 the body waits for the copy issued four points earlier, stores the point's value into slot 0 of the ring,
  copies the first 1536 columns of that slot to the last block's columns inside the output array and waits for that copy,
  then waits for the three copies still outstanding (blocks 47, 46, 45). The source of the clipped copy is a part of a slot
  the body holds by the slot's own 2048 columns: the slot is split into that part and the rest before the copy, and put
  together again after its wait.
-/
import proofs.«204097_g52673478918828_cont_9to1c4b_838_31_alg».proof.Proof.MmRegion
import Idealize.ShloMosaic.Lib.Pipeline.FrameBody
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The last point's operands are the slots, blocks and cells by number -/

/-- At the last point the clipped block's output columns start at 2048 · 48, -/
theorem k2_off9_last : ∀ i : grid2.Coords, k2_cond3 i = 1#1 → k2_off9 i = ![0, 2048 * 48] := by decide +kernel
/-- its source is slot 48 mod 4, -/
theorem k2_off10_last : ∀ i : grid2.Coords, k2_cond3 i = 1#1 → k2_off10 i = ![48 % 4, 0, 0] := by decide +kernel
/-- and the three copies still outstanding are those of blocks 47, 46, 45, out of slots 47, 46, 45 mod 4. -/
theorem k2_off12_eq1 : ∀ i : grid2.Coords, k2_cond3 i = 1#1 → k2_off12 i 1#32 = ![0, 2048 * 47] := by decide +kernel
theorem k2_off12_eq2 : ∀ i : grid2.Coords, k2_cond3 i = 1#1 → k2_off12 i 2#32 = ![0, 2048 * 46] := by decide +kernel
theorem k2_off12_eq3 : ∀ i : grid2.Coords, k2_cond3 i = 1#1 → k2_off12 i 3#32 = ![0, 2048 * 45] := by decide +kernel
theorem k2_off13_eq1 : ∀ i : grid2.Coords, k2_cond3 i = 1#1 → k2_off13 i 1#32 = ![47 % 4, 0, 0] := by decide +kernel
theorem k2_off13_eq2 : ∀ i : grid2.Coords, k2_cond3 i = 1#1 → k2_off13 i 2#32 = ![46 % 4, 0, 0] := by decide +kernel
theorem k2_off13_eq3 : ∀ i : grid2.Coords, k2_cond3 i = 1#1 → k2_off13 i 3#32 = ![45 % 4, 0, 0] := by decide +kernel

@[sl_canon] theorem canon_col9 (i : grid2.Coords) (h3 : k2_cond3 i = 1#1) :
    outM.slice (Rect.unit (s := S1024x100000) (k2_off9 i) S1024x1536.size (k2_off9_inb i h3)) (fun _ => rfl) = colL :=
  Memref.slice_unit_congr _ (k2_off9_last i h3) _ _ (fun _ => rfl) (fun _ => rfl)
@[sl_canon] theorem canon_slot10 (i : grid2.Coords) (h3 : k2_cond3 i = 1#1) :
    (ringM.slice (Rect.unit (s := S4x1024x2048) (k2_off10 i) S1x1024x1536.size (k2_off10_inb i h3)) (fun _ => rfl)).squeeze S1024x1536 squeezes_S1x1024x1536_S1024x1536 = rslotL :=
  congrArg (fun M : Memref sig .tc .vmem S1x1024x1536 .f32 => M.squeeze S1024x1536 squeezes_S1x1024x1536_S1024x1536)
    (Memref.slice_unit_congr _ (k2_off10_last i h3) _ _ (fun _ => rfl) (fun _ => rfl))
@[sl_canon] theorem canon_cell11_1 (i : grid2.Coords) (h3 : k2_cond3 i = 1#1) :
    (cc2_scratch1.slice (Rect.unit (s := S4) (k2_off11 i 1#32) S1.size (k2_off11_inb i h3 0))).squeeze S_ squeezes_S1_S_ = cellA 47 :=
  congrArg (fun A : DmaSems sig S1 => A.squeeze S_ squeezes_S1_S_) (SemArray.slice_unit_congr _ (k2_off11_eq1 i h3) _ _)
@[sl_canon] theorem canon_cell11_2 (i : grid2.Coords) (h3 : k2_cond3 i = 1#1) :
    (cc2_scratch1.slice (Rect.unit (s := S4) (k2_off11 i 2#32) S1.size (k2_off11_inb i h3 1))).squeeze S_ squeezes_S1_S_ = cellA 46 :=
  congrArg (fun A : DmaSems sig S1 => A.squeeze S_ squeezes_S1_S_) (SemArray.slice_unit_congr _ (k2_off11_eq2 i h3) _ _)
@[sl_canon] theorem canon_cell11_3 (i : grid2.Coords) (h3 : k2_cond3 i = 1#1) :
    (cc2_scratch1.slice (Rect.unit (s := S4) (k2_off11 i 3#32) S1.size (k2_off11_inb i h3 2))).squeeze S_ squeezes_S1_S_ = cellA 45 :=
  congrArg (fun A : DmaSems sig S1 => A.squeeze S_ squeezes_S1_S_) (SemArray.slice_unit_congr _ (k2_off11_eq3 i h3) _ _)
@[sl_canon] theorem canon_slot13_1 (i : grid2.Coords) (h3 : k2_cond3 i = 1#1) :
    (ringM.slice (Rect.unit (s := S4x1024x2048) (k2_off13 i 1#32) S1x1024x2048.size (k2_off13_inb i h3 0)) (fun _ => rfl)).squeeze S1024x2048 squeezes_S1x1024x2048_S1024x2048 = rslot 47 :=
  congrArg (fun M : Memref sig .tc .vmem S1x1024x2048 .f32 => M.squeeze S1024x2048 squeezes_S1x1024x2048_S1024x2048)
    (Memref.slice_unit_congr _ (k2_off13_eq1 i h3) _ _ (fun _ => rfl) (fun _ => rfl))
@[sl_canon] theorem canon_slot13_2 (i : grid2.Coords) (h3 : k2_cond3 i = 1#1) :
    (ringM.slice (Rect.unit (s := S4x1024x2048) (k2_off13 i 2#32) S1x1024x2048.size (k2_off13_inb i h3 1)) (fun _ => rfl)).squeeze S1024x2048 squeezes_S1x1024x2048_S1024x2048 = rslot 46 :=
  congrArg (fun M : Memref sig .tc .vmem S1x1024x2048 .f32 => M.squeeze S1024x2048 squeezes_S1x1024x2048_S1024x2048)
    (Memref.slice_unit_congr _ (k2_off13_eq2 i h3) _ _ (fun _ => rfl) (fun _ => rfl))
@[sl_canon] theorem canon_slot13_3 (i : grid2.Coords) (h3 : k2_cond3 i = 1#1) :
    (ringM.slice (Rect.unit (s := S4x1024x2048) (k2_off13 i 3#32) S1x1024x2048.size (k2_off13_inb i h3 2)) (fun _ => rfl)).squeeze S1024x2048 squeezes_S1x1024x2048_S1024x2048 = rslot 45 :=
  congrArg (fun M : Memref sig .tc .vmem S1x1024x2048 .f32 => M.squeeze S1024x2048 squeezes_S1x1024x2048_S1024x2048)
    (Memref.slice_unit_congr _ (k2_off13_eq3 i h3) _ _ (fun _ => rfl) (fun _ => rfl))

/-! ## The last block's source inside its slot -/

/-- A unit-stride slice whose rectangle lies within another's has its elements among the other's. -/
theorem slice_set_subset {sig' : RefSig} {κ : Kind} {sp : Space} {s : Shape} {e : EltTy} (M : Memref sig' κ sp s e) (r₀ r : Rect s)
    (h₀ : ∀ a, r₀.stride a = 1) (h : ∀ a, r.stride a = 1) (hw : LoadRect.within r₀ r.toLoadRect = true) :
    (M.slice r h).view.set ⊆ (M.slice r₀ h₀).view.set := by
  show (M.view.slice r).set ⊆ (M.view.slice r₀).set
  rw [View.set_slice, View.set_slice]; exact Finset.map_subset_map.mpr (LoadRect.set_subset_of_within hw)

/-- The first 1536 columns of slot 0 are elements of the slot numbered `n`, for `n` a multiple of four. -/
theorem rslotL_subset (n : ℕ) (hn : n % 4 = 48 % 4) : rslotL.view.set ⊆ (rslot n).view.set := by
  have hw : LoadRect.within (Rect.unit (s := S4x1024x2048) ![n % 4, 0, 0] S1x1024x2048.size (inb_slot n))
      (Rect.unit (s := S4x1024x2048) ![48 % 4, 0, 0] S1x1024x1536.size inb_slotL).toLoadRect = true := by
    rw [Rect.unit_congr (show (![n % 4, 0, 0] : Fin 3 → Nat) = ![48 % 4, 0, 0] by rw [hn]) (inb_slot n) (inb_slot 48)]
    decide
  unfold rslotL rslot
  refine Memref.subset_of_eq_set (Memref.set_view_squeeze _ _) ?_
  refine Memref.subset_of_set_eq ?_ (Memref.set_view_squeeze _ _)
  exact slice_set_subset ringM _ _ _ _ hw

section Split
variable (c : Dev nD)

/-- A slot held by its own elements is its first 1536 columns and the rest of it, held apart. -/
theorem slot_split (n : ℕ) (hn : n % 4 = 48 % 4) (f : RBuf (F := F) c) :
    (slotP c n f : sProp 𝕄) ⊣⊢
      iprop((rslotL.view.loc (c : Thread nD τ) ↦[rslotL.view.set]{fullShare} f)
        ∗ ((rslot n).view.loc (c : Thread nD τ) ↦[(rslot n).view.set \ rslotL.view.set]{fullShare} f)) :=
  pointsTo_split_subset (rslotL_subset n hn)
end Split

/-- The waits the last point records are waits on the kernel's four cells. -/
theorem waits_sub (ι : Ix) (n : ℕ) (W : Waits sig Ix) :
    ((insert (cellR 45, ι) (insert (cellR 46, ι) (insert (cellR 47, ι) (insert (cellR n, ι) (insert (cellR n, ι) W))))
        : Waits sig Ix) : Set (SemLoc sig × Ix)) ⊆ ↑W ∪ {p | ∃ m, p = (cellR m, ι)} := by
  intro p hp
  simp only [Finset.coe_insert, Set.mem_insert_iff, Finset.mem_coe] at hp
  rcases hp with rfl | rfl | rfl | rfl | rfl | hp
  · exact Or.inr ⟨45, rfl⟩
  · exact Or.inr ⟨46, rfl⟩
  · exact Or.inr ⟨47, rfl⟩
  · exact Or.inr ⟨n, rfl⟩
  · exact Or.inr ⟨n, rfl⟩
  · exact Or.inl hp

set_option maxHeartbeats 4000000 in
/-- At the last point: the body waits for the copy issued four points earlier, stores, copies the first 1536 columns of the
    point's slot to the last block's columns inside the array and waits for that copy, then waits for the three copies still
    outstanding. From the staged blocks, the four flights, the last block's columns at contents `Gl` and the core's `owes`, it
    runs to the staged blocks as they were, the four blocks as delivered, the four slots and cells back, the last block's
    columns as the copy landed in them, and the waits recorded. -/
theorem run_last (ι : Ix) (c : Dev nD) (i : grid2.Coords) (h1 : k2_cond1 i = 1#1) (h2 : ¬ k2_cond2 i = 1#1) (h3 : k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw ja jb jc : Fin 48) (g0 ga gb gc : OBuf (F := F) c) (fs0 fa fb fc : RBuf (F := F) c) (Gl : OBuf (F := F) c)
    (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c (i 0).val jw g0 fs0 ∗ flightP ι c 47 ja ga fa ∗ flightP ι c 46 jb gb fb ∗ flightP ι c 45 jc gc fc
        ∗ colLP c Gl
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0 ∗ colP c ja ga ∗ colP c jb gb ∗ colP c jc gc
            ∗ slotP c (i 0).val (storedW c i fs0 (k2_pay1 (ld0 arg1 harg1 x0) (ld1 arg2 harg2 x1) (ld2 arg3 harg3 x2))) ∗ slotP c 47 fa ∗ slotP c 46 fb ∗ slotP c 45 fc
            ∗ cellP c (i 0).val ∗ cellP c 47 ∗ cellP c 46 ∗ cellP c 45
            ∗ colLP c (colL.view.writes (Elt F) Gl
                [⟨Rect.whole S1024x1536, ReadAs.same.apply (rslotL.view.read (Elt F) (storedW c i fs0 (k2_pay1 (ld0 arg1 harg1 x0) (ld1 arg2 harg2 x1) (ld2 arg3 harg3 x2))))⟩])
            ∗ (∃ W' : Waits sig Ix, ⌜(↑W' : Set (SemLoc sig × Ix)) ⊆ ↑W ∪ {p | ∃ n, p = (cellR n, ι)}⌝ ∗ owes (c : Thread nD τ) 0 W')) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  simp only [cc2__mm_body_eq_skeleton]; unfold cc2__mm_body_skel
  unfold owns
  iintro ⟨⟨%f0, %hf0, H0⟩, ⟨%f1, %hf1, H1⟩, ⟨%f2, %hf2, H2⟩, Hfl, Hfa, Hfb, Hfc, HcolL, HW, Hk⟩
  obtain rfl := harg1.eq_unread hf0
  obtain rfl := harg2.eq_unread hf1
  obtain rfl := harg3.eq_unread hf2
  letI : Inhabited Ix := ⟨ι⟩
  sl_exec (disch := first | exact h1 | exact h2 | exact h3)
  have hn4 : (i 0).val % 4 = 48 % 4 := by rw [(cond3_iff i).mp h3]
  ihave Hs' := (slot_split c (i 0).val hn4 _).1 $$ Hfl_src
  icases Hs' with ⟨Hwin, Hrest⟩
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hfl_dst]; · iexact Hfl_dst
  isplitl [Hfa_dst]; · iexact Hfa_dst
  isplitl [Hfb_dst]; · iexact Hfb_dst
  isplitl [Hfc_dst]; · iexact Hfc_dst
  isplitl [Hwin Hrest]
  · iapply (slot_split c (i 0).val hn4 _).2
    isplitl [Hwin]; · iexact Hwin
    iexact Hrest
  isplitl [Hfa_src]; · iexact Hfa_src
  isplitl [Hfb_src]; · iexact Hfb_src
  isplitl [Hfc_src]; · iexact Hfc_src
  isplitl [Hfl]; · iexact Hfl
  isplitl [Hfa]; · iexact Hfa
  isplitl [Hfb]; · iexact Hfb
  isplitl [Hfc]; · iexact Hfc
  isplitl [HcolL]; · iexact HcolL
  iexists _
  isplitr
  · ipureintro; exact waits_sub ι (i 0).val W
  iexact HW

end Cert.KernelIdeal.Mm

end
-- ==== Proof.MmSplit.lean ====
/-
  The ring buffer as its four slots and the output array as its fifty column blocks: element sets, and the
  whole buffers split into their pieces and joined back.
-/
import proofs.«204097_g52673478918828_cont_9to1c4b_838_31_alg».proof.Proof.MmRegion

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The slots of the ring buffer, by number modulo four -/

/-- The elements of slot `n % 4` of the ring buffer. -/
def slotSet (n : ℕ) : Finset S4x1024x2048.Idx := (Rect.unit (s := S4x1024x2048) ![n % 4, 0, 0] S1x1024x2048.size (inb_slot n)).set

/-- The slot's memref covers exactly those elements. -/
theorem rslot_set (n : ℕ) : (rslot n).view.set = slotSet n := by
  unfold slotSet
  simp only [rslot, Memref.view_squeeze, View.set_reshape]; exact View.set_slice_whole _ _

/-- Numbers congruent modulo four name one slot. -/
theorem slotSet_congr {m n : ℕ} (h : m % 4 = n % 4) : slotSet m = slotSet n := by
  unfold slotSet
  rw [Rect.unit_congr (by rw [h]) (inb_slot m) (inb_slot n)]

/-- A slot held is the ring buffer held on the slot's elements. -/
theorem slotP_eq (c : Dev nD) (n : ℕ) (f : RBuf (F := F) c) :
    (slotP c n f : sProp 𝕄) = (((c : Thread nD τ).loc cc2_scratch0) ↦[slotSet n]{fullShare} f) := by
  unfold slotP; rw [rslot_set]; rfl

theorem slotP_congr (c : Dev nD) {m n : ℕ} (h : m % 4 = n % 4) (f : RBuf (F := F) c) :
    (slotP c m f : sProp 𝕄) = slotP c n f := by
  rw [slotP_eq, slotP_eq, slotSet_congr h]

/-- Numbers congruent modulo four name one cell. -/
theorem cellR_congr {m n : ℕ} (h : m % 4 = n % 4) : cellR m = cellR n := by
  show SemLoc.dma (cellA m).sem = SemLoc.dma (cellA n).sem
  rw [cellA_congr h]

/-- A copy in flight on slot and cell `m % 4` is the same copy named by any number congruent to `m`. -/
theorem flightP_congr (ι : Ix) (c : Dev nD) {m n : ℕ} (h : m % 4 = n % 4) (j : Fin 48) (g : OBuf (F := F) c) (fs : RBuf (F := F) c) :
    (flightP ι c m j g fs : sProp 𝕄) = flightP ι c n j g fs := by
  show Transfers.Flight countersEmb (c : Thread nD τ) (cellR m) ι ((colB j).view.amount (cellR m)) iprop(colP c j g ∗ slotP c m fs)
    = Transfers.Flight countersEmb (c : Thread nD τ) (cellR n) ι ((colB j).view.amount (cellR n)) iprop(colP c j g ∗ slotP c n fs)
  rw [cellR_congr h, slotP_congr c h]

/-! ## The ring buffer whole is its four slots -/

theorem slots_disjoint (s s' : Fin 4) (h : s ≠ s') : Disjoint (slotSet s.val) (slotSet s'.val) :=
  Ring.lead_disjoint (s := S4x1024x2048) (0 : Fin 3) 1 (fun s : Fin 4 => (![s.val % 4, 0, 0] : Fin 3 → Nat)) S1x1024x2048.size
    (fun s => inb_slot s.val) (fun s => by show s.val % 4 = 1 * s.val; have := s.isLt; omega) rfl s s' h

theorem slots_cover : Finset.univ.biUnion (fun s : Fin 4 => slotSet s.val) = Finset.univ :=
  Ring.lead_cover (s := S4x1024x2048) (0 : Fin 3) 1 (fun s : Fin 4 => (![s.val % 4, 0, 0] : Fin 3 → Nat)) S1x1024x2048.size
    (fun s => inb_slot s.val) (fun s => by show s.val % 4 = 1 * s.val; have := s.isLt; omega)
    (fun s a ha => by fin_cases a <;> first | exact absurd rfl ha | rfl) rfl (fun a ha => by fin_cases a <;> first | exact absurd rfl ha | rfl) rfl

set_option maxHeartbeats 1000000 in
/-- The ring buffer whole at some contents is each of its slots at some contents, -/
theorem ring_split (c : Dev nD) :
    iprop(∃ f : RBuf (F := F) c, ((c : Thread nD τ).loc cc2_scratch0) ↦{fullShare} f)
      ⊢ (bigSep Finset.univ (fun s : Fin 4 => iprop(∃ f, slotP c s.val f)) : sProp 𝕄) := by
  iintro ⟨%f, H⟩
  have hmono : (bigSep Finset.univ (fun s : Fin 4 => (((c : Thread nD τ).loc cc2_scratch0) ↦[slotSet s.val]{fullShare} f : sProp 𝕄)))
      ⊢ bigSep Finset.univ (fun s : Fin 4 => iprop(∃ f, slotP c s.val f)) :=
    Idealize.SL.BI.bigSep_mono fun s _ =>
      show ((((c : Thread nD τ).loc cc2_scratch0) ↦[slotSet s.val]{fullShare} f : sProp 𝕄)) ⊢ iprop(∃ f, slotP c s.val f) from by
        iintro H; iexists f
        iapply (Entails.of_eq (slotP_eq c s.val f).symm); iexact H
  iapply hmono
  iapply (Entails.of_eq (Ring.pointsTo_blocks (Ix := Ix) (Name := Name) (U := U) (Lvl := Lvl) (q := fullShare)
    (fun s : Fin 4 => slotSet s.val) slots_disjoint slots_cover f))
  iexact H

set_option maxHeartbeats 1000000 in
/-- and back. -/
theorem ring_join (c : Dev nD) :
    (bigSep Finset.univ (fun s : Fin 4 => iprop(∃ f, slotP c s.val f)) : sProp 𝕄)
      ⊢ iprop(∃ f : RBuf (F := F) c, ((c : Thread nD τ).loc cc2_scratch0) ↦{fullShare} f) := by
  have hmono : (bigSep Finset.univ (fun s : Fin 4 => iprop(∃ f, slotP c s.val f)) : sProp 𝕄)
      ⊢ bigSep Finset.univ (fun s : Fin 4 => iprop(∃ f : RBuf (F := F) c, ((c : Thread nD τ).loc cc2_scratch0) ↦[slotSet s.val]{fullShare} f)) :=
    Idealize.SL.BI.bigSep_mono fun s _ =>
      show (iprop(∃ f, slotP c s.val f) : sProp 𝕄)
          ⊢ iprop(∃ f : RBuf (F := F) c, ((c : Thread nD τ).loc cc2_scratch0) ↦[slotSet s.val]{fullShare} f) from by
        iintro ⟨%f, H⟩; iexists f
        iapply (Entails.of_eq (slotP_eq c s.val f)); iexact H
  have f₀ : RBuf (F := F) c := fun _ => Classical.arbitrary _
  exact hmono.trans (Ring.pointsTo_blocks_join_exists (Ix := Ix) (Name := Name) (U := U) (Lvl := Lvl) (Val := Elt F)
    (ℓ := (c : Thread nD τ).loc cc2_scratch0) (q := fullShare) (fun s : Fin 4 => slotSet s.val) slots_disjoint slots_cover f₀)

/-! ## The output array whole is its fifty column blocks -/

/-- The elements of column block `j`, of the last block's columns inside the array, and of the columns never written. -/
def colSet (j : Fin 48) : Finset S1024x100000.Idx := (Rect.unit (s := S1024x100000) ![0, 2048 * j.val] S1024x2048.size (inb_col j)).set
def colLSet : Finset S1024x100000.Idx := (Rect.unit (s := S1024x100000) ![0, 2048 * 48] S1024x1536.size inb_colL).set
def tailSet : Finset S1024x100000.Idx := (Rect.unit (s := S1024x100000) ![0, 99840] S1024x160.size inb_tail).set

theorem colB_set (j : Fin 48) : (colB j).view.set = colSet j := by
  unfold colSet; simp only [colB, Memref.view_slice]; exact View.set_slice_whole _ _
theorem colL_set : colL.view.set = colLSet := by
  unfold colLSet; simp only [colL, Memref.view_slice]; exact View.set_slice_whole _ _
theorem tailM_set : tailM.view.set = tailSet := by
  unfold tailSet; simp only [tailM, Memref.view_slice]; exact View.set_slice_whole _ _

/-- Membership is a condition on the column alone. -/
theorem mem_colSet (j : Fin 48) (i : S1024x100000.Idx) : i ∈ colSet j ↔ 2048 * j.val ≤ (i 1).val ∧ (i 1).val < 2048 * j.val + 2048 := by
  unfold colSet; rw [Rect.mem_set_unit]
  have h0 : (i 0).val < 1024 := (i 0).isLt
  constructor
  · intro h; exact h 1
  · intro h a
    match a with
    | ⟨0, _⟩ => exact ⟨Nat.zero_le _, by show (i 0).val < 0 + 1024; omega⟩
    | ⟨1, _⟩ => exact h
theorem mem_colLSet (i : S1024x100000.Idx) : i ∈ colLSet ↔ 98304 ≤ (i 1).val ∧ (i 1).val < 99840 := by
  unfold colLSet; rw [Rect.mem_set_unit]
  have h0 : (i 0).val < 1024 := (i 0).isLt
  constructor
  · intro h; have := h 1; exact ⟨this.1, this.2⟩
  · intro h a
    match a with
    | ⟨0, _⟩ => exact ⟨Nat.zero_le _, by show (i 0).val < 0 + 1024; omega⟩
    | ⟨1, _⟩ => exact ⟨h.1, h.2⟩
theorem mem_tailSet (i : S1024x100000.Idx) : i ∈ tailSet ↔ 99840 ≤ (i 1).val := by
  unfold tailSet; rw [Rect.mem_set_unit]
  have h0 : (i 0).val < 1024 := (i 0).isLt
  have h1 : (i 1).val < 100000 := (i 1).isLt
  constructor
  · intro h; exact (h 1).1
  · intro h a
    match a with
    | ⟨0, _⟩ => exact ⟨Nat.zero_le _, by show (i 0).val < 0 + 1024; omega⟩
    | ⟨1, _⟩ => exact ⟨h, by show (i 1).val < 99840 + 160; omega⟩

theorem cols_disjoint (j j' : Fin 48) (h : j ≠ j') : Disjoint (colSet j) (colSet j') := by
  rw [Finset.disjoint_left]
  intro i hi hi'
  rw [mem_colSet] at hi hi'
  have hb : j.val ≠ j'.val := fun e => h (Fin.ext e)
  omega

/-- The forty-eight full blocks together are the columns below 98304. -/
theorem mem_cols (i : S1024x100000.Idx) : i ∈ Finset.univ.biUnion colSet ↔ (i 1).val < 98304 := by
  rw [Finset.mem_biUnion]
  constructor
  · rintro ⟨j, -, hj⟩; rw [mem_colSet] at hj; have := j.isLt; omega
  · intro h
    refine ⟨⟨(i 1).val / 2048, by omega⟩, Finset.mem_univ _, ?_⟩
    rw [mem_colSet]; show 2048 * ((i 1).val / 2048) ≤ (i 1).val ∧ (i 1).val < 2048 * ((i 1).val / 2048) + 2048; omega

theorem colL_tail_disjoint : Disjoint colLSet tailSet := by
  rw [Finset.disjoint_left]; intro i hi hi'; rw [mem_colLSet] at hi; rw [mem_tailSet] at hi'; omega
theorem cols_rest_disjoint : Disjoint (Finset.univ.biUnion colSet) (colLSet ∪ tailSet) := by
  rw [Finset.disjoint_left]; intro i hi hi'
  rw [mem_cols] at hi; rw [Finset.mem_union, mem_colLSet, mem_tailSet] at hi'; omega
theorem out_cover : (Finset.univ.biUnion colSet) ∪ (colLSet ∪ tailSet) = Finset.univ := by
  ext i
  simp only [Finset.mem_union, Finset.mem_univ, iff_true]
  rw [mem_cols, mem_colLSet, mem_tailSet]; omega

section Out
variable (c : Dev nD)

theorem colP_eq (j : Fin 48) (g : OBuf (F := F) c) :
    (colP c j g : sProp 𝕄) = (((c : Thread nD τ).loc main_v5) ↦[colSet j]{fullShare} g) := by
  unfold colP; rw [colB_set]; rfl
theorem colLP_eq (g : OBuf (F := F) c) :
    (colLP c g : sProp 𝕄) = (((c : Thread nD τ).loc main_v5) ↦[colLSet]{fullShare} g) := by
  unfold colLP; rw [colL_set]; rfl
theorem tailP_eq (g : OBuf (F := F) c) :
    (tailP c g : sProp 𝕄) = (((c : Thread nD τ).loc main_v5) ↦[tailSet]{fullShare} g) := by
  unfold tailP; rw [tailM_set]; rfl

/-- The output array whole is its forty-eight full column blocks, the last block's columns and the columns never written. -/
theorem out_eq (G : OBuf (F := F) c) :
    (((c : Thread nD τ).loc main_v5) ↦{fullShare} G : sProp 𝕄)
      = iprop(bigSep Finset.univ (fun j : Fin 48 => colP c j G) ∗ colLP c G ∗ tailP c G) := by
  have e1 := pointsTo_union (Ix := Ix) (Name := Name) (U := U) (Lvl := Lvl) (ℓ := (c : Thread nD τ).loc main_v5) (q := fullShare) (f := G) cols_rest_disjoint
  have e2 := pointsTo_union (Ix := Ix) (Name := Name) (U := U) (Lvl := Lvl) (ℓ := (c : Thread nD τ).loc main_v5) (q := fullShare) (f := G) colL_tail_disjoint
  have e3 := pointsTo_biUnion (Ix := Ix) (Name := Name) (U := U) (Lvl := Lvl) (ℓ := (c : Thread nD τ).loc main_v5) (q := fullShare) (f := G)
    Finset.univ colSet (fun j _ j' _ h => cols_disjoint j j' h)
  rw [out_cover] at e1
  rw [show (((c : Thread nD τ).loc main_v5) ↦{fullShare} G : sProp 𝕄) = (((c : Thread nD τ).loc main_v5) ↦[Finset.univ]{fullShare} G) from rfl,
    BI.equiv_iff.mp ⟨e1.1, e1.2⟩, BI.equiv_iff.mp ⟨e2.1, e2.2⟩, e3]
  simp only [colP_eq, colLP_eq, tailP_eq]

theorem out_split (G : OBuf (F := F) c) :
    (((c : Thread nD τ).loc main_v5) ↦{fullShare} G : sProp 𝕄)
      ⊢ iprop(bigSep Finset.univ (fun j : Fin 48 => colP c j G) ∗ colLP c G ∗ tailP c G) :=
  Entails.of_eq (out_eq c G)

/-- The pieces at contents of their own join to the array whole at contents agreeing with each piece on its elements. -/
theorem out_join_agree (gs : Fin 48 → OBuf (F := F) c) (gL G : OBuf (F := F) c) :
    iprop(bigSep Finset.univ (fun j : Fin 48 => colP c j (gs j)) ∗ colLP c gL ∗ tailP c G)
      ⊢ (iprop(∃ g : OBuf (F := F) c, ⌜(∀ j : Fin 48, ∀ i ∈ colSet j, g i = gs j i) ∧ (∀ i ∈ colLSet, g i = gL i) ∧ (∀ i ∈ tailSet, g i = G i)⌝
          ∗ ((c : Thread nD τ).loc main_v5) ↦{fullShare} g) : sProp 𝕄) := by
  simp only [colP_eq, colLP_eq, tailP_eq]
  iintro ⟨Hc, HL, HT⟩
  ihave HA := (pointsTo_biUnion_join (Ix := Ix) (Name := Name) (U := U) (Lvl := Lvl) (ℓ := (c : Thread nD τ).loc main_v5) (q := fullShare)
    Finset.univ colSet gs G (fun j _ j' _ h => cols_disjoint j j' h)) $$ Hc
  icases HA with ⟨%gA, %hgA, HA⟩
  ihave HLT := (pointsTo_join (Ix := Ix) (Name := Name) (U := U) (Lvl := Lvl) (ℓ := (c : Thread nD τ).loc main_v5) (q := fullShare)
    (f := gL) (g := G) colL_tail_disjoint) $$ [HL HT]
  · isplitl [HL]; · iexact HL
    iexact HT
  ihave HW := (pointsTo_join (Ix := Ix) (Name := Name) (U := U) (Lvl := Lvl) (ℓ := (c : Thread nD τ).loc main_v5) (q := fullShare)
    (f := gA) (g := tailSet.piecewise G gL) cols_rest_disjoint) $$ [HA HLT]
  · isplitl [HA]; · iexact HA
    iexact HLT
  iexists (colLSet ∪ tailSet).piecewise (tailSet.piecewise G gL) gA
  isplitr
  · ipureintro
    refine ⟨fun j i hi => ?_, fun i hi => ?_, fun i hi => ?_⟩
    · have hA : i ∈ Finset.univ.biUnion colSet := Finset.mem_biUnion.mpr ⟨j, Finset.mem_univ _, hi⟩
      rw [Finset.piecewise_eq_of_notMem _ _ _ (Finset.disjoint_left.mp cols_rest_disjoint hA)]
      exact hgA j (Finset.mem_univ _) i hi
    · rw [Finset.piecewise_eq_of_mem _ _ _ (Finset.mem_union_left _ hi),
        Finset.piecewise_eq_of_notMem _ _ _ (Finset.disjoint_left.mp colL_tail_disjoint hi)]
    · rw [Finset.piecewise_eq_of_mem _ _ _ (Finset.mem_union_right _ hi), Finset.piecewise_eq_of_mem _ _ _ hi]
  · rw [out_cover]
    iexact HW

/-- Each piece at some contents joins to the array whole at some contents. -/
theorem out_join (G : OBuf (F := F) c) :
    iprop(bigSep Finset.univ (fun j : Fin 48 => iprop(∃ g, colP c j g)) ∗ (∃ g, colLP c g) ∗ tailP c G)
      ⊢ (iprop(∃ g, ((c : Thread nD τ).loc main_v5) ↦{fullShare} g) : sProp 𝕄) := by
  have : Nonempty (OBuf (F := F) c) := ⟨G⟩
  iintro ⟨Hc, ⟨%gL, HL⟩, HT⟩
  ihave Hc' := (Idealize.SL.BI.bigSep_exists_pi Finset.univ (fun (j : Fin 48) (g : OBuf (F := F) c) => (colP c j g : sProp 𝕄))) $$ Hc
  icases Hc' with ⟨%gs, Hc⟩
  ihave HW := (out_join_agree c gs gL G) $$ [Hc HL HT]
  · isplitl [Hc]; · iexact Hc
    isplitl [HL]; · iexact HL
    iexact HT
  icases HW with ⟨%g, -, HW⟩
  iexists g; iexact HW

end Out

end Cert.KernelIdeal.Mm

end
-- ==== Proof.MmObl.lean ====
import proofs.«204097_g52673478918828_cont_9to1c4b_838_31_alg».proof.Proof.MmBody
import proofs.«204097_g52673478918828_cont_9to1c4b_838_31_alg».proof.Proof.MmLast
import proofs.«204097_g52673478918828_cont_9to1c4b_838_31_alg».proof.Proof.MmSplit
import Idealize.ShloMosaic.Lib.Pipeline.FrameBody
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The body at the last point, and the body obligation -/

/-- The last point's run with the point's number named. -/
theorem run_last' (ι : Ix) (c : Dev nD) (i : grid2.Coords) (n : ℕ) (hn : (i 0).val = n)
    (h1 : k2_cond1 i = 1#1) (h2 : ¬ k2_cond2 i = 1#1) (h3 : k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw ja jb jc : Fin 48) (g0 ga gb gc : OBuf (F := F) c) (fs0 fa fb fc : RBuf (F := F) c) (Gl : OBuf (F := F) c)
    (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c n jw g0 fs0 ∗ flightP ι c 47 ja ga fa ∗ flightP ι c 46 jb gb fb ∗ flightP ι c 45 jc gc fc
        ∗ colLP c Gl
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0 ∗ colP c ja ga ∗ colP c jb gb ∗ colP c jc gc
            ∗ slotP c n (storedW c i fs0 (k2_pay1 (ld0 arg1 harg1 x0) (ld1 arg2 harg2 x1) (ld2 arg3 harg3 x2))) ∗ slotP c 47 fa ∗ slotP c 46 fb ∗ slotP c 45 fc
            ∗ cellP c n ∗ cellP c 47 ∗ cellP c 46 ∗ cellP c 45
            ∗ colLP c (colL.view.writes (Elt F) Gl
                [⟨Rect.whole S1024x1536, ReadAs.same.apply (rslotL.view.read (Elt F) (storedW c i fs0 (k2_pay1 (ld0 arg1 harg1 x0) (ld1 arg2 harg2 x1) (ld2 arg3 harg3 x2))))⟩])
            ∗ (∃ W' : Waits sig Ix, ⌜(↑W' : Set (SemLoc sig × Ix)) ⊆ ↑W ∪ {p | ∃ n, p = (cellR n, ι)}⌝ ∗ owes (c : Thread nD τ) 0 W')) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  subst hn
  exact run_last ι c i h1 h2 h3 arg1 harg1 arg2 harg2 arg3 harg3 x0 x1 x2 jw ja jb jc g0 ga gb gc fs0 fa fb fc Gl W K

section Obl
variable (V : (c : Dev nD) → (b : Ref sig .tc) → Buf (Elt F) ((c : Thread nD τ).loc b)) (ι : Ix) (B : Set (SemLoc sig × Ix)) (c : Dev nD)

/-- A slot free under one number is free under any number of its residue. -/
theorem freeP_of (n : ℕ) (s : Fin 4) (h : n % 4 = s.val % 4) (f : RBuf (F := F) c) :
    iprop(cellP c n ∗ slotP c n f) ⊢ (freeP (F := F) (Ix := Ix) (Name := Name) (U := U) (Lvl := Lvl) c s : sProp 𝕄) := by
  unfold freeP
  iintro ⟨Hc, Hs⟩
  isplitl [Hc]
  · iapply (Entails.of_eq (congrArg (fun x => (semVal ((c : Thread nD τ), x) 0 : sProp 𝕄)) (cellR_congr h))) $$ Hc
  iexists f
  iapply (Entails.of_eq (slotP_congr c h f)) $$ Hs

set_option maxHeartbeats 2000000 in
/-- The body at the last point. -/
theorem sound_body_last (hB : ∀ n : ℕ, (cellR n, ι) ∈ B) (t : Fin cfg2.N) (ht : ¬ t.val < 48) :
    (bodyPre V ι B c t : sProp 𝕄) ⊢ wp frame (wpE (defs₀ (F := F)) Variants.none c none) Set.univ (bodyAt2 t) (fun _ => bodyPost V ι B c t) := by
  have h48 : t.val = 48 := by have := t.isLt; have e : cfg2.N = 49 := N_2; omega
  obtain rfl : t = t48 := Fin.ext h48
  unfold bodyPre bodyPost bodyAt2
  simp only [before2_0, before2_1, before2_2]
  rw [after2_0, after2_2, Phi_castSucc, Phi_succ, show (t48 : Fin cfg2.N).val = 48 from rfl]
  unfold Dat.owesAt Pipeline.owesWithin
  rw [show (dat V ι B c : Dat τ (Elt F) Ix Name U Lvl cfg2 c).owed t48.castSucc = 0 from rfl,
    show (dat V ι B c : Dat τ (Elt F) Ix Name U Lvl cfg2 c).owed t48.succ = 0 from rfl]
  have hi : ((grid2.coords t48) 0).val = 48 := crd_val t48
  have hc1 : k2_cond1 (grid2.coords t48) = 1#1 := (hcond1 t48).mpr (by decide)
  have hc2 : ¬ k2_cond2 (grid2.coords t48) = 1#1 := fun h => absurd ((hcond2 t48).mp h) (by decide)
  have hc3 : k2_cond3 (grid2.coords t48) = 1#1 := (hcond3 t48).mpr rfl
  iintro ⟨HΦ, ⟨%W, %hW, HW⟩, ⟨%d0, H0⟩, ⟨%d1, H1⟩, ⟨%d2, H2⟩⟩
  ihave HΦ' := (here_last V ι c) $$ HΦ
  unfold flightAt constP
  icases HΦ' with ⟨⟨%g0, %fs0, %hok0, Hfl⟩, ⟨%gc, %fc, %hokc, Hfc⟩, ⟨%gb, %fb, %hokb, Hfb⟩, ⟨%ga, %fa, %hoka, Hfa⟩, Hdone, HL, HT, HR⟩
  iapply (run_last' ι c (grid2.coords t48) 48 hi hc1 hc2 hc3 _ _ _ _ _ _ (iblk V c 0 t48) (wblk V c t48 d1) (iblk V c 2 t48)
    ⟨44, by decide⟩ ⟨47, by decide⟩ ⟨46, by decide⟩ ⟨45, by decide⟩ g0 ga gb gc fs0 fa fb fc (V c main_v5) W _)
  isplitl [H0]; · iexact H0
  isplitl [H1]; · iexact H1
  isplitl [H2]; · iexact H2
  isplitl [Hfl]; · iexact Hfl
  isplitl [Hfa]; · iexact Hfa
  isplitl [Hfb]; · iexact Hfb
  isplitl [Hfc]; · iexact Hfc
  isplitl [HL]; · iexact HL
  isplitl [HW]; · iexact HW
  iintro ⟨H0, H1, H2, D4, D7, D6, D5, S0, S3, S2, S1, C0, C3, C2, C1, HL', ⟨%W', %hW', HW'⟩⟩
  isplitl [D4 D7 D6 D5 S0 S3 S2 S1 C0 C3 C2 C1 HL' Hdone HT HR]
  · iapply (next_last V ι c)
    isplitl [D4]
    · unfold doneP; iexists g0; isplitr; · ipureintro; exact hok0
      iexact D4
    isplitl [D5]
    · unfold doneP; iexists gc; isplitr; · ipureintro; exact hokc
      iexact D5
    isplitl [D6]
    · unfold doneP; iexists gb; isplitr; · ipureintro; exact hokb
      iexact D6
    isplitl [D7]
    · unfold doneP; iexists ga; isplitr; · ipureintro; exact hoka
      iexact D7
    isplitl [Hdone]; · iexact Hdone
    isplitl [C0 S0]
    · iapply (freeP_of c 48 (0 : Fin 4) (by decide) _)
      isplitl [C0]; · iexact C0
      iexact S0
    isplitl [C1 S1]
    · iapply (freeP_of c 45 (1 : Fin 4) (by decide) _)
      isplitl [C1]; · iexact C1
      iexact S1
    isplitl [C2 S2]
    · iapply (freeP_of c 46 (2 : Fin 4) (by decide) _)
      isplitl [C2]; · iexact C2
      iexact S2
    isplitl [C3 S3]
    · iapply (freeP_of c 47 (3 : Fin 4) (by decide) _)
      isplitl [C3]; · iexact C3
      iexact S3
    isplitl [HL']
    · iexists _; isplitr; · ipureintro; exact ⟨fs0, d1, rfl⟩
      iexact HL'
    isplitl [HT]; · iexact HT
    iexact HR
  isplitl [HW']
  · iexists W'; isplitr
    · ipureintro
      refine hW'.trans (Set.union_subset hW ?_)
      rintro p ⟨n, rfl⟩
      exact Or.inl (hB n)
    iexact HW'
  isplitl [H0]; · iexact H0
  isplitl [H1]
  · iexists d1
    iapply (Entails.of_eq (congrArg (fun X => owns (c : Thread nD τ) (st2_1 t48) fullShare X) (leaves2_1 V ι B c t48 d1).symm)) $$ H1
  iexact H2

/-- THE BODY OBLIGATION of the matmul's pipeline, at every point, on core `c`: in the form the loop uses (the second window, whose
    last block overhangs its array, is left at its block on the rows its transfers move). -/
theorem body_obligation (hB : ∀ n : ℕ, (cellR n, ι) ∈ B) :
    BodyObligationLoose (dat V ι B c : Dat τ (Elt F) Ix Name U Lvl cfg2 c) (defs₀ (F := F)) Variants.none ι Set.univ := fun t => by
  rw [bigSep_W2, bigSep_W2]
  by_cases ht : t.val < 48
  · exact sound_body_lt V ι B c hB t ht
  · exact sound_body_last V ι B c hB t ht

/-- The three windows' arrays are never written: at every point they hold what the region found. -/
theorem arrAt2 (w : Fin cfg2.W) (n : ℕ) : (dat V ι B c : Dat τ (Elt F) Ix Name U Lvl cfg2 c).arrAt w n = V c (Pipeline.arrRef spec2 w) :=
  match w with
  | ⟨0, _⟩ => ((dat V ι B c : Dat τ (Elt F) Ix Name U Lvl cfg2 c).arrAt_in 0 rfl n).trans (A_eq V ι B c 0)
  | ⟨1, _⟩ => ((dat V ι B c : Dat τ (Elt F) Ix Name U Lvl cfg2 c).arrAt_in 1 rfl n).trans (A_eq V ι B c 1)
  | ⟨2, _⟩ => ((dat V ι B c : Dat τ (Elt F) Ix Name U Lvl cfg2 c).arrAt_in 2 rfl n).trans (A_eq V ι B c 2)

/-- The invariant at the pipeline's two ends is `PhiN` at 0 and at 49. -/
theorem Phi_zero : (dat V ι B c : Dat τ (Elt F) Ix Name U Lvl cfg2 c).Φ 0 = PhiN V ι c 0 := rfl
theorem Phi_last : (dat V ι B c : Dat τ (Elt F) Ix Name U Lvl cfg2 c).Φ (Fin.last cfg2.N) = PhiN V ι c 49 := rfl
end Obl

end Cert.KernelIdeal.Mm

end
-- ==== Proof.MmInOut.lean ====
/-
  The matmul region's invariant at its two ends: what the launch hands the body before the first point is the
  invariant there, and the invariant after the last point gives back the output array at its final contents, the
  kernel's four cells at zero and the core's other scoped buffers.
-/
import proofs.«204097_g52673478918828_cont_9to1c4b_838_31_alg».proof.Proof.MmSplit

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The kernel's own cells -/

/-- The four DMA semaphores of the kernel's own, by their numbers in the pool. -/
def osem : Fin 4 → SemLoc sig := fun k => (![SemLoc.dma 12, SemLoc.dma 13, SemLoc.dma 14, SemLoc.dma 15] : Fin 4 → SemLoc sig) k

/-- They are the cells by number. -/
theorem osem_eq : ∀ k : Fin 4, osem k = cellR k.val := by decide

/-- They are scoped, distinct, and none is a window's staging semaphore. -/
theorem ownSemFacts2 : Pipeline.OwnSemFacts spec2 osem := by decide

/-- The cells at zero, as a family … -/
theorem ownSems0_cells (c : Dev nD) :
    (Pipeline.ownSems0 (Ix := Ix) (Name := Name) (U := U) (Lvl := Lvl) (Val := Elt F) (τ := τ) osem c : sProp 𝕄) = bigSep Finset.univ (fun k : Fin 4 => cellP c k.val) := by
  unfold Pipeline.ownSems0
  exact Idealize.SL.BI.bigSep_congr fun k _ => by rw [osem_eq k]

/-- … and listed. -/
theorem ownSems0_eq (c : Dev nD) :
    (Pipeline.ownSems0 (Ix := Ix) (Name := Name) (U := U) (Lvl := Lvl) (Val := Elt F) (τ := τ) osem c : sProp 𝕄) = iprop(cellP c 0 ∗ cellP c 1 ∗ cellP c 2 ∗ cellP c 3) := by
  rw [Pipeline.ownSems0_eq_of_list c osem [0, 1, 2, 3] (by decide) (by decide)]
  show iprop(semVal ((c : Thread nD τ), osem 0) 0 ∗ semVal ((c : Thread nD τ), osem 1) 0 ∗ semVal ((c : Thread nD τ), osem 2) 0
    ∗ semVal ((c : Thread nD τ), osem 3) 0) = _
  rw [osem_eq 0, osem_eq 1, osem_eq 2, osem_eq 3]
  rfl

/-! ## Two facts about families -/

/-- Pure facts come out of a family together. -/
theorem bigSep_pure_sep {M : Type _} [URA M] {I : Type _} [DecidableEq I] (S : Finset I) (φ : I → Prop) (P : I → sProp M) :
    bigSep S (fun i => iprop(⌜φ i⌝ ∗ P i)) ⊢ iprop(⌜∀ i ∈ S, φ i⌝ ∗ bigSep S P) := by
  induction S using Finset.induction_on with
  | empty =>
    rw [bigSep_empty, bigSep_empty]; iintro -
    isplitr
    · ipureintro; intro i hi; exact absurd hi (Finset.notMem_empty _)
    · iempintro
  | insert a S ha ih =>
    have e : bigSep (insert a S) (fun i => iprop(⌜φ i⌝ ∗ P i)) = iprop((⌜φ a⌝ ∗ P a) ∗ bigSep S fun i => iprop(⌜φ i⌝ ∗ P i)) :=
      bigSep_insert ha
    have e' : bigSep (insert a S) P = iprop(P a ∗ bigSep S P) := bigSep_insert ha
    rw [e, e']
    iintro ⟨⟨%h, Ha⟩, HS⟩
    ihave H := ih $$ HS
    icases H with ⟨%hS, HS⟩
    isplitr
    · ipureintro; intro i hi
      rcases Finset.mem_insert.mp hi with rfl | hi
      · exact h
      · exact hS i hi
    · isplitl [Ha]; · iexact Ha
      iexact HS

section Ends
variable (V : (c : Dev nD) → (b : Ref sig .tc) → Buf (Elt F) ((c : Thread nD τ).loc b))

/-- The free slots are the cells at zero and the slots at some contents. -/
theorem free_split (c : Dev nD) :
    (bigSep Finset.univ (freeP (F := F) (Ix := Ix) (Name := Name) (U := U) (Lvl := Lvl) c) : sProp 𝕄)
      = iprop(bigSep Finset.univ (fun s : Fin 4 => cellP c s.val) ∗ bigSep Finset.univ (fun s : Fin 4 => iprop(∃ f, slotP c s.val f))) :=
  Idealize.SL.BI.bigSep_sep' Finset.univ (fun s : Fin 4 => (cellP c s.val : sProp 𝕄)) (fun s : Fin 4 => iprop(∃ f, slotP c s.val f))

/-! ## Into the invariant -/

set_option maxHeartbeats 1000000 in
/-- BEFORE THE FIRST POINT: the output array at its entry contents, the cells at zero and the core's other scoped buffers
    are the invariant — no block written, no copy in flight, every block pending, every slot free. -/
theorem hin (ι : Ix) (c : Dev nD) :
    iprop((((c : Thread nD τ).loc main_v5) ↦{fullShare} V c main_v5)
        ∗ Pipeline.ownSems0 (Ix := Ix) (Name := Name) (U := U) (Lvl := Lvl) (Val := Elt F) (τ := τ) osem c
        ∗ Pipeline.scopedRest (Ix := Ix) (Name := Name) (U := U) (Lvl := Lvl) (Val := Elt F) spec2 c)
      ⊢ (PhiN V ι c 0 : sProp 𝕄) := by
  unfold PhiN; rw [if_neg (show ¬ ((0 : ℕ) = 49) by decide)]; unfold PhiMid
  simp only [Nat.zero_sub]
  rw [Ring.bigSep_rangeSet_empty (le_refl 0), Ring.bigSep_rangeSet_empty (le_refl 0), Ring.rangeSet_univ, Ring.rangeSet_univ,
    free_split c, scopedRest2_eq, ownSems0_cells]
  unfold constP restP
  iintro ⟨Hout, Hcells, H1, H2, H3, H4, Hring, H5, H6, H7, H8⟩
  ihave Ho := (out_split c (V c main_v5)) $$ Hout
  icases Ho with ⟨Hcols, HL, HT⟩
  ihave Hs := (ring_split c) $$ Hring
  isplitr; · iempintro
  isplitr; · iempintro
  isplitl [Hcols]; · iexact Hcols
  isplitl [Hcells Hs]
  · isplitl [Hcells]; · iexact Hcells
    iexact Hs
  isplitl [HL]; · iexact HL
  isplitl [HT]; · iexact HT
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## Out of the invariant -/

/-- The output array at its final contents: on each full column block the block's final contents, on the last block's
    columns theirs, on the columns never written the entry contents. -/
def FinalOk (c : Dev nD) (g : OBuf (F := F) c) : Prop :=
  (∀ j : Fin 48, ∃ gj, BlockOk V c j gj ∧ ∀ i ∈ colSet j, g i = gj i)
    ∧ (∃ gL, LastOk V c gL ∧ ∀ i ∈ colLSet, g i = gL i) ∧ ∀ i ∈ tailSet, g i = V c main_v5 i

set_option maxHeartbeats 1000000 in
/-- AFTER THE LAST POINT: the invariant gives back the output array whole at final contents, the cells at zero and the
    core's other scoped buffers. -/
theorem hout (ι : Ix) (c : Dev nD) :
    (PhiN V ι c 49 : sProp 𝕄)
      ⊢ iprop((∃ g : OBuf (F := F) c, ⌜FinalOk V c g⌝ ∗ (((c : Thread nD τ).loc main_v5) ↦{fullShare} g))
        ∗ Pipeline.ownSems0 (Ix := Ix) (Name := Name) (U := U) (Lvl := Lvl) (Val := Elt F) (τ := τ) osem c
        ∗ Pipeline.scopedRest (Ix := Ix) (Name := Name) (U := U) (Lvl := Lvl) (Val := Elt F) spec2 c) := by
  unfold PhiN; rw [if_pos rfl]; unfold PhiEnd
  have hdone : (bigSep Finset.univ (doneP V c) : sProp 𝕄)
      = bigSep Finset.univ (fun j : Fin 48 => iprop(∃ g : OBuf (F := F) c, iprop(⌜BlockOk V c j g⌝ ∗ colP c j g))) := rfl
  rw [hdone, free_split c, scopedRest2_eq, ownSems0_cells]
  unfold restP
  have : Nonempty (OBuf (F := F) c) := ⟨V c main_v5⟩
  iintro ⟨Hdone, ⟨Hcells, Hslots⟩, ⟨%gL, %hL, HL⟩, HT, H1, H2, H3, H4, H5, H6, H7, H8⟩
  ihave Hd := (Idealize.SL.BI.bigSep_exists_pi Finset.univ
    (fun (j : Fin 48) (g : OBuf (F := F) c) => (iprop(⌜BlockOk V c j g⌝ ∗ colP c j g) : sProp 𝕄))) $$ Hdone
  icases Hd with ⟨%gs, Hd⟩
  ihave Hd' := (bigSep_pure_sep Finset.univ (fun j : Fin 48 => BlockOk V c j (gs j)) (fun j : Fin 48 => (colP c j (gs j) : sProp 𝕄))) $$ Hd
  icases Hd' with ⟨%hgs, Hcols⟩
  ihave HW := (out_join_agree c gs gL (V c main_v5)) $$ [Hcols HL HT]
  · isplitl [Hcols]; · iexact Hcols
    isplitl [HL]; · iexact HL
    iexact HT
  icases HW with ⟨%g, %hg, HW⟩
  ihave Hr := (ring_join c) $$ Hslots
  isplitl [HW]
  · iexists g; isplitr
    · ipureintro
      exact ⟨fun j => ⟨gs j, hgs j (Finset.mem_univ _), hg.1 j⟩, ⟨gL, hL, hg.2.1⟩, hg.2.2⟩
    · iexact HW
  isplitl [Hcells]; · iexact Hcells
  isplitl [H1]; · iexact H1
  isplitl [H2]; · iexact H2
  isplitl [H3]; · iexact H3
  isplitl [H4]; · iexact H4
  isplitl [Hr]; · iexact Hr
  isplitl [H5]; · iexact H5
  isplitl [H6]; · iexact H6
  isplitl [H7]; · iexact H7
  iexact H8

end Ends

end Cert.KernelIdeal.Mm

end
-- ==== Proof.TcChain.lean ====
/-
  The TensorCore's buffers at every boundary of the pipelines' program, as a fold through it: after the gathered rows
  are regrouped (W3), after the pooling region (W4), after the bias is padded (W5), after the big product's region, whose
  buffer then holds some contents g (W6 g), after the last rows of W and b are cut out (W7 g), after the tail region
  (W8 g), and after the tail's columns are written over the big product (W9 g). Each region's proof data is taken at the
  valuation it is entered from.
-/
import proofs.«204097_g52673478918828_cont_9to1c4b_838_31_alg».proof.Proof.TcCall
import proofs.«204097_g52673478918828_cont_9to1c4b_838_31_alg».proof.Proof.TcRegion
import proofs.«204097_g52673478918828_cont_9to1c4b_838_31_alg».proof.Proof.PoolRegion
import proofs.«204097_g52673478918828_cont_9to1c4b_838_31_alg».proof.Proof.TailRegion
import proofs.«204097_g52673478918828_cont_9to1c4b_838_31_alg».proof.Proof.MmObl
import proofs.«204097_g52673478918828_cont_9to1c4b_838_31_alg».proof.Proof.MmInOut
import Idealize.ShloMosaic.Lib.Pipeline.FrameSuffix

noncomputable section

namespace Cert.KernelIdeal.Tc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

variable (m : (ℓ : Loc nD τ sig) → Buf (Elt F) ℓ)

/-- After the call, and after the gathered rows are regrouped as [1024, 20, 128]. -/
abbrev W2m : Dev nD → Valuation τ sig (Elt F) := W2 m (gO m)
abbrev W3 : Dev nD → Valuation τ sig (Elt F) := fun c => StableHlo.after (ops1 (F := F)) (W2m m c)
abbrev V3 : (c : Dev nD) → (b : Ref sig .tc) → Buf (Elt F) ((c : Thread nD τ).loc b) := fun c b => W3 m c b

/-- The pooling region's proof data, and the buffers at its exit. -/
def dat0 (c : Dev nD) : Dat τ (Elt F) (HIx 1) ℕ UU ℕ cfg1 c := Pool.dat (Name := ℕ) (U := UU) (Lvl := ℕ) (V3 m) (Bset (F := F) c) c
def W4 (c : Dev nD) : Valuation τ sig (Elt F) := Pipeline.withArrays spec1 c (W3 m c) fun w => (dat0 m c).arrAt w cfg1.N
abbrev W5 : Dev nD → Valuation τ sig (Elt F) := fun c => StableHlo.after (ops2 (F := F)) (W4 m c)
abbrev V5 : (c : Dev nD) → (b : Ref sig .tc) → Buf (Elt F) ((c : Thread nD τ).loc b) := fun c b => W5 m c b

/-- The big product's region: its proof data; its buffer afterwards holds some contents `g`. -/
def dat1 (c : Dev nD) : Dat τ (Elt F) (HIx 1) ℕ UU ℕ cfg2 c := Mm.dat (Name := ℕ) (U := UU) (Lvl := ℕ) (V5 m) (none : HIx 1) (Bset (F := F) c) c
abbrev OB (c : Dev nD) : Type := Buf (Elt F) ((c : Thread nD τ).loc main_v5)
def W6 (c : Dev nD) (g : OB (F := F) c) : Valuation τ sig (Elt F) := Function.update (W5 m c) (Proc.devRef .tc main_v5) g
abbrev W7 (c : Dev nD) (g : OB (F := F) c) : Valuation τ sig (Elt F) := StableHlo.after (ops3 (F := F)) (W6 m c g)

/-- The tail region reads the pooled rows and the last rows of W and b, none of which depends on `g`: its proof data
    is taken at the valuation in which the big product's buffer is as it was. -/
abbrev V7 : (c : Dev nD) → (b : Ref sig .tc) → Buf (Elt F) ((c : Thread nD τ).loc b) := fun c b => W7 m c (V5 m c main_v5) b
def dat2 (c : Dev nD) : Dat τ (Elt F) (HIx 1) ℕ UU ℕ cfg3 c := Tail.dat (Name := ℕ) (U := UU) (Lvl := ℕ) (V7 m) (Bset (F := F) c) c
def W8 (c : Dev nD) (g : OB (F := F) c) : Valuation τ sig (Elt F) := Pipeline.withArrays spec3 c (W7 m c g) fun w => (dat2 m c).arrAt w cfg3.N
abbrev W9 (c : Dev nD) (g : OB (F := F) c) : Valuation τ sig (Elt F) := StableHlo.after (ops4 (F := F)) (W8 m c g)

/-- Every pipeline's proof data. -/
def pdats : (p : Fin 3) → (c : Dev nD) → Dat τ (Elt F) (HIx 1) ℕ UU ℕ (Pipeline.pin (pcfgs (F := F)) adm p) c
  | ⟨0, _⟩ => fun c => dat0 m c
  | ⟨1, _⟩ => fun c => dat1 m c
  | ⟨2, _⟩ => fun c => dat2 m c

/-- What is known of the big product's buffer after its region. -/
abbrev OkG (c : Dev nD) (g : OB (F := F) c) : Prop := Mm.FinalOk (V5 m) c g

end Cert.KernelIdeal.Tc

end
-- ==== Proof.TcChainFacts.lean ====
/-
  Facts about the chain of valuations: at each region's entry the proof data's arrays are the valuation's, at its exit
  the valuation has the arrays at what the pipeline leaves and every other buffer as it was; the tail region's four
  arrays do not depend on what the big product's region left in its buffer; and no host operation and no region
  writes an argument, so the arguments end as launched.
-/
import proofs.«204097_g52673478918828_cont_9to1c4b_838_31_alg».proof.Proof.TcChain

noncomputable section

namespace Cert.KernelIdeal.Tc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

variable (m : (ℓ : Loc nD τ sig) → Buf (Elt F) ℓ)

/-! ## The pooling region: entered at W3, left at W4 -/

theorem W4_arr (c : Dev nD) (w : Fin cfg1.W) :
    W4 m c (Proc.devRef .tc (Pipeline.arrRef spec1 w)) = (dat0 m c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- The proof data's arrays are the valuation's at the region's entry, -/
theorem hA0 (c : Dev nD) (w : Fin cfg1.W) :
    (pdats m 0 c).A w = W3 m c (Proc.devRef .tc (Pipeline.arrRef (Pipeline.pin (pcfgs (F := F)) adm 0).spec w)) :=
  Pool.A_eq (Name := ℕ) (U := UU) (Lvl := ℕ) (V3 m) (Bset (F := F) c) c w
/-- its invariant the scoped buffers no window stages, nothing owed, full shares, the recorded pairs bounded; -/
theorem hΦ0 (c : Dev nD) (t : Fin ((Pipeline.pin (pcfgs (F := F)) adm 0).N + 1)) :
    (pdats m 0 c).Φ t = Pipeline.scopedRest (Ix := HIx 1) (Name := ℕ) (U := UU) (Lvl := ℕ) (Val := Elt F) (Pipeline.pin (pcfgs (F := F)) adm 0).spec c := rfl
theorem howed0 (c : Dev nD) (t : Fin ((Pipeline.pin (pcfgs (F := F)) adm 0).N + 1)) : (pdats m 0 c).owed t = 0 := rfl
theorem hq0 (c : Dev nD) (w : Fin (Pipeline.pin (pcfgs (F := F)) adm 0).W) : (pdats m 0 c).q w = fullShare := rfl
theorem hrec0 (c : Dev nD) (t : Fin ((Pipeline.pin (pcfgs (F := F)) adm 0).N + 1)) : (pdats m 0 c).recorded t = Bset (F := F) c := rfl
/-- at its exit each array holds what the pipeline leaves and every other buffer what it held. -/
theorem hF0 (c : Dev nD) (w : Fin cfg1.W) :
    (pdats m 0 c).arrAt w (Pipeline.pin (pcfgs (F := F)) adm 0).N = W4 m c (Proc.devRef .tc (Pipeline.arrRef (Pipeline.pin (pcfgs (F := F)) adm 0).spec w)) :=
  (W4_arr m c w).symm
theorem hrest0 (c : Dev nD) (b : Ref sig .tc) (hb : b ∉ Finset.univ.image (Pipeline.arrRef (Pipeline.pin (pcfgs (F := F)) adm 0).spec)) :
    W4 m c (Proc.devRef .tc b) = W3 m c (Proc.devRef .tc b) :=
  W4_of_ne m c b fun w e => hb (Finset.mem_image.mpr ⟨w, Finset.mem_univ _, e⟩)

/-! ## The big product's region: entered at W5; its buffer afterwards at some contents g -/

theorem hA1 (c : Dev nD) (w : Fin cfg2.W) :
    (pdats m 1 c).A w = W5 m c (Proc.devRef .tc (Pipeline.arrRef (Pipeline.pin (pcfgs (F := F)) adm 1).spec w)) :=
  Mm.A_eq (Name := ℕ) (U := UU) (Lvl := ℕ) (V5 m) (none : HIx 1) (Bset (F := F) c) c w
/-- Its three arrays are never written. -/
theorem arr1 (c : Dev nD) (w : Fin cfg2.W) (n : ℕ) :
    (pdats m 1 c).arrAt w n = W5 m c (Proc.devRef .tc (Pipeline.arrRef (Pipeline.pin (pcfgs (F := F)) adm 1).spec w)) :=
  Mm.arrAt2 (Name := ℕ) (U := UU) (Lvl := ℕ) (V5 m) (none : HIx 1) (Bset (F := F) c) c w n

/-- The big product's buffer is no array of its pipeline. -/
theorem v5_not_arr2 : ∀ w : Fin cfg2.W, Pipeline.arrRef spec2 w ≠ main_v5 := by decide
theorem v5_not_mem_arr2 : main_v5 ∉ Finset.univ.image (Pipeline.arrRef spec2) := by decide

theorem W6_v5 (c : Dev nD) (g : OB (F := F) c) : W6 m c g (Proc.devRef .tc main_v5) = g := by
  unfold W6; exact Function.update_self _ _ _
theorem W6_of_ne (c : Dev nD) (g : OB (F := F) c) {b : Ref sig .tc} (h : b ≠ main_v5) :
    W6 m c g (Proc.devRef .tc b) = W5 m c (Proc.devRef .tc b) := by
  unfold W6; exact Function.update_of_ne (StableHlo.devRef_ne_of_ne h) _ _
theorem W6_arr (c : Dev nD) (g : OB (F := F) c) (w : Fin cfg2.W) :
    W6 m c g (Proc.devRef .tc (Pipeline.arrRef (Pipeline.pin (pcfgs (F := F)) adm 1).spec w))
      = W5 m c (Proc.devRef .tc (Pipeline.arrRef (Pipeline.pin (pcfgs (F := F)) adm 1).spec w)) :=
  W6_of_ne m c g (v5_not_arr2 w)

/-! ## The host stretches at the buffers they write, and off them -/

theorem after_ops0_of_ne (V : Valuation τ sig (Elt F)) {b : Ref sig .tc} (h : b ≠ main_v0) :
    StableHlo.after (ops0 (F := F)) V (Proc.devRef .tc b) = V (Proc.devRef .tc b) := by
  simp only [ops0, StableHlo.after_cons, StableHlo.after_nil]
  rw [StableHlo.reshape_result_ne (h := h)]
theorem after_ops1_of_ne (V : Valuation τ sig (Elt F)) {b : Ref sig .tc} (h : b ≠ main_v2) :
    StableHlo.after (ops1 (F := F)) V (Proc.devRef .tc b) = V (Proc.devRef .tc b) := by
  simp only [ops1, StableHlo.after_cons, StableHlo.after_nil]
  rw [StableHlo.reshape_result_ne (h := h)]
theorem after_ops2_of_ne (V : Valuation τ sig (Elt F)) {b : Ref sig .tc} (h0 : b ≠ main_c) (h1 : b ≠ main_call0_v0) (h2 : b ≠ main_v4) :
    StableHlo.after (ops2 (F := F)) V (Proc.devRef .tc b) = V (Proc.devRef .tc b) := by
  simp only [ops2, StableHlo.after_cons, StableHlo.after_nil]
  rw [StableHlo.binary_result_ne (h := h2), StableHlo.unary_result_ne (h := h1), StableHlo.nullary_result_ne (h := h0)]
theorem after_ops3_of_ne (V : Valuation τ sig (Elt F)) {b : Ref sig .tc} (h6 : b ≠ main_v6) (h7 : b ≠ main_v7) :
    StableHlo.after (ops3 (F := F)) V (Proc.devRef .tc b) = V (Proc.devRef .tc b) := by
  simp only [ops3, StableHlo.after_cons, StableHlo.after_nil]
  rw [StableHlo.unary_result_ne (h := h7), StableHlo.unary_result_ne (h := h6)]
theorem after_ops3_v6 (V : Valuation τ sig (Elt F)) :
    StableHlo.after (ops3 (F := F)) V (Proc.devRef .tc main_v6)
      = extractStridedSlice S160x128 ![99840, 0] (V (Proc.devRef .tc main_arg2) : (⟨S100000x128, .f32⟩ : BufTy).Contents (Elt F)) slices_S100000x128_S160x128_99840_0 := by
  simp only [ops3, StableHlo.after_cons, StableHlo.after_nil]
  rw [StableHlo.unary_result_ne (h := (by decide : main_v6 ≠ main_v7)), StableHlo.unary_result]
theorem after_ops3_v7 (V : Valuation τ sig (Elt F)) :
    StableHlo.after (ops3 (F := F)) V (Proc.devRef .tc main_v7)
      = extractStridedSlice S160 ![99840] (V (Proc.devRef .tc main_arg3) : (⟨S100000, .f32⟩ : BufTy).Contents (Elt F)) slices_S100000_S160_99840 := by
  simp only [ops3, StableHlo.after_cons, StableHlo.after_nil]
  rw [StableHlo.unary_result, StableHlo.unary_result_ne (h := (by decide : main_arg3 ≠ main_v6))]
theorem after_ops4_of_ne (V : Valuation τ sig (Elt F)) {b : Ref sig .tc} (h0 : b ≠ main_c_0) (h1 : b ≠ main_c_1) (h9 : b ≠ main_v9) :
    StableHlo.after (ops4 (F := F)) V (Proc.devRef .tc b) = V (Proc.devRef .tc b) := by
  simp only [ops4, StableHlo.after_cons, StableHlo.after_nil]
  rw [StableHlo.binaryIndexed_result_ne (h := h9), StableHlo.nullary_result_ne (h := h1), StableHlo.nullary_result_ne (h := h0)]

/-! ## After the last rows of W and b are cut out: W7 g -/

/-- The two buffers the cut writes, in terms of the arguments as W5 holds them; -/
theorem W7_v6 (c : Dev nD) (g : OB (F := F) c) :
    W7 m c g (Proc.devRef .tc main_v6)
      = extractStridedSlice S160x128 ![99840, 0] (W5 m c (Proc.devRef .tc main_arg2) : (⟨S100000x128, .f32⟩ : BufTy).Contents (Elt F)) slices_S100000x128_S160x128_99840_0 :=
  (after_ops3_v6 (W6 m c g)).trans (by rw [W6_of_ne m c g (by decide : main_arg2 ≠ main_v5)])
theorem W7_v7 (c : Dev nD) (g : OB (F := F) c) :
    W7 m c g (Proc.devRef .tc main_v7)
      = extractStridedSlice S160 ![99840] (W5 m c (Proc.devRef .tc main_arg3) : (⟨S100000, .f32⟩ : BufTy).Contents (Elt F)) slices_S100000_S160_99840 :=
  (after_ops3_v7 (W6 m c g)).trans (by rw [W6_of_ne m c g (by decide : main_arg3 ≠ main_v5)])
/-- every other buffer as W6 g holds it: the big product's at g, the rest as W5 holds them. -/
theorem W7_of_ne (c : Dev nD) (g : OB (F := F) c) {b : Ref sig .tc} (h6 : b ≠ main_v6) (h7 : b ≠ main_v7) :
    W7 m c g (Proc.devRef .tc b) = W6 m c g (Proc.devRef .tc b) :=
  after_ops3_of_ne (W6 m c g) h6 h7
theorem W7_v5 (c : Dev nD) (g : OB (F := F) c) : W7 m c g (Proc.devRef .tc main_v5) = g :=
  (W7_of_ne m c g (by decide) (by decide)).trans (W6_v5 m c g)

/-- Off the big product's buffer, W7 does not depend on what that buffer holds. -/
theorem W7_indep (c : Dev nD) (g g' : OB (F := F) c) {b : Ref sig .tc} (h : b ≠ main_v5) :
    W7 m c g (Proc.devRef .tc b) = W7 m c g' (Proc.devRef .tc b) := by
  by_cases h6 : b = main_v6
  · subst h6; rw [W7_v6, W7_v6]
  by_cases h7 : b = main_v7
  · subst h7; rw [W7_v7, W7_v7]
  rw [W7_of_ne m c g h6 h7, W7_of_ne m c g' h6 h7, W6_of_ne m c g h, W6_of_ne m c g' h]

/-! ## The tail region: entered at W7 g, left at W8 g, whatever g -/

/-- The big product's buffer is no array of the tail's pipeline. -/
theorem v5_not_arr3 : ∀ w : Fin cfg3.W, Pipeline.arrRef spec3 w ≠ main_v5 := by decide

theorem W8_arr (c : Dev nD) (g : OB (F := F) c) (w : Fin cfg3.W) :
    W8 m c g (Proc.devRef .tc (Pipeline.arrRef spec3 w)) = (dat2 m c).arrAt w cfg3.N := by
  unfold W8; exact Pipeline.withArrays_arr spec3 launch3.win.arr_inj c _ _ w
theorem W8_of_ne (c : Dev nD) (g : OB (F := F) c) (b : Ref sig .tc) (hb : ∀ w, Pipeline.arrRef spec3 w ≠ b) :
    W8 m c g (Proc.devRef .tc b) = W7 m c g (Proc.devRef .tc b) := by
  unfold W8; exact Pipeline.withArrays_of_ne spec3 c _ _ b hb

theorem hA2 (c : Dev nD) (g : OB (F := F) c) (w : Fin cfg3.W) :
    (pdats m 2 c).A w = W7 m c g (Proc.devRef .tc (Pipeline.arrRef (Pipeline.pin (pcfgs (F := F)) adm 2).spec w)) :=
  (Tail.A_eq (Name := ℕ) (U := UU) (Lvl := ℕ) (V7 m) (Bset (F := F) c) c w).trans (W7_indep m c _ g (v5_not_arr3 w))
theorem hΦ2 (c : Dev nD) (t : Fin ((Pipeline.pin (pcfgs (F := F)) adm 2).N + 1)) :
    (pdats m 2 c).Φ t = Pipeline.scopedRest (Ix := HIx 1) (Name := ℕ) (U := UU) (Lvl := ℕ) (Val := Elt F) (Pipeline.pin (pcfgs (F := F)) adm 2).spec c := rfl
theorem howed2 (c : Dev nD) (t : Fin ((Pipeline.pin (pcfgs (F := F)) adm 2).N + 1)) : (pdats m 2 c).owed t = 0 := rfl
theorem hq2 (c : Dev nD) (w : Fin (Pipeline.pin (pcfgs (F := F)) adm 2).W) : (pdats m 2 c).q w = fullShare := rfl
theorem hrec2 (c : Dev nD) (t : Fin ((Pipeline.pin (pcfgs (F := F)) adm 2).N + 1)) : (pdats m 2 c).recorded t = Bset (F := F) c := rfl
theorem hF2 (c : Dev nD) (g : OB (F := F) c) (w : Fin cfg3.W) :
    (pdats m 2 c).arrAt w (Pipeline.pin (pcfgs (F := F)) adm 2).N = W8 m c g (Proc.devRef .tc (Pipeline.arrRef (Pipeline.pin (pcfgs (F := F)) adm 2).spec w)) :=
  (W8_arr m c g w).symm
theorem hrest2 (c : Dev nD) (g : OB (F := F) c) (b : Ref sig .tc) (hb : b ∉ Finset.univ.image (Pipeline.arrRef (Pipeline.pin (pcfgs (F := F)) adm 2).spec)) :
    W8 m c g (Proc.devRef .tc b) = W7 m c g (Proc.devRef .tc b) :=
  W8_of_ne m c g b fun w e => hb (Finset.mem_image.mpr ⟨w, Finset.mem_univ _, e⟩)

/-! ## The valuations off the buffers each step writes -/

theorem W1_of_ne (c : Dev nD) {b : Ref sig .tc} (h : b ≠ main_v0) : W1 m c (Proc.devRef .tc b) = W0 m c (Proc.devRef .tc b) :=
  after_ops0_of_ne (W0 m c) h
theorem W2m_of_ne (c : Dev nD) {b : Ref sig .tc} (h : b ≠ main_v1) : W2m m c (Proc.devRef .tc b) = W1 m c (Proc.devRef .tc b) :=
  Function.update_of_ne (StableHlo.devRef_ne_of_ne h) _ _
theorem W3_of_ne (c : Dev nD) {b : Ref sig .tc} (h : b ≠ main_v2) : W3 m c (Proc.devRef .tc b) = W2m m c (Proc.devRef .tc b) :=
  after_ops1_of_ne (W2m m c) h
theorem W5_of_ne (c : Dev nD) {b : Ref sig .tc} (h0 : b ≠ main_c) (h1 : b ≠ main_call0_v0) (h2 : b ≠ main_v4) :
    W5 m c (Proc.devRef .tc b) = W4 m c (Proc.devRef .tc b) :=
  after_ops2_of_ne (W4 m c) h0 h1 h2
theorem W9_of_ne (c : Dev nD) (g : OB (F := F) c) {b : Ref sig .tc} (h0 : b ≠ main_c_0) (h1 : b ≠ main_c_1) (h9 : b ≠ main_v9) :
    W9 m c g (Proc.devRef .tc b) = W8 m c g (Proc.devRef .tc b) :=
  after_ops4_of_ne (W8 m c g) h0 h1 h9

/-! ## The arguments end as launched -/

/-- The buffers some step of the program writes. -/
abbrev written : List (Ref sig .tc) :=
  [main_c_0, main_c_1, main_v9, main_v3, main_v6, main_v7, main_v8, main_v5, main_c, main_call0_v0, main_v4, main_v2, main_v1, main_v0]

/-- A buffer no step writes ends as launched: no host operation writes it, it is no array of the pooling or of the
    tail pipeline, and it is neither the rows' buffer nor the big product's. -/
theorem W9_unwritten (c : Dev nD) (g : OB (F := F) c) (b : Ref sig .tc) (hb : ∀ r ∈ written, b ≠ r) :
    W9 m c g (Proc.devRef .tc b) = m ((c.tc : Thread nD τ).loc b) := by
  have h1 : b ≠ main_c_0 := hb _ (by decide)
  have h2 : b ≠ main_c_1 := hb _ (by decide)
  have h3 : b ≠ main_v9 := hb _ (by decide)
  have h4 : b ≠ main_v3 := hb _ (by decide)
  have h5 : b ≠ main_v6 := hb _ (by decide)
  have h6 : b ≠ main_v7 := hb _ (by decide)
  have h7 : b ≠ main_v8 := hb _ (by decide)
  have h8 : b ≠ main_v5 := hb _ (by decide)
  have h9 : b ≠ main_c := hb _ (by decide)
  have h10 : b ≠ main_call0_v0 := hb _ (by decide)
  have h11 : b ≠ main_v4 := hb _ (by decide)
  have h12 : b ≠ main_v2 := hb _ (by decide)
  have h13 : b ≠ main_v1 := hb _ (by decide)
  have h14 : b ≠ main_v0 := hb _ (by decide)
  calc W9 m c g (Proc.devRef .tc b)
    _ = W8 m c g (Proc.devRef .tc b) := W9_of_ne m c g h1 h2 h3
    _ = W7 m c g (Proc.devRef .tc b) := W8_of_ne m c g b (fun w => by
          match w with
          | ⟨0, _⟩ => exact fun e => h4 e.symm
          | ⟨1, _⟩ => exact fun e => h5 e.symm
          | ⟨2, _⟩ => exact fun e => h6 e.symm
          | ⟨3, _⟩ => exact fun e => h7 e.symm)
    _ = W6 m c g (Proc.devRef .tc b) := W7_of_ne m c g h5 h6
    _ = W5 m c (Proc.devRef .tc b) := W6_of_ne m c g h8
    _ = W4 m c (Proc.devRef .tc b) := W5_of_ne m c h9 h10 h11
    _ = W3 m c (Proc.devRef .tc b) := W4_of_ne m c b (fun w => by
          match w with
          | ⟨0, _⟩ => exact fun e => h12 e.symm
          | ⟨1, _⟩ => exact fun e => h4 e.symm)
    _ = W2m m c (Proc.devRef .tc b) := W3_of_ne m c h12
    _ = W1 m c (Proc.devRef .tc b) := W2m_of_ne m c h13
    _ = W0 m c (Proc.devRef .tc b) := W1_of_ne m c h14
    _ = m ((c.tc : Thread nD τ).loc b) := rfl

theorem W9_main_arg0 (c : Dev nD) (g : OB (F := F) c) : W9 m c g (Proc.devRef .tc main_arg0) = m ((c.tc : Thread nD τ).loc main_arg0) :=
  W9_unwritten m c g main_arg0 (by decide)
theorem W9_main_arg1 (c : Dev nD) (g : OB (F := F) c) : W9 m c g (Proc.devRef .tc main_arg1) = m ((c.tc : Thread nD τ).loc main_arg1) :=
  W9_unwritten m c g main_arg1 (by decide)
theorem W9_main_arg2 (c : Dev nD) (g : OB (F := F) c) : W9 m c g (Proc.devRef .tc main_arg2) = m ((c.tc : Thread nD τ).loc main_arg2) :=
  W9_unwritten m c g main_arg2 (by decide)
theorem W9_main_arg3 (c : Dev nD) (g : OB (F := F) c) : W9 m c g (Proc.devRef .tc main_arg3) = m ((c.tc : Thread nD τ).loc main_arg3) :=
  W9_unwritten m c g main_arg3 (by decide)

end Cert.KernelIdeal.Tc

end
-- ==== Proof.TcSegs.lean ====
/-
  The pipelines' program as segments: the gathered rows regrouped, the pooling region, the bias padded, the big
  product's region, the last rows of W and b cut out, the tail region, the tail's columns written over the big product.
  The big product's region is entered with its output buffer taken out of the unscoped rest into the body's invariant
  (with the kernel's four semaphores), and left with that buffer at some contents of the stated property.
-/
import proofs.«204097_g52673478918828_cont_9to1c4b_838_31_alg».proof.Proof.TcRun
import proofs.«204097_g52673478918828_cont_9to1c4b_838_31_alg».proof.Proof.TcChain
import proofs.«204097_g52673478918828_cont_9to1c4b_838_31_alg».proof.Proof.TcChainFacts

noncomputable section

namespace Cert.KernelIdeal.Tc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig (HIx 1) (Elt F) ℕ UU ℕ

variable (m : (ℓ : Loc nD τ sig) → Buf (Elt F) ℓ)

/-! ## The pooling region and the tail region -/

set_option backward.isDefEq.respectTransparency.types false in
/-- The pooling region: entered at W3, left at W4. -/
def reg0 : Pipeline.RegionSeg (pcfgs (F := F)) adm (pdats m) (none : HIx 1) defs₀ 𝒱₀ (K (F := F)).L (K (F := F)).lev 0 :=
  regionSeg (pdats m) 0 launch1.win launch1.block_pos launch1.arr_whole launch1.stage_whole (W3 m) (W4 m)
    (hA0 m) (hΦ0 m) (howed0 m) (hq0 m) (hrec0 m)
    (fun c => (Pool.body_obligation (Name := ℕ) (U := UU) (Lvl := ℕ) (V3 m) (Bset (F := F) c) (none : HIx 1) c).loose) (hF0 m) (hrest0 m)

set_option backward.isDefEq.respectTransparency.types false in
set_option maxHeartbeats 1000000 in
/-- The tail region: entered at W7 g, left at W8 g, whatever the big product's buffer g. -/
def reg2 : Pipeline.RegionSeg (pcfgs (F := F)) adm (pdats m) (none : HIx 1) defs₀ 𝒱₀ (K (F := F)).L (K (F := F)).lev 2 :=
  regionSegEx (pdats m) 2 launch3.win launch3.block_pos launch3.arr_whole launch3.stage_whole (γ := fun c => OB (F := F) c) (φ := fun c g => OkG m c g) (Wpre := fun c g => W7 m c g) (Wpost := fun c g => W8 m c g)
    (hA2 m) (hΦ2 m) (howed2 m) (hq2 m) (hrec2 m)
    (fun c => (Tail.body_obligation (Name := ℕ) (U := UU) (Lvl := ℕ) (V7 m) (Bset (F := F) c) (none : HIx 1) c).loose) (hF2 m) (hrest2 m)

/-! ## The big product's region -/

/-- The unscoped buffers that are no array of the big product's pipeline. -/
abbrev restSet : Finset (Ref sig .tc) := (Finset.univ.filter fun b : Ref sig .tc => ¬ b.isScoped) \ Finset.univ.image (Pipeline.arrRef spec2)

theorem v5_mem_rest : main_v5 ∈ restSet := by decide

/-- The rest without the output buffer. -/
abbrev restZ (c : Dev nD) (Vv : (b : Ref sig .tc) → Buf (Elt F) ((c : Thread nD τ).loc b)) : sProp 𝕄 :=
  bigSep (restSet.erase main_v5) fun b => ((c : Thread nD τ).loc b) ↦{fullShare} Vv b

theorem rest_split (c : Dev nD) (Vv : (b : Ref sig .tc) → Buf (Elt F) ((c : Thread nD τ).loc b)) :
    (Pipeline.unscopedRest (Ix := HIx 1) (Name := ℕ) (U := UU) (Lvl := ℕ) (Pipeline.pin (pcfgs (F := F)) adm 1).spec c Vv : sProp 𝕄)
      = iprop((((c : Thread nD τ).loc main_v5) ↦{fullShare} Vv main_v5) ∗ restZ c Vv) := by
  unfold Pipeline.unscopedRest
  exact bigSep_erase v5_mem_rest

/-- The recorded pairs of the ring's waits are at the index of level 0. -/
theorem hB (c : Dev nD) : ∀ n : ℕ, (Mm.cellR n, (none : HIx 1)) ∈ Bset (F := F) c := fun n => by
  show (K (F := F)).lev _ none ≤ 8
  rw [SparseCore.Cfg.lev_none]; exact Nat.zero_le _

set_option backward.isDefEq.respectTransparency.types false in
def reg1 : Pipeline.RegionSeg (pcfgs (F := F)) adm (pdats m) (none : HIx 1) defs₀ 𝒱₀ (K (F := F)).L (K (F := F)).lev 1 where
  win := launch2.win.to₀
  block_pos := launch2.block_pos
  stage_whole := launch2.stage_whole
  K := Fin 4
  osem := Mm.osem
  ho := Mm.ownSemFacts2
  hbody c := Mm.body_obligation (Name := ℕ) (U := UU) (Lvl := ℕ) (V5 m) (none : HIx 1) (Bset (F := F) c) c (hB c)
  hwaits := Pipeline.hwaits_of_owed_zero _ _ _ _ (K (F := F)).L (K (F := F)).lev 1 (fun _ _ => rfl)
  pre c := iprop(StableHlo.held (c.tc : Thread nD τ) (Pipeline.ucRefs τ sig) (W5 m c) ∗ R (F := F) c)
  post c := iprop(∃ g : OB (F := F) c, ⌜OkG m c g⌝ ∗ StableHlo.held (c.tc : Thread nD τ) (Pipeline.ucRefs τ sig) (W6 m c g) ∗ R (F := F) c)
  X c := iprop((((c : Thread nD τ).loc main_v5) ↦{fullShare} V5 m c main_v5) ∗ Pipeline.ownSems0 (Ix := HIx 1) (Name := ℕ) (U := UU) (Lvl := ℕ) (Val := Elt F) (τ := τ) Mm.osem c)
  Y c := iprop(∃ g : OB (F := F) c, ⌜OkG m c g⌝ ∗ (((c : Thread nD τ).loc main_v5) ↦{fullShare} g))
  Z c := restZ c (V5 m c)
  hentry c := by
    have hsplit := Pipeline.arrays_of_unscopedBufs (p := 1) (pcfgs (F := F)) adm (pdats m) launch2.win launch2.arr_whole c
      ((pdats m 1 c).share_full fun _ => rfl) (V5 m c) (hA1 m c)
    rw [Pipeline.unscopedBufs_held, rest_split] at hsplit
    iintro ⟨⟨Hub, HO⟩, Hsem, -⟩
    ihave H := hsplit $$ Hub
    icases H with ⟨Ha, Hv5, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c (0 : CellTallies nD τ sig (HIx 1)) (B := Bset (F := F) c) (B' := (pdats m 1 c).bound none 0)
        (by unfold Pipeline.Dat.bound; exact Set.subset_union_left))
      iexact HO
    isplitl [Hv5 Hsem]; · isplitl [Hv5] <;> iassumption
    iexact Hrest
  hin c := by
    rw [show (pdats m 1 c).Φ 0 = Mm.PhiN (V5 m) (none : HIx 1) c 0 from rfl]
    iintro ⟨⟨Hv5, Hsem⟩, -, Hr⟩
    iapply (Mm.hin (Name := ℕ) (U := UU) (Lvl := ℕ) (V5 m) (none : HIx 1) c)
    isplitl [Hv5]; · iexact Hv5
    isplitl [Hsem] <;> iassumption
  hout c := by
    rw [show (pdats m 1 c).Φ (Fin.last _) = Mm.PhiN (V5 m) (none : HIx 1) c 49 from rfl]
    exact Mm.hout (Name := ℕ) (U := UU) (Lvl := ℕ) (V5 m) (none : HIx 1) c
  hexit c := by
    have hjoin : ∀ g : OB (F := F) c, iprop((pdats m 1 c).arrays ((pdats m 1 c).arrAt · (Pipeline.pin (pcfgs (F := F)) adm 1).N)
          ∗ (((c : Thread nD τ).loc main_v5) ↦{fullShare} g) ∗ restZ c (V5 m c))
        ⊢ (StableHlo.held (c.tc : Thread nD τ) (Pipeline.ucRefs τ sig) (W6 m c g) : sProp 𝕄) := fun g => by
      have h := Pipeline.unscopedBufs_of_arrays (p := 1) (pcfgs (F := F)) adm (Ix := HIx 1) (Name := ℕ) (U := UU) (Lvl := ℕ)
        launch2.win launch2.arr_whole c (pdats m) ((pdats m 1 c).share_full fun _ => rfl)
        (fun b => W6 m c g (Proc.devRef .tc b)) (fun b => W6 m c g (Proc.devRef .tc b)) ((pdats m 1 c).arrAt · (Pipeline.pin (pcfgs (F := F)) adm 1).N)
        (fun w => (arr1 m c w _).trans (W6_arr m c g w).symm) (fun _ _ => rfl)
      rw [Pipeline.unscopedBufs_held, rest_split] at h
      refine BIBase.Entails.trans ?_ h
      iintro ⟨Ha, Hv5, Hrest⟩
      isplitl [Ha]; · iexact Ha
      isplitl [Hv5]
      · iapply (Entails.of_eq (by rw [W6_v5]))
        iexact Hv5
      iapply (Entails.of_eq (show (restZ c (V5 m c) : sProp 𝕄) = restZ c (fun b => W6 m c g (Proc.devRef .tc b)) from
        bigSep_congr fun b hb => by
          show ((((c : Thread nD τ).loc b) ↦{fullShare} V5 m c b : sProp 𝕄)) = (((c : Thread nD τ).loc b) ↦{fullShare} W6 m c g (Proc.devRef .tc b))
          rw [W6_of_ne m c g (Finset.ne_of_mem_erase hb)]))
      iexact Hrest
    iintro ⟨Ha, HO, ⟨%g, %hg, Hv5⟩, Hrest⟩
    imodintro
    iexists g; isplitr; · ipureintro; exact hg
    isplitl [Ha Hv5 Hrest]
    · iapply (hjoin g)
      isplitl [Ha]; · iexact Ha
      isplitl [Hv5] <;> iassumption
    unfold Pipeline.Dat.owesAt
    iapply (Pipeline.owesWithin_mono c (0 : CellTallies nD τ sig (HIx 1)) (B := (pdats m 1 c).bound none (Fin.last _)) (B' := Bset (F := F) c)
      (by unfold Pipeline.Dat.bound; exact Set.union_subset (fun _ h => h) (waitPairs_sub _ c)))
    iexact HO

/-! ## The segments -/

/-- A stretch of host operations from a definite valuation. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

abbrev segs : List (Pipeline.Seg (pcfgs (F := F)) adm (pdats m) (none : HIx 1) defs₀ 𝒱₀ (K (F := F)).L (K (F := F)).lev) :=
  [ .host (hseg ops1 ops1_sub ops1_fresh (W2m m)),
    .region (reg0 m),
    .host (hseg ops2 ops2_sub ops2_fresh (W4 m)),
    .region (reg1 m),
    .host (hostSegEx (γ := fun c => OB (F := F) c) (OkG m) ops3 ops3_sub ops3_fresh (W6 m)),
    .region (reg2 m),
    .host (hostSegEx (γ := fun c => OB (F := F) c) (OkG m) ops4 ops4_sub ops4_fresh (W8 m)) ]

/-- The pipelines' program IS the run of the segments. -/
theorem tail_run : tail (F := F) = Pipeline.Seg.run (segs m) := by
  chain_rfl

theorem segs_nodup : (Pipeline.Seg.pipes (segs m)).Nodup := by
  simp only [segs, Pipeline.Seg.pipes_host, Pipeline.Seg.pipes_region, Pipeline.Seg.pipes_nil]; decide

/-- What the TensorCore ends with: contents g of the stated property, every unscoped buffer at W9 g. -/
abbrev T9 (c : Dev nD) : sProp 𝕄 :=
  iprop(∃ g : OB (F := F) c, ⌜OkG m c g⌝ ∗ StableHlo.held (c.tc : Thread nD τ) (Pipeline.ucRefs τ sig) (W9 m c g))

theorem segs_chain : Pipeline.Seg.Chains (fun c => iprop(StableHlo.held (c.tc : Thread nD τ) (Pipeline.ucRefs τ sig) (W2m m c) ∗ R (F := F) c)) (segs m)
    (fun c => iprop(T9 m c ∗ R (F := F) c)) :=
  ⟨fun _ => .rfl, fun _ => .rfl, fun _ => .rfl, fun _ => .rfl, fun _ => .rfl, fun _ => .rfl, fun _ => .rfl, fun c => by
    change iprop(∃ g : OB (F := F) c, ⌜OkG m c g⌝ ∗ StableHlo.held (c.tc : Thread nD τ) (Pipeline.ucRefs τ sig) (W9 m c g) ∗ R (F := F) c) ⊢ _
    iintro ⟨%g, %hg, Hh, HR⟩
    isplitl [Hh]
    · iexists g; isplitr; · ipureintro; exact hg
      iexact Hh
    iexact HR⟩

end Cert.KernelIdeal.Tc

end
-- ==== Proof.ScTile.lean ====
/-
  The SparseCore side of the launch, part two: one worker's run, at a symbolic place.

  Worker (c, s), number w = 2 s + c, fetches entries [640 w, 640 (w + 1)) of the index array into its index scratch,
  gathers the table rows they name into its row scratch by one indirect gather, and writes the row scratch to rows
  [640 w, 640 (w + 1)) of the result; each copy is waited for before the next is issued, each on its own semaphore.
  The entries are in range by the precondition, as the gather asks of the list at that moment; the written piece is read
  back index by index and found to be the one whole-array function `gOut` on the piece.
-/
import proofs.«204097_g52673478918828_cont_9to1c4b_838_31_alg».proof.Proof.ScSetup

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

variable (I0 : (d : Dev nD) → Buf (Elt F) (iLoc d)) (T0 : (d : Dev nD) → Buf (Elt F) (tLoc d)) (O0 : (d : Dev nD) → Buf (Elt F) (oLoc d))

local notation "iV" => (Memref.whole Cert.KernelIdeal.main_v0_scv : Memref Cert.KernelIdeal.sig Kind.scVector Space.hbm Cert.KernelIdeal.S20480 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S20480x128 EltTy.f32)
local notation "sV" => (Memref.whole Cert.KernelIdeal.cc0_scratch0 : Memref Cert.KernelIdeal.sig Kind.scVector Space.vmem Cert.KernelIdeal.S640 EltTy.i32)
local notation "rV" => (Memref.whole Cert.KernelIdeal.cc0_scratch1 : Memref Cert.KernelIdeal.sig Kind.scVector Space.vmem Cert.KernelIdeal.S640x128 EltTy.f32)

/-! ## The worker's place and its views -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's number. -/
abbrev wL (L : grid0.Coords) : Fin 32 := wk (cL L) (jL L)

abbrev irowK (L : grid0.Coords) : Rect S20480 := Rect.unit (s := S20480) (k0_off1 L) S640.size (k0_off1_inb L)
abbrev orowK (L : grid0.Coords) : Rect S20480x128 := Rect.unit (s := S20480x128) (k0_off2 L) S640x128.size (k0_off2_inb L)
/-- The worker's piece of the index array and of the result, and the whole table, as the kernel addresses them. -/
abbrev iRowK (L : grid0.Coords) : Memref sig .scVector .hbm S640 .i32 := (iV).slice (irowK L) (fun _ => rfl)
abbrev oRowK (L : grid0.Coords) : Memref sig .scVector .hbm S640x128 .f32 := (oV).slice (orowK L) (fun _ => rfl)
abbrev tAllK : Memref sig .scVector .hbm S100000x128 .f32 :=
  (tV).slice (Rect.unit (s := S100000x128) ![0, 0] S100000x128.size inb_S100000x128_S100000x128_0_0) (fun _ => rfl)

/-- Unit-stride rectangles of equal offsets and sizes are equal. -/
theorem rect_unit_eq {s : Shape} {off off' size size' : Fin s.rank → Nat} {inb : ∀ a, off a + size a ≤ s.size a}
    {inb' : ∀ a, off' a + size' a ≤ s.size a} (ho : off = off') (hs : size = size') :
    Rect.unit (s := s) off size inb = Rect.unit off' size' inb' := by
  subst ho; subst hs; rfl

/-- The kernel's slice of the index array at offset 640 (2 s + c) is piece w of its cut into 32. -/
theorem irowK_eq : irowK L = irow (wL L) := by
  refine rect_unit_eq ?_ ?_
  · rw [k0_off1_eq]; funext a
    match a with
    | 0 => simp [Shape.partIx, Shape.partSize, wk] <;> omega
  · funext a
    match a with
    | 0 => simp [Shape.partSize]
theorem orowK_eq : orowK L = orow (wL L) := by
  refine rect_unit_eq ?_ ?_
  · rw [k0_off2_eq]; funext a
    match a with
    | 0 => simp [Shape.partIx, Shape.partSize, wk] <;> omega
    | 1 => simp [Shape.partIx, Shape.partSize]
  · funext a
    match a with
    | 0 => simp [Shape.partSize]
    | 1 => simp [Shape.partSize]

theorem set_iRowK : (iRowK L).view.set = iRowSet (wL L) := by
  show ((iV).view.slice (irowK L)).set = ((iV).view.slice (irow (wL L))).set
  rw [irowK_eq]
theorem set_oRowK : (oRowK L).view.set = oRowSet (wL L) := by
  show ((oV).view.slice (orowK L)).set = ((oV).view.slice (orow (wL L))).set
  rw [orowK_eq]

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three semaphores: the index fetch's, the gather's, the write-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the copies carry -/

/-- The index scratch written whole reads back as what was written. -/
theorem sV_read_write (fs : Buf (Elt F) ((V d (cV L) (jV L)).loc cc0_scratch0)) (pay : S640.Idx → Elt F .i32) :
    (sV).view.read (Elt F) (View.write (Elt F) (sV).view fs pay Finset.univ) = pay := by
  have h : View.write (Elt F) (sV).view fs pay Finset.univ = pay := View.write_whole_univ (Val := Elt F) cc0_scratch0 fs pay
  rw [h]; rfl
/-- The row scratch written whole reads back as what was written. -/
theorem rV_read_write (fr : Buf (Elt F) ((V d (cV L) (jV L)).loc cc0_scratch1)) (pay : S640x128.Idx → Elt F .f32) :
    (rV).view.read (Elt F) (View.write (Elt F) (rV).view fr pay Finset.univ) = pay := by
  have h : View.write (Elt F) (rV).view fr pay Finset.univ = pay := View.write_whole_univ (Val := Elt F) cc0_scratch1 fr pay
  rw [h]; rfl

/-- The worker's slice of the index array reads entry `x` of the slice off the array at the slice's placement of `x`. -/
theorem iRowK_read (f : Buf (Elt F) (iLoc d)) (x : S640.Idx) : (iRowK L).view.read (Elt F) f x = f ((irowK L).emb x) :=
  (View.read_apply _ _).trans (cast_eq _ _)

/-- The entries the gather reads are in range: what the index fetch landed in the scratch is the worker's piece of the
    index array, every entry of which names a row of the table. -/
theorem inb_of_pre (hpre : PreOK I0) (fs : Buf (Elt F) ((V d (cV L) (jV L)).loc cc0_scratch0)) (pay : S640.Idx → Elt F .i32)
    (hpay : pay = (iRowK L).view.read (Elt F) (I0 d)) :
    ∀ x, ((sV).view.read (Elt F) (View.write (Elt F) (sV).view fs pay Finset.univ) x).toNat < S100000x128.size gathers_S100000x128_S640x128.axis := by
  intro x
  rw [sV_read_write, hpay, iRowK_read]
  exact hpre d _

/-- The whole table, as the kernel slices it (offsets zero, full sizes), reads entry `y` off the table at `y`. -/
theorem tAllK_read (f : Buf (Elt F) (tLoc d)) (y : S100000x128.Idx) : (tAllK).view.read (Elt F) f y = f y := by
  refine ((View.read_apply _ _).trans (cast_eq _ _)).trans (congrArg f ?_)
  funext a; apply Fin.ext
  show ((Rect.unit (s := S100000x128) ![0, 0] S100000x128.size inb_S100000x128_S100000x128_0_0).emb y a : ℕ) = y a
  rw [Rect.emb_apply]
  match a with
  | 0 => simp
  | 1 => simp

/-- Row-major numbering of a one-axis shape is the coordinate itself. -/
theorem rowMajor_symm_val (z : Fin S640.numel) : ((S640.rowMajor.symm z) 0).val = z.val :=
  (Shape.rowMajor_val_one (d := ![640]) (S640.rowMajor.symm z)).symm.trans (congrArg Fin.val (S640.rowMajor.apply_symm_apply z))

/-- THE VALUE. What the write-out leaves in the worker's piece of the result is `gOut` there: element (k, l) of the piece
    is element l of the row scratch's row k, which the gather filled with element l of the table row that entry k of the
    index scratch names, which the index fetch filled with entry 640 w + k of the index array; and (k, l) of the piece is
    (640 w + k, l) of the result. -/
theorem out_val (hpre : PreOK I0) (fs : Buf (Elt F) ((V d (cV L) (jV L)).loc cc0_scratch0)) (fr : Buf (Elt F) ((V d (cV L) (jV L)).loc cc0_scratch1))
    (pay0 : S640.Idx → Elt F .i32) (hpay0 : pay0 = (iRowK L).view.read (Elt F) (I0 d))
    (hin : ∀ x, ((sV).view.read (Elt F) (View.write (Elt F) (sV).view fs pay0 Finset.univ) x).toNat < S100000x128.size gathers_S100000x128_S640x128.axis)
    (G : S640x128.Idx → Elt F .f32)
    (hG : G = SparseCore.gatherPayload gathers_S100000x128_S640x128 ((tAllK).view.read (Elt F) (T0 d))
        (SparseCore.rows ((sV).view.read (Elt F) (View.write (Elt F) (sV).view fs pay0 Finset.univ)) rfl hin))
    (pay2 : S640x128.Idx → Elt F .f32)
    (hpay2 : pay2 = (rV).view.read (Elt F) ((rV).view.writes (Elt F) fr [⟨Rect.whole S640x128, G⟩])) :
    ∀ x ∈ oRowSet (wL L), (oRowK L).view.writes (Elt F) (O0 d) [⟨Rect.whole S640x128, pay2⟩] x = gOut I0 T0 d x := by
  intro x hx
  rw [← set_oRowK] at hx
  simp only [View.set, Finset.mem_map, Finset.mem_univ, true_and] at hx
  obtain ⟨j, rfl⟩ := hx
  have e1 : (oRowK L).view.writes (Elt F) (O0 d) [⟨Rect.whole S640x128, pay2⟩] ((oRowK L).view.emb j) = pay2 j := by
    have h := View.read_writes_cons_emb (oRowK L).view (O0 d) (Rect.whole S640x128) pay2 [] j
    rw [Rect.emb_whole_apply] at h
    exact ((View.read_apply _ _).trans (cast_eq _ _)).symm.trans h
  have e2 : pay2 j = G j := by
    rw [hpay2]
    have h : (rV).view.read (Elt F) ((rV).view.writes (Elt F) fr [⟨Rect.whole S640x128, G⟩]) ((Rect.whole S640x128).emb j) = G j :=
      View.read_writes_cons_emb (rV).view fr (Rect.whole S640x128) G [] j
    rw [Rect.emb_whole_apply] at h
    exact h
  rw [e1, e2, hG]
  unfold SparseCore.gatherPayload
  rw [tAllK_read]
  show T0 d _ = T0 d (ix2 (gRow I0 d (((oRowK L).view.emb j) 0)) (((oRowK L).view.emb j) 1))
  refine congrArg (T0 d) ?_
  funext a
  match a with
  | 0 =>
    apply Fin.ext
    -- the table row the gather read for row (j 0) of the scratch
    have h0 : (gathers_S100000x128_S640x128.idx (SparseCore.rows ((sV).view.read (Elt F) (View.write (Elt F) (sV).view fs pay0 Finset.univ)) rfl hin) j 0).val
        = (I0 d ((irowK L).emb (S640.rowMajor.symm ((j 0).cast rfl)))).toNat := by
      have h := congrArg Fin.val (Shape.Gathers.idx_axis gathers_S100000x128_S640x128
        (SparseCore.rows ((sV).view.read (Elt F) (View.write (Elt F) (sV).view fs pay0 Finset.univ)) rfl hin) j)
      refine h.trans ?_
      show (((sV).view.read (Elt F) (View.write (Elt F) (sV).view fs pay0 Finset.univ)) (S640.rowMajor.symm ((j 0).cast rfl))).toNat = _
      rw [sV_read_write, hpay0, iRowK_read]
    -- the entry of the index array that is: entry 640 w + (j 0)
    have hix : (irowK L).emb (S640.rowMajor.symm ((j 0).cast rfl)) = ix1 (((oRowK L).view.emb j) 0) := by
      funext b
      match b with
      | 0 =>
        apply Fin.ext
        show (irowK L).off 0 + (irowK L).stride 0 * ((S640.rowMajor.symm ((j 0).cast rfl)) 0).val
          = (orowK L).off 0 + (orowK L).stride 0 * (j 0).val
        rw [rowMajor_symm_val]
        show k0_off1 L 0 + 1 * (j 0).val = k0_off2 L 0 + 1 * (j 0).val
        rw [k0_off1_eq, k0_off2_eq]; simp
    rw [h0, hix]
    have hp := hpre d (ix1 (((oRowK L).view.emb j) 0))
    exact (Nat.min_eq_left (Nat.le_of_lt_succ hp)).symm
  | 1 =>
    apply Fin.ext
    have h1 := Shape.Gathers.idx_of_ne gathers_S100000x128_S640x128
      (SparseCore.rows ((sV).view.read (Elt F) (View.write (Elt F) (sV).view fs pay0 Finset.univ)) rfl hin) j 1 (by decide)
    refine h1.trans ?_
    show (j 1).val = (orowK L).off 1 + (orowK L).stride 1 * (j 1).val
    show (j 1).val = k0_off2 L 1 + 1 * (j 1).val
    rw [k0_off2_eq]; simp

/-! ## The worker's run -/

set_option maxHeartbeats 4000000 in
/-- The run of worker `(L 0, L 1)` of device `d`: the index fetch and its wait, the indirect gather and its wait (its
    entries in range by the precondition), the write-out and its wait; the piece of the result it leaves is `gOut` there. -/
theorem tile_body [FloatOps F] [Named F] (hF : (K (F := F)).Facts) (hpre : PreOK I0) (O : CellTallies nD τ sig (HIx 1)) (W : Waits sig (HIx 1)) (hO : ∀ g, O g none = 0) :
    iprop(levAts (K (F := F)).L (K (F := F)).lev ∗ emp
        ∗ (iRowPts (U := U) I0 d (wL L) ∗ tShPts (U := U) T0 d (cL L) (jL L) ∗ oRowPts (U := U) d (wL L) (O0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iV (Memref.isWhole_whole _) tV (Memref.isWhole_whole _) oV (Memref.isWhole_whole _)
            sV (Memref.isWhole_whole _) rV (Memref.isWhole_whole _) cc0_scratch2 cc0_scoped0 cc0_scoped1)
          fun _ => iprop((iRowPts (U := U) I0 d (wL L) ∗ tShPts (U := U) T0 d (cL L) (jL L) ∗ oRowPts (U := U) d (wL L) (gOut I0 T0 d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  -- the index fetch and its wait
  sl_exec
  -- the gather's entries are in range at the list's contents then, whatever the scratch held before the fetch
  have hin1 : ∀ fs', ∀ x, ((sV).view.read (Elt F) (View.write (Elt F) (sV).view fs' (tile_body.sl.dma0 I0 d L) Finset.univ) x).toNat < S100000x128.size gathers_S100000x128_S640x128.axis :=
    fun fs' => inb_of_pre I0 d L hpre fs' _ rfl
  -- the gather and its wait, the write-out and its wait
  sl_exec
  sl_step
  isplitl [Hi' Hx' Ho']
  · isplitl [Hi']; · iapply (Entails.of_eq (pts_iRowK (F := F) d L _)); iexact Hi'
    isplitl [Hx']; · iexact Hx'
    iapply (Entails.of_eq (pointsTo_congr (out_val I0 T0 O0 d L hpre fs fr (tile_body.sl.dma0 I0 d L) rfl (hin1 fs)
      (tile_body.sl.gather0 I0 T0 d L fs hin1) rfl (tile_body.sl.dma0_1 I0 T0 d L fs fr hin1) rfl)))
    iapply (Entails.of_eq (pts_oRowK (F := F) d L _)); iexact Ho'
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] [Named F] (c : Fin τ.nSC) (s : Fin τ.nSub) :
    defs₀ (F := F) (.scVector c s) 0 ()
      = SparseCore.onTile hcore0 hsub0 (fun c s => cc0_k (coordsV c s)
          iV (Memref.isWhole_whole _) tV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The kernel's obligation to the launch: every worker's task, from its operands to its results. -/
theorem tileObl [FloatOps F] [Named F] (hF : (K (F := F)).Facts) (hpre : PreOK I0) :
    (K (F := F)).TileObl (D (F := F)) 𝒱 (P (U := U) I0 T0 O0) v₀ 0 := by
  intro d c i O W hO _ _
  simp only [show (P (U := U) I0 T0 O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I0 T0 O0 d (coordsV ⟨_, hci.1⟩ ⟨_, hci.2⟩) hF hpre O W hO).trans (wp_mono frame _ _ fun _ => obl_post)

end Tile

end Cert.KernelIdeal.Sc

end
-- ==== Proof.KernelRun.lean ====
/-
  The program's run: every weakly fair execution of the TensorCore's program, the two sequencers' and the 32 vector
  subcores' terminates, nothing faulting, and in every final state the arguments are as launched and the result buffer
  holds the last valuation's contents, for some contents g of the big product's buffer with the stated property.
-/
import proofs.«204097_g52673478918828_cont_9to1c4b_838_31_alg».proof.Proof.TcSegs
import proofs.«204097_g52673478918828_cont_9to1c4b_838_31_alg».proof.Proof.ScTile

noncomputable section

namespace Cert.KernelIdeal.Tc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- What a final state satisfies on device d. -/
def fq (d : Dev nD) (s' : Phys nD τ sig (Elt F)) : Prop :=
  ∃ g : OB (F := F) d, OkG m d g ∧ ∀ b ∈ Pipeline.ucRefs τ sig, s'.mem.mem (((d.tc : Thread nD τ)).1, b) = W9 m d g b

set_option maxRecDepth 16384 in
theorem hfin (d : Dev nD) (s' : Phys nD τ sig (Elt F)) : iprop(T9 m d ∗ SI s') ⊢ (⌜fq m d s'⌝ : sProp 𝕄) := by
  iintro ⟨⟨%g, %hg, Hh⟩, HSI⟩
  unfold StableHlo.held
  ihave H := (pointsTo_read_all (Pipeline.ucRefs τ sig) (fun b => (((d.tc : Thread nD τ)).1, b)) (W9 m d g) s') $$ [Hh HSI]
  · isplitl [Hh] <;> iassumption
  icases H with ⟨%h, -⟩
  ipureintro; exact ⟨g, hg, h⟩

/-- The run's post: per device, contents g of the property, the result at the last valuation, the arguments as launched. -/
def QC : PUnit × MemSt nD τ sig (Elt F) → Prop := fun r => ∀ c : Dev nD,
  ∃ g : OB (F := F) c, OkG m c g
    ∧ r.2.mem ((c.tc : Thread nD τ).loc main_v9) = W9 m c g (Proc.devRef .tc main_v9)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hQ (s' : Phys nD τ sig (Elt F)) (h : ∀ d, fq m d s') : QC m (⟨⟩, s'.mem) := fun c => by
  obtain ⟨g, hg, hall⟩ := h c
  exact ⟨g, hg, hall _ (mem_uc main_v9 (by decide)),
    (hall _ (mem_uc main_arg0 (by decide))).trans (W9_main_arg0 m c g), (hall _ (mem_uc main_arg1 (by decide))).trans (W9_main_arg1 m c g),
    (hall _ (mem_uc main_arg2 (by decide))).trans (W9_main_arg2 m c g), (hall _ (mem_uc main_arg3 (by decide))).trans (W9_main_arg3 m c g)⟩

set_option backward.isDefEq.respectTransparency.types false in
theorem run_main [∀ e, Nonempty (Elt F e)] (hpre : Sc.PreOK (I0 m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) Sc.facts v₀
    (fun q hq => match q with | 0 => nomatch hq)
    (fun q _ => match q with | 0 => Sc.tileObl (U := UU) (I0 m) (T0 m) (O0 m) Sc.facts hpre)
    (fun q _ => match q with | 0 => SparseCore.Cfg.VecSplit.of_plain (Sc.vecSplit (U := UU) (I0 m) (T0 m) (O0 m)))
    m ρ main (fun d => G (F := F) d) (T9 m) (u₀ (F := F)) (sep_elim_left.trans (hu₀ (PP m) (fun _ _ => rfl)))
    (hmain m ρ (gO m) (PP m) (hst m) (hdn m) (pdats m) (segs m) (tail_run m) (segs_nodup m) (T9 m) (segs_chain m))
    (fq m) (hfin m) (QC m) (hQ m)

end Cert.KernelIdeal.Tc

end
-- ==== Proof.KB.TcSetup.lean ====
/-
  The ghost state of the whole launch, and the program as the launch theorem sees it.

  Three kinds of protocol run side by side: the handshakes between the TensorCore, the two sequencers and the 32
  vector subcores (rounds with natural-number duties), the staging cells of the three TensorCore pipelines (rounds
  with unit duties), and the local copies of the gather kernel and of the matmul's ring (exclusive counters). The
  certificate's algebra is the product of the three.
-/
import proofs.«204097_g52673478918828_cont_9to1c4b_838_31_alg».proof.Proof.Gen.Kernel
import proofs.«204097_g52673478918828_cont_9to1c4b_838_31_alg».proof.Proof.Gen.Kernel.Launch
import Idealize.ShloMosaic.Lib.SparseCore.Launch
import Idealize.ShloMosaic.Lib.Pipeline.Regions
import Idealize.ShloMosaic.Lib.Transfers

noncomputable section

namespace Cert.Kernel.Tc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The label signature: the kernels' labels under the three pipelines' regions. -/
abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipelines' rounds, the counters of local copies. -/
abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

example : CountersIn UU := inferInstance

/-- No pipeline has a prefetched table. -/
abbrev adm : (p : Fin 3) → (pcfgs (F := F) p).Adm := fun p => (cfgs p).toPCfg_adm

end Cert.Kernel.Tc

end
-- ==== Proof.KB.TcMain.lean ====
/-
  The TensorCore's program as the launch sees it: one host operation, the SparseCore call, and then a program of the
  three pipelines alone — four stretches of host operations with the three regions between them.
-/
import proofs.«204097_g52673478918828_cont_9to1c4b_838_31_alg».proof.Proof.KB.TcSetup

noncomputable section

namespace Cert.Kernel.Tc

open Cert.Kernel Cert.Kernel.Gen
open Idealize.ShloMosaic
open Idealize.SL Idealize.SL.Sem

variable {F : FTy → Type} [FloatOps F]

/-- The index array flattened to [20480]. -/
abbrev ops0 : List (HloOp τ sig (Elt F)) :=
  [StableHlo.reshape main_arg0 main_v0 rfl shapeCasts_S1024x20_S20480]
/-- The gathered rows [20480, 128] regrouped as [1024, 20, 128]. -/
abbrev ops1 : List (HloOp τ sig (Elt F)) :=
  [StableHlo.reshape main_v1 main_v2 rfl shapeCasts_S20480x128_S1024x20x128]
/-- The bias padded with zeros to [100352]. -/
abbrev ops2 : List (HloOp τ sig (Elt F)) :=
  [StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_arg3 : StableHlo.TRef sig ⟨S100000, .f32⟩) main_call0.v0 main_call0.v1 (fun x v => pad S100352 ![0] ![352] ![0] x v pads_S100000_S100352_03520 h_S_)]
/-- The last 160 rows of W and entries of b. -/
abbrev ops3 : List (HloOp τ sig (Elt F)) :=
  [StableHlo.unary main_arg2 main_v6 ((extractStridedSlice S160x128 ![99840, 0] · slices_S100000x128_S160x128_99840_0) : (⟨S100000x128, .f32⟩ : BufTy).Contents (Elt F) → (⟨S160x128, .f32⟩ : BufTy).Contents (Elt F)),
   StableHlo.unary main_arg3 main_v7 ((extractStridedSlice S160 ![99840] · slices_S100000_S160_99840) : (⟨S100000, .f32⟩ : BufTy).Contents (Elt F) → (⟨S160, .f32⟩ : BufTy).Contents (Elt F))]
/-- The tail's 160 columns written over columns 99840 … 99999 of the big product. -/
abbrev ops4 : List (HloOp τ sig (Elt F)) :=
  [StableHlo.nullary main_c_0 (constantI S_ 32 0#32),
   StableHlo.nullary main_c_1 (constantI S_ 32 99840#32),
   StableHlo.binaryIndexed main_v5 main_v8 ![main_c_0, main_c_1] ⟨S_, .i32⟩ main_v9 ((fun x u i => Host.dynamicUpdateSlice x u (fun k => (i k (Shape.Idx.first h_S_)).toInt) updateFits_S1024x100000_S1024x160) : (⟨S1024x100000, .f32⟩ : BufTy).Contents (Elt F) → (⟨S1024x160, .f32⟩ : BufTy).Contents (Elt F) → (Fin 2 → (⟨S_, .i32⟩ : BufTy).Contents (Elt F)) → (⟨S1024x100000, .f32⟩ : BufTy).Contents (Elt F))]

/-- Every host operation touches TensorCore references only, and none allocates a buffer. -/
theorem ops0_sub : (ops0 : List (HloOp τ sig (Elt F))).Forall fun op => op.bufs ⊆ StableHlo.tcRefs τ sig :=
  StableHlo.reshape_bufs_sub ..
theorem ops1_sub : (ops1 : List (HloOp τ sig (Elt F))).Forall fun op => op.bufs ⊆ StableHlo.tcRefs τ sig :=
  StableHlo.reshape_bufs_sub ..
theorem ops2_sub : (ops2 : List (HloOp τ sig (Elt F))).Forall fun op => op.bufs ⊆ StableHlo.tcRefs τ sig :=
  ⟨StableHlo.nullary_bufs_sub .., StableHlo.unary_bufs_sub .., StableHlo.binary_bufs_sub ..⟩
theorem ops3_sub : (ops3 : List (HloOp τ sig (Elt F))).Forall fun op => op.bufs ⊆ StableHlo.tcRefs τ sig :=
  ⟨StableHlo.unary_bufs_sub .., StableHlo.unary_bufs_sub ..⟩
theorem ops4_sub : (ops4 : List (HloOp τ sig (Elt F))).Forall fun op => op.bufs ⊆ StableHlo.tcRefs τ sig :=
  ⟨StableHlo.nullary_bufs_sub .., StableHlo.nullary_bufs_sub .., StableHlo.binaryIndexed_bufs_sub ..⟩
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor

/-- What follows the SparseCore call, as a program of the pipelines' signature. -/
def tail : Prog (TpuEff nD τ sig (Elt F) (ΛP (F := F)) .tc) PUnit :=
  Pipeline.chain [StableHlo.seq ops1, Prog.lift (.customCall (Pipeline.entry 0) ()), StableHlo.seq ops2,
    Prog.lift (.customCall (Pipeline.entry 1) ()), StableHlo.seq ops3, Prog.lift (.customCall (Pipeline.entry 2) ()), StableHlo.seq ops4]

/-- The TensorCore's program: the reshape, the call, the tail. -/
theorem main_eq (d : Dev nD) :
    main (F := F) d = (StableHlo.seq (ops0 (F := F)) >>= fun _ =>
      (K (F := F)).run d 0 >>= fun _ => SparseCore.liftProg (tail (F := F))) := by
  chain_rfl

end Cert.Kernel.Tc

end
-- ==== Proof.KB.TcRegion.lean ====
/-
  A pipeline region whose body keeps nothing between grid points, as a segment of the TensorCore's program.

  Between segments the TensorCore holds every unscoped buffer whole at a valuation, and owes nothing, the pairs its
  waits have recorded all at level at most 8 (the level bound the launch asks back at the end: the pipelines' own
  waits are recorded at the index of level 0). A region whose body has no semaphore of its own and whose invariant is
  just the scoped buffers no window stages is entered from the valuation before it and left at the valuation that
  has the pipeline's arrays at their final contents and every other buffer as it was.
-/
import proofs.«204097_g52673478918828_cont_9to1c4b_838_31_alg».proof.Proof.KB.TcSetup
import Idealize.ShloMosaic.Lib.Pipeline.RegionsLoop
import Idealize.ShloMosaic.Lib.Pipeline.Frame

noncomputable section

namespace Cert.Kernel.Tc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The recorded pairs the TensorCore may hold after the call: those at level at most 8. -/
def Bset (c : Dev nD) : Set (SemLoc sig × HIx 1) := {p | (K (F := F)).lev ((c.tc : Thread nD τ), p.1) p.2 ≤ 8}

/-- What rides beside the buffers through every segment: the TensorCore owing nothing, its recorded pairs bounded. -/
abbrev R (c : Dev nD) : sProp 𝕄 := Pipeline.owesWithin c (0 : CellTallies nD τ sig (HIx 1)) (Bset (F := F) c)

/-- The pipelines' own waits are recorded at the index of level 0. -/
theorem waitPairs_sub (cfg : Pipeline.Cfg sig Λ₀) (c : Dev nD) : cfg.waitPairs (none : HIx 1) ⊆ Bset (F := F) c := by
  rintro p ⟨w, s, rfl⟩
  show (K (F := F)).lev _ none ≤ 8
  rw [SparseCore.Cfg.lev_none]; exact Nat.zero_le _

section Region

variable (pdats : (p : Fin 3) → (c : Dev nD) → Dat τ (Elt F) (HIx 1) ℕ UU ℕ (Pipeline.pin (pcfgs (F := F)) adm p) c)
variable (p : Fin 3)
variable (hw : Pipeline.WinFacts (Pipeline.pin (pcfgs (F := F)) adm p).spec)
variable (hpos : ∀ w : Fin (Pipeline.pin (pcfgs (F := F)) adm p).W, 0 < ((Pipeline.pin (pcfgs (F := F)) adm p).spec w).block.numel)
variable (harr : ∀ w, ((Pipeline.pin (pcfgs (F := F)) adm p).spec w).arr.IsWhole)
variable (hstage : ∀ (w : Fin (Pipeline.pin (pcfgs (F := F)) adm p).W) (s : Fin ((Pipeline.pin (pcfgs (F := F)) adm p).spec w).nbuf), (((Pipeline.pin (pcfgs (F := F)) adm p).spec w).stage s).IsWhole)
variable (Wpre Wpost : Dev nD → Valuation τ sig (Elt F))
variable (hA : ∀ c w, (pdats p c).A w = Wpre c (Proc.devRef .tc (Pipeline.arrRef (Pipeline.pin (pcfgs (F := F)) adm p).spec w)))
variable (hΦ : ∀ c t, (pdats p c).Φ t = Pipeline.scopedRest (Ix := HIx 1) (Name := ℕ) (U := UU) (Lvl := ℕ) (Val := Elt F) (Pipeline.pin (pcfgs (F := F)) adm p).spec c)
variable (howed : ∀ c t, (pdats p c).owed t = 0)
variable (hq : ∀ c w, (pdats p c).q w = fullShare)
variable (hrec : ∀ c t, (pdats p c).recorded t = Bset (F := F) c)
variable (hbody : ∀ c, Pipeline.BodyObligationLoose (pdats p c) (defs₀ (F := F)) 𝒱₀ (none : HIx 1) Set.univ)
variable (hF : ∀ c w, (pdats p c).arrAt w (Pipeline.pin (pcfgs (F := F)) adm p).N = Wpost c (Proc.devRef .tc (Pipeline.arrRef (Pipeline.pin (pcfgs (F := F)) adm p).spec w)))
variable (hrest : ∀ c (b : Ref sig .tc), b ∉ Finset.univ.image (Pipeline.arrRef (Pipeline.pin (pcfgs (F := F)) adm p).spec) → Wpost c (Proc.devRef .tc b) = Wpre c (Proc.devRef .tc b))

set_option backward.isDefEq.respectTransparency.types false in
/-- The region as a segment: entered from every unscoped buffer at `Wpre`, left at `Wpost`. -/
def regionSeg : Pipeline.RegionSeg (pcfgs (F := F)) adm pdats (none : HIx 1) defs₀ 𝒱₀ (K (F := F)).L (K (F := F)).lev p where
  win := hw.to₀
  block_pos := hpos
  stage_whole := hstage
  K := PEmpty
  osem k := k.elim
  ho := Pipeline.OwnSemFacts.none _
  hbody := hbody
  hwaits := Pipeline.hwaits_of_owed_zero _ _ _ _ (K (F := F)).L (K (F := F)).lev p howed
  pre c := iprop(StableHlo.held (c.tc : Thread nD τ) (Pipeline.ucRefs τ sig) (Wpre c) ∗ R (F := F) c)
  post c := iprop(StableHlo.held (c.tc : Thread nD τ) (Pipeline.ucRefs τ sig) (Wpost c) ∗ R (F := F) c)
  X _ := iprop(emp)
  Y _ := iprop(emp)
  Z c := Pipeline.unscopedRest (Ix := HIx 1) (Name := ℕ) (U := UU) (Lvl := ℕ) (Pipeline.pin (pcfgs (F := F)) adm p).spec c (fun b => Wpre c (Proc.devRef .tc b))
  hentry c := by
    rw [Pipeline.ownSems0_none]
    have hsplit := Pipeline.arrays_of_unscopedBufs (p := p) (pcfgs (F := F)) adm pdats hw harr c
      ((pdats p c).share_full (hq c)) (fun b => Wpre c (Proc.devRef .tc b)) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      rw [howed c 0]
      iapply (Pipeline.owesWithin_mono c (0 : CellTallies nD τ sig (HIx 1)) (B := Bset (F := F) c) (B' := (pdats p c).bound none 0)
        (by unfold Pipeline.Dat.bound; rw [hrec c 0]; exact Set.subset_union_left))
      iexact HO
    isplitr; · iempintro
    iexact Hrest
  hin c := by
    rw [hΦ c 0]
    iintro ⟨-, -, Hr⟩
    iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      hw harr c pdats ((pdats p c).share_full (hq c))
      (fun b => Wpre c (Proc.devRef .tc b)) (fun b => Wpost c (Proc.devRef .tc b)) ((pdats p c).arrAt · (Pipeline.pin (pcfgs (F := F)) adm p).N) (hF c) (hrest c)
    rw [Pipeline.unscopedBufs_held] at hjoin
    iintro ⟨Ha, HO, -, Hrest⟩
    imodintro
    isplitl [Ha Hrest]
    · iapply hjoin; isplitl [Ha] <;> iassumption
    unfold Pipeline.Dat.owesAt
    rw [howed c (Fin.last _)]
    iapply (Pipeline.owesWithin_mono c (0 : CellTallies nD τ sig (HIx 1)) (B := (pdats p c).bound none (Fin.last _)) (B' := Bset (F := F) c)
      (by unfold Pipeline.Dat.bound; rw [hrec c (Fin.last _)]; exact Set.union_subset (fun _ h => h) (waitPairs_sub _ c)))
    iexact HO

end Region

/-! ## The same with part of the state known only to exist

After the big product's region its buffer is known to hold SOME contents satisfying a stated property (the clipped
last block of W leaves the unwritten rows of its staging buffer at contents not chosen); the thread state from then on
is "there are contents g with the property, and every unscoped buffer is held at a valuation that depends on g". -/

section RegionEx

variable (pdats : (p : Fin 3) → (c : Dev nD) → Dat τ (Elt F) (HIx 1) ℕ UU ℕ (Pipeline.pin (pcfgs (F := F)) adm p) c)
variable (p : Fin 3)
variable (hw : Pipeline.WinFacts (Pipeline.pin (pcfgs (F := F)) adm p).spec)
variable (hpos : ∀ w : Fin (Pipeline.pin (pcfgs (F := F)) adm p).W, 0 < ((Pipeline.pin (pcfgs (F := F)) adm p).spec w).block.numel)
variable (harr : ∀ w, ((Pipeline.pin (pcfgs (F := F)) adm p).spec w).arr.IsWhole)
variable (hstage : ∀ (w : Fin (Pipeline.pin (pcfgs (F := F)) adm p).W) (s : Fin ((Pipeline.pin (pcfgs (F := F)) adm p).spec w).nbuf), (((Pipeline.pin (pcfgs (F := F)) adm p).spec w).stage s).IsWhole)
variable {γ : Dev nD → Type} (φ : ∀ c, γ c → Prop)
variable (Wpre Wpost : ∀ c, γ c → Valuation τ sig (Elt F))
variable (hA : ∀ c g w, (pdats p c).A w = Wpre c g (Proc.devRef .tc (Pipeline.arrRef (Pipeline.pin (pcfgs (F := F)) adm p).spec w)))
variable (hΦ : ∀ c t, (pdats p c).Φ t = Pipeline.scopedRest (Ix := HIx 1) (Name := ℕ) (U := UU) (Lvl := ℕ) (Val := Elt F) (Pipeline.pin (pcfgs (F := F)) adm p).spec c)
variable (howed : ∀ c t, (pdats p c).owed t = 0)
variable (hq : ∀ c w, (pdats p c).q w = fullShare)
variable (hrec : ∀ c t, (pdats p c).recorded t = Bset (F := F) c)
variable (hbody : ∀ c, Pipeline.BodyObligationLoose (pdats p c) (defs₀ (F := F)) 𝒱₀ (none : HIx 1) Set.univ)
variable (hF : ∀ c g w, (pdats p c).arrAt w (Pipeline.pin (pcfgs (F := F)) adm p).N = Wpost c g (Proc.devRef .tc (Pipeline.arrRef (Pipeline.pin (pcfgs (F := F)) adm p).spec w)))
variable (hrest : ∀ c g (b : Ref sig .tc), b ∉ Finset.univ.image (Pipeline.arrRef (Pipeline.pin (pcfgs (F := F)) adm p).spec) → Wpost c g (Proc.devRef .tc b) = Wpre c g (Proc.devRef .tc b))

/-- The thread state: contents g with the property, the unscoped buffers at the valuation g gives, nothing owed. -/
abbrev TS (W : ∀ c, γ c → Valuation τ sig (Elt F)) (c : Dev nD) : sProp 𝕄 :=
  iprop(∃ g : γ c, ⌜φ c g⌝ ∗ StableHlo.held (c.tc : Thread nD τ) (Pipeline.ucRefs τ sig) (W c g) ∗ R (F := F) c)

set_option backward.isDefEq.respectTransparency.types false in
def regionSegEx : Pipeline.RegionSeg (pcfgs (F := F)) adm pdats (none : HIx 1) defs₀ 𝒱₀ (K (F := F)).L (K (F := F)).lev p where
  win := hw.to₀
  block_pos := hpos
  stage_whole := hstage
  K := PEmpty
  osem k := k.elim
  ho := Pipeline.OwnSemFacts.none _
  hbody := hbody
  hwaits := Pipeline.hwaits_of_owed_zero _ _ _ _ (K (F := F)).L (K (F := F)).lev p howed
  pre c := iprop(∃ g : γ c, ⌜φ c g⌝ ∗ StableHlo.held (c.tc : Thread nD τ) (Pipeline.ucRefs τ sig) (Wpre c g) ∗ R (F := F) c)
  post c := iprop(∃ g : γ c, ⌜φ c g⌝ ∗ StableHlo.held (c.tc : Thread nD τ) (Pipeline.ucRefs τ sig) (Wpost c g) ∗ R (F := F) c)
  X _ := iprop(emp)
  Y _ := iprop(emp)
  Z c := iprop(∃ g : γ c, ⌜φ c g⌝ ∗ Pipeline.unscopedRest (Ix := HIx 1) (Name := ℕ) (U := UU) (Lvl := ℕ) (Pipeline.pin (pcfgs (F := F)) adm p).spec c (fun b => Wpre c g (Proc.devRef .tc b)))
  hentry c := by
    rw [Pipeline.ownSems0_none]
    iintro ⟨⟨%g, %hg, Hub, HO⟩, -, -⟩
    have hsplit := Pipeline.arrays_of_unscopedBufs (p := p) (pcfgs (F := F)) adm pdats hw harr c
      ((pdats p c).share_full (hq c)) (fun b => Wpre c g (Proc.devRef .tc b)) (hA c g)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      rw [howed c 0]
      iapply (Pipeline.owesWithin_mono c (0 : CellTallies nD τ sig (HIx 1)) (B := Bset (F := F) c) (B' := (pdats p c).bound none 0)
        (by unfold Pipeline.Dat.bound; rw [hrec c 0]; exact Set.subset_union_left))
      iexact HO
    isplitr; · iempintro
    iexists g; isplitr; · ipureintro; exact hg
    iexact Hrest
  hin c := by
    rw [hΦ c 0]
    iintro ⟨-, -, Hr⟩
    iexact Hr
  hout c := by
    rw [Pipeline.ownSems0_none, hΦ c (Fin.last _)]
    iintro Hr
    isplitr; · iempintro
    isplitr; · iempintro
    iexact Hr
  hexit c := by
    have hjoin : ∀ g : γ c, iprop((pdats p c).arrays ((pdats p c).arrAt · (Pipeline.pin (pcfgs (F := F)) adm p).N)
          ∗ Pipeline.unscopedRest (Pipeline.pin (pcfgs (F := F)) adm p).spec c (fun b => Wpre c g (Proc.devRef .tc b)))
        ⊢ (StableHlo.held (c.tc : Thread nD τ) (Pipeline.ucRefs τ sig) (Wpost c g) : sProp 𝕄) := fun g => by
      have h := Pipeline.unscopedBufs_of_arrays (p := p) (pcfgs (F := F)) adm (Ix := HIx 1) (Name := ℕ) (U := UU) (Lvl := ℕ)
        hw harr c pdats ((pdats p c).share_full (hq c))
        (fun b => Wpre c g (Proc.devRef .tc b)) (fun b => Wpost c g (Proc.devRef .tc b)) ((pdats p c).arrAt · (Pipeline.pin (pcfgs (F := F)) adm p).N) (hF c g) (hrest c g)
      rw [Pipeline.unscopedBufs_held] at h
      exact h
    iintro ⟨Ha, HO, -, ⟨%g, %hg, Hrest⟩⟩
    imodintro
    iexists g; isplitr; · ipureintro; exact hg
    isplitl [Ha Hrest]
    · iapply (hjoin g); isplitl [Ha] <;> iassumption
    unfold Pipeline.Dat.owesAt
    rw [howed c (Fin.last _)]
    iapply (Pipeline.owesWithin_mono c (0 : CellTallies nD τ sig (HIx 1)) (B := (pdats p c).bound none (Fin.last _)) (B' := Bset (F := F) c)
      (by unfold Pipeline.Dat.bound; rw [hrec c (Fin.last _)]; exact Set.union_subset (fun _ h => h) (waitPairs_sub _ c)))
    iexact HO

end RegionEx

section HostEx

variable {γ : Dev nD → Type} (φ : ∀ c, γ c → Prop)

set_option backward.isDefEq.respectTransparency.types false in
/-- A stretch of host operations over such a state: it runs at every g alike. -/
def hostSegEx (ops : List (HloOp τ sig (Elt F))) (hsub : ops.Forall fun op => op.bufs ⊆ StableHlo.tcRefs τ sig)
    (hfresh : ops.Forall fun op => op.fresh = ∅) (W : ∀ c, γ c → Valuation τ sig (Elt F)) :
    Pipeline.HostSeg (Name := ℕ) (U := UU) (pcfgs (F := F)) defs₀ 𝒱₀ (K (F := F)).L (K (F := F)).lev where
  prog := StableHlo.seq ops
  pre c := iprop(∃ g : γ c, ⌜φ c g⌝ ∗ StableHlo.held (c.tc : Thread nD τ) (Pipeline.ucRefs τ sig) (W c g) ∗ R (F := F) c)
  post c := iprop(∃ g : γ c, ⌜φ c g⌝ ∗ StableHlo.held (c.tc : Thread nD τ) (Pipeline.ucRefs τ sig) (StableHlo.after ops (W c g)) ∗ R (F := F) c)
  run c {β} k Kp := by
    iintro ⟨Hk, Hbd, ⟨%g, %hg, Hh, HR⟩, -⟩
    have hseq := StableHlo.wp_seq (defs := Pipeline.defs (pcfgs (F := F)) defs₀) (Variants.lift 𝒱₀) none Set.univ c (Pipeline.ucRefs τ sig) k (K := Kp) ops
      (fun op h => Pipeline.sub_ucRefs op ((List.forall_iff_forall_mem.mp hsub) op h))
      (fun op h => (List.forall_iff_forall_mem.mp hfresh) op h) (W c g)
    iapply hseq $$ [Hbd Hh]
    · isplitl [Hbd] <;> iassumption
    iintro ⟨Hbd, Hh⟩
    iapply Hk
    isplitl [Hbd]; · iexact Hbd
    iexists g; isplitr; · ipureintro; exact hg
    isplitl [Hh] <;> iassumption

end HostEx

end Cert.Kernel.Tc

end
-- ==== Proof.KB.TcLaunch.lean ====
/-
  The launch element of the certificate's ghost state: the handshakes' rounds go to the launch theorem, the pipelines'
  rounds are funded into each TensorCore's staging cells' ghost state and duty tokens (what each region's entry
  allocates its cells' invariants from), and the counters' component is kept for the local copies.
-/
import proofs.«204097_g52673478918828_cont_9to1c4b_838_31_alg».proof.Proof.KB.TcSetup

noncomputable section

namespace Cert.Kernel.Tc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshake cells' rounds, the staging cells' rounds, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

/-- What the TensorCore's proof starts from beside the launch's deal: the three pipelines' ghost state. -/
abbrev G (d : Dev nD) : sProp 𝕄 := Pipeline.ghostOn (pcfgs (F := F)) adm (EP (F := F)) Finset.univ d

theorem ownU_split (a : UH) (b : UP) : (ownU ((a, (b, (1 : Counters))) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ (P : (K (F := F)).Pay (nD := nD) (Val := Elt F) (Name := ℕ) (U := UU)) (hPx : ∀ q thr, P.x q thr = iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
          ∗ bigSep Finset.univ fun thr : Thread nD τ => bigSep Finset.univ fun q : Fin 1 => P.x q thr) := by
  have hghost : iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => (Pipeline.toksInit (Pipeline.pin (pcfgs (F := F)) adm) (EP (F := F)) p c : sProp 𝕄)))
      ⊢ bigSep Finset.univ fun c : Dev nD => G (F := F) c := by
    rw [← bigSep_sep']
    exact bigSep_mono fun c _ => show iprop((bigSep Finset.univ fun p => Pipeline.cellsGhost (Pipeline.pin (pcfgs (F := F)) adm) (EP (F := F)) p c)
          ∗ bigSep Finset.univ fun p => (Pipeline.toksInit (Pipeline.pin (pcfgs (F := F)) adm) (EP (F := F)) p c : sProp 𝕄)) ⊢ G (F := F) c
      from Entails.of_eq (by rw [← bigSep_sep']; rfl)
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · iapply hghost; isplitl [Hg] <;> iassumption
  have hx : (bigSep Finset.univ fun thr : Thread nD τ => bigSep Finset.univ fun q : Fin 1 => P.x q thr) = (iprop(emp) : sProp 𝕄) :=
    (bigSep_congr fun thr _ => (bigSep_univ_of_subsingleton (0 : Fin 1)).trans (hPx 0 thr)).trans (bigSep_emp_const _)
  rw [hx]
  iempintro

end Cert.Kernel.Tc

end
-- ==== Proof.KB.TcVals.lean ====
/-
  The TensorCore's buffers at the first boundaries of its program: at launch, after the index array is flattened, and
  after the SparseCore call has left the gathered rows.
-/
import proofs.«204097_g52673478918828_cont_9to1c4b_838_31_alg».proof.Proof.KB.TcMain
import proofs.«204097_g52673478918828_cont_9to1c4b_838_31_alg».proof.Proof.KB.TcRegion
import proofs.«204097_g52673478918828_cont_9to1c4b_838_31_alg».proof.Proof.KB.TcLaunch

noncomputable section

namespace Cert.Kernel.Tc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers at launch, and after the index array is flattened. -/
abbrev W0 : Dev nD → Valuation τ sig (Elt F) := fun d b => m (d, b)
abbrev W1 : Dev nD → Valuation τ sig (Elt F) := fun d => StableHlo.after (ops0 (F := F)) (W0 m d)

/-- The three buffers the SparseCore call works on. -/
abbrev Sop : Finset (DevRef τ sig) :=
  insert (Proc.devRef .tc main_v0) (insert (Proc.devRef .tc main_arg1) {Proc.devRef .tc main_v1})

theorem Sop_sub : (Sop : Finset (DevRef τ sig)) ⊆ Pipeline.ucRefs τ sig := by
  intro b hb
  simp only [Sop, Finset.mem_insert, Finset.mem_singleton] at hb
  rcases hb with rfl | rfl | rfl <;> exact Finset.mem_filter.mpr ⟨StableHlo.devRef_mem_tcRefs _, by decide⟩

variable (gO : (d : Dev nD) → (Proc.devRef (τ := τ) .tc main_v1 : DevRef τ sig).ty.Contents (Elt F))

/-- After the call: the rows' buffer at what the call left, every other buffer as before. -/
abbrev W2 : Dev nD → Valuation τ sig (Elt F) := fun d => Function.update (W1 m d) (Proc.devRef .tc main_v1) (gO d)

theorem held_rest (d : Dev nD) :
    (StableHlo.held (T d) (Pipeline.ucRefs τ sig \ Sop) (W1 m d) : sProp 𝕄) = StableHlo.held (T d) (Pipeline.ucRefs τ sig \ Sop) (W2 m gO d) :=
  StableHlo.held_congr (T d) fun b hb => by
    have hne : b ≠ Proc.devRef .tc main_v1 := fun e => (Finset.mem_sdiff.mp hb).2 (by
      rw [e]; simp only [Sop, Finset.mem_insert, Finset.mem_singleton, or_true])
    exact (Function.update_of_ne hne _ _).symm

end Cert.Kernel.Tc

end
-- ==== Proof.KB.TcRun.lean ====
/-
  The TensorCore's obligation in the launch: the index array is flattened; the SparseCore call takes the flattened
  indices, the table and the rows' buffer and brings them back with the rows' buffer at the gathered rows; what
  follows is a program of the three pipelines alone, run segment by segment from the valuation the call left to the
  last one; the handshake state comes back at call 1, the recorded pairs still at level at most 8.
-/
import proofs.«204097_g52673478918828_cont_9to1c4b_838_31_alg».proof.Proof.KB.TcMain
import proofs.«204097_g52673478918828_cont_9to1c4b_838_31_alg».proof.Proof.KB.TcRegion
import proofs.«204097_g52673478918828_cont_9to1c4b_838_31_alg».proof.Proof.KB.TcLaunch
import proofs.«204097_g52673478918828_cont_9to1c4b_838_31_alg».proof.Proof.KB.TcVals

noncomputable section

namespace Cert.Kernel.Tc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)
variable (gO : (d : Dev nD) → (Proc.devRef (τ := τ) .tc main_v1 : DevRef τ sig).ty.Contents (Elt F))

/-- The launch's unscoped buffers are the unscoped references held at the launch valuation. -/
theorem tcBufs_eq (d : Dev nD) :
    (unscopedBufs d (fun b => m ((SparseCore.T d : Thread nD τ).loc b)) : sProp 𝕄) = unscopedBufs d (fun b => W0 m d b) := by
  chain_rfl

theorem tcBufs_held (d : Dev nD) :
    (unscopedBufs d (fun b => m ((SparseCore.T d : Thread nD τ).loc b)) : sProp 𝕄) = StableHlo.held (SparseCore.T d : Thread nD τ) (Pipeline.ucRefs τ sig) (W0 m d) :=
  (tcBufs_eq m d).trans (Pipeline.unscopedBufs_held d (W0 m d))

section Main

set_option backward.isDefEq.respectTransparency.types false in
set_option maxHeartbeats 1000000 in
theorem hmain
    (P : (K (F := F)).Pay (nD := nD) (Val := Elt F) (Name := ℕ) (U := UU))
    (hst : ∀ d : Dev nD, ((StableHlo.held (SparseCore.T d : Thread nD τ) Sop (W1 m d) : sProp 𝕄) ⊢ (bigSep Finset.univ fun c : Fin ((K (F := F)).nCore 0) => P.st 0 d c)))
    (hdn : ∀ d : Dev nD, ((bigSep Finset.univ fun c : Fin ((K (F := F)).nCore 0) => P.dn 0 d c) ⊢ (StableHlo.held (SparseCore.T d : Thread nD τ) Sop (W2 m gO d) : sProp 𝕄)))
    (pdats : (p : Fin 3) → (c : Dev nD) → Dat τ (Elt F) (HIx 1) ℕ UU ℕ (Pipeline.pin (pcfgs (F := F)) adm p) c)
    (segs : List (Pipeline.Seg (pcfgs (F := F)) adm pdats (none : HIx 1) defs₀ 𝒱₀ (K (F := F)).L (K (F := F)).lev))
    (hrun : tail (F := F) = Pipeline.Seg.run segs)
    (hnd : (Pipeline.Seg.pipes segs).Nodup)
    (T9 : Dev nD → sProp 𝕄)
    (hch : Pipeline.Seg.Chains (fun c => iprop(StableHlo.held (c.tc : Thread nD τ) (Pipeline.ucRefs τ sig) (W2 m gO c) ∗ R (F := F) c)) segs
      (fun c => iprop(T9 c ∗ R (F := F) c)))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d : Thread nD τ) none) Set.univ (main d)
          fun _ => iprop((K (F := F)).tcSt EH d 1 ∗ T9 d) := by
  rewrite [main_eq]
  unfold SparseCore.Cfg.tcRes
  rewrite [tcBufs_held m d]
  iintro ⟨#Hctx, Hst, ⟨Hb, Hub, -, -⟩, HG⟩
  -- the index array flattened
  iapply (StableHlo.wp_seq (defs := (K (F := F)).defs (D (F := F))) 𝒱 none Set.univ d (Pipeline.ucRefs τ sig) _ (ops0 (F := F))
    (fun op h => Pipeline.sub_ucRefs op ((List.forall_iff_forall_mem.mp ops0_sub) op h))
    (fun op h => (List.forall_iff_forall_mem.mp ops0_fresh) op h) (W0 m d)) $$ [Hb Hub]
  · isplitl [Hb] <;> iassumption
  iintro ⟨Hb, Hub⟩
  -- the SparseCore call
  rw [wp_bind]
  ihave Hub' := (Entails.of_eq (StableHlo.held_sub_split (SparseCore.T d : Thread nD τ) Sop_sub (W1 m d))) $$ Hub
  icases Hub' with ⟨Hop, Hrest⟩
  ihave Hstc := (hst d) $$ Hop
  iapply ((K (F := F)).wp_run (D (F := F)) 𝒱 (EH := EH) (P := P) κ d 0) $$ [Hst Hstc Hb Hrest HG]
  isplitr; · iexact Hctx
  isplitl [Hst]; · iexact Hst
  isplitl [Hstc]; · iexact Hstc
  iintro ⟨Hst, Hdn⟩
  ihave Hop := (hdn d) $$ Hdn
  ihave Hrest := (Entails.of_eq (held_rest m gO d)) $$ Hrest
  ihave Hub := (Entails.of_eq (StableHlo.held_sub_split (SparseCore.T d : Thread nD τ) Sop_sub (W2 m gO d)).symm) $$ [Hop Hrest]
  · isplitl [Hop] <;> iassumption
  -- the pipelines' program
  unfold SparseCore.Cfg.tcSt
  icases Hst with ⟨⟨%W, %hW, HO⟩, Hpos⟩
  rw [(K (F := F)).Otc_end d (le_refl 1)]
  ihave Hlv := (show (K (F := F)).ctx EH P κ ⊢ (levAts (K (F := F)).L (K (F := F)).lev : sProp 𝕄) from by
    unfold SparseCore.Cfg.ctx; exact sep_elim_left) $$ Hctx
  iapply ((K (F := F)).wp_liftProg (D (F := F)) 𝒱 (SparseCore.T d : Thread nD τ) Set.univ none (tail (F := F)) _)
  rw [hrun]
  iapply (Pipeline.wp_segs (pcfgs (F := F)) adm pdats (none : HIx 1) cellOf_inj (EP (F := F)) defs₀ 𝒱₀ (K (F := F)).L (K (F := F)).lev d segs Finset.univ _ _
    hnd (fun p _ => Finset.mem_univ p) hch) $$ [Hb Hub HO Hpos HG]
  isplitl [Hpos]
  · iintro ⟨-, Hub, %W', %hW', HO⟩
    isplitr [Hub]
    · isplitl [HO]
      · iexists W'; isplitr
        · ipureintro; intro p hp; have := hW' hp; simpa [Bset] using this
        iexact HO
      iexact Hpos
    iexact Hub
  isplitl [Hb]; · iexact Hb
  isplitl [Hub HO]
  · isplitl [Hub]; · iexact Hub
    iexists W; isplitr
    · ipureintro; intro p hp; have := hW p hp; simpa [Bset] using this
    iexact HO
  isplitr; · iexact Hlv
  iexact HG

end Main

end Cert.Kernel.Tc

end
-- ==== Proof.KB.ScSetup.lean ====
/-
  The SparseCore side of the launch, part one: the program as the launch theorem sees it, the arrays the vector-subcore
  kernel works on, and what the handshakes carry.

  The kernel runs once on each of 2 SparseCores × 16 vector subcores. Worker (c, s) has number w = 2 s + c and owns rows
  [640 w, 640 (w + 1)) of the index array (20480 words) and of the result (20480 × 128): it fetches its 640 row numbers,
  gathers the table rows they name, and writes them to its rows of the result. So the index array and the result are cut
  into 32 pieces along axis 0 (`Rect.part`), piece w going to worker w; the table, which every worker reads whole, goes
  out as read shares: the full share cut in two (one piece per SparseCore), each piece cut in sixteen (one per subcore).

  The result is stated by ONE whole-array function `gOut`: row i of the result is the table row that entry i of the
  index array names. Every worker's piece is held at that one function, so the pieces join to the whole array at it.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204097_g52673478918828_cont_9to1c4b_838_31_alg».proof.Proof.Gen.Kernel
import proofs.«204097_g52673478918828_cont_9to1c4b_838_31_alg».proof.Proof.Gen.Kernel.Skeleton

noncomputable section

namespace Cert.Kernel.Sc

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: any user algebra with a copy of the transfers' counters -/

variable {U : Type} [URA U] [CountersIn U]

local notation "𝕄" => MT nD τ sig (HIx 1) (Elt F) ℕ U ℕ

/-! ## The arrays at the call, and the kernel's memrefs -/

abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

-- The contents at the call: the index array (written by a host reshape before it), the table, the result's buffer.
variable (I0 : (d : Dev nD) → Buf (Elt F) (iLoc d)) (T0 : (d : Dev nD) → Buf (Elt F) (tLoc d)) (O0 : (d : Dev nD) → Buf (Elt F) (oLoc d))

local notation "iV" => (Memref.whole Cert.Kernel.main_v0_scv : Memref Cert.Kernel.sig Kind.scVector Space.hbm Cert.Kernel.S20480 EltTy.i32)
local notation "tV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S20480x128 EltTy.f32)

/-- Every entry of the index array names a row of the table. -/
def PreOK : Prop := ∀ (d : Dev nD) (j : S20480.Idx), (I0 d j).toNat < 100000

/-! ## Workers and their pieces -/

/-- Worker (c, s) has number 2 s + c. -/
def wk (c : Fin 2) (i : Fin 16) : Fin 32 := ⟨2 * i.val + c.val, by omega⟩

/-- The workers, numbered: (SparseCore, subcore) pairs are the numbers below 32. -/
def wkEquiv : Fin 2 × Fin 16 ≃ Fin 32 where
  toFun p := wk p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem idiv : 32 ∣ S20480.size 0 := ⟨640, rfl⟩
theorem odiv : 32 ∣ S20480x128.size 0 := ⟨640, rfl⟩
/-- Piece w of the index array and of the result: rows [640 w, 640 (w + 1)). -/
abbrev irow (w : Fin 32) : Rect S20480 := Rect.part (s := S20480) (a₀ := 0) idiv w
abbrev orow (w : Fin 32) : Rect S20480x128 := Rect.part (s := S20480x128) (a₀ := 0) odiv w
abbrev iRowSet (w : Fin 32) : Finset S20480.Idx := ((iV).view.slice (irow w)).set
abbrev oRowSet (w : Fin 32) : Finset S20480x128.Idx := ((oV).view.slice (orow w)).set

theorem iRowSet_eq (w : Fin 32) : iRowSet w = (irow w).set := by
  show ((View.whole (main_v0_scv : Ref sig .scVector)).slice (irow w)).set = _
  rw [View.set_slice]; exact Finset.map_refl
theorem oRowSet_eq (w : Fin 32) : oRowSet w = (orow w).set := by
  show ((View.whole (main_v1_scv : Ref sig .scVector)).slice (orow w)).set = _
  rw [View.set_slice]; exact Finset.map_refl

theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The table's read share for worker (c, s): the full share cut in two, piece c cut in sixteen, piece s of that. -/
def tq (c : Fin 2) (i : Fin 16) : PosShare TreeShare := pieceOf (pieceOf fullShare 2 (by omega) c) 16 (by omega) i

/-! ## The result, as one whole-array function -/

/-- The table row entry r of the index array names (clamped into the table, so that the function is total). -/
def gRow (d : Dev nD) (r : Fin 20480) : Fin 100000 := ⟨min (I0 d (ix1 r)).toNat 99999, by omega⟩

/-- Row i of the result is the table row that entry i of the index array names. -/
def gOut (d : Dev nD) : Buf (Elt F) (oLoc d) :=
  show S20480x128.Idx → Elt F .f32 from fun x => T0 d (ix2 (gRow I0 d (x 0)) (x 1))

theorem gOut_apply (hpre : PreOK I0) (d : Dev nD) (i : Fin 20480) (k : Fin 128) :
    gOut I0 T0 d (ix2 i k) = T0 d (ix2 ⟨(I0 d (ix1 i)).toNat, hpre d _⟩ k) := by
  have h := hpre d (ix1 i)
  show T0 d (ix2 (gRow I0 d i) k) = _
  congr 2
  exact Fin.ext (show min (I0 d (ix1 i)).toNat 99999 = (I0 d (ix1 i)).toNat from Nat.min_eq_left (by omega))

/-! ## What the handshakes carry -/

abbrev iRowPts (d : Dev nD) (w : Fin 32) : sProp 𝕄 := iLoc d ↦[iRowSet w]{fullShare} I0 d
abbrev tShPts (d : Dev nD) (c : Fin 2) (i : Fin 16) : sProp 𝕄 := tLoc d ↦{tq c i} T0 d
abbrev oRowPts (d : Dev nD) (w : Fin 32) (f : Buf (Elt F) (oLoc d)) : sProp 𝕄 := oLoc d ↦[oRowSet w]{fullShare} f

/-- Worker (c, s)'s operands: its piece of the index array, its read share of the table, its piece of the result at `f`. -/
def goPay (d : Dev nD) (c : Fin 2) (i : Fin 16) (f : Buf (Elt F) (oLoc d)) : sProp 𝕄 :=
  iprop(iRowPts I0 d (wk c i) ∗ tShPts T0 d c i ∗ oRowPts d (wk c i) f)
/-- SparseCore c's operands: its sixteen workers'. -/
def stPay (d : Dev nD) (c : Fin 2) (f : Buf (Elt F) (oLoc d)) : sProp 𝕄 :=
  bigSep Finset.univ fun i : Fin 16 => goPay I0 T0 d c i f

instance goPay_storable (d : Dev nD) (c : Fin 2) (i : Fin 16) (f : Buf (Elt F) (oLoc d)) :
    BI.Storable (upEmb : UEmb _ 𝕄) (goPay (U := U) I0 T0 d c i f) := by unfold goPay; infer_instance
instance stPay_storable (d : Dev nD) (c : Fin 2) (f : Buf (Elt F) (oLoc d)) :
    BI.Storable (upEmb : UEmb _ 𝕄) (stPay (U := U) I0 T0 d c f) := by unfold stPay; infer_instance

/-- The one call hands SparseCore c its sixteen workers' operands, the result's pieces at what the buffer held, and takes
    them back with the result's pieces at `gOut`; each worker is handed and hands back its own. -/
def P : (K (F := F)).Pay (nD := nD) (Val := Elt F) (Name := ℕ) (U := U) where
  st := fun q d c => match q with | 0 => stPay I0 T0 d (Fin.cast nCore_zero c) (O0 d)
  dn := fun q d c => match q with | 0 => stPay I0 T0 d (Fin.cast nCore_zero c) (gOut I0 T0 d)
  go := fun q d c i => match q with | 0 => goPay I0 T0 d (Fin.cast nCore_zero c) (Fin.cast nSub_zero i) (O0 d)
  td := fun q d c i => match q with | 0 => goPay I0 T0 d (Fin.cast nCore_zero c) (Fin.cast nSub_zero i) (gOut I0 T0 d)
  x := fun _ _ => iprop(emp)

instance P_storable : (P (U := U) I0 T0 O0).IsStorable where
  st q d c := match q with | 0 => (inferInstance : BI.Storable (upEmb : UEmb _ 𝕄) (stPay I0 T0 d (Fin.cast nCore_zero c) (O0 d)))
  dn q d c := match q with | 0 => (inferInstance : BI.Storable (upEmb : UEmb _ 𝕄) (stPay I0 T0 d (Fin.cast nCore_zero c) (gOut I0 T0 d)))
  go q d c i := match q with | 0 => (inferInstance : BI.Storable (upEmb : UEmb _ 𝕄) (goPay I0 T0 d (Fin.cast nCore_zero c) (Fin.cast nSub_zero i) (O0 d)))
  td q d c i := match q with | 0 => (inferInstance : BI.Storable (upEmb : UEmb _ 𝕄) (goPay I0 T0 d (Fin.cast nCore_zero c) (Fin.cast nSub_zero i) (gOut I0 T0 d)))

theorem P_st (d : Dev nD) (c : Fin ((K (F := F)).nCore 0)) : (P (U := U) I0 T0 O0).st 0 d c = stPay I0 T0 d (Fin.cast nCore_zero c) (O0 d) := rfl
theorem P_dn (d : Dev nD) (c : Fin ((K (F := F)).nCore 0)) : (P (U := U) I0 T0 O0).dn 0 d c = stPay I0 T0 d (Fin.cast nCore_zero c) (gOut I0 T0 d) := rfl
theorem P_go (d : Dev nD) (c : Fin ((K (F := F)).nCore 0)) (i : Fin ((K (F := F)).nSub 0)) :
    (P (U := U) I0 T0 O0).go 0 d c i = goPay I0 T0 d (Fin.cast nCore_zero c) (Fin.cast nSub_zero i) (O0 d) := rfl
theorem P_td (d : Dev nD) (c : Fin ((K (F := F)).nCore 0)) (i : Fin ((K (F := F)).nSub 0)) :
    (P (U := U) I0 T0 O0).td 0 d c i = goPay I0 T0 d (Fin.cast nCore_zero c) (Fin.cast nSub_zero i) (gOut I0 T0 d) := rfl

/-! ## The pieces split and join -/

/-- A family over the 32 workers, SparseCore by SparseCore. -/
theorem bigSep_workers (Φ : Fin 32 → sProp 𝕄) :
    bigSep Finset.univ Φ = bigSep Finset.univ fun c : Fin 2 => bigSep Finset.univ fun i : Fin 16 => Φ (wk c i) := by
  rw [bigSep_univ_equiv wkEquiv Φ, bigSep_univ_prod]; rfl

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
/-- The table at the full share is the table at the 32 workers' read shares. -/
theorem tPts_shares (d : Dev nD) (f : Buf (Elt F) (tLoc d)) :
    (tLoc d ↦{fullShare} f : sProp 𝕄) = bigSep Finset.univ fun c : Fin 2 => bigSep Finset.univ fun i : Fin 16 => tLoc d ↦{tq c i} f := by
  rw [pointsTo_piecesOf Finset.univ f (o := 2) (by omega) fullShare]
  exact bigSep_congr fun c _ => pointsTo_piecesOf Finset.univ f (o := 16) (by omega) _

/-- The three arrays whole, the result's at `f`, are the workers' operands, SparseCore by SparseCore. -/
theorem arrays_split (d : Dev nD) (f : Buf (Elt F) (oLoc d)) :
    (iprop((iLoc d ↦{fullShare} I0 d) ∗ (tLoc d ↦{fullShare} T0 d) ∗ (oLoc d ↦{fullShare} f)) : sProp 𝕄)
      = bigSep Finset.univ fun c : Fin 2 => stPay I0 T0 d c f := by
  rw [iPts_rows, tPts_shares, oPts_rows, bigSep_workers (fun w => iLoc d ↦[iRowSet w]{fullShare} I0 d),
    bigSep_workers (fun w => oLoc d ↦[oRowSet w]{fullShare} f)]
  simp only [stPay, goPay, bigSep_sep']

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays at the call are what the start hands the two SparseCores. -/
theorem st_intro (d : Dev nD) :
    iprop((iLoc d ↦{fullShare} I0 d) ∗ (tLoc d ↦{fullShare} T0 d) ∗ (oLoc d ↦{fullShare} O0 d))
      ⊢ bigSep Finset.univ fun c : Fin ((K (F := F)).nCore 0) => (P (U := U) I0 T0 O0).st 0 d c := by
  rw [arrays_split I0 T0 d (O0 d)]
  exact Entails.of_eq (bigSep_cores (fun c => stPay I0 T0 d c (O0 d))).symm

/-- What the two SparseCores hand back is the index array and the table unchanged and the result whole at `gOut`. -/
theorem dn_elim (d : Dev nD) :
    (bigSep Finset.univ fun c : Fin ((K (F := F)).nCore 0) => (P (U := U) I0 T0 O0).dn 0 d c)
      ⊢ iprop((iLoc d ↦{fullShare} I0 d) ∗ (tLoc d ↦{fullShare} T0 d) ∗ (oLoc d ↦{fullShare} gOut I0 T0 d)) := by
  rw [arrays_split I0 T0 d (gOut I0 T0 d)]
  exact Entails.of_eq (bigSep_cores (fun c => stPay I0 T0 d c (gOut I0 T0 d)))

/-- A SparseCore's operands are its sixteen workers', and their results its own. -/
theorem vecSplit : (K (F := F)).VecSplit' (P (U := U) I0 T0 O0) 0 := by
  intro d c
  show stPay I0 T0 d (Fin.cast nCore_zero c) (O0 d) ⊢ |={Set.univ}=> iprop(
      (bigSep Finset.univ fun i : Fin ((K (F := F)).nSub 0) => goPay I0 T0 d (Fin.cast nCore_zero c) (Fin.cast nSub_zero i) (O0 d))
      ∗ ((bigSep Finset.univ fun i : Fin ((K (F := F)).nSub 0) => goPay I0 T0 d (Fin.cast nCore_zero c) (Fin.cast nSub_zero i) (gOut I0 T0 d))
          -∗ stPay I0 T0 d (Fin.cast nCore_zero c) (gOut I0 T0 d)))
  rw [bigSep_tasks (fun i => goPay I0 T0 d (Fin.cast nCore_zero c) i (O0 d)),
    bigSep_tasks (fun i => goPay I0 T0 d (Fin.cast nCore_zero c) i (gOut I0 T0 d))]
  unfold stPay
  iintro H; imodintro
  isplitl [H]; · iexact H
  iintro H; iexact H

end Cert.Kernel.Sc

end
-- ==== Proof.KB.TcCall.lean ====
/-
  The SparseCore call seen from the TensorCore: of the buffers it holds at a valuation, the flattened index array,
  the table and the rows' buffer go to the call, and come back with the rows' buffer at the gathered rows.
-/
import proofs.«204097_g52673478918828_cont_9to1c4b_838_31_alg».proof.Proof.KB.TcVals
import proofs.«204097_g52673478918828_cont_9to1c4b_838_31_alg».proof.Proof.KB.ScSetup

noncomputable section

namespace Cert.Kernel.Tc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The call's operands as the valuation before it holds them. -/
abbrev I0 : (d : Dev nD) → Buf (Elt F) (Sc.iLoc d) := fun d => W1 m d (Proc.devRef .tc main_v0)
abbrev T0 : (d : Dev nD) → Buf (Elt F) (Sc.tLoc d) := fun d => W1 m d (Proc.devRef .tc main_arg1)
abbrev O0 : (d : Dev nD) → Buf (Elt F) (Sc.oLoc d) := fun d => W1 m d (Proc.devRef .tc main_v1)

/-- What the handshakes carry, at those operands. -/
abbrev PP : (K (F := F)).Pay (nD := nD) (Val := Elt F) (Name := ℕ) (U := UU) := Sc.P (U := UU) (I0 m) (T0 m) (O0 m)

/-- The rows' buffer after the call. -/
abbrev gO : (d : Dev nD) → (Proc.devRef (τ := τ) .tc main_v1 : DevRef τ sig).ty.Contents (Elt F) := fun d => Sc.gOut (I0 m) (T0 m) d

theorem held_Sop (d : Dev nD) (W : Valuation τ sig (Elt F)) :
    (StableHlo.held (T d) Sop W : sProp 𝕄)
      = iprop((Sc.iLoc d ↦{fullShare} W (Proc.devRef .tc main_v0)) ∗ (Sc.tLoc d ↦{fullShare} W (Proc.devRef .tc main_arg1)) ∗ (Sc.oLoc d ↦{fullShare} W (Proc.devRef .tc main_v1))) := by
  unfold StableHlo.held Sop
  rw [bigSep_insert (by
      simp only [Finset.mem_insert, Finset.mem_singleton, not_or]
      exact ⟨StableHlo.devRef_ne_of_ne (by decide), StableHlo.devRef_ne_of_ne (by decide)⟩),
    bigSep_insert (by
      simp only [Finset.mem_singleton]
      exact StableHlo.devRef_ne_of_ne (by decide)), bigSep_singleton]
  rfl

theorem hst (d : Dev nD) : (StableHlo.held (T d) Sop (W1 m d) : sProp 𝕄) ⊢ bigSep Finset.univ fun c : Fin ((K (F := F)).nCore 0) => (PP m).st 0 d c := by
  rw [held_Sop]
  exact Sc.st_intro (U := UU) (I0 m) (T0 m) (O0 m) d

theorem hdn (d : Dev nD) : (bigSep Finset.univ fun c : Fin ((K (F := F)).nCore 0) => (PP m).dn 0 d c) ⊢ (StableHlo.held (T d) Sop (W2 m (gO m) d) : sProp 𝕄) := by
  rw [held_Sop]
  refine (Sc.dn_elim (U := UU) (I0 m) (T0 m) (O0 m) d).trans (Entails.of_eq ?_)
  unfold W2
  rw [Function.update_self, Function.update_of_ne (StableHlo.devRef_ne_of_ne (by decide)), Function.update_of_ne (StableHlo.devRef_ne_of_ne (by decide))]

end Cert.Kernel.Tc

end
-- ==== Proof.KB.PoolRegion.lean ====
/-
  The pooling region (the first TensorCore pallas_call): the proof data of its pipeline on one core, the body's
  triple at every grid point, and what the region leaves in its output array.

  The grid has four points. Point t fetches rows [256 t, 256 t + 256) of the [1024, 20, 128] input array into a
  staging buffer, the body computes a [256, 128] block from that block alone, and the block is written back to rows
  [256 t, 256 t + 256) of the [1024, 128] output array. So the output array ends as ONE function of the input array,
  `poolArr`: row r is computed from the 256-row block that holds row r.

  Everything is stated for any float instance and any choice of the logic's ghost parameters; the contents of the
  core's buffers when the region is entered are a parameter `V`.
-/
import proofs.«204097_g52673478918828_cont_9to1c4b_838_31_alg».proof.Proof.Gen.Kernel.Launch
import proofs.«204097_g52673478918828_cont_9to1c4b_838_31_alg».proof.Proof.Gen.Kernel.Skeleton
import proofs.«204097_g52673478918828_cont_9to1c4b_838_31_alg».proof.Proof.Gen.Kernel.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] {Ix : Type} [DecidableEq Ix] {Name : Type} [DecidableEq Name]
  {U : Type} [URA U] {Lvl : Type} [Preorder Lvl]

local notation "𝕄" => MT nD τ sig Ix (Elt F) Name U Lvl

-- `V`: the contents of each core's TensorCore buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window's buffer -/

/-- The whole input staging buffer, as the body's one load reads it. -/
abbrev rIn : Rect S256x20x128 := Rect.unit (s := S256x20x128) ![0, 0, 0] S256x20x128.size inb_S256x20x128_S256x20x128_0_0_0
/-- The whole output staging buffer, as the body's one store writes it. -/
abbrev rOut : Rect S256x128 := Rect.unit (s := S256x128) ![0, 0] S256x128.size inb_S256x128_S256x128_0_0

/-- The output window's staging buffer after the body, from the input window's block: its one store as a piece. -/
def out1 (x0 : Vec F S256x20x128 .f32) : Vec F S256x128 .f32 :=
  View.canon [⟨rOut, k1_pay1 (View.ld x0 rIn)⟩]

/-- The store fills the buffer. -/
theorem cover1 (p0 : Vec F S256x128 .f32) (y : S256x128.Idx) :
    ∃ pc ∈ ([⟨rOut, p0⟩] : List (View.Piece (Elt F) S256x128 .f32)), y ∈ pc.1.set :=
  View.cover_of_tiled [⟨rOut, p0⟩] S256x128.size (by rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result is its payload of the whole input block. -/
theorem out1_eq (x0 : Vec F S256x20x128 .f32) : out1 x0 = k1_pay1 x0 := by
  unfold out1
  rw [View.canon_unit_zero hz2]
  simp only [View.ld_unit_zero (S := S256x20x128) hz3]

/-! ## The body's triple -/

set_option maxHeartbeats 1000000 in
/-- The body on whole staging memrefs, the input's at contents `x0` and the output's at anything, runs to the
    continuation holding the input's as it was and the output's at `out1 x0`. -/
theorem sound_kernel (c : Dev nD) (E : Set Name) (i : grid1.Coords)
    (arg1 : Memref sig .tc .vmem S256x20x128 .f32) (harg1 : arg1.IsWhole)
    (arg2 : Memref sig .tc .vmem S256x128 .f32) (harg2 : arg2.IsWhole)
    (x0 : Vec F S256x20x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := F)) Variants.none c none) E (cc1__pool_body i arg1 harg1 arg2 harg2) K := by
  simp only [cc1__pool_body_eq_skeleton]; unfold cc1__pool_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-! ## The pipeline's proof data -/

/-- The proof data of the pooling pipeline on core `c`: the arrays as the region finds them (`V`); after the body
    at point `t` the input's buffer at its block and the output's at `out1` of that block; the invariant the core's
    other scoped buffers, untouched; nothing owed; full shares; the recorded wait pairs bounded by `B` throughout. -/
def dat (B : Set (SemLoc sig × Ix)) (c : Dev nD) : Dat τ (Elt F) Ix Name U Lvl cfg1 c where
  A w := V c (Pipeline.arrRef spec1 w)
  after w t := match w with
    | ⟨0, _⟩ => iblk V c 0 t
    | ⟨1, _⟩ => out1 (iblk V c 0 t)
  Φ _ := Pipeline.scopedRest (Ix := Ix) (Name := Name) (U := U) (Lvl := Lvl) (Val := Elt F) spec1 c
  q _ := fullShare
  owed _ := 0
  recorded _ := B

variable (B : Set (SemLoc sig × Ix))

local notation "𝔇" => dat (Name := Name) (U := U) (Lvl := Lvl) V B

/-- The proof data's arrays are the region-entry contents. -/
theorem A_eq (c : Dev nD) (w : Fin cfg1.W) : (𝔇 c).A w = V c (Pipeline.arrRef spec1 w) := by
  dsimp only [dat]

/-- What the body leaves, window by window. -/
theorem after_0 (c : Dev nD) (t : Fin cfg1.N) : (𝔇 c).after 0 t = iblk V c 0 t := by dsimp only [dat]
theorem after_1 (c : Dev nD) (t : Fin cfg1.N) : (𝔇 c).after 1 t = out1 (iblk V c 0 t) := by dsimp only [dat]

/-- The input's current staging buffer holds its block at every point: the window is uncut, never idle, and the body
    leaves the block in place. -/
theorem before_0 (c : Dev nD) (t : Fin cfg1.N) (d) : (𝔇 c).before 0 t d = iblk V c 0 t :=
  ((𝔇 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (ι : Ix) (c : Dev nD) (t : Fin cfg1.N) : sProp 𝕄 :=
  iprop((𝔇 c).Φ t.castSucc ∗ (𝔇 c).owesAt ι t.castSucc
    ∗ (∃ d, owns (c : Thread nD τ) (st1_0 t) fullShare ((𝔇 c).before 0 t d))
    ∗ (∃ d, owns (c : Thread nD τ) (st1_1 t) fullShare ((𝔇 c).before 1 t d)))

/-- and what it returns. -/
def bodyPost (ι : Ix) (c : Dev nD) (t : Fin cfg1.N) : sProp 𝕄 :=
  iprop((𝔇 c).Φ t.succ ∗ (𝔇 c).owesAt ι t.succ
    ∗ owns (c : Thread nD τ) (st1_0 t) fullShare ((𝔇 c).after 0 t)
    ∗ owns (c : Thread nD τ) (st1_1 t) fullShare ((𝔇 c).after 1 t))

/-- The body at any point: the input's memref holds its block, so `sound_kernel` applies; the invariant and the core's
    `owes` pass through unread. -/
theorem sound_body (ι : Ix) (c : Dev nD) (t : Fin cfg1.N) :
    bodyPre (Name := Name) (U := U) (Lvl := Lvl) V B ι c t
      ⊢ wp frame (wpE (defs₀ (F := F)) Variants.none c none) Set.univ (bodyAt1 t) (fun _ => bodyPost (Name := Name) (U := U) (Lvl := Lvl) V B ι c t) := by
  unfold bodyPre bodyPost bodyAt1
  simp only [before_0]
  rw [show (𝔇 c).Φ t.succ = (𝔇 c).Φ t.castSucc from rfl,
    show (𝔇 c).owesAt ι t.succ = (𝔇 c).owesAt ι t.castSucc from rfl,
    after_0, after_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (ι : Ix) (c : Dev nD) : BodyObligation (𝔇 c) (defs₀ (F := F)) Variants.none ι Set.univ := fun t => by
  rw [bigSep_W1, bigSep_W1]
  exact sound_body V B ι c t

/-! ## The output array after the region, as one function of the input array -/

/-- Rows [256 q, 256 q + 256) of a [1024, 20, 128] array, as a [256, 20, 128] block. -/
def rowsOf (X : S1024x20x128.Idx → Elt F .f32) (q : Fin 4) : Vec F S256x20x128 .f32 :=
  fun j => X (ix3 (⟨q.val * 256 + (j 0).val, by
    have h : (j 0).val < 256 := (j 0).isLt
    have := q.isLt
    omega⟩ : Fin 1024) (j 1) (j 2))

/-- The pooled array: entry (r, k) is entry (r mod 256, k) of the body's payload on the 256-row block holding row r. -/
def poolArr (X : S1024x20x128.Idx → Elt F .f32) : S1024x128.Idx → Elt F .f32 :=
  fun i => k1_pay1 (rowsOf X ⟨(i 0).val / 256, by
      have h : (i 0).val < 1024 := (i 0).isLt
      omega⟩)
    (ix2 (⟨(i 0).val % 256, Nat.mod_lt _ (by decide)⟩ : Fin 256) (i 1))

/-- The pooled array at entry j of block q. -/
theorem poolArr_block (X : S1024x20x128.Idx → Elt F .f32) (q : Fin 4) (j : S256x128.Idx) (i : S1024x128.Idx)
    (h0 : (i 0).val = q.val * 256 + (j 0).val) (h1 : (i 1).val = (j 1).val) :
    poolArr X i = k1_pay1 (rowsOf X q) j := by
  have hj0 : (j 0).val < 256 := (j 0).isLt
  have hq : (⟨(i 0).val / 256, by
      have h : (i 0).val < 1024 := (i 0).isLt
      omega⟩ : Fin 4) = q := Fin.ext (by show (i 0).val / 256 = q.val; omega)
  have hj : (ix2 (⟨(i 0).val % 256, Nat.mod_lt _ (by decide)⟩ : Fin 256) (i 1) : S256x128.Idx) = j := by
    funext a
    match a with
    | ⟨0, _⟩ => exact Fin.ext (by show (i 0).val % 256 = (j 0).val; omega)
    | ⟨1, _⟩ => exact Fin.ext h1
  unfold poolArr
  rw [hq, hj]

/-- The printed index maps, decided over the grid: both windows' block index is the point's number on the row axis
    and zero on the others. -/
theorem idx_facts : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 ∧ t.val < 4 :=
  (by decide +kernel : ∀ t : Fin grid1.N, _)

/-- Every row block is some point's. -/
theorem idx_onto : ∀ q : Fin 4, ∃ t : Fin cfg1.N, win1_1.index t = ![q.val, 0] :=
  (by decide +kernel : ∀ q : Fin 4, ∃ t : Fin grid1.N, win1_1.index t = ![q.val, 0])

/-- The input window's block at point `t` is rows [256 t, 256 t + 256) of the input array. -/
theorem iblk_0 (c : Dev nD) (t : Fin cfg1.N) (ht : t.val < 4) :
    (iblk V c 0 t : Vec F S256x20x128 .f32) = rowsOf (V c main_v2) ⟨t.val, ht⟩ := by
  obtain ⟨e0, e1, e2, e3, e4, e5⟩ := idx_facts t
  funext y
  show V c main_v2 (((cfg1.win 0).blk t).view.emb y) = V c main_v2 (ix3 (⟨t.val * 256 + (y 0).val, _⟩ : Fin 1024) (y 1) (y 2))
  congr 1
  funext a; apply Fin.ext
  match a with
  | ⟨0, _⟩ => show win1_0.index t (0 : Fin 3) * 256 + 1 * (y 0).val = t.val * 256 + (y 0).val; omega
  | ⟨1, _⟩ => show win1_0.index t (1 : Fin 3) * 20 + 1 * (y 1).val = (y 1).val; omega
  | ⟨2, _⟩ => show win1_0.index t (2 : Fin 3) * 128 + 1 * (y 2).val = (y 2).val; omega

/-- What point `t` writes back is the body's result on the input block there. -/
theorem flushed_out (c : Dev nD) (t : Fin cfg1.N) :
    (𝔇 c).flushed 1 t = (cfg1.win 1).cut (grid1.coords t) (out1 (iblk V c 0 t)) := by
  show (cfg1.win 1).cut (grid1.coords t) ((𝔇 c).after 1 t) = _
  rw [after_1]

/-- What point `t` writes back is block `t` of the pooled array of the input array as the region finds it. -/
theorem flushed (c : Dev nD) (t : Fin cfg1.N) :
    (𝔇 c).flushed 1 t = ((cfg1.win 1).blk t).view.read (Elt F) (poolArr (V c main_v2)) := by
  show (cfg1.win 1).cut (grid1.coords t) ((𝔇 c).after 1 t) = _
  rw [after_1, out1_eq]
  obtain ⟨e0, e1, e2, e3, e4, e5⟩ := idx_facts t
  rw [iblk_0 V c t e5]
  funext j
  show k1_pay1 (rowsOf (V c main_v2) ⟨t.val, e5⟩) j = poolArr (V c main_v2) (((cfg1.win 1).blk t).view.emb j)
  refine (poolArr_block (V c main_v2) ⟨t.val, e5⟩ j _ ?_ ?_).symm
  · show win1_1.index t (0 : Fin 2) * 256 + 1 * (j 0).val = t.val * 256 + (j 0).val; omega
  · show win1_1.index t (1 : Fin 2) * 128 + 1 * (j 1).val = (j 1).val; omega

/-- An index of the output array is in point `t`'s block iff each coordinate is in the block's range on its axis. -/
theorem mem_blk (t : Fin cfg1.N) (i : S1024x128.Idx) :
    i ∈ ((cfg1.win 1).blk t).view.set ↔ ∀ a : Fin 2, win1_1.index t a * S256x128.size a ≤ (i a).val ∧ (i a).val < win1_1.index t a * S256x128.size a + S256x128.size a := by
  show i ∈ ((View.whole main_v3).slice (win1_1.rect t)).set ↔ _
  rw [View.set_slice_whole, Rect.mem_set_unit]
  exact Iff.rfl

/-- Every index of the output array is in the block of the point numbered by its row block. -/
theorem cover (i : S1024x128.Idx) : ∃ t : Fin cfg1.N, (cfg1.win 1).flush t = true ∧ i ∈ ((cfg1.win 1).blk t).view.set := by
  have hi0 : (i 0).val < 1024 := (i 0).isLt
  have hi1 : (i 1).val < 128 := (i 1).isLt
  obtain ⟨t, ht⟩ := idx_onto ⟨(i 0).val / 256, by omega⟩
  have q0 : win1_1.index t (0 : Fin 2) = (i 0).val / 256 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 128 ≤ (i 1).val ∧ (i 1).val < win1_1.index t (1 : Fin 2) * 128 + 128; omega

/-- THE OUTPUT ARRAY after the region: the pooled array of the input array as the region finds it. -/
theorem final (c : Dev nD) : (𝔇 c).arrAt 1 cfg1.N = poolArr (V c main_v2) :=
  (𝔇 c).arrAt_eq_of_cover 1 (poolArr (V c main_v2)) (fun t _ => flushed V B c t) cover

/-- The input array is as the region found it. -/
theorem final_in (c : Dev nD) : (𝔇 c).arrAt 0 cfg1.N = V c main_v2 :=
  ((𝔇 c).arrAt_in 0 rfl _).trans (A_eq V B c 0)

end Cert.Kernel.Pool

end
-- ==== Proof.KB.TailRegion.lean ====
import proofs.«204097_g52673478918828_cont_9to1c4b_838_31_alg».proof.Proof.Gen.Kernel.Launch
import proofs.«204097_g52673478918828_cont_9to1c4b_838_31_alg».proof.Proof.Gen.Kernel.Skeleton
import proofs.«204097_g52673478918828_cont_9to1c4b_838_31_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # The tail matmul's region: proof data, body obligation and the final array

The third TensorCore kernel of the program has a grid of no axis: ONE point, at which every window's block is its
whole array. Windows 0, 1, 2 (the pooled rows `f32[1024,128]`, the last 160 rows of the weights `f32[160,128]`, the
last 160 biases `f32[160]`) are fetched; window 3 (`f32[1024,160]`) is written back. The body loads the three input
buffers whole, and stores ONE payload over the whole output buffer. Everything is stated for arbitrary contents `V`
of the TensorCore's buffers at the moment the region is entered, and generically in the logic's parameters. -/

set_option maxRecDepth 16384

noncomputable section

namespace Cert.Kernel.Tail

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {Name : Type} [DecidableEq Name]
  {U : Type} [URA U] {Lvl : Type} [Preorder Lvl]

local notation "𝕄" => MT nD τ sig Ix (Elt F) Name U Lvl

-- The contents of each TensorCore's buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point, for ANY proof data whose array is `V`'s and whose
    body leaves the block in place: the window is uncut and never idle. -/
theorem before_0_of {c : Dev nD} (dat : Dat τ (Elt F) Ix Name U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1, -/
theorem before_1_of {c : Dev nD} (dat : Dat τ (Elt F) Ix Name U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for input window 2. -/
theorem before_2_of {c : Dev nD} (dat : Dat τ (Elt F) Ix Name U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole-buffer rectangles through which the body loads its inputs and stores its result. -/
abbrev rP : Rect S1024x128 := Rect.unit (s := S1024x128) ![0, 0] S1024x128.size inb_S1024x128_S1024x128_0_0
abbrev rW : Rect S160x128 := Rect.unit (s := S160x128) ![0, 0] S160x128.size inb_S160x128_S160x128_0_0
abbrev rB : Rect S160 := Rect.unit (s := S160) ![0] S160.size inb_S160_S160_0
abbrev rO : Rect S1024x160 := Rect.unit (s := S1024x160) ![0, 0] S1024x160.size inb_S1024x160_S1024x160_0_0

/-! ## What the body leaves in the output window's buffer -/

/-- Window 3's staging buffer after the body, from the input windows' blocks: its one store as a piece. -/
def out3 (x0 : Vec F S1024x128 .f32) (x1 : Vec F S160x128 .f32) (x2 : Vec F S160 .f32) : Vec F S1024x160 .f32 :=
  View.canon [⟨rO, k3_pay1 (View.ld x0 rP) (View.ld x1 rW) (View.ld x2 rB)⟩]

/-- The store covers the buffer. -/
theorem cover3 (p0 : Vec F S1024x160 .f32) (y : S1024x160.Idx) :
    ∃ pc ∈ ([⟨rO, p0⟩] : List (View.Piece (Elt F) S1024x160 .f32)), y ∈ pc.1.set :=
  View.cover_of_tiled [⟨rO, p0⟩] S1024x160.size (by rfl) y

theorem hz2 : (![0, 0] : Fin 2 → Nat) = fun _ => 0 := funext fun a => by fin_cases a <;> rfl
theorem hz1 : (![0] : Fin 1 → Nat) = fun _ => 0 := funext fun a => by fin_cases a; rfl

/-- The one store being over the whole buffer and the loads of the whole buffers, what the body leaves is the
    payload of the three blocks. -/
theorem out3_eq (x0 : Vec F S1024x128 .f32) (x1 : Vec F S160x128 .f32) (x2 : Vec F S160 .f32) :
    out3 x0 x1 x2 = k3_pay1 x0 x1 x2 := by
  unfold out3
  rw [View.canon_unit_zero hz2]
  rw [View.ld_unit_zero (S := S1024x128) hz2, View.ld_unit_zero (S := S160x128) hz2, View.ld_unit_zero (S := S160) hz1]

/-! ## The body's triple -/

set_option maxHeartbeats 1000000 in
/-- The kernel body on whole staging memrefs, the inputs' at contents `x0`, `x1`, `x2` and the output's at anything,
    runs to the continuation holding the inputs' as they were and the output's at `out3` of the inputs'. -/
theorem sound_kernel (c : Dev nD) (E : Set Name) (arg0 : Memref sig .tc .vmem S1024x128 .f32) (harg0 : arg0.IsWhole)
    (arg1 : Memref sig .tc .vmem S160x128 .f32) (harg1 : arg1.IsWhole) (arg2 : Memref sig .tc .vmem S160 .f32) (harg2 : arg2.IsWhole)
    (arg3 : Memref sig .tc .vmem S1024x160 .f32) (harg3 : arg3.IsWhole)
    (x0 : Vec F S1024x128 .f32) (x1 : Vec F S160x128 .f32) (x2 : Vec F S160 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ K ⟨⟩))
      ⊢ wp frame (wpE (defs₀ (F := F)) Variants.none c none) E (cc3__tail_body arg0 harg0 arg1 harg1 arg2 harg2 arg3 harg3) K := by
  simp only [cc3__tail_body_eq_skeleton]; unfold cc3__tail_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the tail kernel's pipeline on core `c`: the arrays as the region finds them (`V`); after the
    body each input's buffer at its block and the output's at `out3` of the input blocks; the invariant the scoped
    buffers no window stages, untouched (the body has no scratch); nothing owed; full shares; the core's recorded
    pairs within `B` throughout (the body makes no wait). -/
def dat (B : Set (SemLoc sig × Ix)) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.scopedRest (Ix := Ix) (Name := Name) (U := U) (Lvl := Lvl) (Val := Elt F) spec3 c
  q _ := fullShare
  owed _ := 0
  recorded _ := B

variable (B : Set (SemLoc sig × Ix))

local notation "𝔡" => dat (F := F) (Ix := Ix) (Name := Name) (U := U) (Lvl := Lvl) V B

/-- The proof data's arrays are the region-entry contents. -/
theorem A_eq (c : Dev nD) (w : Fin cfg3.W) : (𝔡 c).A w = V c (Pipeline.arrRef spec3 w) := by
  dsimp only [dat]

/-- What the body leaves, window by window. -/
theorem after_0 (c : Dev nD) (t : Fin cfg3.N) : (𝔡 c).after 0 t = iblk V c 0 t := by dsimp only [dat]
theorem after_1 (c : Dev nD) (t : Fin cfg3.N) : (𝔡 c).after 1 t = iblk V c 1 t := by dsimp only [dat]
theorem after_2 (c : Dev nD) (t : Fin cfg3.N) : (𝔡 c).after 2 t = iblk V c 2 t := by dsimp only [dat]
theorem after_3 (c : Dev nD) (t : Fin cfg3.N) :
    (𝔡 c).after 3 t = out3 (iblk V c 0 t) (iblk V c 1 t) (iblk V c 2 t) := by dsimp only [dat]

/-- Each input's staging buffer holds its block at the point. -/
theorem before_0 (c : Dev nD) (t : Fin cfg3.N) (d) : (𝔡 c).before 0 t d = iblk V c 0 t :=
  before_0_of V (𝔡 c) (A_eq V B c 0) (after_0 V B c) t d
theorem before_1 (c : Dev nD) (t : Fin cfg3.N) (d) : (𝔡 c).before 1 t d = iblk V c 1 t :=
  before_1_of V (𝔡 c) (A_eq V B c 1) (after_1 V B c) t d
theorem before_2 (c : Dev nD) (t : Fin cfg3.N) (d) : (𝔡 c).before 2 t d = iblk V c 2 t :=
  before_2_of V (𝔡 c) (A_eq V B c 2) (after_2 V B c) t d

/-! ## The body obligation -/

/-- What the body is called with at point `t`, the windows one by one, -/
def bodyPre (ι : Ix) (c : Dev nD) (t : Fin cfg3.N) : sProp 𝕄 :=
  iprop((𝔡 c).Φ t.castSucc ∗ (𝔡 c).owesAt ι t.castSucc
    ∗ (∃ d, owns (c : Thread nD τ) (st3_0 t) fullShare ((𝔡 c).before 0 t d))
    ∗ (∃ d, owns (c : Thread nD τ) (st3_1 t) fullShare ((𝔡 c).before 1 t d))
    ∗ (∃ d, owns (c : Thread nD τ) (st3_2 t) fullShare ((𝔡 c).before 2 t d))
    ∗ (∃ d, owns (c : Thread nD τ) (st3_3 t) fullShare ((𝔡 c).before 3 t d)))

/-- and what it returns. -/
def bodyPost (ι : Ix) (c : Dev nD) (t : Fin cfg3.N) : sProp 𝕄 :=
  iprop((𝔡 c).Φ t.succ ∗ (𝔡 c).owesAt ι t.succ
    ∗ owns (c : Thread nD τ) (st3_0 t) fullShare ((𝔡 c).after 0 t)
    ∗ owns (c : Thread nD τ) (st3_1 t) fullShare ((𝔡 c).after 1 t)
    ∗ owns (c : Thread nD τ) (st3_2 t) fullShare ((𝔡 c).after 2 t)
    ∗ owns (c : Thread nD τ) (st3_3 t) fullShare ((𝔡 c).after 3 t))

/-- The body at the point: the inputs' memrefs hold their blocks, so `sound_kernel` applies; the invariant and the
    core's `owes` pass through unread. -/
theorem sound_body (ι : Ix) (c : Dev nD) (t : Fin cfg3.N) :
    bodyPre (Name := Name) (U := U) (Lvl := Lvl) V B ι c t ⊢ wp frame (wpE (defs₀ (F := F)) Variants.none c none) Set.univ (bodyAt3 t) (fun _ => bodyPost (Name := Name) (U := U) (Lvl := Lvl) V B ι c t) := by
  unfold bodyPre bodyPost bodyAt3
  simp only [before_0, before_1, before_2]
  rw [show (𝔡 c).Φ t.succ = (𝔡 c).Φ t.castSucc from rfl,
    show (𝔡 c).owesAt ι t.succ = (𝔡 c).owesAt ι t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation (ι : Ix) (c : Dev nD) :
    BodyObligation (𝔡 c) (defs₀ (F := F)) Variants.none ι Set.univ := fun t => by
  rw [bigSep_W3, bigSep_W3]
  exact sound_body V B ι c t

/-! ## The final array -/

/-- At the one point every input block is its whole array: a block's index is the array's. -/
theorem iblk_0 (c : Dev nD) (t : Fin cfg3.N) : iblk V c 0 t = V c main_v3 := by
  funext y
  show V c main_v3 (((cfg3.win 0).blk t).view.emb y) = V c main_v3 y
  refine congrArg _ (funext fun a => Fin.ext ?_)
  match a with
  | ⟨0, _⟩ => show 0 * 1024 + 1 * (y 0).val = (y 0).val; omega
  | ⟨1, _⟩ => show 0 * 128 + 1 * (y 1).val = (y 1).val; omega
theorem iblk_1 (c : Dev nD) (t : Fin cfg3.N) : iblk V c 1 t = V c main_v6 := by
  funext y
  show V c main_v6 (((cfg3.win 1).blk t).view.emb y) = V c main_v6 y
  refine congrArg _ (funext fun a => Fin.ext ?_)
  match a with
  | ⟨0, _⟩ => show 0 * 160 + 1 * (y 0).val = (y 0).val; omega
  | ⟨1, _⟩ => show 0 * 128 + 1 * (y 1).val = (y 1).val; omega
theorem iblk_2 (c : Dev nD) (t : Fin cfg3.N) : iblk V c 2 t = V c main_v7 := by
  funext y
  show V c main_v7 (((cfg3.win 2).blk t).view.emb y) = V c main_v7 y
  refine congrArg _ (funext fun a => Fin.ext ?_)
  match a with
  | ⟨0, _⟩ => show 0 * 160 + 1 * (y 0).val = (y 0).val; omega

/-- Read through the output's block, the whole array, any contents are themselves, -/
theorem read_blk3 (t : Fin cfg3.N) (G : S1024x160.Idx → Elt F .f32) : ((cfg3.win 3).blk t).view.read (Elt F) G = G := by
  funext y
  show G (((cfg3.win 3).blk t).view.emb y) = G y
  refine congrArg G (funext fun a => Fin.ext ?_)
  match a with
  | ⟨0, _⟩ => show 0 * 1024 + 1 * (y 0).val = (y 0).val; omega
  | ⟨1, _⟩ => show 0 * 160 + 1 * (y 1).val = (y 1).val; omega

/-- and the write-back moves all of the staging buffer. -/
theorem cut3 (t : Fin cfg3.N) (G : S1024x160.Idx → Elt F .f32) : (cfg3.win 3).cut (grid3.coords t) G = G := rfl

set_option maxHeartbeats 1000000 in
/-- What the point writes back is the output block, the whole array, of `out3` of the three input arrays. -/
theorem flushed_eq (c : Dev nD) (t : Fin cfg3.N) :
    (𝔡 c).flushed 3 t = ((cfg3.win 3).blk t).view.read (Elt F) (out3 (V c main_v3) (V c main_v6) (V c main_v7)) := by
  rw [read_blk3]
  refine (cut3 t ((𝔡 c).after 3 t)).trans ?_
  rw [after_3]
  exact congr (congr (congrArg (out3 (F := F)) (iblk_0 V c t)) (iblk_1 V c t)) (iblk_2 V c t)

/-- Every index of the output array is in the point's block. -/
theorem mem_blk3 (t : Fin cfg3.N) (i : S1024x160.Idx) : i ∈ ((cfg3.win 3).blk t).view.set := by
  show i ∈ ((View.whole main_v8).slice (win3_3.rect t)).set
  rw [View.set_slice_whole, Rect.mem_set_unit]
  intro a
  match a with
  | ⟨0, _⟩ => exact ⟨Nat.zero_le _, by show (i 0).val < 0 * 1024 + 1024; have h : (i 0).val < 1024 := (i 0).isLt; omega⟩
  | ⟨1, _⟩ => exact ⟨Nat.zero_le _, by show (i 1).val < 0 * 160 + 160; have h : (i 1).val < 160 := (i 1).isLt; omega⟩

/-- THE ARRAY after the region: `out3` of the three input arrays as the region found them. -/
theorem final (c : Dev nD) : (𝔡 c).arrAt 3 cfg3.N = out3 (V c main_v3) (V c main_v6) (V c main_v7) :=
  (𝔡 c).arrAt_eq_of_cover 3 _ (fun t _ => flushed_eq V B c t) (fun i => ⟨t3_0, flush3_3 t3_0, mem_blk3 t3_0 i⟩)

/-- An input's array is never written. -/
theorem final_in (c : Dev nD) (w : Fin cfg3.W) (hw : (cfg3.win w).isOut = false) (n : Nat) : (𝔡 c).arrAt w n = V c (Pipeline.arrRef spec3 w) :=
  ((𝔡 c).arrAt_in w hw n).trans (A_eq V B c w)

end Cert.Kernel.Tail

end
-- ==== Proof.KB.MmRegion.lean ====
import proofs.«204097_g52673478918828_cont_9to1c4b_838_31_alg».proof.Proof.Gen.Kernel.Launch
import proofs.«204097_g52673478918828_cont_9to1c4b_838_31_alg».proof.Proof.Gen.Kernel.Skeleton
import proofs.«204097_g52673478918828_cont_9to1c4b_838_31_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The three conditions of the body, in closed form over the grid -/

/-- The coordinate of a point of the one-axis grid is its number. -/
theorem crd_val : ∀ t : Fin cfg2.N, ((grid2.coords t) 0).val = t.val :=
  (by decide +kernel : ∀ t : Fin grid2.N, ((grid2.coords t) 0).val = t.val)

/-- The wait for the copy issued four points earlier happens from the fifth point on. -/
theorem hcond1 : ∀ t : Fin cfg2.N, k2_cond1 (grid2.coords t) = 1#1 ↔ 4 ≤ t.val :=
  (by decide +kernel : ∀ t : Fin grid2.N, k2_cond1 (grid2.coords t) = 1#1 ↔ 4 ≤ t.val)
/-- A full column block is copied out at every point but the last. -/
theorem hcond2 : ∀ t : Fin cfg2.N, k2_cond2 (grid2.coords t) = 1#1 ↔ t.val < 48 :=
  (by decide +kernel : ∀ t : Fin grid2.N, k2_cond2 (grid2.coords t) = 1#1 ↔ t.val < 48)
/-- The clipped last block and the drain of the ring happen at the last point only. -/
theorem hcond3 : ∀ t : Fin cfg2.N, k2_cond3 (grid2.coords t) = 1#1 ↔ t.val = 48 :=
  (by decide +kernel : ∀ t : Fin grid2.N, k2_cond3 (grid2.coords t) = 1#1 ↔ t.val = 48)

/-- The same over the coordinates. -/
theorem cond1_iff : ∀ i : grid2.Coords, k2_cond1 i = 1#1 ↔ 4 ≤ (i 0).val := by decide +kernel
theorem cond2_iff : ∀ i : grid2.Coords, k2_cond2 i = 1#1 ↔ (i 0).val < 48 := by decide +kernel
theorem cond3_iff : ∀ i : grid2.Coords, k2_cond3 i = 1#1 ↔ (i 0).val = 48 := by decide +kernel

/-- Closed forms of the remaining offsets: the output columns of the copy waited for, four blocks back, -/
theorem k2_off2_eq : ∀ i : grid2.Coords, k2_cond1 i = 1#1 → k2_off2 i = ![0, 2048 * ((i 0).val - 4)] := by decide +kernel
/-- and at the last point the cells, output columns and slots of the three copies still outstanding. -/
theorem k2_off11_eq1 : ∀ i : grid2.Coords, k2_cond3 i = 1#1 → k2_off11 i 1#32 = ![47 % 4] := by decide +kernel
theorem k2_off11_eq2 : ∀ i : grid2.Coords, k2_cond3 i = 1#1 → k2_off11 i 2#32 = ![46 % 4] := by decide +kernel
theorem k2_off11_eq3 : ∀ i : grid2.Coords, k2_cond3 i = 1#1 → k2_off11 i 3#32 = ![45 % 4] := by decide +kernel

/-! ## The ring's slots, the output's column blocks and the cells, by number -/

/-- The ring buffer and the output array, whole, as the body is handed them. -/
abbrev ringM : Memref sig .tc .vmem S4x1024x2048 .f32 := Memref.whole cc2_scratch0
abbrev outM : Memref sig .tc .hbm S1024x100000 .f32 := Memref.whole main_v5

theorem inb_slot (n : ℕ) : ∀ a, (![n % 4, 0, 0] : Fin 3 → Nat) a + S1x1024x2048.size a ≤ S4x1024x2048.size a := by
  have := Nat.mod_lt n (by decide : 0 < 4); intro a; fin_cases a <;> simp <;> omega
theorem inb_cell (n : ℕ) : ∀ a, (![n % 4] : Fin 1 → Nat) a + S1.size a ≤ S4.size a := by
  have := Nat.mod_lt n (by decide : 0 < 4); intro a; fin_cases a <;> simp <;> omega
theorem inb_col (j : Fin 48) : ∀ a, (![0, 2048 * j.val] : Fin 2 → Nat) a + S1024x2048.size a ≤ S1024x100000.size a := by
  have := j.isLt; intro a; fin_cases a <;> simp <;> omega

/-- Slot `n % 4` of the ring, spelt as a copy out of it spells its source. -/
def rslot (n : ℕ) : Memref sig .tc .vmem S1024x2048 .f32 :=
  (ringM.slice (Rect.unit (s := S4x1024x2048) ![n % 4, 0, 0] S1x1024x2048.size (inb_slot n)) (fun _ => rfl)).squeeze S1024x2048 squeezes_S1x1024x2048_S1024x2048
/-- Column block `j` of the output, columns `[2048 j, 2048 (j + 1))`, spelt as a copy into it spells its destination. -/
def colB (j : Fin 48) : Memref sig .tc .hbm S1024x2048 .f32 :=
  outM.slice (Rect.unit (s := S1024x100000) ![0, 2048 * j.val] S1024x2048.size (inb_col j)) (fun _ => rfl)
/-- Cell `n % 4` of the kernel's four DMA semaphores, spelt as the body spells a cell. -/
def cellA (n : ℕ) : DmaSems sig S_ := (cc2_scratch1.slice (Rect.unit (s := S4) ![n % 4] S1.size (inb_cell n))).squeeze S_ squeezes_S1_S_
abbrev cellR (n : ℕ) : SemLoc sig := SemLoc.dma (cellA n).sem

theorem cellR_0 : cellR 0 = SemLoc.dma 12 := by decide
theorem cellR_1 : cellR 1 = SemLoc.dma 13 := by decide
theorem cellR_2 : cellR 2 = SemLoc.dma 14 := by decide
theorem cellR_3 : cellR 3 = SemLoc.dma 15 := by decide

theorem rslot_congr {n n' : ℕ} (h : n % 4 = n' % 4) : rslot n = rslot n' := by
  unfold rslot
  exact congrArg (fun M : Memref sig .tc .vmem S1x1024x2048 .f32 => M.squeeze S1024x2048 squeezes_S1x1024x2048_S1024x2048)
    (Memref.slice_unit_congr _ (by rw [h]) _ _ (fun _ => rfl) (fun _ => rfl))
theorem cellA_congr {n n' : ℕ} (h : n % 4 = n' % 4) : cellA n = cellA n' := by
  unfold cellA
  exact congrArg (fun A : DmaSems sig S1 => A.squeeze S_ squeezes_S1_S_) (SemArray.slice_unit_congr _ (by rw [h]) _ _)

theorem lt48_of_cond2 : ∀ i : grid2.Coords, k2_cond2 i = 1#1 → (i 0).val < 48 := fun i h => (cond2_iff i).mp h

/-! ## The body's operands at a point are the slots, blocks and cells by number -/

@[sl_canon] theorem canon_cell1 (i : grid2.Coords) (h1 : k2_cond1 i = 1#1) :
    (cc2_scratch1.slice (Rect.unit (s := S4) (k2_off1 i) S1.size (k2_off1_inb i h1))).squeeze S_ squeezes_S1_S_ = cellA (i 0).val :=
  congrArg (fun A : DmaSems sig S1 => A.squeeze S_ squeezes_S1_S_) (SemArray.slice_unit_congr _ (k2_off1_eq i) _ _)
@[sl_canon] theorem canon_cell5 (i : grid2.Coords) (h2 : k2_cond2 i = 1#1) :
    (cc2_scratch1.slice (Rect.unit (s := S4) (k2_off5 i) S1.size (k2_off5_inb i h2))).squeeze S_ squeezes_S1_S_ = cellA (i 0).val :=
  congrArg (fun A : DmaSems sig S1 => A.squeeze S_ squeezes_S1_S_) (SemArray.slice_unit_congr _ (k2_off5_eq i) _ _)
@[sl_canon] theorem canon_cell8 (i : grid2.Coords) (h3 : k2_cond3 i = 1#1) :
    (cc2_scratch1.slice (Rect.unit (s := S4) (k2_off8 i) S1.size (k2_off8_inb i h3))).squeeze S_ squeezes_S1_S_ = cellA (i 0).val :=
  congrArg (fun A : DmaSems sig S1 => A.squeeze S_ squeezes_S1_S_) (SemArray.slice_unit_congr _ (k2_off8_eq i) _ _)
@[sl_canon] theorem canon_slot3 (i : grid2.Coords) (h1 : k2_cond1 i = 1#1) :
    (ringM.slice (Rect.unit (s := S4x1024x2048) (k2_off3 i) S1x1024x2048.size (k2_off3_inb i h1)) (fun _ => rfl)).squeeze S1024x2048 squeezes_S1x1024x2048_S1024x2048 = rslot (i 0).val :=
  congrArg (fun M : Memref sig .tc .vmem S1x1024x2048 .f32 => M.squeeze S1024x2048 squeezes_S1x1024x2048_S1024x2048)
    (Memref.slice_unit_congr _ (k2_off3_eq i) _ _ (fun _ => rfl) (fun _ => rfl))
@[sl_canon] theorem canon_slot7 (i : grid2.Coords) (h2 : k2_cond2 i = 1#1) :
    (ringM.slice (Rect.unit (s := S4x1024x2048) (k2_off7 i) S1x1024x2048.size (k2_off7_inb i h2)) (fun _ => rfl)).squeeze S1024x2048 squeezes_S1x1024x2048_S1024x2048 = rslot (i 0).val :=
  congrArg (fun M : Memref sig .tc .vmem S1x1024x2048 .f32 => M.squeeze S1024x2048 squeezes_S1x1024x2048_S1024x2048)
    (Memref.slice_unit_congr _ (k2_off7_eq i) _ _ (fun _ => rfl) (fun _ => rfl))
@[sl_canon] theorem canon_col6 (i : grid2.Coords) (h2 : k2_cond2 i = 1#1) :
    outM.slice (Rect.unit (s := S1024x100000) (k2_off6 i) S1024x2048.size (k2_off6_inb i h2)) (fun _ => rfl) = colB ⟨(i 0).val, lt48_of_cond2 i h2⟩ :=
  Memref.slice_unit_congr _ (k2_off6_eq i) _ _ (fun _ => rfl) (fun _ => rfl)

/-! ## What the body holds of a slot, a cell, a column block; a copy in flight -/

section Pieces
variable (ι : Ix) (c : Dev nD)

/-- The contents of the ring buffer and of the output array on core `c`. -/
abbrev RBuf : Type := Buf (Elt F) ((c : Thread nD τ).loc cc2_scratch0)
abbrev OBuf : Type := Buf (Elt F) ((c : Thread nD τ).loc main_v5)

/-- Slot `n % 4` held by exactly its own elements at contents `f`; its cell at zero; column block `j` held by its own elements. -/
abbrev slotP (n : ℕ) (f : RBuf (F := F) c) : sProp 𝕄 :=
  (rslot n).view.loc (c : Thread nD τ) ↦[(rslot n).view.set]{fullShare} f
abbrev cellP (n : ℕ) : sProp 𝕄 := semVal ((c : Thread nD τ), cellR n) 0
abbrev colP (j : Fin 48) (g : OBuf (F := F) c) : sProp 𝕄 :=
  (colB j).view.loc (c : Thread nD τ) ↦[(colB j).view.set]{fullShare} g
/-- The copy of slot `n % 4` (at contents `fs`) to column block `j` in flight on cell `n % 4`, delivering the block at `g`
    and the slot back. -/
abbrev flightP (n : ℕ) (j : Fin 48) (g : OBuf (F := F) c) (fs : RBuf (F := F) c) : sProp 𝕄 :=
  Transfers.Flight countersEmb (c : Thread nD τ) (cellR n) ι ((colB j).view.amount (cellR n)) iprop(colP c j g ∗ slotP c n fs)

/-- What the three loads of the staged blocks read: the blocks, through the staging memrefs. -/
abbrev ld0 (arg1 : Memref sig .tc .vmem S1024x128 .f32) (harg1 : arg1.IsWhole) (x0 : Vec F S1024x128 .f32) : Vec F S1024x128 .f32 :=
  View.readAt (Elt F) arg1.view (Rect.unit (s := S1024x128) ![0, 0] S1024x128.size inb_S1024x128_S1024x128_0_0).toLoadRect (harg1.unread x0)
abbrev ld1 (arg2 : Memref sig .tc .vmem S2048x128 .f32) (harg2 : arg2.IsWhole) (x1 : Vec F S2048x128 .f32) : Vec F S2048x128 .f32 :=
  View.readAt (Elt F) arg2.view (Rect.unit (s := S2048x128) ![0, 0] S2048x128.size inb_S2048x128_S2048x128_0_0).toLoadRect (harg2.unread x1)
abbrev ld2 (arg3 : Memref sig .tc .vmem S2048 .f32) (harg3 : arg3.IsWhole) (x2 : Vec F S2048 .f32) : Vec F S2048 .f32 :=
  View.readAt (Elt F) arg3.view (Rect.unit (s := S2048) ![0] S2048.size inb_S2048_S2048_0).toLoadRect (harg3.unread x2)

/-- The ring buffer after the point's store of the value `w` into the point's slot, over contents `fs0`. -/
abbrev storedW (i : grid2.Coords) (fs0 : RBuf (F := F) c) (w : FVec F S1x1024x2048 .f32) : RBuf (F := F) c :=
  View.write (Elt F) (ringM.access (Rect.unit (s := S4x1024x2048) (k2_off4 i) S1x1024x2048.size (k2_off4_inb i))) fs0 w Finset.univ
/-- Column block `j` after the copy of slot `n % 4` at contents `fs` has landed in it whole, over contents `G`. -/
abbrev landedW (n : ℕ) (j : Fin 48) (G : OBuf (F := F) c) (fs : RBuf (F := F) c) : OBuf (F := F) c :=
  (colB j).view.writes (Elt F) G [⟨Rect.whole S1024x2048, ReadAs.same.apply ((rslot n).view.read (Elt F) fs)⟩]
end Pieces

/-! ## The body at a point: it waits for the copy issued four points earlier (from the fifth point on), stores, issues -/

set_option maxHeartbeats 4000000 in
/-- At a point `4 ≤ t < 48`: from the staged blocks, the flight of the slot's previous copy (block `jw`), the point's own column
    block still at contents `G` and the core's `owes`, the body runs to the staged blocks as they were, block `jw` as delivered,
    the flight of the point's own copy, and the wait recorded. -/
theorem run_mid (ι : Ix) (c : Dev nD) (i : grid2.Coords) (h1 : k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw : Fin 48) (g0 : OBuf (F := F) c) (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c (i 0).val jw g0 fs0
        ∗ colP c ⟨(i 0).val, lt48_of_cond2 i h2⟩ G
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0
            ∗ flightP ι c (i 0).val ⟨(i 0).val, lt48_of_cond2 i h2⟩
                (landedW c (i 0).val ⟨(i 0).val, lt48_of_cond2 i h2⟩ G
                  (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 (insert (cellR (i 0).val, ι) W)) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  simp only [cc2__mm_body_eq_skeleton]; unfold cc2__mm_body_skel
  unfold owns
  iintro ⟨⟨%f0, %hf0, H0⟩, ⟨%f1, %hf1, H1⟩, ⟨%f2, %hf2, H2⟩, Hfl, Hcol, HW, Hk⟩
  obtain rfl := harg1.eq_unread hf0
  obtain rfl := harg2.eq_unread hf1
  obtain rfl := harg3.eq_unread hf2
  letI : Inhabited Ix := ⟨ι⟩
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hfl_dst]; · iexact Hfl_dst
  isplitl [Hfl]; · iexact Hfl
  iexact HW

set_option maxHeartbeats 4000000 in
/-- At a point `t < 4`: no copy is outstanding on the point's slot; the body finds the slot at any contents and its cell at zero. -/
theorem run_early (ι : Ix) (c : Dev nD) (i : grid2.Coords) (h1 : ¬ k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ cellP c (i 0).val ∗ slotP c (i 0).val fs0
        ∗ colP c ⟨(i 0).val, lt48_of_cond2 i h2⟩ G
        ∗ owes (c : Thread nD τ) 0 W
        ∗ (iprop(owns (c : Thread nD τ) arg1 fullShare x0 ∗ owns (c : Thread nD τ) arg2 fullShare x1 ∗ owns (c : Thread nD τ) arg3 fullShare x2
            ∗ flightP ι c (i 0).val ⟨(i 0).val, lt48_of_cond2 i h2⟩
                (landedW c (i 0).val ⟨(i 0).val, lt48_of_cond2 i h2⟩ G
                  (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 W) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  simp only [cc2__mm_body_eq_skeleton]; unfold cc2__mm_body_skel
  unfold owns
  iintro ⟨⟨%f0, %hf0, H0⟩, ⟨%f1, %hf1, H1⟩, ⟨%f2, %hf2, H2⟩, Hcell, Hslot, Hcol, HW, Hk⟩
  obtain rfl := harg1.eq_unread hf0
  obtain rfl := harg2.eq_unread hf1
  obtain rfl := harg3.eq_unread hf2
  letI : Inhabited Ix := ⟨ι⟩
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hcell]; · iexact Hcell
  iexact HW

/-! ## The clipped last block and the columns the kernel never writes -/

theorem inb_colL : ∀ a, (![0, 2048 * 48] : Fin 2 → Nat) a + S1024x1536.size a ≤ S1024x100000.size a := by decide
theorem inb_tail : ∀ a, (![0, 99840] : Fin 2 → Nat) a + S1024x160.size a ≤ S1024x100000.size a := by decide
theorem inb_slotL : ∀ a, (![48 % 4, 0, 0] : Fin 3 → Nat) a + S1x1024x1536.size a ≤ S4x1024x2048.size a := by decide
/-- Output columns `[98304, 99840)`: the part of the last block inside the array that the kernel copies out. -/
def colL : Memref sig .tc .hbm S1024x1536 .f32 :=
  outM.slice (Rect.unit (s := S1024x100000) ![0, 2048 * 48] S1024x1536.size inb_colL) (fun _ => rfl)
/-- Output columns `[99840, 100000)`, which this kernel leaves as it finds them. -/
def tailM : Memref sig .tc .hbm S1024x160 .f32 :=
  outM.slice (Rect.unit (s := S1024x100000) ![0, 99840] S1024x160.size inb_tail) (fun _ => rfl)
/-- The first 1536 columns of slot 0, the source of the last block's copy. -/
def rslotL : Memref sig .tc .vmem S1024x1536 .f32 :=
  (ringM.slice (Rect.unit (s := S4x1024x2048) ![48 % 4, 0, 0] S1x1024x1536.size inb_slotL) (fun _ => rfl)).squeeze S1024x1536 squeezes_S1x1024x1536_S1024x1536

/-- The same two runs with the point's number named: `n` is the coordinate. -/
theorem run_mid' (ι : Ix) (c : Dev nD) (i : grid2.Coords) (n : ℕ) (hn : (i 0).val = n) (hlt : n < 48)
    (h1 : k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw : Fin 48) (g0 : OBuf (F := F) c) (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c n jw g0 fs0
        ∗ colP c ⟨n, hlt⟩ G
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0
            ∗ flightP ι c n ⟨n, hlt⟩
                (landedW c n ⟨n, hlt⟩ G (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 (insert (cellR n, ι) W)) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  subst hn
  exact run_mid ι c i h1 h2 h3 arg1 harg1 arg2 harg2 arg3 harg3 x0 x1 x2 jw g0 fs0 G W K

theorem run_early' (ι : Ix) (c : Dev nD) (i : grid2.Coords) (n : ℕ) (hn : (i 0).val = n) (hlt : n < 48)
    (h1 : ¬ k2_cond1 i = 1#1) (h2 : k2_cond2 i = 1#1) (h3 : ¬ k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (fs0 : RBuf (F := F) c) (G : OBuf (F := F) c) (W : Waits sig Ix) (K : PUnit → sProp 𝕄) :
    iprop(owns (c : Thread nD τ) arg1 fullShare x0 ∗ owns (c : Thread nD τ) arg2 fullShare x1 ∗ owns (c : Thread nD τ) arg3 fullShare x2
        ∗ cellP c n ∗ slotP c n fs0
        ∗ colP c ⟨n, hlt⟩ G
        ∗ owes (c : Thread nD τ) 0 W
        ∗ (iprop(owns (c : Thread nD τ) arg1 fullShare x0 ∗ owns (c : Thread nD τ) arg2 fullShare x1 ∗ owns (c : Thread nD τ) arg3 fullShare x2
            ∗ flightP ι c n ⟨n, hlt⟩
                (landedW c n ⟨n, hlt⟩ G (storedW c i fs0 (k2_pay1 (ld0 arg1 harg1 x0) (ld1 arg2 harg2 x1) (ld2 arg3 harg3 x2))))
                (storedW c i fs0 (k2_pay1 (ld0 arg1 harg1 x0) (ld1 arg2 harg2 x1) (ld2 arg3 harg3 x2)))
            ∗ owes (c : Thread nD τ) 0 W) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  subst hn
  exact run_early ι c i h1 h2 h3 arg1 harg1 arg2 harg2 arg3 harg3 x0 x1 x2 fs0 G W K

/-! ## The invariant between points -/

/-- A run of blocks grows by its next number. -/
theorem bigSep_rangeSet_snoc {M : Type _} [URA M] {NB : ℕ} {Φ : Fin NB → sProp M} {lo hi : ℕ} (h : lo ≤ hi) (hhi : hi < NB) :
    bigSep (Ring.rangeSet NB lo (hi + 1)) Φ = iprop(Φ ⟨hi, hhi⟩ ∗ bigSep (Ring.rangeSet NB lo hi) Φ) := by
  have e : Ring.rangeSet NB lo (hi + 1) = insert ⟨hi, hhi⟩ (Ring.rangeSet NB lo hi) := by
    ext b; rw [Finset.mem_insert, Ring.mem_rangeSet, Ring.mem_rangeSet, Fin.ext_iff]; dsimp only; omega
  have hm : (⟨hi, hhi⟩ : Fin NB) ∉ Ring.rangeSet NB lo hi := by rw [Ring.mem_rangeSet]; dsimp only; omega
  rw [e, BI.bigSep_insert hm]; rfl

section Inv
variable (V : (c : Dev nD) → (b : Ref sig .tc) → Buf (Elt F) ((c : Thread nD τ).loc b)) (ι : Ix) (c : Dev nD)

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the second window's staging buffer holds at point `t`: the block's rows inside the array, `d` on the rows that overhang it. -/
def wblk (t : Fin cfg2.N) (d : (cfg2.win 1).block.Idx → Elt F (cfg2.win 1).elt) : (cfg2.win 1).block.Idx → Elt F (cfg2.win 1).elt :=
  (cfg2.win 1).fill (cfg2.grid.coords t) d (iblk V c 1 t)

/-- Contents for the overhanging rows that nothing reads: the array's first element. -/
def junk1 : (cfg2.win 1).block.Idx → Elt F (cfg2.win 1).elt :=
  fun _ => (Memref.whole main_arg2 : Memref sig .tc .hbm S100000x128 .f32).view.read (Elt F) (V c main_arg2) (fun a => ⟨0, by fin_cases a <;> decide⟩)

/-- The point at which column block `j` is computed and its copy issued. -/
def tpt (j : Fin 48) : Fin cfg2.N := ⟨j.val, Nat.lt_trans j.isLt (by rw [show cfg2.N = 49 from N_2]; decide)⟩

/-- The value the body stores at point `t`: the product of the first window's block with the second's, plus the third's row. -/
def payAt (t : Fin cfg2.N) (d : (cfg2.win 1).block.Idx → Elt F (cfg2.win 1).elt) : FVec F S1x1024x2048 .f32 :=
  k2_pay1 (ld0 (st2_0 t) (hstage2_0 ((cfg2.slots t 0).cast nbuf2_0)) (iblk V c 0 t))
    (ld1 (st2_1 t) (hstage2_1 ((cfg2.slots t 1).cast nbuf2_1)) (wblk V c t d))
    (ld2 (st2_2 t) (hstage2_2 ((cfg2.slots t 2).cast nbuf2_2)) (iblk V c 2 t))

/-- Column block `j` of the output at its final contents: the slot's value at point `j`, landed over the entry contents. -/
def BlockOk (j : Fin 48) (g : OBuf (F := F) c) : Prop :=
  ∃ (fs0 : RBuf (F := F) c) (d : (cfg2.win 1).block.Idx → Elt F (cfg2.win 1).elt),
    g = landedW c j.val j (V c main_v5) (storedW c (grid2.coords (tpt j)) fs0 (payAt V c (tpt j) d))

/-- Block `j` written; its copy in flight; not yet computed. A slot not yet used, with its cell. -/
def doneP (j : Fin 48) : sProp 𝕄 := iprop(∃ g, ⌜BlockOk V c j g⌝ ∗ colP c j g)
def flightAt (j : Fin 48) : sProp 𝕄 := iprop(∃ g fs, ⌜BlockOk V c j g⌝ ∗ flightP ι c j.val j g fs)
def pendP (j : Fin 48) : sProp 𝕄 := colP c j (V c main_v5)
def freeP (s : Fin 4) : sProp 𝕄 := iprop(cellP (F := F) (Ix := Ix) (Name := Name) (U := U) (Lvl := Lvl) c s.val ∗ ∃ f, slotP c s.val f)
end Inv

section Inv2
variable (V : (c : Dev nD) → (b : Ref sig .tc) → Buf (Elt F) ((c : Thread nD τ).loc b)) (ι : Ix) (c : Dev nD)

/-- The last point of the grid. -/
def t48 : Fin cfg2.N := ⟨48, by rw [show cfg2.N = 49 from N_2]; decide⟩

/-- The last block's columns inside the array held by their own elements; the columns never written. -/
abbrev colLP (g : OBuf (F := F) c) : sProp 𝕄 := colL.view.loc (c : Thread nD τ) ↦[colL.view.set]{fullShare} g
abbrev tailP (g : OBuf (F := F) c) : sProp 𝕄 := tailM.view.loc (c : Thread nD τ) ↦[tailM.view.set]{fullShare} g

/-- The last block's columns at their final contents: the first 1536 columns of slot 0's value at the last point. -/
def LastOk (g : OBuf (F := F) c) : Prop :=
  ∃ (fs0 : RBuf (F := F) c) (d : (cfg2.win 1).block.Idx → Elt F (cfg2.win 1).elt),
    g = colL.view.writes (Elt F) (V c main_v5)
      [⟨Rect.whole S1024x1536, ReadAs.same.apply (rslotL.view.read (Elt F) (storedW c (grid2.coords t48) fs0 (payAt V c t48 d)))⟩]

/-- The scoped buffers of the core that are neither a staging buffer of this pipeline nor the ring. -/
def restP : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f))

/-- What never changes between points: the last block's columns and the unwritten columns at their entry contents, the other
    scoped buffers. -/
def constP : sProp 𝕄 := iprop(colLP c (V c main_v5) ∗ tailP c (V c main_v5) ∗ restP (F := F) (Ix := Ix) (Name := Name) (U := U) (Lvl := Lvl) c)

/-- THE INVARIANT before point `p ≤ 48`: the blocks below `p - 4` written; the copies of blocks `p - 4 … p - 1` in flight, each
    on its slot's cell; the blocks from `p` on at their entry contents; the slots `p … 3` not yet used (when `p < 4`), each with its
    cell at zero. -/
def PhiMid (p : ℕ) : sProp 𝕄 :=
  iprop(bigSep (Ring.rangeSet 48 0 (p - 4)) (doneP V c) ∗ bigSep (Ring.rangeSet 48 (p - 4) p) (flightAt V ι c)
    ∗ bigSep (Ring.rangeSet 48 p 48) (pendP V c) ∗ bigSep (Ring.rangeSet 4 p 4) (freeP (F := F) (Ix := Ix) (Name := Name) (U := U) (Lvl := Lvl) c)
    ∗ constP V c)
/-- and after the last point: every block written, the last block's columns too, every slot free, every cell at zero. -/
def PhiEnd : sProp 𝕄 :=
  iprop(bigSep Finset.univ (doneP V c) ∗ bigSep Finset.univ (freeP (F := F) (Ix := Ix) (Name := Name) (U := U) (Lvl := Lvl) c)
    ∗ (∃ g, ⌜LastOk V c g⌝ ∗ colLP c g) ∗ tailP c (V c main_v5) ∗ restP (F := F) (Ix := Ix) (Name := Name) (U := U) (Lvl := Lvl) c)
def PhiN (p : ℕ) : sProp 𝕄 := if p = 49 then PhiEnd V c else PhiMid V ι c p
end Inv2

end Cert.Kernel.Mm

end
-- ==== Proof.KB.MmBody.lean ====
import proofs.«204097_g52673478918828_cont_9to1c4b_838_31_alg».proof.Proof.KB.MmRegion
import Idealize.ShloMosaic.Lib.Pipeline.FrameBody
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## Slots and cells by residue -/

private theorem rect_unit_congr {s : Shape} {off off' size : Fin s.rank → ℕ} (h : off = off') (p : ∀ a, off a + size a ≤ s.size a)
    (p' : ∀ a, off' a + size a ≤ s.size a) : Rect.unit off size p = Rect.unit off' size p' := by subst h; rfl

/-- Slot `n % 4`'s elements of the ring buffer. -/
private def slotSet (n : ℕ) : Finset S4x1024x2048.Idx := (Rect.unit (s := S4x1024x2048) ![n % 4, 0, 0] S1x1024x2048.size (inb_slot n)).set
private theorem slotSet_eq (n : ℕ) : (rslot n).view.set = slotSet n := by
  simp only [rslot, Memref.view_squeeze, View.set_reshape]; exact View.set_slice_whole _ _
private theorem slotSet_congr {m n : ℕ} (h : m % 4 = n % 4) : slotSet m = slotSet n := by
  unfold slotSet; rw [rect_unit_congr (by rw [h]) (inb_slot m) (inb_slot n)]

section Congr
variable (ι : Ix) (c : Dev nD)
private theorem slotP_eq (n : ℕ) (f : RBuf (F := F) c) :
    (slotP c n f : sProp 𝕄) = (((c : Thread nD τ).loc cc2_scratch0) ↦[slotSet n]{fullShare} f) := by
  unfold slotP; rw [slotSet_eq]; rfl
private theorem slotP_congr {m n : ℕ} (h : m % 4 = n % 4) (f : RBuf (F := F) c) : (slotP c m f : sProp 𝕄) = slotP c n f := by
  rw [slotP_eq, slotP_eq, slotSet_congr h]
/-- A flight named by two numbers of one residue is one flight. -/
private theorem flightP_congr {m n : ℕ} (h : m % 4 = n % 4) (j : Fin 48) (g : OBuf (F := F) c) (fs : RBuf (F := F) c) :
    (flightP ι c m j g fs : sProp 𝕄) = flightP ι c n j g fs := by
  unfold flightP cellR
  rw [cellA_congr h, slotP_congr c h]
end Congr

/-! ## The invariant from point to point -/

section Steps
variable (V : (c : Dev nD) → (b : Ref sig .tc) → Buf (Elt F) ((c : Thread nD τ).loc b)) (ι : Ix) (c : Dev nD)

/-- What a point `4 ≤ t < 48` leaves alone. -/
def frameMid (t : ℕ) : sProp 𝕄 :=
  iprop(bigSep (Ring.rangeSet 48 0 (t - 4)) (doneP V c) ∗ bigSep (Ring.rangeSet 48 (t - 4 + 1) t) (flightAt V ι c)
    ∗ bigSep (Ring.rangeSet 48 (t + 1) 48) (pendP V c) ∗ constP V c)

theorem here_mid (t : ℕ) (h4 : 4 ≤ t) (ht : t < 48) :
    (PhiN V ι c t : sProp 𝕄) ⊢ iprop((∃ g fs, ⌜BlockOk V c ⟨t - 4, by omega⟩ g⌝ ∗ flightP ι c t ⟨t - 4, by omega⟩ g fs)
      ∗ colP c ⟨t, ht⟩ (V c main_v5) ∗ frameMid V ι c t) := by
  unfold PhiN; rw [if_neg (by omega)]; unfold PhiMid frameMid
  rw [Ring.bigSep_rangeSet_head (lo := t - 4) (hi := t) (by omega) (by omega),
    Ring.bigSep_rangeSet_head (lo := t) (hi := 48) ht (by omega), Ring.bigSep_rangeSet_empty (lo := t) (hi := 4) (by omega)]
  iintro ⟨Hd, ⟨Hf, Hfs⟩, ⟨Hp, Hps⟩, -, Hc⟩
  isplitl [Hf]
  · unfold flightAt; icases Hf with ⟨%g, %fs, %hok, Hf⟩
    iexists g, fs; isplitr; · ipureintro; exact hok
    iapply (Entails.of_eq (flightP_congr ι c (m := t - 4) (n := t) (by omega) _ g fs)) $$ Hf
  isplitl [Hp]; · unfold pendP; iexact Hp
  isplitl [Hd]; · iexact Hd
  isplitl [Hfs]; · iexact Hfs
  isplitl [Hps]; · iexact Hps
  iexact Hc

theorem next_mid (t : ℕ) (h4 : 4 ≤ t) (ht : t < 48) :
    iprop(doneP V c ⟨t - 4, by omega⟩ ∗ flightAt V ι c ⟨t, ht⟩ ∗ frameMid V ι c t) ⊢ (PhiN V ι c (t + 1) : sProp 𝕄) := by
  unfold PhiN; rw [if_neg (by omega)]; unfold PhiMid frameMid
  have e : t + 1 - 4 = t - 4 + 1 := by omega
  rw [e, bigSep_rangeSet_snoc (lo := 0) (hi := t - 4) (by omega) (by omega),
    bigSep_rangeSet_snoc (lo := t - 4 + 1) (hi := t) (by omega) ht, Ring.bigSep_rangeSet_empty (lo := t + 1) (hi := 4) (by omega)]
  iintro ⟨Hd, Hf, Hds, Hfs, Hps, Hc⟩
  isplitl [Hd Hds]
  · isplitl [Hd]; · iexact Hd
    iexact Hds
  isplitl [Hf Hfs]
  · isplitl [Hf]; · iexact Hf
    iexact Hfs
  isplitl [Hps]; · iexact Hps
  isplitr; · iempintro
  iexact Hc

/-- What a point `t < 4` leaves alone. -/
def frameEarly (t : ℕ) : sProp 𝕄 :=
  iprop(bigSep (Ring.rangeSet 48 0 t) (flightAt V ι c) ∗ bigSep (Ring.rangeSet 48 (t + 1) 48) (pendP V c)
    ∗ bigSep (Ring.rangeSet 4 (t + 1) 4) (freeP (F := F) (Ix := Ix) (Name := Name) (U := U) (Lvl := Lvl) c) ∗ constP V c)

theorem here_early (t : ℕ) (h4 : t < 4) :
    (PhiN V ι c t : sProp 𝕄) ⊢ iprop(freeP (F := F) (Ix := Ix) (Name := Name) (U := U) (Lvl := Lvl) c ⟨t, h4⟩ ∗ colP c ⟨t, by omega⟩ (V c main_v5) ∗ frameEarly V ι c t) := by
  unfold PhiN; rw [if_neg (by omega)]; unfold PhiMid frameEarly
  have e : t - 4 = 0 := by omega
  rw [e, Ring.bigSep_rangeSet_empty (lo := 0) (hi := 0) (le_refl _),
    Ring.bigSep_rangeSet_head (lo := t) (hi := 48) (by omega) (by omega), Ring.bigSep_rangeSet_head (lo := t) (hi := 4) h4 h4]
  iintro ⟨-, Hfs, ⟨Hp, Hps⟩, ⟨Hfr, Hfrs⟩, Hc⟩
  isplitl [Hfr]; · iexact Hfr
  isplitl [Hp]; · unfold pendP; iexact Hp
  isplitl [Hfs]; · iexact Hfs
  isplitl [Hps]; · iexact Hps
  isplitl [Hfrs]; · iexact Hfrs
  iexact Hc

theorem next_early (t : ℕ) (h4 : t < 4) :
    iprop(flightAt V ι c ⟨t, by omega⟩ ∗ frameEarly V ι c t) ⊢ (PhiN V ι c (t + 1) : sProp 𝕄) := by
  unfold PhiN; rw [if_neg (by omega)]; unfold PhiMid frameEarly
  have e : t + 1 - 4 = 0 := by omega
  rw [e, Ring.bigSep_rangeSet_empty (lo := 0) (hi := 0) (le_refl _), bigSep_rangeSet_snoc (lo := 0) (hi := t) (Nat.zero_le _) (by omega)]
  iintro ⟨Hf, Hfs, Hps, Hfrs, Hc⟩
  isplitr; · iempintro
  isplitl [Hf Hfs]
  · isplitl [Hf]; · iexact Hf
    iexact Hfs
  isplitl [Hps]; · iexact Hps
  isplitl [Hfrs]; · iexact Hfrs
  iexact Hc
end Steps

/-! ## The pipeline's proof data -/

section Data
variable (V : (c : Dev nD) → (b : Ref sig .tc) → Buf (Elt F) ((c : Thread nD τ).loc b)) (ι : Ix) (B : Set (SemLoc sig × Ix)) (c : Dev nD)

/-- The proof data of the matmul's pipeline on core `c`: the arrays as the region finds them; the body leaves every staged block
    in place; the invariant `PhiN`; nothing owed; full shares; the recorded waits within `B`. -/
def dat : Dat τ (Elt F) Ix Name U Lvl cfg2 c where
  A w := V c (Pipeline.arrRef spec2 w)
  after w t := match w with
    | ⟨0, _⟩ => iblk V c 0 t
    | ⟨1, _⟩ => wblk V c t (junk1 V c)
    | ⟨2, _⟩ => iblk V c 2 t
  Φ p := PhiN V ι c p.val
  q _ := fullShare
  owed _ := 0
  recorded _ := B

theorem A_eq (w : Fin cfg2.W) : (dat V ι B c : Dat τ (Elt F) Ix Name U Lvl cfg2 c).A w = V c (Pipeline.arrRef spec2 w) := by dsimp only [dat]
theorem after2_0 (t : Fin cfg2.N) : (dat V ι B c : Dat τ (Elt F) Ix Name U Lvl cfg2 c).after 0 t = iblk V c 0 t := by dsimp only [dat]
theorem after2_1 (t : Fin cfg2.N) : (dat V ι B c : Dat τ (Elt F) Ix Name U Lvl cfg2 c).after 1 t = wblk V c t (junk1 V c) := by dsimp only [dat]
theorem after2_2 (t : Fin cfg2.N) : (dat V ι B c : Dat τ (Elt F) Ix Name U Lvl cfg2 c).after 2 t = iblk V c 2 t := by dsimp only [dat]
theorem Phi_castSucc (t : Fin cfg2.N) : (dat V ι B c : Dat τ (Elt F) Ix Name U Lvl cfg2 c).Φ t.castSucc = PhiN V ι c t.val := by
  dsimp only [dat]; simp only [Fin.coe_castSucc]
theorem Phi_succ (t : Fin cfg2.N) : (dat V ι B c : Dat τ (Elt F) Ix Name U Lvl cfg2 c).Φ t.succ = PhiN V ι c (t.val + 1) := by
  dsimp only [dat]; simp only [Fin.val_succ]

/-- The first and third windows' staging buffers hold their blocks at every point, fetched there or not. -/
theorem before2_0 (t : Fin cfg2.N) (d) : (dat V ι B c : Dat τ (Elt F) Ix Name U Lvl cfg2 c).before 0 t d = iblk V c 0 t :=
  ((dat V ι B c : Dat τ (Elt F) Ix Name U Lvl cfg2 c).before_in_eq_fetched 0 rfl (fun _ => rfl) (fun _ _ _ => rfl)
      (fun t => by rw [after2_0]; unfold Dat.blockOf iblk; rw [A_eq]; try rfl) t d).trans
    (by unfold Dat.fetched Dat.blockOf iblk; rw [A_eq]; try rfl)
theorem before2_2 (t : Fin cfg2.N) (d) : (dat V ι B c : Dat τ (Elt F) Ix Name U Lvl cfg2 c).before 2 t d = iblk V c 2 t :=
  ((dat V ι B c : Dat τ (Elt F) Ix Name U Lvl cfg2 c).before_in_eq_fetched 2 rfl (fun _ => rfl) (fun _ _ _ => rfl)
      (fun t => by rw [after2_2]; unfold Dat.blockOf iblk; rw [A_eq]; try rfl) t d).trans
    (by unfold Dat.fetched Dat.blockOf iblk; rw [A_eq]; try rfl)
/-- The second window is fetched at every point: its buffer holds the block's rows inside the array, `d` on the others. -/
theorem before2_1 (t : Fin cfg2.N) (d) : (dat V ι B c : Dat τ (Elt F) Ix Name U Lvl cfg2 c).before 1 t d = wblk V c t d := by
  unfold Dat.before; rw [if_pos (fetch2_1 t)]; unfold Dat.fetched Dat.blockOf wblk iblk; rw [A_eq]; try rfl
/-- What the second window's buffer is left at, on the rows the transfers move. -/
theorem leaves2_1 (t : Fin cfg2.N) (d) :
    (cfg2.win 1).fill (cfg2.grid.coords t) d ((cfg2.win 1).cut (cfg2.grid.coords t) ((dat V ι B c : Dat τ (Elt F) Ix Name U Lvl cfg2 c).after 1 t)) = wblk V c t d := by
  rw [after2_1]; unfold wblk; rw [(cfg2.win 1).cut_fill]

/-- What the body is called with at point `t`, the windows one by one, -/
def bodyPre (t : Fin cfg2.N) : sProp 𝕄 :=
  iprop((dat V ι B c : Dat τ (Elt F) Ix Name U Lvl cfg2 c).Φ t.castSucc ∗ (dat V ι B c : Dat τ (Elt F) Ix Name U Lvl cfg2 c).owesAt ι t.castSucc
    ∗ (∃ d, owns (c : Thread nD τ) (st2_0 t) fullShare ((dat V ι B c : Dat τ (Elt F) Ix Name U Lvl cfg2 c).before 0 t d))
    ∗ (∃ d, owns (c : Thread nD τ) (st2_1 t) fullShare ((dat V ι B c : Dat τ (Elt F) Ix Name U Lvl cfg2 c).before 1 t d))
    ∗ (∃ d, owns (c : Thread nD τ) (st2_2 t) fullShare ((dat V ι B c : Dat τ (Elt F) Ix Name U Lvl cfg2 c).before 2 t d)))
/-- and what it returns (the second window on the rows its transfers move). -/
def bodyPost (t : Fin cfg2.N) : sProp 𝕄 :=
  iprop((dat V ι B c : Dat τ (Elt F) Ix Name U Lvl cfg2 c).Φ t.succ ∗ (dat V ι B c : Dat τ (Elt F) Ix Name U Lvl cfg2 c).owesAt ι t.succ
    ∗ owns (c : Thread nD τ) (st2_0 t) fullShare ((dat V ι B c : Dat τ (Elt F) Ix Name U Lvl cfg2 c).after 0 t)
    ∗ (∃ d, owns (c : Thread nD τ) (st2_1 t) fullShare
        ((cfg2.win 1).fill (cfg2.grid.coords t) d ((cfg2.win 1).cut (cfg2.grid.coords t) ((dat V ι B c : Dat τ (Elt F) Ix Name U Lvl cfg2 c).after 1 t))))
    ∗ owns (c : Thread nD τ) (st2_2 t) fullShare ((dat V ι B c : Dat τ (Elt F) Ix Name U Lvl cfg2 c).after 2 t))

set_option maxHeartbeats 2000000 in
/-- The body at a point before the last. -/
theorem sound_body_lt (hB : ∀ n : ℕ, (cellR n, ι) ∈ B) (t : Fin cfg2.N) (ht : t.val < 48) :
    (bodyPre V ι B c t : sProp 𝕄) ⊢ wp frame (wpE (defs₀ (F := F)) Variants.none c none) Set.univ (bodyAt2 t) (fun _ => bodyPost V ι B c t) := by
  unfold bodyPre bodyPost bodyAt2
  simp only [before2_0, before2_1, before2_2, leaves2_1]
  rw [after2_0, after2_2, Phi_castSucc, Phi_succ]
  unfold Dat.owesAt Pipeline.owesWithin
  rw [show (dat V ι B c : Dat τ (Elt F) Ix Name U Lvl cfg2 c).owed t.castSucc = 0 from rfl, show (dat V ι B c : Dat τ (Elt F) Ix Name U Lvl cfg2 c).owed t.succ = 0 from rfl]
  have hi := crd_val t
  have hc2 := (hcond2 t).mpr ht
  have hc3 : ¬ k2_cond3 (grid2.coords t) = 1#1 := fun h => by have := (hcond3 t).mp h; omega
  by_cases h4 : 4 ≤ t.val
  · have hc1 := (hcond1 t).mpr h4
    iintro ⟨HΦ, ⟨%W, %hW, HW⟩, ⟨%d0, H0⟩, ⟨%d1, H1⟩, ⟨%d2, H2⟩⟩
    ihave HΦ' := (here_mid V ι c t.val h4 ht) $$ HΦ
    icases HΦ' with ⟨⟨%g0, %fs0, %hok, Hfl⟩, Hpend, Hframe⟩
    iapply (run_mid' ι c (grid2.coords t) t.val hi ht hc1 hc2 hc3 _ _ _ _ _ _ (iblk V c 0 t) (wblk V c t d1) (iblk V c 2 t)
      ⟨t.val - 4, by omega⟩ g0 fs0 (V c main_v5) W _)
    isplitl [H0]; · iexact H0
    isplitl [H1]; · iexact H1
    isplitl [H2]; · iexact H2
    isplitl [Hfl]; · iexact Hfl
    isplitl [Hpend]; · iexact Hpend
    isplitl [HW]; · iexact HW
    iintro ⟨H0, H1, H2, Hdone, Hfl', HW'⟩
    isplitl [Hdone Hfl' Hframe]
    · iapply (next_mid V ι c t.val h4 ht)
      isplitl [Hdone]
      · unfold doneP; iexists g0; isplitr; · ipureintro; exact hok
        iexact Hdone
      isplitl [Hfl']
      · unfold flightAt; iexists _, _; isplitr; · ipureintro; exact ⟨fs0, d1, rfl⟩
        iexact Hfl'
      iexact Hframe
    isplitl [HW']
    · iexists _; isplitr
      · ipureintro; rw [Finset.coe_insert]; exact Set.insert_subset (Or.inl (hB t.val)) hW
      iexact HW'
    isplitl [H0]; · iexact H0
    isplitl [H1]
    · iexists d1
      iapply (Entails.of_eq (congrArg (fun X => owns (c : Thread nD τ) (st2_1 t) fullShare X) (leaves2_1 V ι B c t d1).symm)) $$ H1
    iexact H2
  · have h4' : t.val < 4 := by omega
    have hc1 : ¬ k2_cond1 (grid2.coords t) = 1#1 := fun h => h4 ((hcond1 t).mp h)
    iintro ⟨HΦ, ⟨%W, %hW, HW⟩, ⟨%d0, H0⟩, ⟨%d1, H1⟩, ⟨%d2, H2⟩⟩
    ihave HΦ' := (here_early V ι c t.val h4') $$ HΦ
    unfold freeP
    icases HΦ' with ⟨⟨Hcell, ⟨%fs0, Hslot⟩⟩, Hpend, Hframe⟩
    iapply (run_early' ι c (grid2.coords t) t.val hi ht hc1 hc2 hc3 _ _ _ _ _ _ (iblk V c 0 t) (wblk V c t d1) (iblk V c 2 t)
      fs0 (V c main_v5) W _)
    isplitl [H0]; · iexact H0
    isplitl [H1]; · iexact H1
    isplitl [H2]; · iexact H2
    isplitl [Hcell]; · iexact Hcell
    isplitl [Hslot]; · iexact Hslot
    isplitl [Hpend]; · iexact Hpend
    isplitl [HW]; · iexact HW
    iintro ⟨H0, H1, H2, Hfl', HW'⟩
    isplitl [Hfl' Hframe]
    · iapply (next_early V ι c t.val h4')
      isplitl [Hfl']
      · unfold flightAt; iexists _, _; isplitr; · ipureintro; exact ⟨fs0, d1, rfl⟩
        iexact Hfl'
      iexact Hframe
    isplitl [HW']
    · iexists _; isplitr; · ipureintro; exact hW
      iexact HW'
    isplitl [H0]; · iexact H0
    isplitl [H1]
    · iexists d1
      iapply (Entails.of_eq (congrArg (fun X => owns (c : Thread nD τ) (st2_1 t) fullShare X) (leaves2_1 V ι B c t d1).symm)) $$ H1
    iexact H2
end Data

/-! ## The invariant around the last point -/

section StepsLast
variable (V : (c : Dev nD) → (b : Ref sig .tc) → Buf (Elt F) ((c : Thread nD τ).loc b)) (ι : Ix) (c : Dev nD)

theorem here_last :
    (PhiN V ι c 48 : sProp 𝕄) ⊢ iprop((∃ g fs, ⌜BlockOk V c ⟨44, by decide⟩ g⌝ ∗ flightP ι c 48 ⟨44, by decide⟩ g fs)
      ∗ flightAt V ι c ⟨45, by decide⟩ ∗ flightAt V ι c ⟨46, by decide⟩ ∗ flightAt V ι c ⟨47, by decide⟩
      ∗ bigSep (Ring.rangeSet 48 0 44) (doneP V c) ∗ constP V c) := by
  unfold PhiN; rw [if_neg (by decide)]; unfold PhiMid
  rw [show (48 : ℕ) - 4 = 44 from rfl,
    Ring.bigSep_rangeSet_head (lo := 44) (hi := 48) (by decide) (by decide),
    Ring.bigSep_rangeSet_head (lo := 44 + 1) (hi := 48) (by decide) (by decide),
    Ring.bigSep_rangeSet_head (lo := 44 + 1 + 1) (hi := 48) (by decide) (by decide),
    Ring.bigSep_rangeSet_head (lo := 44 + 1 + 1 + 1) (hi := 48) (by decide) (by decide),
    Ring.bigSep_rangeSet_empty (lo := 44 + 1 + 1 + 1 + 1) (hi := 48) (by decide),
    Ring.bigSep_rangeSet_empty (lo := 48) (hi := 48) (le_refl _), Ring.bigSep_rangeSet_empty (lo := 48) (hi := 4) (by decide)]
  iintro ⟨Hd, ⟨Hf4, Hf5, Hf6, Hf7, -⟩, -, -, Hc⟩
  isplitl [Hf4]
  · unfold flightAt; icases Hf4 with ⟨%g, %fs, %hok, Hf⟩
    iexists g, fs; isplitr; · ipureintro; exact hok
    iapply (Entails.of_eq (flightP_congr ι c (m := 44) (n := 48) (by decide) _ g fs)) $$ Hf
  isplitl [Hf5]; · iexact Hf5
  isplitl [Hf6]; · iexact Hf6
  isplitl [Hf7]; · iexact Hf7
  isplitl [Hd]; · iexact Hd
  iexact Hc

theorem next_last :
    iprop(doneP V c ⟨44, by decide⟩ ∗ doneP V c ⟨45, by decide⟩ ∗ doneP V c ⟨46, by decide⟩ ∗ doneP V c ⟨47, by decide⟩
      ∗ bigSep (Ring.rangeSet 48 0 44) (doneP V c)
      ∗ freeP (F := F) (Ix := Ix) (Name := Name) (U := U) (Lvl := Lvl) c ⟨0, by decide⟩ ∗ freeP (F := F) (Ix := Ix) (Name := Name) (U := U) (Lvl := Lvl) c ⟨1, by decide⟩
      ∗ freeP (F := F) (Ix := Ix) (Name := Name) (U := U) (Lvl := Lvl) c ⟨2, by decide⟩ ∗ freeP (F := F) (Ix := Ix) (Name := Name) (U := U) (Lvl := Lvl) c ⟨3, by decide⟩
      ∗ (∃ g, ⌜LastOk V c g⌝ ∗ colLP c g) ∗ tailP c (V c main_v5) ∗ restP (F := F) (Ix := Ix) (Name := Name) (U := U) (Lvl := Lvl) c)
      ⊢ (PhiN V ι c 49 : sProp 𝕄) := by
  unfold PhiN; rw [if_pos rfl]; unfold PhiEnd
  rw [← Ring.rangeSet_univ (NB := 48), ← Ring.rangeSet_univ (NB := 4),
    bigSep_rangeSet_snoc (NB := 48) (lo := 0) (hi := 47) (by decide) (by decide),
    bigSep_rangeSet_snoc (NB := 48) (lo := 0) (hi := 46) (by decide) (by decide),
    bigSep_rangeSet_snoc (NB := 48) (lo := 0) (hi := 45) (by decide) (by decide),
    bigSep_rangeSet_snoc (NB := 48) (lo := 0) (hi := 44) (by decide) (by decide),
    Ring.bigSep_rangeSet_head (NB := 4) (lo := 0) (hi := 4) (by decide) (by decide),
    Ring.bigSep_rangeSet_head (NB := 4) (lo := 0 + 1) (hi := 4) (by decide) (by decide),
    Ring.bigSep_rangeSet_head (NB := 4) (lo := 0 + 1 + 1) (hi := 4) (by decide) (by decide),
    Ring.bigSep_rangeSet_head (NB := 4) (lo := 0 + 1 + 1 + 1) (hi := 4) (by decide) (by decide),
    Ring.bigSep_rangeSet_empty (NB := 4) (lo := 0 + 1 + 1 + 1 + 1) (hi := 4) (by decide)]
  iintro ⟨H4, H5, H6, H7, Hd, F0, F1, F2, F3, HL, HT, HR⟩
  isplitl [H4 H5 H6 H7 Hd]
  · isplitl [H7]; · iexact H7
    isplitl [H6]; · iexact H6
    isplitl [H5]; · iexact H5
    isplitl [H4]; · iexact H4
    iexact Hd
  isplitl [F0 F1 F2 F3]
  · isplitl [F0]; · iexact F0
    isplitl [F1]; · iexact F1
    isplitl [F2]; · iexact F2
    isplitl [F3]; · iexact F3
    iempintro
  isplitl [HL]; · iexact HL
  isplitl [HT]; · iexact HT
  iexact HR
end StepsLast

end Cert.Kernel.Mm

end
-- ==== Proof.KB.MmLast.lean ====
/-
  The big product's body at the LAST point of its grid.

  At point 48 the body waits for the copy issued four points earlier, stores the point's value into slot 0 of the ring,
  copies the first 1536 columns of that slot to the last block's columns inside the output array and waits for that copy,
  then waits for the three copies still outstanding (blocks 47, 46, 45). The source of the clipped copy is a part of a slot
  the body holds by the slot's own 2048 columns: the slot is split into that part and the rest before the copy, and put
  together again after its wait.
-/
import proofs.«204097_g52673478918828_cont_9to1c4b_838_31_alg».proof.Proof.KB.MmRegion
import Idealize.ShloMosaic.Lib.Pipeline.FrameBody
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The last point's operands are the slots, blocks and cells by number -/

/-- At the last point the clipped block's output columns start at 2048 · 48, -/
theorem k2_off9_last : ∀ i : grid2.Coords, k2_cond3 i = 1#1 → k2_off9 i = ![0, 2048 * 48] := by decide +kernel
/-- its source is slot 48 mod 4, -/
theorem k2_off10_last : ∀ i : grid2.Coords, k2_cond3 i = 1#1 → k2_off10 i = ![48 % 4, 0, 0] := by decide +kernel
/-- and the three copies still outstanding are those of blocks 47, 46, 45, out of slots 47, 46, 45 mod 4. -/
theorem k2_off12_eq1 : ∀ i : grid2.Coords, k2_cond3 i = 1#1 → k2_off12 i 1#32 = ![0, 2048 * 47] := by decide +kernel
theorem k2_off12_eq2 : ∀ i : grid2.Coords, k2_cond3 i = 1#1 → k2_off12 i 2#32 = ![0, 2048 * 46] := by decide +kernel
theorem k2_off12_eq3 : ∀ i : grid2.Coords, k2_cond3 i = 1#1 → k2_off12 i 3#32 = ![0, 2048 * 45] := by decide +kernel
theorem k2_off13_eq1 : ∀ i : grid2.Coords, k2_cond3 i = 1#1 → k2_off13 i 1#32 = ![47 % 4, 0, 0] := by decide +kernel
theorem k2_off13_eq2 : ∀ i : grid2.Coords, k2_cond3 i = 1#1 → k2_off13 i 2#32 = ![46 % 4, 0, 0] := by decide +kernel
theorem k2_off13_eq3 : ∀ i : grid2.Coords, k2_cond3 i = 1#1 → k2_off13 i 3#32 = ![45 % 4, 0, 0] := by decide +kernel

@[sl_canon] theorem canon_col9 (i : grid2.Coords) (h3 : k2_cond3 i = 1#1) :
    outM.slice (Rect.unit (s := S1024x100000) (k2_off9 i) S1024x1536.size (k2_off9_inb i h3)) (fun _ => rfl) = colL :=
  Memref.slice_unit_congr _ (k2_off9_last i h3) _ _ (fun _ => rfl) (fun _ => rfl)
@[sl_canon] theorem canon_slot10 (i : grid2.Coords) (h3 : k2_cond3 i = 1#1) :
    (ringM.slice (Rect.unit (s := S4x1024x2048) (k2_off10 i) S1x1024x1536.size (k2_off10_inb i h3)) (fun _ => rfl)).squeeze S1024x1536 squeezes_S1x1024x1536_S1024x1536 = rslotL :=
  congrArg (fun M : Memref sig .tc .vmem S1x1024x1536 .f32 => M.squeeze S1024x1536 squeezes_S1x1024x1536_S1024x1536)
    (Memref.slice_unit_congr _ (k2_off10_last i h3) _ _ (fun _ => rfl) (fun _ => rfl))
@[sl_canon] theorem canon_cell11_1 (i : grid2.Coords) (h3 : k2_cond3 i = 1#1) :
    (cc2_scratch1.slice (Rect.unit (s := S4) (k2_off11 i 1#32) S1.size (k2_off11_inb i h3 0))).squeeze S_ squeezes_S1_S_ = cellA 47 :=
  congrArg (fun A : DmaSems sig S1 => A.squeeze S_ squeezes_S1_S_) (SemArray.slice_unit_congr _ (k2_off11_eq1 i h3) _ _)
@[sl_canon] theorem canon_cell11_2 (i : grid2.Coords) (h3 : k2_cond3 i = 1#1) :
    (cc2_scratch1.slice (Rect.unit (s := S4) (k2_off11 i 2#32) S1.size (k2_off11_inb i h3 1))).squeeze S_ squeezes_S1_S_ = cellA 46 :=
  congrArg (fun A : DmaSems sig S1 => A.squeeze S_ squeezes_S1_S_) (SemArray.slice_unit_congr _ (k2_off11_eq2 i h3) _ _)
@[sl_canon] theorem canon_cell11_3 (i : grid2.Coords) (h3 : k2_cond3 i = 1#1) :
    (cc2_scratch1.slice (Rect.unit (s := S4) (k2_off11 i 3#32) S1.size (k2_off11_inb i h3 2))).squeeze S_ squeezes_S1_S_ = cellA 45 :=
  congrArg (fun A : DmaSems sig S1 => A.squeeze S_ squeezes_S1_S_) (SemArray.slice_unit_congr _ (k2_off11_eq3 i h3) _ _)
@[sl_canon] theorem canon_slot13_1 (i : grid2.Coords) (h3 : k2_cond3 i = 1#1) :
    (ringM.slice (Rect.unit (s := S4x1024x2048) (k2_off13 i 1#32) S1x1024x2048.size (k2_off13_inb i h3 0)) (fun _ => rfl)).squeeze S1024x2048 squeezes_S1x1024x2048_S1024x2048 = rslot 47 :=
  congrArg (fun M : Memref sig .tc .vmem S1x1024x2048 .f32 => M.squeeze S1024x2048 squeezes_S1x1024x2048_S1024x2048)
    (Memref.slice_unit_congr _ (k2_off13_eq1 i h3) _ _ (fun _ => rfl) (fun _ => rfl))
@[sl_canon] theorem canon_slot13_2 (i : grid2.Coords) (h3 : k2_cond3 i = 1#1) :
    (ringM.slice (Rect.unit (s := S4x1024x2048) (k2_off13 i 2#32) S1x1024x2048.size (k2_off13_inb i h3 1)) (fun _ => rfl)).squeeze S1024x2048 squeezes_S1x1024x2048_S1024x2048 = rslot 46 :=
  congrArg (fun M : Memref sig .tc .vmem S1x1024x2048 .f32 => M.squeeze S1024x2048 squeezes_S1x1024x2048_S1024x2048)
    (Memref.slice_unit_congr _ (k2_off13_eq2 i h3) _ _ (fun _ => rfl) (fun _ => rfl))
@[sl_canon] theorem canon_slot13_3 (i : grid2.Coords) (h3 : k2_cond3 i = 1#1) :
    (ringM.slice (Rect.unit (s := S4x1024x2048) (k2_off13 i 3#32) S1x1024x2048.size (k2_off13_inb i h3 2)) (fun _ => rfl)).squeeze S1024x2048 squeezes_S1x1024x2048_S1024x2048 = rslot 45 :=
  congrArg (fun M : Memref sig .tc .vmem S1x1024x2048 .f32 => M.squeeze S1024x2048 squeezes_S1x1024x2048_S1024x2048)
    (Memref.slice_unit_congr _ (k2_off13_eq3 i h3) _ _ (fun _ => rfl) (fun _ => rfl))

/-! ## The last block's source inside its slot -/

/-- A unit-stride slice whose rectangle lies within another's has its elements among the other's. -/
theorem slice_set_subset {sig' : RefSig} {κ : Kind} {sp : Space} {s : Shape} {e : EltTy} (M : Memref sig' κ sp s e) (r₀ r : Rect s)
    (h₀ : ∀ a, r₀.stride a = 1) (h : ∀ a, r.stride a = 1) (hw : LoadRect.within r₀ r.toLoadRect = true) :
    (M.slice r h).view.set ⊆ (M.slice r₀ h₀).view.set := by
  show (M.view.slice r).set ⊆ (M.view.slice r₀).set
  rw [View.set_slice, View.set_slice]; exact Finset.map_subset_map.mpr (LoadRect.set_subset_of_within hw)

/-- The first 1536 columns of slot 0 are elements of the slot numbered `n`, for `n` a multiple of four. -/
theorem rslotL_subset (n : ℕ) (hn : n % 4 = 48 % 4) : rslotL.view.set ⊆ (rslot n).view.set := by
  have hw : LoadRect.within (Rect.unit (s := S4x1024x2048) ![n % 4, 0, 0] S1x1024x2048.size (inb_slot n))
      (Rect.unit (s := S4x1024x2048) ![48 % 4, 0, 0] S1x1024x1536.size inb_slotL).toLoadRect = true := by
    rw [Rect.unit_congr (show (![n % 4, 0, 0] : Fin 3 → Nat) = ![48 % 4, 0, 0] by rw [hn]) (inb_slot n) (inb_slot 48)]
    decide
  unfold rslotL rslot
  refine Memref.subset_of_eq_set (Memref.set_view_squeeze _ _) ?_
  refine Memref.subset_of_set_eq ?_ (Memref.set_view_squeeze _ _)
  exact slice_set_subset ringM _ _ _ _ hw

section Split
variable (c : Dev nD)

/-- A slot held by its own elements is its first 1536 columns and the rest of it, held apart. -/
theorem slot_split (n : ℕ) (hn : n % 4 = 48 % 4) (f : RBuf (F := F) c) :
    (slotP c n f : sProp 𝕄) ⊣⊢
      iprop((rslotL.view.loc (c : Thread nD τ) ↦[rslotL.view.set]{fullShare} f)
        ∗ ((rslot n).view.loc (c : Thread nD τ) ↦[(rslot n).view.set \ rslotL.view.set]{fullShare} f)) :=
  pointsTo_split_subset (rslotL_subset n hn)
end Split

/-- The waits the last point records are waits on the kernel's four cells. -/
theorem waits_sub (ι : Ix) (n : ℕ) (W : Waits sig Ix) :
    ((insert (cellR 45, ι) (insert (cellR 46, ι) (insert (cellR 47, ι) (insert (cellR n, ι) (insert (cellR n, ι) W))))
        : Waits sig Ix) : Set (SemLoc sig × Ix)) ⊆ ↑W ∪ {p | ∃ m, p = (cellR m, ι)} := by
  intro p hp
  simp only [Finset.coe_insert, Set.mem_insert_iff, Finset.mem_coe] at hp
  rcases hp with rfl | rfl | rfl | rfl | rfl | hp
  · exact Or.inr ⟨45, rfl⟩
  · exact Or.inr ⟨46, rfl⟩
  · exact Or.inr ⟨47, rfl⟩
  · exact Or.inr ⟨n, rfl⟩
  · exact Or.inr ⟨n, rfl⟩
  · exact Or.inl hp

set_option maxHeartbeats 4000000 in
/-- At the last point: the body waits for the copy issued four points earlier, stores, copies the first 1536 columns of the
    point's slot to the last block's columns inside the array and waits for that copy, then waits for the three copies still
    outstanding. From the staged blocks, the four flights, the last block's columns at contents `Gl` and the core's `owes`, it
    runs to the staged blocks as they were, the four blocks as delivered, the four slots and cells back, the last block's
    columns as the copy landed in them, and the waits recorded. -/
theorem run_last (ι : Ix) (c : Dev nD) (i : grid2.Coords) (h1 : k2_cond1 i = 1#1) (h2 : ¬ k2_cond2 i = 1#1) (h3 : k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw ja jb jc : Fin 48) (g0 ga gb gc : OBuf (F := F) c) (fs0 fa fb fc : RBuf (F := F) c) (Gl : OBuf (F := F) c)
    (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c (i 0).val jw g0 fs0 ∗ flightP ι c 47 ja ga fa ∗ flightP ι c 46 jb gb fb ∗ flightP ι c 45 jc gc fc
        ∗ colLP c Gl
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0 ∗ colP c ja ga ∗ colP c jb gb ∗ colP c jc gc
            ∗ slotP c (i 0).val (storedW c i fs0 (k2_pay1 (ld0 arg1 harg1 x0) (ld1 arg2 harg2 x1) (ld2 arg3 harg3 x2))) ∗ slotP c 47 fa ∗ slotP c 46 fb ∗ slotP c 45 fc
            ∗ cellP c (i 0).val ∗ cellP c 47 ∗ cellP c 46 ∗ cellP c 45
            ∗ colLP c (colL.view.writes (Elt F) Gl
                [⟨Rect.whole S1024x1536, ReadAs.same.apply (rslotL.view.read (Elt F) (storedW c i fs0 (k2_pay1 (ld0 arg1 harg1 x0) (ld1 arg2 harg2 x1) (ld2 arg3 harg3 x2))))⟩])
            ∗ (∃ W' : Waits sig Ix, ⌜(↑W' : Set (SemLoc sig × Ix)) ⊆ ↑W ∪ {p | ∃ n, p = (cellR n, ι)}⌝ ∗ owes (c : Thread nD τ) 0 W')) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  simp only [cc2__mm_body_eq_skeleton]; unfold cc2__mm_body_skel
  unfold owns
  iintro ⟨⟨%f0, %hf0, H0⟩, ⟨%f1, %hf1, H1⟩, ⟨%f2, %hf2, H2⟩, Hfl, Hfa, Hfb, Hfc, HcolL, HW, Hk⟩
  obtain rfl := harg1.eq_unread hf0
  obtain rfl := harg2.eq_unread hf1
  obtain rfl := harg3.eq_unread hf2
  letI : Inhabited Ix := ⟨ι⟩
  sl_exec (disch := first | exact h1 | exact h2 | exact h3)
  have hn4 : (i 0).val % 4 = 48 % 4 := by rw [(cond3_iff i).mp h3]
  ihave Hs' := (slot_split c (i 0).val hn4 _).1 $$ Hfl_src
  icases Hs' with ⟨Hwin, Hrest⟩
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hfl_dst]; · iexact Hfl_dst
  isplitl [Hfa_dst]; · iexact Hfa_dst
  isplitl [Hfb_dst]; · iexact Hfb_dst
  isplitl [Hfc_dst]; · iexact Hfc_dst
  isplitl [Hwin Hrest]
  · iapply (slot_split c (i 0).val hn4 _).2
    isplitl [Hwin]; · iexact Hwin
    iexact Hrest
  isplitl [Hfa_src]; · iexact Hfa_src
  isplitl [Hfb_src]; · iexact Hfb_src
  isplitl [Hfc_src]; · iexact Hfc_src
  isplitl [Hfl]; · iexact Hfl
  isplitl [Hfa]; · iexact Hfa
  isplitl [Hfb]; · iexact Hfb
  isplitl [Hfc]; · iexact Hfc
  isplitl [HcolL]; · iexact HcolL
  iexists _
  isplitr
  · ipureintro; exact waits_sub ι (i 0).val W
  iexact HW

end Cert.Kernel.Mm

end
-- ==== Proof.KB.MmSplit.lean ====
/-
  The ring buffer as its four slots and the output array as its fifty column blocks: element sets, and the
  whole buffers split into their pieces and joined back.
-/
import proofs.«204097_g52673478918828_cont_9to1c4b_838_31_alg».proof.Proof.KB.MmRegion
set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The slots of the ring buffer, by number modulo four -/

/-- The elements of slot `n % 4` of the ring buffer. -/
def slotSet (n : ℕ) : Finset S4x1024x2048.Idx := (Rect.unit (s := S4x1024x2048) ![n % 4, 0, 0] S1x1024x2048.size (inb_slot n)).set

/-- The slot's memref covers exactly those elements. -/
theorem rslot_set (n : ℕ) : (rslot n).view.set = slotSet n := by
  unfold slotSet
  simp only [rslot, Memref.view_squeeze, View.set_reshape]; exact View.set_slice_whole _ _

/-- Numbers congruent modulo four name one slot. -/
theorem slotSet_congr {m n : ℕ} (h : m % 4 = n % 4) : slotSet m = slotSet n := by
  unfold slotSet
  rw [Rect.unit_congr (by rw [h]) (inb_slot m) (inb_slot n)]

/-- A slot held is the ring buffer held on the slot's elements. -/
theorem slotP_eq (c : Dev nD) (n : ℕ) (f : RBuf (F := F) c) :
    (slotP c n f : sProp 𝕄) = (((c : Thread nD τ).loc cc2_scratch0) ↦[slotSet n]{fullShare} f) := by
  unfold slotP; rw [rslot_set]; rfl

theorem slotP_congr (c : Dev nD) {m n : ℕ} (h : m % 4 = n % 4) (f : RBuf (F := F) c) :
    (slotP c m f : sProp 𝕄) = slotP c n f := by
  rw [slotP_eq, slotP_eq, slotSet_congr h]

/-- Numbers congruent modulo four name one cell. -/
theorem cellR_congr {m n : ℕ} (h : m % 4 = n % 4) : cellR m = cellR n := by
  show SemLoc.dma (cellA m).sem = SemLoc.dma (cellA n).sem
  rw [cellA_congr h]

/-- A copy in flight on slot and cell `m % 4` is the same copy named by any number congruent to `m`. -/
theorem flightP_congr (ι : Ix) (c : Dev nD) {m n : ℕ} (h : m % 4 = n % 4) (j : Fin 48) (g : OBuf (F := F) c) (fs : RBuf (F := F) c) :
    (flightP ι c m j g fs : sProp 𝕄) = flightP ι c n j g fs := by
  show Transfers.Flight countersEmb (c : Thread nD τ) (cellR m) ι ((colB j).view.amount (cellR m)) iprop(colP c j g ∗ slotP c m fs)
    = Transfers.Flight countersEmb (c : Thread nD τ) (cellR n) ι ((colB j).view.amount (cellR n)) iprop(colP c j g ∗ slotP c n fs)
  rw [cellR_congr h, slotP_congr c h]

/-! ## The ring buffer whole is its four slots -/

theorem slots_disjoint (s s' : Fin 4) (h : s ≠ s') : Disjoint (slotSet s.val) (slotSet s'.val) :=
  Ring.lead_disjoint (s := S4x1024x2048) (0 : Fin 3) 1 (fun s : Fin 4 => (![s.val % 4, 0, 0] : Fin 3 → Nat)) S1x1024x2048.size
    (fun s => inb_slot s.val) (fun s => by show s.val % 4 = 1 * s.val; have := s.isLt; omega) rfl s s' h

theorem slots_cover : Finset.univ.biUnion (fun s : Fin 4 => slotSet s.val) = Finset.univ :=
  Ring.lead_cover (s := S4x1024x2048) (0 : Fin 3) 1 (fun s : Fin 4 => (![s.val % 4, 0, 0] : Fin 3 → Nat)) S1x1024x2048.size
    (fun s => inb_slot s.val) (fun s => by show s.val % 4 = 1 * s.val; have := s.isLt; omega)
    (fun s a ha => by fin_cases a <;> first | exact absurd rfl ha | rfl) rfl (fun a ha => by fin_cases a <;> first | exact absurd rfl ha | rfl) rfl

set_option maxHeartbeats 1000000 in
/-- The ring buffer whole at some contents is each of its slots at some contents, -/
theorem ring_split (c : Dev nD) :
    iprop(∃ f : RBuf (F := F) c, ((c : Thread nD τ).loc cc2_scratch0) ↦{fullShare} f)
      ⊢ (bigSep Finset.univ (fun s : Fin 4 => iprop(∃ f, slotP c s.val f)) : sProp 𝕄) := by
  iintro ⟨%f, H⟩
  have hmono : (bigSep Finset.univ (fun s : Fin 4 => (((c : Thread nD τ).loc cc2_scratch0) ↦[slotSet s.val]{fullShare} f : sProp 𝕄)))
      ⊢ bigSep Finset.univ (fun s : Fin 4 => iprop(∃ f, slotP c s.val f)) :=
    Idealize.SL.BI.bigSep_mono fun s _ =>
      show ((((c : Thread nD τ).loc cc2_scratch0) ↦[slotSet s.val]{fullShare} f : sProp 𝕄)) ⊢ iprop(∃ f, slotP c s.val f) from by
        iintro H; iexists f
        iapply (Entails.of_eq (slotP_eq c s.val f).symm); iexact H
  iapply hmono
  iapply (Entails.of_eq (Ring.pointsTo_blocks (Ix := Ix) (Name := Name) (U := U) (Lvl := Lvl) (q := fullShare)
    (fun s : Fin 4 => slotSet s.val) slots_disjoint slots_cover f))
  iexact H

set_option maxHeartbeats 1000000 in
/-- and back. -/
theorem ring_join (c : Dev nD) :
    (bigSep Finset.univ (fun s : Fin 4 => iprop(∃ f, slotP c s.val f)) : sProp 𝕄)
      ⊢ iprop(∃ f : RBuf (F := F) c, ((c : Thread nD τ).loc cc2_scratch0) ↦{fullShare} f) := by
  have hmono : (bigSep Finset.univ (fun s : Fin 4 => iprop(∃ f, slotP c s.val f)) : sProp 𝕄)
      ⊢ bigSep Finset.univ (fun s : Fin 4 => iprop(∃ f : RBuf (F := F) c, ((c : Thread nD τ).loc cc2_scratch0) ↦[slotSet s.val]{fullShare} f)) :=
    Idealize.SL.BI.bigSep_mono fun s _ =>
      show (iprop(∃ f, slotP c s.val f) : sProp 𝕄)
          ⊢ iprop(∃ f : RBuf (F := F) c, ((c : Thread nD τ).loc cc2_scratch0) ↦[slotSet s.val]{fullShare} f) from by
        iintro ⟨%f, H⟩; iexists f
        iapply (Entails.of_eq (slotP_eq c s.val f)); iexact H
  have f₀ : RBuf (F := F) c := fun _ => Classical.arbitrary _
  exact hmono.trans (Ring.pointsTo_blocks_join_exists (Ix := Ix) (Name := Name) (U := U) (Lvl := Lvl) (Val := Elt F)
    (ℓ := (c : Thread nD τ).loc cc2_scratch0) (q := fullShare) (fun s : Fin 4 => slotSet s.val) slots_disjoint slots_cover f₀)

/-! ## The output array whole is its fifty column blocks -/

/-- The elements of column block `j`, of the last block's columns inside the array, and of the columns never written. -/
def colSet (j : Fin 48) : Finset S1024x100000.Idx := (Rect.unit (s := S1024x100000) ![0, 2048 * j.val] S1024x2048.size (inb_col j)).set
def colLSet : Finset S1024x100000.Idx := (Rect.unit (s := S1024x100000) ![0, 2048 * 48] S1024x1536.size inb_colL).set
def tailSet : Finset S1024x100000.Idx := (Rect.unit (s := S1024x100000) ![0, 99840] S1024x160.size inb_tail).set

theorem colB_set (j : Fin 48) : (colB j).view.set = colSet j := by
  unfold colSet; simp only [colB, Memref.view_slice]; exact View.set_slice_whole _ _
theorem colL_set : colL.view.set = colLSet := by
  unfold colLSet; simp only [colL, Memref.view_slice]; exact View.set_slice_whole _ _
theorem tailM_set : tailM.view.set = tailSet := by
  unfold tailSet; simp only [tailM, Memref.view_slice]; exact View.set_slice_whole _ _

/-- Membership is a condition on the column alone. -/
theorem mem_colSet (j : Fin 48) (i : S1024x100000.Idx) : i ∈ colSet j ↔ 2048 * j.val ≤ (i 1).val ∧ (i 1).val < 2048 * j.val + 2048 := by
  unfold colSet; rw [Rect.mem_set_unit]
  have h0 : (i 0).val < 1024 := (i 0).isLt
  constructor
  · intro h; exact h 1
  · intro h a
    match a with
    | ⟨0, _⟩ => exact ⟨Nat.zero_le _, by show (i 0).val < 0 + 1024; omega⟩
    | ⟨1, _⟩ => exact h
theorem mem_colLSet (i : S1024x100000.Idx) : i ∈ colLSet ↔ 98304 ≤ (i 1).val ∧ (i 1).val < 99840 := by
  unfold colLSet; rw [Rect.mem_set_unit]
  have h0 : (i 0).val < 1024 := (i 0).isLt
  constructor
  · intro h; have := h 1; exact ⟨this.1, this.2⟩
  · intro h a
    match a with
    | ⟨0, _⟩ => exact ⟨Nat.zero_le _, by show (i 0).val < 0 + 1024; omega⟩
    | ⟨1, _⟩ => exact ⟨h.1, h.2⟩
theorem mem_tailSet (i : S1024x100000.Idx) : i ∈ tailSet ↔ 99840 ≤ (i 1).val := by
  unfold tailSet; rw [Rect.mem_set_unit]
  have h0 : (i 0).val < 1024 := (i 0).isLt
  have h1 : (i 1).val < 100000 := (i 1).isLt
  constructor
  · intro h; exact (h 1).1
  · intro h a
    match a with
    | ⟨0, _⟩ => exact ⟨Nat.zero_le _, by show (i 0).val < 0 + 1024; omega⟩
    | ⟨1, _⟩ => exact ⟨h, by show (i 1).val < 99840 + 160; omega⟩

theorem cols_disjoint (j j' : Fin 48) (h : j ≠ j') : Disjoint (colSet j) (colSet j') := by
  rw [Finset.disjoint_left]
  intro i hi hi'
  rw [mem_colSet] at hi hi'
  have hb : j.val ≠ j'.val := fun e => h (Fin.ext e)
  omega

/-- The forty-eight full blocks together are the columns below 98304. -/
theorem mem_cols (i : S1024x100000.Idx) : i ∈ Finset.univ.biUnion colSet ↔ (i 1).val < 98304 := by
  rw [Finset.mem_biUnion]
  constructor
  · rintro ⟨j, -, hj⟩; rw [mem_colSet] at hj; have := j.isLt; omega
  · intro h
    refine ⟨⟨(i 1).val / 2048, by omega⟩, Finset.mem_univ _, ?_⟩
    rw [mem_colSet]; show 2048 * ((i 1).val / 2048) ≤ (i 1).val ∧ (i 1).val < 2048 * ((i 1).val / 2048) + 2048; omega

theorem colL_tail_disjoint : Disjoint colLSet tailSet := by
  rw [Finset.disjoint_left]; intro i hi hi'; rw [mem_colLSet] at hi; rw [mem_tailSet] at hi'; omega
theorem cols_rest_disjoint : Disjoint (Finset.univ.biUnion colSet) (colLSet ∪ tailSet) := by
  rw [Finset.disjoint_left]; intro i hi hi'
  rw [mem_cols] at hi; rw [Finset.mem_union, mem_colLSet, mem_tailSet] at hi'; omega
theorem out_cover : (Finset.univ.biUnion colSet) ∪ (colLSet ∪ tailSet) = Finset.univ := by
  ext i
  simp only [Finset.mem_union, Finset.mem_univ, iff_true]
  rw [mem_cols, mem_colLSet, mem_tailSet]; omega

section Out
variable (c : Dev nD)

theorem colP_eq (j : Fin 48) (g : OBuf (F := F) c) :
    (colP c j g : sProp 𝕄) = (((c : Thread nD τ).loc main_v5) ↦[colSet j]{fullShare} g) := by
  unfold colP; rw [colB_set]; rfl
theorem colLP_eq (g : OBuf (F := F) c) :
    (colLP c g : sProp 𝕄) = (((c : Thread nD τ).loc main_v5) ↦[colLSet]{fullShare} g) := by
  unfold colLP; rw [colL_set]; rfl
theorem tailP_eq (g : OBuf (F := F) c) :
    (tailP c g : sProp 𝕄) = (((c : Thread nD τ).loc main_v5) ↦[tailSet]{fullShare} g) := by
  unfold tailP; rw [tailM_set]; rfl

/-- The output array whole is its forty-eight full column blocks, the last block's columns and the columns never written. -/
theorem out_eq (G : OBuf (F := F) c) :
    (((c : Thread nD τ).loc main_v5) ↦{fullShare} G : sProp 𝕄)
      = iprop(bigSep Finset.univ (fun j : Fin 48 => colP c j G) ∗ colLP c G ∗ tailP c G) := by
  have e1 := pointsTo_union (Ix := Ix) (Name := Name) (U := U) (Lvl := Lvl) (ℓ := (c : Thread nD τ).loc main_v5) (q := fullShare) (f := G) cols_rest_disjoint
  have e2 := pointsTo_union (Ix := Ix) (Name := Name) (U := U) (Lvl := Lvl) (ℓ := (c : Thread nD τ).loc main_v5) (q := fullShare) (f := G) colL_tail_disjoint
  have e3 := pointsTo_biUnion (Ix := Ix) (Name := Name) (U := U) (Lvl := Lvl) (ℓ := (c : Thread nD τ).loc main_v5) (q := fullShare) (f := G)
    Finset.univ colSet (fun j _ j' _ h => cols_disjoint j j' h)
  rw [out_cover] at e1
  rw [show (((c : Thread nD τ).loc main_v5) ↦{fullShare} G : sProp 𝕄) = (((c : Thread nD τ).loc main_v5) ↦[Finset.univ]{fullShare} G) from rfl,
    BI.equiv_iff.mp ⟨e1.1, e1.2⟩, BI.equiv_iff.mp ⟨e2.1, e2.2⟩, e3]
  simp only [colP_eq, colLP_eq, tailP_eq]

theorem out_split (G : OBuf (F := F) c) :
    (((c : Thread nD τ).loc main_v5) ↦{fullShare} G : sProp 𝕄)
      ⊢ iprop(bigSep Finset.univ (fun j : Fin 48 => colP c j G) ∗ colLP c G ∗ tailP c G) :=
  Entails.of_eq (out_eq c G)

/-- The pieces at contents of their own join to the array whole at contents agreeing with each piece on its elements. -/
theorem out_join_agree (gs : Fin 48 → OBuf (F := F) c) (gL G : OBuf (F := F) c) :
    iprop(bigSep Finset.univ (fun j : Fin 48 => colP c j (gs j)) ∗ colLP c gL ∗ tailP c G)
      ⊢ (iprop(∃ g : OBuf (F := F) c, ⌜(∀ j : Fin 48, ∀ i ∈ colSet j, g i = gs j i) ∧ (∀ i ∈ colLSet, g i = gL i) ∧ (∀ i ∈ tailSet, g i = G i)⌝
          ∗ ((c : Thread nD τ).loc main_v5) ↦{fullShare} g) : sProp 𝕄) := by
  simp only [colP_eq, colLP_eq, tailP_eq]
  iintro ⟨Hc, HL, HT⟩
  ihave HA := (pointsTo_biUnion_join (Ix := Ix) (Name := Name) (U := U) (Lvl := Lvl) (ℓ := (c : Thread nD τ).loc main_v5) (q := fullShare)
    Finset.univ colSet gs G (fun j _ j' _ h => cols_disjoint j j' h)) $$ Hc
  icases HA with ⟨%gA, %hgA, HA⟩
  ihave HLT := (pointsTo_join (Ix := Ix) (Name := Name) (U := U) (Lvl := Lvl) (ℓ := (c : Thread nD τ).loc main_v5) (q := fullShare)
    (f := gL) (g := G) colL_tail_disjoint) $$ [HL HT]
  · isplitl [HL]; · iexact HL
    iexact HT
  ihave HW := (pointsTo_join (Ix := Ix) (Name := Name) (U := U) (Lvl := Lvl) (ℓ := (c : Thread nD τ).loc main_v5) (q := fullShare)
    (f := gA) (g := tailSet.piecewise G gL) cols_rest_disjoint) $$ [HA HLT]
  · isplitl [HA]; · iexact HA
    iexact HLT
  iexists (colLSet ∪ tailSet).piecewise (tailSet.piecewise G gL) gA
  isplitr
  · ipureintro
    refine ⟨fun j i hi => ?_, fun i hi => ?_, fun i hi => ?_⟩
    · have hA : i ∈ Finset.univ.biUnion colSet := Finset.mem_biUnion.mpr ⟨j, Finset.mem_univ _, hi⟩
      rw [Finset.piecewise_eq_of_notMem _ _ _ (Finset.disjoint_left.mp cols_rest_disjoint hA)]
      exact hgA j (Finset.mem_univ _) i hi
    · rw [Finset.piecewise_eq_of_mem _ _ _ (Finset.mem_union_left _ hi),
        Finset.piecewise_eq_of_notMem _ _ _ (Finset.disjoint_left.mp colL_tail_disjoint hi)]
    · rw [Finset.piecewise_eq_of_mem _ _ _ (Finset.mem_union_right _ hi), Finset.piecewise_eq_of_mem _ _ _ hi]
  · rw [out_cover]
    iexact HW

/-- Each piece at some contents joins to the array whole at some contents. -/
theorem out_join (G : OBuf (F := F) c) :
    iprop(bigSep Finset.univ (fun j : Fin 48 => iprop(∃ g, colP c j g)) ∗ (∃ g, colLP c g) ∗ tailP c G)
      ⊢ (iprop(∃ g, ((c : Thread nD τ).loc main_v5) ↦{fullShare} g) : sProp 𝕄) := by
  have : Nonempty (OBuf (F := F) c) := ⟨G⟩
  iintro ⟨Hc, ⟨%gL, HL⟩, HT⟩
  ihave Hc' := (Idealize.SL.BI.bigSep_exists_pi Finset.univ (fun (j : Fin 48) (g : OBuf (F := F) c) => (colP c j g : sProp 𝕄))) $$ Hc
  icases Hc' with ⟨%gs, Hc⟩
  ihave HW := (out_join_agree c gs gL G) $$ [Hc HL HT]
  · isplitl [Hc]; · iexact Hc
    isplitl [HL]; · iexact HL
    iexact HT
  icases HW with ⟨%g, -, HW⟩
  iexists g; iexact HW

end Out

end Cert.Kernel.Mm

end
-- ==== Proof.KB.MmObl.lean ====
import proofs.«204097_g52673478918828_cont_9to1c4b_838_31_alg».proof.Proof.KB.MmBody
import proofs.«204097_g52673478918828_cont_9to1c4b_838_31_alg».proof.Proof.KB.MmLast
import proofs.«204097_g52673478918828_cont_9to1c4b_838_31_alg».proof.Proof.KB.MmSplit
import Idealize.ShloMosaic.Lib.Pipeline.FrameBody
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The body at the last point, and the body obligation -/

/-- The last point's run with the point's number named. -/
theorem run_last' (ι : Ix) (c : Dev nD) (i : grid2.Coords) (n : ℕ) (hn : (i 0).val = n)
    (h1 : k2_cond1 i = 1#1) (h2 : ¬ k2_cond2 i = 1#1) (h3 : k2_cond3 i = 1#1)
    (arg1 : Memref sig .tc .vmem S1024x128 .f32) (harg1 : arg1.IsWhole) (arg2 : Memref sig .tc .vmem S2048x128 .f32) (harg2 : arg2.IsWhole)
    (arg3 : Memref sig .tc .vmem S2048 .f32) (harg3 : arg3.IsWhole)
    (x0 : Vec F S1024x128 .f32) (x1 : Vec F S2048x128 .f32) (x2 : Vec F S2048 .f32)
    (jw ja jb jc : Fin 48) (g0 ga gb gc : OBuf (F := F) c) (fs0 fa fb fc : RBuf (F := F) c) (Gl : OBuf (F := F) c)
    (W : Waits sig Ix) (K : PUnit → sProp 𝕄) :
    iprop(owns (c : Thread nD τ) arg1 fullShare x0 ∗ owns (c : Thread nD τ) arg2 fullShare x1 ∗ owns (c : Thread nD τ) arg3 fullShare x2
        ∗ flightP ι c n jw g0 fs0 ∗ flightP ι c 47 ja ga fa ∗ flightP ι c 46 jb gb fb ∗ flightP ι c 45 jc gc fc
        ∗ colLP c Gl
        ∗ owes (c : Thread nD τ) 0 W
        ∗ (iprop(owns (c : Thread nD τ) arg1 fullShare x0 ∗ owns (c : Thread nD τ) arg2 fullShare x1 ∗ owns (c : Thread nD τ) arg3 fullShare x2
            ∗ colP c jw g0 ∗ colP c ja ga ∗ colP c jb gb ∗ colP c jc gc
            ∗ slotP c n (storedW c i fs0 (k2_pay1 (ld0 arg1 harg1 x0) (ld1 arg2 harg2 x1) (ld2 arg3 harg3 x2))) ∗ slotP c 47 fa ∗ slotP c 46 fb ∗ slotP c 45 fc
            ∗ cellP c n ∗ cellP c 47 ∗ cellP c 46 ∗ cellP c 45
            ∗ colLP c (colL.view.writes (Elt F) Gl
                [⟨Rect.whole S1024x1536, ReadAs.same.apply (rslotL.view.read (Elt F) (storedW c i fs0 (k2_pay1 (ld0 arg1 harg1 x0) (ld1 arg2 harg2 x1) (ld2 arg3 harg3 x2))))⟩])
            ∗ (∃ W' : Waits sig Ix, ⌜(↑W' : Set (SemLoc sig × Ix)) ⊆ ↑W ∪ {p | ∃ n, p = (cellR n, ι)}⌝ ∗ owes (c : Thread nD τ) 0 W')) -∗ K ⟨⟩))
      ⊢ wp frame (wpE (defs₀ (F := F)) Variants.none c none) Set.univ
          (cc2__mm_body i arg1 harg1 arg2 harg2 arg3 harg3 outM (Memref.isWhole_whole _) ringM (Memref.isWhole_whole _) cc2_scratch1) K := by
  subst hn
  exact run_last ι c i h1 h2 h3 arg1 harg1 arg2 harg2 arg3 harg3 x0 x1 x2 jw ja jb jc g0 ga gb gc fs0 fa fb fc Gl W K

section Obl
variable (V : (c : Dev nD) → (b : Ref sig .tc) → Buf (Elt F) ((c : Thread nD τ).loc b)) (ι : Ix) (B : Set (SemLoc sig × Ix)) (c : Dev nD)

/-- A slot free under one number is free under any number of its residue. -/
theorem freeP_of (n : ℕ) (s : Fin 4) (h : n % 4 = s.val % 4) (f : RBuf (F := F) c) :
    iprop(cellP c n ∗ slotP c n f) ⊢ (freeP (F := F) (Ix := Ix) (Name := Name) (U := U) (Lvl := Lvl) c s : sProp 𝕄) := by
  unfold freeP
  iintro ⟨Hc, Hs⟩
  isplitl [Hc]
  · iapply (Entails.of_eq (congrArg (fun x => (semVal ((c : Thread nD τ), x) 0 : sProp 𝕄)) (cellR_congr h))) $$ Hc
  iexists f
  iapply (Entails.of_eq (slotP_congr c h f)) $$ Hs

set_option maxHeartbeats 2000000 in
/-- The body at the last point. -/
theorem sound_body_last (hB : ∀ n : ℕ, (cellR n, ι) ∈ B) (t : Fin cfg2.N) (ht : ¬ t.val < 48) :
    (bodyPre V ι B c t : sProp 𝕄) ⊢ wp frame (wpE (defs₀ (F := F)) Variants.none c none) Set.univ (bodyAt2 t) (fun _ => bodyPost V ι B c t) := by
  have h48 : t.val = 48 := by have := t.isLt; have e : cfg2.N = 49 := N_2; omega
  obtain rfl : t = t48 := Fin.ext h48
  unfold bodyPre bodyPost bodyAt2
  simp only [before2_0, before2_1, before2_2]
  rw [after2_0, after2_2, Phi_castSucc, Phi_succ, show (t48 : Fin cfg2.N).val = 48 from rfl]
  unfold Dat.owesAt Pipeline.owesWithin
  rw [show (dat V ι B c : Dat τ (Elt F) Ix Name U Lvl cfg2 c).owed t48.castSucc = 0 from rfl,
    show (dat V ι B c : Dat τ (Elt F) Ix Name U Lvl cfg2 c).owed t48.succ = 0 from rfl]
  have hi : ((grid2.coords t48) 0).val = 48 := crd_val t48
  have hc1 : k2_cond1 (grid2.coords t48) = 1#1 := (hcond1 t48).mpr (by decide)
  have hc2 : ¬ k2_cond2 (grid2.coords t48) = 1#1 := fun h => absurd ((hcond2 t48).mp h) (by decide)
  have hc3 : k2_cond3 (grid2.coords t48) = 1#1 := (hcond3 t48).mpr rfl
  iintro ⟨HΦ, ⟨%W, %hW, HW⟩, ⟨%d0, H0⟩, ⟨%d1, H1⟩, ⟨%d2, H2⟩⟩
  ihave HΦ' := (here_last V ι c) $$ HΦ
  unfold flightAt constP
  icases HΦ' with ⟨⟨%g0, %fs0, %hok0, Hfl⟩, ⟨%gc, %fc, %hokc, Hfc⟩, ⟨%gb, %fb, %hokb, Hfb⟩, ⟨%ga, %fa, %hoka, Hfa⟩, Hdone, HL, HT, HR⟩
  iapply (run_last' ι c (grid2.coords t48) 48 hi hc1 hc2 hc3 _ _ _ _ _ _ (iblk V c 0 t48) (wblk V c t48 d1) (iblk V c 2 t48)
    ⟨44, by decide⟩ ⟨47, by decide⟩ ⟨46, by decide⟩ ⟨45, by decide⟩ g0 ga gb gc fs0 fa fb fc (V c main_v5) W _)
  isplitl [H0]; · iexact H0
  isplitl [H1]; · iexact H1
  isplitl [H2]; · iexact H2
  isplitl [Hfl]; · iexact Hfl
  isplitl [Hfa]; · iexact Hfa
  isplitl [Hfb]; · iexact Hfb
  isplitl [Hfc]; · iexact Hfc
  isplitl [HL]; · iexact HL
  isplitl [HW]; · iexact HW
  iintro ⟨H0, H1, H2, D4, D7, D6, D5, S0, S3, S2, S1, C0, C3, C2, C1, HL', ⟨%W', %hW', HW'⟩⟩
  isplitl [D4 D7 D6 D5 S0 S3 S2 S1 C0 C3 C2 C1 HL' Hdone HT HR]
  · iapply (next_last V ι c)
    isplitl [D4]
    · unfold doneP; iexists g0; isplitr; · ipureintro; exact hok0
      iexact D4
    isplitl [D5]
    · unfold doneP; iexists gc; isplitr; · ipureintro; exact hokc
      iexact D5
    isplitl [D6]
    · unfold doneP; iexists gb; isplitr; · ipureintro; exact hokb
      iexact D6
    isplitl [D7]
    · unfold doneP; iexists ga; isplitr; · ipureintro; exact hoka
      iexact D7
    isplitl [Hdone]; · iexact Hdone
    isplitl [C0 S0]
    · iapply (freeP_of c 48 (0 : Fin 4) (by decide) _)
      isplitl [C0]; · iexact C0
      iexact S0
    isplitl [C1 S1]
    · iapply (freeP_of c 45 (1 : Fin 4) (by decide) _)
      isplitl [C1]; · iexact C1
      iexact S1
    isplitl [C2 S2]
    · iapply (freeP_of c 46 (2 : Fin 4) (by decide) _)
      isplitl [C2]; · iexact C2
      iexact S2
    isplitl [C3 S3]
    · iapply (freeP_of c 47 (3 : Fin 4) (by decide) _)
      isplitl [C3]; · iexact C3
      iexact S3
    isplitl [HL']
    · iexists _; isplitr; · ipureintro; exact ⟨fs0, d1, rfl⟩
      iexact HL'
    isplitl [HT]; · iexact HT
    iexact HR
  isplitl [HW']
  · iexists W'; isplitr
    · ipureintro
      refine hW'.trans (Set.union_subset hW ?_)
      rintro p ⟨n, rfl⟩
      exact Or.inl (hB n)
    iexact HW'
  isplitl [H0]; · iexact H0
  isplitl [H1]
  · iexists d1
    iapply (Entails.of_eq (congrArg (fun X => owns (c : Thread nD τ) (st2_1 t48) fullShare X) (leaves2_1 V ι B c t48 d1).symm)) $$ H1
  iexact H2

/-- THE BODY OBLIGATION of the matmul's pipeline, at every point, on core `c`: in the form the loop uses (the second window, whose
    last block overhangs its array, is left at its block on the rows its transfers move). -/
theorem body_obligation (hB : ∀ n : ℕ, (cellR n, ι) ∈ B) :
    BodyObligationLoose (dat V ι B c : Dat τ (Elt F) Ix Name U Lvl cfg2 c) (defs₀ (F := F)) Variants.none ι Set.univ := fun t => by
  rw [bigSep_W2, bigSep_W2]
  by_cases ht : t.val < 48
  · exact sound_body_lt V ι B c hB t ht
  · exact sound_body_last V ι B c hB t ht

/-- The three windows' arrays are never written: at every point they hold what the region found. -/
theorem arrAt2 (w : Fin cfg2.W) (n : ℕ) : (dat V ι B c : Dat τ (Elt F) Ix Name U Lvl cfg2 c).arrAt w n = V c (Pipeline.arrRef spec2 w) :=
  match w with
  | ⟨0, _⟩ => ((dat V ι B c : Dat τ (Elt F) Ix Name U Lvl cfg2 c).arrAt_in 0 rfl n).trans (A_eq V ι B c 0)
  | ⟨1, _⟩ => ((dat V ι B c : Dat τ (Elt F) Ix Name U Lvl cfg2 c).arrAt_in 1 rfl n).trans (A_eq V ι B c 1)
  | ⟨2, _⟩ => ((dat V ι B c : Dat τ (Elt F) Ix Name U Lvl cfg2 c).arrAt_in 2 rfl n).trans (A_eq V ι B c 2)

/-- The invariant at the pipeline's two ends is `PhiN` at 0 and at 49. -/
theorem Phi_zero : (dat V ι B c : Dat τ (Elt F) Ix Name U Lvl cfg2 c).Φ 0 = PhiN V ι c 0 := rfl
theorem Phi_last : (dat V ι B c : Dat τ (Elt F) Ix Name U Lvl cfg2 c).Φ (Fin.last cfg2.N) = PhiN V ι c 49 := rfl
end Obl

end Cert.Kernel.Mm

end
-- ==== Proof.KB.MmInOut.lean ====
/-
  The matmul region's invariant at its two ends: what the launch hands the body before the first point is the
  invariant there, and the invariant after the last point gives back the output array at its final contents, the
  kernel's four cells at zero and the core's other scoped buffers.
-/
import proofs.«204097_g52673478918828_cont_9to1c4b_838_31_alg».proof.Proof.KB.MmSplit
set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

/-! ## The kernel's own cells -/

/-- The four DMA semaphores of the kernel's own, by their numbers in the pool. -/
def osem : Fin 4 → SemLoc sig := fun k => (![SemLoc.dma 12, SemLoc.dma 13, SemLoc.dma 14, SemLoc.dma 15] : Fin 4 → SemLoc sig) k

/-- They are the cells by number. -/
theorem osem_eq : ∀ k : Fin 4, osem k = cellR k.val := by decide

/-- They are scoped, distinct, and none is a window's staging semaphore. -/
theorem ownSemFacts2 : Pipeline.OwnSemFacts spec2 osem := by decide

/-- The cells at zero, as a family … -/
theorem ownSems0_cells (c : Dev nD) :
    (Pipeline.ownSems0 (Ix := Ix) (Name := Name) (U := U) (Lvl := Lvl) (Val := Elt F) (τ := τ) osem c : sProp 𝕄) = bigSep Finset.univ (fun k : Fin 4 => cellP c k.val) := by
  unfold Pipeline.ownSems0
  exact Idealize.SL.BI.bigSep_congr fun k _ => by rw [osem_eq k]

/-- … and listed. -/
theorem ownSems0_eq (c : Dev nD) :
    (Pipeline.ownSems0 (Ix := Ix) (Name := Name) (U := U) (Lvl := Lvl) (Val := Elt F) (τ := τ) osem c : sProp 𝕄) = iprop(cellP c 0 ∗ cellP c 1 ∗ cellP c 2 ∗ cellP c 3) := by
  rw [Pipeline.ownSems0_eq_of_list c osem [0, 1, 2, 3] (by decide) (by decide)]
  show iprop(semVal ((c : Thread nD τ), osem 0) 0 ∗ semVal ((c : Thread nD τ), osem 1) 0 ∗ semVal ((c : Thread nD τ), osem 2) 0
    ∗ semVal ((c : Thread nD τ), osem 3) 0) = _
  rw [osem_eq 0, osem_eq 1, osem_eq 2, osem_eq 3]
  rfl

/-! ## Two facts about families -/

/-- Pure facts come out of a family together. -/
theorem bigSep_pure_sep {M : Type _} [URA M] {I : Type _} [DecidableEq I] (S : Finset I) (φ : I → Prop) (P : I → sProp M) :
    bigSep S (fun i => iprop(⌜φ i⌝ ∗ P i)) ⊢ iprop(⌜∀ i ∈ S, φ i⌝ ∗ bigSep S P) := by
  induction S using Finset.induction_on with
  | empty =>
    rw [bigSep_empty, bigSep_empty]; iintro -
    isplitr
    · ipureintro; intro i hi; exact absurd hi (Finset.notMem_empty _)
    · iempintro
  | insert a S ha ih =>
    have e : bigSep (insert a S) (fun i => iprop(⌜φ i⌝ ∗ P i)) = iprop((⌜φ a⌝ ∗ P a) ∗ bigSep S fun i => iprop(⌜φ i⌝ ∗ P i)) :=
      bigSep_insert ha
    have e' : bigSep (insert a S) P = iprop(P a ∗ bigSep S P) := bigSep_insert ha
    rw [e, e']
    iintro ⟨⟨%h, Ha⟩, HS⟩
    ihave H := ih $$ HS
    icases H with ⟨%hS, HS⟩
    isplitr
    · ipureintro; intro i hi
      rcases Finset.mem_insert.mp hi with rfl | hi
      · exact h
      · exact hS i hi
    · isplitl [Ha]; · iexact Ha
      iexact HS

section Ends
variable (V : (c : Dev nD) → (b : Ref sig .tc) → Buf (Elt F) ((c : Thread nD τ).loc b))

/-- The free slots are the cells at zero and the slots at some contents. -/
theorem free_split (c : Dev nD) :
    (bigSep Finset.univ (freeP (F := F) (Ix := Ix) (Name := Name) (U := U) (Lvl := Lvl) c) : sProp 𝕄)
      = iprop(bigSep Finset.univ (fun s : Fin 4 => cellP c s.val) ∗ bigSep Finset.univ (fun s : Fin 4 => iprop(∃ f, slotP c s.val f))) :=
  Idealize.SL.BI.bigSep_sep' Finset.univ (fun s : Fin 4 => (cellP c s.val : sProp 𝕄)) (fun s : Fin 4 => iprop(∃ f, slotP c s.val f))

/-! ## Into the invariant -/

set_option maxHeartbeats 1000000 in
/-- BEFORE THE FIRST POINT: the output array at its entry contents, the cells at zero and the core's other scoped buffers
    are the invariant — no block written, no copy in flight, every block pending, every slot free. -/
theorem hin (ι : Ix) (c : Dev nD) :
    iprop((((c : Thread nD τ).loc main_v5) ↦{fullShare} V c main_v5)
        ∗ Pipeline.ownSems0 (Ix := Ix) (Name := Name) (U := U) (Lvl := Lvl) (Val := Elt F) (τ := τ) osem c
        ∗ Pipeline.scopedRest (Ix := Ix) (Name := Name) (U := U) (Lvl := Lvl) (Val := Elt F) spec2 c)
      ⊢ (PhiN V ι c 0 : sProp 𝕄) := by
  unfold PhiN; rw [if_neg (show ¬ ((0 : ℕ) = 49) by decide)]; unfold PhiMid
  simp only [Nat.zero_sub]
  rw [Ring.bigSep_rangeSet_empty (le_refl 0), Ring.bigSep_rangeSet_empty (le_refl 0), Ring.rangeSet_univ, Ring.rangeSet_univ,
    free_split c, scopedRest2_eq, ownSems0_cells]
  unfold constP restP
  iintro ⟨Hout, Hcells, H1, H2, H3, H4, Hring, H5, H6, H7, H8⟩
  ihave Ho := (out_split c (V c main_v5)) $$ Hout
  icases Ho with ⟨Hcols, HL, HT⟩
  ihave Hs := (ring_split c) $$ Hring
  isplitr; · iempintro
  isplitr; · iempintro
  isplitl [Hcols]; · iexact Hcols
  isplitl [Hcells Hs]
  · isplitl [Hcells]; · iexact Hcells
    iexact Hs
  isplitl [HL]; · iexact HL
  isplitl [HT]; · iexact HT
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## Out of the invariant -/

/-- The output array at its final contents: on each full column block the block's final contents, on the last block's
    columns theirs, on the columns never written the entry contents. -/
def FinalOk (c : Dev nD) (g : OBuf (F := F) c) : Prop :=
  (∀ j : Fin 48, ∃ gj, BlockOk V c j gj ∧ ∀ i ∈ colSet j, g i = gj i)
    ∧ (∃ gL, LastOk V c gL ∧ ∀ i ∈ colLSet, g i = gL i) ∧ ∀ i ∈ tailSet, g i = V c main_v5 i

set_option maxHeartbeats 1000000 in
/-- AFTER THE LAST POINT: the invariant gives back the output array whole at final contents, the cells at zero and the
    core's other scoped buffers. -/
theorem hout (ι : Ix) (c : Dev nD) :
    (PhiN V ι c 49 : sProp 𝕄)
      ⊢ iprop((∃ g : OBuf (F := F) c, ⌜FinalOk V c g⌝ ∗ (((c : Thread nD τ).loc main_v5) ↦{fullShare} g))
        ∗ Pipeline.ownSems0 (Ix := Ix) (Name := Name) (U := U) (Lvl := Lvl) (Val := Elt F) (τ := τ) osem c
        ∗ Pipeline.scopedRest (Ix := Ix) (Name := Name) (U := U) (Lvl := Lvl) (Val := Elt F) spec2 c) := by
  unfold PhiN; rw [if_pos rfl]; unfold PhiEnd
  have hdone : (bigSep Finset.univ (doneP V c) : sProp 𝕄)
      = bigSep Finset.univ (fun j : Fin 48 => iprop(∃ g : OBuf (F := F) c, iprop(⌜BlockOk V c j g⌝ ∗ colP c j g))) := rfl
  rw [hdone, free_split c, scopedRest2_eq, ownSems0_cells]
  unfold restP
  have : Nonempty (OBuf (F := F) c) := ⟨V c main_v5⟩
  iintro ⟨Hdone, ⟨Hcells, Hslots⟩, ⟨%gL, %hL, HL⟩, HT, H1, H2, H3, H4, H5, H6, H7, H8⟩
  ihave Hd := (Idealize.SL.BI.bigSep_exists_pi Finset.univ
    (fun (j : Fin 48) (g : OBuf (F := F) c) => (iprop(⌜BlockOk V c j g⌝ ∗ colP c j g) : sProp 𝕄))) $$ Hdone
  icases Hd with ⟨%gs, Hd⟩
  ihave Hd' := (bigSep_pure_sep Finset.univ (fun j : Fin 48 => BlockOk V c j (gs j)) (fun j : Fin 48 => (colP c j (gs j) : sProp 𝕄))) $$ Hd
  icases Hd' with ⟨%hgs, Hcols⟩
  ihave HW := (out_join_agree c gs gL (V c main_v5)) $$ [Hcols HL HT]
  · isplitl [Hcols]; · iexact Hcols
    isplitl [HL]; · iexact HL
    iexact HT
  icases HW with ⟨%g, %hg, HW⟩
  ihave Hr := (ring_join c) $$ Hslots
  isplitl [HW]
  · iexists g; isplitr
    · ipureintro
      exact ⟨fun j => ⟨gs j, hgs j (Finset.mem_univ _), hg.1 j⟩, ⟨gL, hL, hg.2.1⟩, hg.2.2⟩
    · iexact HW
  isplitl [Hcells]; · iexact Hcells
  isplitl [H1]; · iexact H1
  isplitl [H2]; · iexact H2
  isplitl [H3]; · iexact H3
  isplitl [H4]; · iexact H4
  isplitl [Hr]; · iexact Hr
  isplitl [H5]; · iexact H5
  isplitl [H6]; · iexact H6
  isplitl [H7]; · iexact H7
  iexact H8

end Ends

end Cert.Kernel.Mm

end
-- ==== Proof.KB.TcChain.lean ====
/-
  The TensorCore's buffers at every boundary of the pipelines' program, as a fold through it: after the gathered rows
  are regrouped (W3), after the pooling region (W4), after the bias is padded (W5), after the big product's region, whose
  buffer then holds some contents g (W6 g), after the last rows of W and b are cut out (W7 g), after the tail region
  (W8 g), and after the tail's columns are written over the big product (W9 g). Each region's proof data is taken at the
  valuation it is entered from.
-/
import proofs.«204097_g52673478918828_cont_9to1c4b_838_31_alg».proof.Proof.KB.TcCall
import proofs.«204097_g52673478918828_cont_9to1c4b_838_31_alg».proof.Proof.KB.TcRegion
import proofs.«204097_g52673478918828_cont_9to1c4b_838_31_alg».proof.Proof.KB.PoolRegion
import proofs.«204097_g52673478918828_cont_9to1c4b_838_31_alg».proof.Proof.KB.TailRegion
import proofs.«204097_g52673478918828_cont_9to1c4b_838_31_alg».proof.Proof.KB.MmObl
import proofs.«204097_g52673478918828_cont_9to1c4b_838_31_alg».proof.Proof.KB.MmInOut
import Idealize.ShloMosaic.Lib.Pipeline.FrameSuffix

noncomputable section

namespace Cert.Kernel.Tc

open Cert.Kernel Cert.Kernel.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

variable (m : (ℓ : Loc nD τ sig) → Buf (Elt F) ℓ)

/-- After the call, and after the gathered rows are regrouped as [1024, 20, 128]. -/
abbrev W2m : Dev nD → Valuation τ sig (Elt F) := W2 m (gO m)
abbrev W3 : Dev nD → Valuation τ sig (Elt F) := fun c => StableHlo.after (ops1 (F := F)) (W2m m c)
abbrev V3 : (c : Dev nD) → (b : Ref sig .tc) → Buf (Elt F) ((c : Thread nD τ).loc b) := fun c b => W3 m c b

/-- The pooling region's proof data, and the buffers at its exit. -/
def dat0 (c : Dev nD) : Dat τ (Elt F) (HIx 1) ℕ UU ℕ cfg1 c := Pool.dat (Name := ℕ) (U := UU) (Lvl := ℕ) (V3 m) (Bset (F := F) c) c
def W4 (c : Dev nD) : Valuation τ sig (Elt F) := Pipeline.withArrays spec1 c (W3 m c) fun w => (dat0 m c).arrAt w cfg1.N
abbrev W5 : Dev nD → Valuation τ sig (Elt F) := fun c => StableHlo.after (ops2 (F := F)) (W4 m c)
abbrev V5 : (c : Dev nD) → (b : Ref sig .tc) → Buf (Elt F) ((c : Thread nD τ).loc b) := fun c b => W5 m c b

/-- The big product's region: its proof data; its buffer afterwards holds some contents `g`. -/
def dat1 (c : Dev nD) : Dat τ (Elt F) (HIx 1) ℕ UU ℕ cfg2 c := Mm.dat (Name := ℕ) (U := UU) (Lvl := ℕ) (V5 m) (none : HIx 1) (Bset (F := F) c) c
abbrev OB (c : Dev nD) : Type := Buf (Elt F) ((c : Thread nD τ).loc main_v5)
def W6 (c : Dev nD) (g : OB (F := F) c) : Valuation τ sig (Elt F) := Function.update (W5 m c) (Proc.devRef .tc main_v5) g
abbrev W7 (c : Dev nD) (g : OB (F := F) c) : Valuation τ sig (Elt F) := StableHlo.after (ops3 (F := F)) (W6 m c g)

/-- The tail region reads the pooled rows and the last rows of W and b, none of which depends on `g`: its proof data
    is taken at the valuation in which the big product's buffer is as it was. -/
abbrev V7 : (c : Dev nD) → (b : Ref sig .tc) → Buf (Elt F) ((c : Thread nD τ).loc b) := fun c b => W7 m c (V5 m c main_v5) b
def dat2 (c : Dev nD) : Dat τ (Elt F) (HIx 1) ℕ UU ℕ cfg3 c := Tail.dat (Name := ℕ) (U := UU) (Lvl := ℕ) (V7 m) (Bset (F := F) c) c
def W8 (c : Dev nD) (g : OB (F := F) c) : Valuation τ sig (Elt F) := Pipeline.withArrays spec3 c (W7 m c g) fun w => (dat2 m c).arrAt w cfg3.N
abbrev W9 (c : Dev nD) (g : OB (F := F) c) : Valuation τ sig (Elt F) := StableHlo.after (ops4 (F := F)) (W8 m c g)

/-- Every pipeline's proof data. -/
def pdats : (p : Fin 3) → (c : Dev nD) → Dat τ (Elt F) (HIx 1) ℕ UU ℕ (Pipeline.pin (pcfgs (F := F)) adm p) c
  | ⟨0, _⟩ => fun c => dat0 m c
  | ⟨1, _⟩ => fun c => dat1 m c
  | ⟨2, _⟩ => fun c => dat2 m c

/-- What is known of the big product's buffer after its region. -/
abbrev OkG (c : Dev nD) (g : OB (F := F) c) : Prop := Mm.FinalOk (V5 m) c g

end Cert.Kernel.Tc

end
-- ==== Proof.KB.TcChainFacts.lean ====
/-
  Facts about the chain of valuations: at each region's entry the proof data's arrays are the valuation's, at its exit
  the valuation has the arrays at what the pipeline leaves and every other buffer as it was; the tail region's four
  arrays do not depend on what the big product's region left in its buffer; and no host operation and no region
  writes an argument, so the arguments end as launched.
-/
import proofs.«204097_g52673478918828_cont_9to1c4b_838_31_alg».proof.Proof.KB.TcChain

noncomputable section

namespace Cert.Kernel.Tc

open Cert.Kernel Cert.Kernel.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

variable (m : (ℓ : Loc nD τ sig) → Buf (Elt F) ℓ)

/-! ## The pooling region: entered at W3, left at W4 -/

theorem W4_arr (c : Dev nD) (w : Fin cfg1.W) :
    W4 m c (Proc.devRef .tc (Pipeline.arrRef spec1 w)) = (dat0 m c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- The proof data's arrays are the valuation's at the region's entry, -/
theorem hA0 (c : Dev nD) (w : Fin cfg1.W) :
    (pdats m 0 c).A w = W3 m c (Proc.devRef .tc (Pipeline.arrRef (Pipeline.pin (pcfgs (F := F)) adm 0).spec w)) :=
  Pool.A_eq (Name := ℕ) (U := UU) (Lvl := ℕ) (V3 m) (Bset (F := F) c) c w
/-- its invariant the scoped buffers no window stages, nothing owed, full shares, the recorded pairs bounded; -/
theorem hΦ0 (c : Dev nD) (t : Fin ((Pipeline.pin (pcfgs (F := F)) adm 0).N + 1)) :
    (pdats m 0 c).Φ t = Pipeline.scopedRest (Ix := HIx 1) (Name := ℕ) (U := UU) (Lvl := ℕ) (Val := Elt F) (Pipeline.pin (pcfgs (F := F)) adm 0).spec c := rfl
theorem howed0 (c : Dev nD) (t : Fin ((Pipeline.pin (pcfgs (F := F)) adm 0).N + 1)) : (pdats m 0 c).owed t = 0 := rfl
theorem hq0 (c : Dev nD) (w : Fin (Pipeline.pin (pcfgs (F := F)) adm 0).W) : (pdats m 0 c).q w = fullShare := rfl
theorem hrec0 (c : Dev nD) (t : Fin ((Pipeline.pin (pcfgs (F := F)) adm 0).N + 1)) : (pdats m 0 c).recorded t = Bset (F := F) c := rfl
/-- at its exit each array holds what the pipeline leaves and every other buffer what it held. -/
theorem hF0 (c : Dev nD) (w : Fin cfg1.W) :
    (pdats m 0 c).arrAt w (Pipeline.pin (pcfgs (F := F)) adm 0).N = W4 m c (Proc.devRef .tc (Pipeline.arrRef (Pipeline.pin (pcfgs (F := F)) adm 0).spec w)) :=
  (W4_arr m c w).symm
theorem hrest0 (c : Dev nD) (b : Ref sig .tc) (hb : b ∉ Finset.univ.image (Pipeline.arrRef (Pipeline.pin (pcfgs (F := F)) adm 0).spec)) :
    W4 m c (Proc.devRef .tc b) = W3 m c (Proc.devRef .tc b) :=
  W4_of_ne m c b fun w e => hb (Finset.mem_image.mpr ⟨w, Finset.mem_univ _, e⟩)

/-! ## The big product's region: entered at W5; its buffer afterwards at some contents g -/

theorem hA1 (c : Dev nD) (w : Fin cfg2.W) :
    (pdats m 1 c).A w = W5 m c (Proc.devRef .tc (Pipeline.arrRef (Pipeline.pin (pcfgs (F := F)) adm 1).spec w)) :=
  Mm.A_eq (Name := ℕ) (U := UU) (Lvl := ℕ) (V5 m) (none : HIx 1) (Bset (F := F) c) c w
/-- Its three arrays are never written. -/
theorem arr1 (c : Dev nD) (w : Fin cfg2.W) (n : ℕ) :
    (pdats m 1 c).arrAt w n = W5 m c (Proc.devRef .tc (Pipeline.arrRef (Pipeline.pin (pcfgs (F := F)) adm 1).spec w)) :=
  Mm.arrAt2 (Name := ℕ) (U := UU) (Lvl := ℕ) (V5 m) (none : HIx 1) (Bset (F := F) c) c w n

/-- The big product's buffer is no array of its pipeline. -/
theorem v5_not_arr2 : ∀ w : Fin cfg2.W, Pipeline.arrRef spec2 w ≠ main_v5 := by decide
theorem v5_not_mem_arr2 : main_v5 ∉ Finset.univ.image (Pipeline.arrRef spec2) := by decide

theorem W6_v5 (c : Dev nD) (g : OB (F := F) c) : W6 m c g (Proc.devRef .tc main_v5) = g := by
  unfold W6; exact Function.update_self _ _ _
theorem W6_of_ne (c : Dev nD) (g : OB (F := F) c) {b : Ref sig .tc} (h : b ≠ main_v5) :
    W6 m c g (Proc.devRef .tc b) = W5 m c (Proc.devRef .tc b) := by
  unfold W6; exact Function.update_of_ne (StableHlo.devRef_ne_of_ne h) _ _
theorem W6_arr (c : Dev nD) (g : OB (F := F) c) (w : Fin cfg2.W) :
    W6 m c g (Proc.devRef .tc (Pipeline.arrRef (Pipeline.pin (pcfgs (F := F)) adm 1).spec w))
      = W5 m c (Proc.devRef .tc (Pipeline.arrRef (Pipeline.pin (pcfgs (F := F)) adm 1).spec w)) :=
  W6_of_ne m c g (v5_not_arr2 w)

/-! ## The host stretches at the buffers they write, and off them -/

theorem after_ops0_of_ne (V : Valuation τ sig (Elt F)) {b : Ref sig .tc} (h : b ≠ main_v0) :
    StableHlo.after (ops0 (F := F)) V (Proc.devRef .tc b) = V (Proc.devRef .tc b) := by
  simp only [ops0, StableHlo.after_cons, StableHlo.after_nil]
  rw [StableHlo.reshape_result_ne (h := h)]
theorem after_ops1_of_ne (V : Valuation τ sig (Elt F)) {b : Ref sig .tc} (h : b ≠ main_v2) :
    StableHlo.after (ops1 (F := F)) V (Proc.devRef .tc b) = V (Proc.devRef .tc b) := by
  simp only [ops1, StableHlo.after_cons, StableHlo.after_nil]
  rw [StableHlo.reshape_result_ne (h := h)]
theorem after_ops2_of_ne (V : Valuation τ sig (Elt F)) {b : Ref sig .tc} (h0 : b ≠ main_c) (h1 : b ≠ main_call0_v0) (h2 : b ≠ main_v4) :
    StableHlo.after (ops2 (F := F)) V (Proc.devRef .tc b) = V (Proc.devRef .tc b) := by
  simp only [ops2, StableHlo.after_cons, StableHlo.after_nil]
  rw [StableHlo.binary_result_ne (h := h2), StableHlo.unary_result_ne (h := h1), StableHlo.nullary_result_ne (h := h0)]
theorem after_ops3_of_ne (V : Valuation τ sig (Elt F)) {b : Ref sig .tc} (h6 : b ≠ main_v6) (h7 : b ≠ main_v7) :
    StableHlo.after (ops3 (F := F)) V (Proc.devRef .tc b) = V (Proc.devRef .tc b) := by
  simp only [ops3, StableHlo.after_cons, StableHlo.after_nil]
  rw [StableHlo.unary_result_ne (h := h7), StableHlo.unary_result_ne (h := h6)]
theorem after_ops3_v6 (V : Valuation τ sig (Elt F)) :
    StableHlo.after (ops3 (F := F)) V (Proc.devRef .tc main_v6)
      = extractStridedSlice S160x128 ![99840, 0] (V (Proc.devRef .tc main_arg2) : (⟨S100000x128, .f32⟩ : BufTy).Contents (Elt F)) slices_S100000x128_S160x128_99840_0 := by
  simp only [ops3, StableHlo.after_cons, StableHlo.after_nil]
  rw [StableHlo.unary_result_ne (h := (by decide : main_v6 ≠ main_v7)), StableHlo.unary_result]
theorem after_ops3_v7 (V : Valuation τ sig (Elt F)) :
    StableHlo.after (ops3 (F := F)) V (Proc.devRef .tc main_v7)
      = extractStridedSlice S160 ![99840] (V (Proc.devRef .tc main_arg3) : (⟨S100000, .f32⟩ : BufTy).Contents (Elt F)) slices_S100000_S160_99840 := by
  simp only [ops3, StableHlo.after_cons, StableHlo.after_nil]
  rw [StableHlo.unary_result, StableHlo.unary_result_ne (h := (by decide : main_arg3 ≠ main_v6))]
theorem after_ops4_of_ne (V : Valuation τ sig (Elt F)) {b : Ref sig .tc} (h0 : b ≠ main_c_0) (h1 : b ≠ main_c_1) (h9 : b ≠ main_v9) :
    StableHlo.after (ops4 (F := F)) V (Proc.devRef .tc b) = V (Proc.devRef .tc b) := by
  simp only [ops4, StableHlo.after_cons, StableHlo.after_nil]
  rw [StableHlo.binaryIndexed_result_ne (h := h9), StableHlo.nullary_result_ne (h := h1), StableHlo.nullary_result_ne (h := h0)]

/-! ## After the last rows of W and b are cut out: W7 g -/

/-- The two buffers the cut writes, in terms of the arguments as W5 holds them; -/
theorem W7_v6 (c : Dev nD) (g : OB (F := F) c) :
    W7 m c g (Proc.devRef .tc main_v6)
      = extractStridedSlice S160x128 ![99840, 0] (W5 m c (Proc.devRef .tc main_arg2) : (⟨S100000x128, .f32⟩ : BufTy).Contents (Elt F)) slices_S100000x128_S160x128_99840_0 :=
  (after_ops3_v6 (W6 m c g)).trans (by rw [W6_of_ne m c g (by decide : main_arg2 ≠ main_v5)])
theorem W7_v7 (c : Dev nD) (g : OB (F := F) c) :
    W7 m c g (Proc.devRef .tc main_v7)
      = extractStridedSlice S160 ![99840] (W5 m c (Proc.devRef .tc main_arg3) : (⟨S100000, .f32⟩ : BufTy).Contents (Elt F)) slices_S100000_S160_99840 :=
  (after_ops3_v7 (W6 m c g)).trans (by rw [W6_of_ne m c g (by decide : main_arg3 ≠ main_v5)])
/-- every other buffer as W6 g holds it: the big product's at g, the rest as W5 holds them. -/
theorem W7_of_ne (c : Dev nD) (g : OB (F := F) c) {b : Ref sig .tc} (h6 : b ≠ main_v6) (h7 : b ≠ main_v7) :
    W7 m c g (Proc.devRef .tc b) = W6 m c g (Proc.devRef .tc b) :=
  after_ops3_of_ne (W6 m c g) h6 h7
theorem W7_v5 (c : Dev nD) (g : OB (F := F) c) : W7 m c g (Proc.devRef .tc main_v5) = g :=
  (W7_of_ne m c g (by decide) (by decide)).trans (W6_v5 m c g)

/-- Off the big product's buffer, W7 does not depend on what that buffer holds. -/
theorem W7_indep (c : Dev nD) (g g' : OB (F := F) c) {b : Ref sig .tc} (h : b ≠ main_v5) :
    W7 m c g (Proc.devRef .tc b) = W7 m c g' (Proc.devRef .tc b) := by
  by_cases h6 : b = main_v6
  · subst h6; rw [W7_v6, W7_v6]
  by_cases h7 : b = main_v7
  · subst h7; rw [W7_v7, W7_v7]
  rw [W7_of_ne m c g h6 h7, W7_of_ne m c g' h6 h7, W6_of_ne m c g h, W6_of_ne m c g' h]

/-! ## The tail region: entered at W7 g, left at W8 g, whatever g -/

/-- The big product's buffer is no array of the tail's pipeline. -/
theorem v5_not_arr3 : ∀ w : Fin cfg3.W, Pipeline.arrRef spec3 w ≠ main_v5 := by decide

theorem W8_arr (c : Dev nD) (g : OB (F := F) c) (w : Fin cfg3.W) :
    W8 m c g (Proc.devRef .tc (Pipeline.arrRef spec3 w)) = (dat2 m c).arrAt w cfg3.N := by
  unfold W8; exact Pipeline.withArrays_arr spec3 launch3.win.arr_inj c _ _ w
theorem W8_of_ne (c : Dev nD) (g : OB (F := F) c) (b : Ref sig .tc) (hb : ∀ w, Pipeline.arrRef spec3 w ≠ b) :
    W8 m c g (Proc.devRef .tc b) = W7 m c g (Proc.devRef .tc b) := by
  unfold W8; exact Pipeline.withArrays_of_ne spec3 c _ _ b hb

theorem hA2 (c : Dev nD) (g : OB (F := F) c) (w : Fin cfg3.W) :
    (pdats m 2 c).A w = W7 m c g (Proc.devRef .tc (Pipeline.arrRef (Pipeline.pin (pcfgs (F := F)) adm 2).spec w)) :=
  (Tail.A_eq (Name := ℕ) (U := UU) (Lvl := ℕ) (V7 m) (Bset (F := F) c) c w).trans (W7_indep m c _ g (v5_not_arr3 w))
theorem hΦ2 (c : Dev nD) (t : Fin ((Pipeline.pin (pcfgs (F := F)) adm 2).N + 1)) :
    (pdats m 2 c).Φ t = Pipeline.scopedRest (Ix := HIx 1) (Name := ℕ) (U := UU) (Lvl := ℕ) (Val := Elt F) (Pipeline.pin (pcfgs (F := F)) adm 2).spec c := rfl
theorem howed2 (c : Dev nD) (t : Fin ((Pipeline.pin (pcfgs (F := F)) adm 2).N + 1)) : (pdats m 2 c).owed t = 0 := rfl
theorem hq2 (c : Dev nD) (w : Fin (Pipeline.pin (pcfgs (F := F)) adm 2).W) : (pdats m 2 c).q w = fullShare := rfl
theorem hrec2 (c : Dev nD) (t : Fin ((Pipeline.pin (pcfgs (F := F)) adm 2).N + 1)) : (pdats m 2 c).recorded t = Bset (F := F) c := rfl
theorem hF2 (c : Dev nD) (g : OB (F := F) c) (w : Fin cfg3.W) :
    (pdats m 2 c).arrAt w (Pipeline.pin (pcfgs (F := F)) adm 2).N = W8 m c g (Proc.devRef .tc (Pipeline.arrRef (Pipeline.pin (pcfgs (F := F)) adm 2).spec w)) :=
  (W8_arr m c g w).symm
theorem hrest2 (c : Dev nD) (g : OB (F := F) c) (b : Ref sig .tc) (hb : b ∉ Finset.univ.image (Pipeline.arrRef (Pipeline.pin (pcfgs (F := F)) adm 2).spec)) :
    W8 m c g (Proc.devRef .tc b) = W7 m c g (Proc.devRef .tc b) :=
  W8_of_ne m c g b fun w e => hb (Finset.mem_image.mpr ⟨w, Finset.mem_univ _, e⟩)

/-! ## The valuations off the buffers each step writes -/

theorem W1_of_ne (c : Dev nD) {b : Ref sig .tc} (h : b ≠ main_v0) : W1 m c (Proc.devRef .tc b) = W0 m c (Proc.devRef .tc b) :=
  after_ops0_of_ne (W0 m c) h
theorem W2m_of_ne (c : Dev nD) {b : Ref sig .tc} (h : b ≠ main_v1) : W2m m c (Proc.devRef .tc b) = W1 m c (Proc.devRef .tc b) :=
  Function.update_of_ne (StableHlo.devRef_ne_of_ne h) _ _
theorem W3_of_ne (c : Dev nD) {b : Ref sig .tc} (h : b ≠ main_v2) : W3 m c (Proc.devRef .tc b) = W2m m c (Proc.devRef .tc b) :=
  after_ops1_of_ne (W2m m c) h
theorem W5_of_ne (c : Dev nD) {b : Ref sig .tc} (h0 : b ≠ main_c) (h1 : b ≠ main_call0_v0) (h2 : b ≠ main_v4) :
    W5 m c (Proc.devRef .tc b) = W4 m c (Proc.devRef .tc b) :=
  after_ops2_of_ne (W4 m c) h0 h1 h2
theorem W9_of_ne (c : Dev nD) (g : OB (F := F) c) {b : Ref sig .tc} (h0 : b ≠ main_c_0) (h1 : b ≠ main_c_1) (h9 : b ≠ main_v9) :
    W9 m c g (Proc.devRef .tc b) = W8 m c g (Proc.devRef .tc b) :=
  after_ops4_of_ne (W8 m c g) h0 h1 h9

/-! ## The arguments end as launched -/

/-- The buffers some step of the program writes. -/
abbrev written : List (Ref sig .tc) :=
  [main_c_0, main_c_1, main_v9, main_v3, main_v6, main_v7, main_v8, main_v5, main_c, main_call0_v0, main_v4, main_v2, main_v1, main_v0]

/-- A buffer no step writes ends as launched: no host operation writes it, it is no array of the pooling or of the
    tail pipeline, and it is neither the rows' buffer nor the big product's. -/
theorem W9_unwritten (c : Dev nD) (g : OB (F := F) c) (b : Ref sig .tc) (hb : ∀ r ∈ written, b ≠ r) :
    W9 m c g (Proc.devRef .tc b) = m ((c.tc : Thread nD τ).loc b) := by
  have h1 : b ≠ main_c_0 := hb _ (by decide)
  have h2 : b ≠ main_c_1 := hb _ (by decide)
  have h3 : b ≠ main_v9 := hb _ (by decide)
  have h4 : b ≠ main_v3 := hb _ (by decide)
  have h5 : b ≠ main_v6 := hb _ (by decide)
  have h6 : b ≠ main_v7 := hb _ (by decide)
  have h7 : b ≠ main_v8 := hb _ (by decide)
  have h8 : b ≠ main_v5 := hb _ (by decide)
  have h9 : b ≠ main_c := hb _ (by decide)
  have h10 : b ≠ main_call0_v0 := hb _ (by decide)
  have h11 : b ≠ main_v4 := hb _ (by decide)
  have h12 : b ≠ main_v2 := hb _ (by decide)
  have h13 : b ≠ main_v1 := hb _ (by decide)
  have h14 : b ≠ main_v0 := hb _ (by decide)
  calc W9 m c g (Proc.devRef .tc b)
    _ = W8 m c g (Proc.devRef .tc b) := W9_of_ne m c g h1 h2 h3
    _ = W7 m c g (Proc.devRef .tc b) := W8_of_ne m c g b (fun w => by
          match w with
          | ⟨0, _⟩ => exact fun e => h4 e.symm
          | ⟨1, _⟩ => exact fun e => h5 e.symm
          | ⟨2, _⟩ => exact fun e => h6 e.symm
          | ⟨3, _⟩ => exact fun e => h7 e.symm)
    _ = W6 m c g (Proc.devRef .tc b) := W7_of_ne m c g h5 h6
    _ = W5 m c (Proc.devRef .tc b) := W6_of_ne m c g h8
    _ = W4 m c (Proc.devRef .tc b) := W5_of_ne m c h9 h10 h11
    _ = W3 m c (Proc.devRef .tc b) := W4_of_ne m c b (fun w => by
          match w with
          | ⟨0, _⟩ => exact fun e => h12 e.symm
          | ⟨1, _⟩ => exact fun e => h4 e.symm)
    _ = W2m m c (Proc.devRef .tc b) := W3_of_ne m c h12
    _ = W1 m c (Proc.devRef .tc b) := W2m_of_ne m c h13
    _ = W0 m c (Proc.devRef .tc b) := W1_of_ne m c h14
    _ = m ((c.tc : Thread nD τ).loc b) := rfl

theorem W9_main_arg0 (c : Dev nD) (g : OB (F := F) c) : W9 m c g (Proc.devRef .tc main_arg0) = m ((c.tc : Thread nD τ).loc main_arg0) :=
  W9_unwritten m c g main_arg0 (by decide)
theorem W9_main_arg1 (c : Dev nD) (g : OB (F := F) c) : W9 m c g (Proc.devRef .tc main_arg1) = m ((c.tc : Thread nD τ).loc main_arg1) :=
  W9_unwritten m c g main_arg1 (by decide)
theorem W9_main_arg2 (c : Dev nD) (g : OB (F := F) c) : W9 m c g (Proc.devRef .tc main_arg2) = m ((c.tc : Thread nD τ).loc main_arg2) :=
  W9_unwritten m c g main_arg2 (by decide)
theorem W9_main_arg3 (c : Dev nD) (g : OB (F := F) c) : W9 m c g (Proc.devRef .tc main_arg3) = m ((c.tc : Thread nD τ).loc main_arg3) :=
  W9_unwritten m c g main_arg3 (by decide)

end Cert.Kernel.Tc

end
-- ==== Proof.KB.TcSegs.lean ====
/-
  The pipelines' program as segments: the gathered rows regrouped, the pooling region, the bias padded, the big
  product's region, the last rows of W and b cut out, the tail region, the tail's columns written over the big product.
  The big product's region is entered with its output buffer taken out of the unscoped rest into the body's invariant
  (with the kernel's four semaphores), and left with that buffer at some contents of the stated property.
-/
import proofs.«204097_g52673478918828_cont_9to1c4b_838_31_alg».proof.Proof.KB.TcRun
import proofs.«204097_g52673478918828_cont_9to1c4b_838_31_alg».proof.Proof.KB.TcChain
import proofs.«204097_g52673478918828_cont_9to1c4b_838_31_alg».proof.Proof.KB.TcChainFacts

noncomputable section

namespace Cert.Kernel.Tc

open Cert.Kernel Cert.Kernel.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

/-! ## The pooling region and the tail region -/

set_option backward.isDefEq.respectTransparency.types false in
/-- The pooling region: entered at W3, left at W4. -/
def reg0 : Pipeline.RegionSeg (pcfgs (F := F)) adm (pdats m) (none : HIx 1) defs₀ 𝒱₀ (K (F := F)).L (K (F := F)).lev 0 :=
  regionSeg (pdats m) 0 launch1.win launch1.block_pos launch1.arr_whole launch1.stage_whole (W3 m) (W4 m)
    (hA0 m) (hΦ0 m) (howed0 m) (hq0 m) (hrec0 m)
    (fun c => (Pool.body_obligation (Name := ℕ) (U := UU) (Lvl := ℕ) (V3 m) (Bset (F := F) c) (none : HIx 1) c).loose) (hF0 m) (hrest0 m)

set_option backward.isDefEq.respectTransparency.types false in
set_option maxHeartbeats 1000000 in
/-- The tail region: entered at W7 g, left at W8 g, whatever the big product's buffer g. -/
def reg2 : Pipeline.RegionSeg (pcfgs (F := F)) adm (pdats m) (none : HIx 1) defs₀ 𝒱₀ (K (F := F)).L (K (F := F)).lev 2 :=
  regionSegEx (pdats m) 2 launch3.win launch3.block_pos launch3.arr_whole launch3.stage_whole (γ := fun c => OB (F := F) c) (φ := fun c g => OkG m c g) (Wpre := fun c g => W7 m c g) (Wpost := fun c g => W8 m c g)
    (hA2 m) (hΦ2 m) (howed2 m) (hq2 m) (hrec2 m)
    (fun c => (Tail.body_obligation (Name := ℕ) (U := UU) (Lvl := ℕ) (V7 m) (Bset (F := F) c) (none : HIx 1) c).loose) (hF2 m) (hrest2 m)

/-! ## The big product's region -/

/-- The unscoped buffers that are no array of the big product's pipeline. -/
abbrev restSet : Finset (Ref sig .tc) := (Finset.univ.filter fun b : Ref sig .tc => ¬ b.isScoped) \ Finset.univ.image (Pipeline.arrRef spec2)

theorem v5_mem_rest : main_v5 ∈ restSet := by decide

/-- The rest without the output buffer. -/
abbrev restZ (c : Dev nD) (Vv : (b : Ref sig .tc) → Buf (Elt F) ((c : Thread nD τ).loc b)) : sProp 𝕄 :=
  bigSep (restSet.erase main_v5) fun b => ((c : Thread nD τ).loc b) ↦{fullShare} Vv b

theorem rest_split (c : Dev nD) (Vv : (b : Ref sig .tc) → Buf (Elt F) ((c : Thread nD τ).loc b)) :
    (Pipeline.unscopedRest (Ix := HIx 1) (Name := ℕ) (U := UU) (Lvl := ℕ) (Pipeline.pin (pcfgs (F := F)) adm 1).spec c Vv : sProp 𝕄)
      = iprop((((c : Thread nD τ).loc main_v5) ↦{fullShare} Vv main_v5) ∗ restZ c Vv) := by
  unfold Pipeline.unscopedRest
  exact bigSep_erase v5_mem_rest

/-- The recorded pairs of the ring's waits are at the index of level 0. -/
theorem hB (c : Dev nD) : ∀ n : ℕ, (Mm.cellR n, (none : HIx 1)) ∈ Bset (F := F) c := fun n => by
  show (K (F := F)).lev _ none ≤ 8
  rw [SparseCore.Cfg.lev_none]; exact Nat.zero_le _

set_option backward.isDefEq.respectTransparency.types false in
def reg1 : Pipeline.RegionSeg (pcfgs (F := F)) adm (pdats m) (none : HIx 1) defs₀ 𝒱₀ (K (F := F)).L (K (F := F)).lev 1 where
  win := launch2.win.to₀
  block_pos := launch2.block_pos
  stage_whole := launch2.stage_whole
  K := Fin 4
  osem := Mm.osem
  ho := Mm.ownSemFacts2
  hbody c := Mm.body_obligation (Name := ℕ) (U := UU) (Lvl := ℕ) (V5 m) (none : HIx 1) (Bset (F := F) c) c (hB c)
  hwaits := Pipeline.hwaits_of_owed_zero _ _ _ _ (K (F := F)).L (K (F := F)).lev 1 (fun _ _ => rfl)
  pre c := iprop(StableHlo.held (c.tc : Thread nD τ) (Pipeline.ucRefs τ sig) (W5 m c) ∗ R (F := F) c)
  post c := iprop(∃ g : OB (F := F) c, ⌜OkG m c g⌝ ∗ StableHlo.held (c.tc : Thread nD τ) (Pipeline.ucRefs τ sig) (W6 m c g) ∗ R (F := F) c)
  X c := iprop((((c : Thread nD τ).loc main_v5) ↦{fullShare} V5 m c main_v5) ∗ Pipeline.ownSems0 (Ix := HIx 1) (Name := ℕ) (U := UU) (Lvl := ℕ) (Val := Elt F) (τ := τ) Mm.osem c)
  Y c := iprop(∃ g : OB (F := F) c, ⌜OkG m c g⌝ ∗ (((c : Thread nD τ).loc main_v5) ↦{fullShare} g))
  Z c := restZ c (V5 m c)
  hentry c := by
    have hsplit := Pipeline.arrays_of_unscopedBufs (p := 1) (pcfgs (F := F)) adm (pdats m) launch2.win launch2.arr_whole c
      ((pdats m 1 c).share_full fun _ => rfl) (V5 m c) (hA1 m c)
    rw [Pipeline.unscopedBufs_held, rest_split] at hsplit
    iintro ⟨⟨Hub, HO⟩, Hsem, -⟩
    ihave H := hsplit $$ Hub
    icases H with ⟨Ha, Hv5, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c (0 : CellTallies nD τ sig (HIx 1)) (B := Bset (F := F) c) (B' := (pdats m 1 c).bound none 0)
        (by unfold Pipeline.Dat.bound; exact Set.subset_union_left))
      iexact HO
    isplitl [Hv5 Hsem]; · isplitl [Hv5] <;> iassumption
    iexact Hrest
  hin c := by
    rw [show (pdats m 1 c).Φ 0 = Mm.PhiN (V5 m) (none : HIx 1) c 0 from rfl]
    iintro ⟨⟨Hv5, Hsem⟩, -, Hr⟩
    iapply (Mm.hin (Name := ℕ) (U := UU) (Lvl := ℕ) (V5 m) (none : HIx 1) c)
    isplitl [Hv5]; · iexact Hv5
    isplitl [Hsem] <;> iassumption
  hout c := by
    rw [show (pdats m 1 c).Φ (Fin.last _) = Mm.PhiN (V5 m) (none : HIx 1) c 49 from rfl]
    exact Mm.hout (Name := ℕ) (U := UU) (Lvl := ℕ) (V5 m) (none : HIx 1) c
  hexit c := by
    have hjoin : ∀ g : OB (F := F) c, iprop((pdats m 1 c).arrays ((pdats m 1 c).arrAt · (Pipeline.pin (pcfgs (F := F)) adm 1).N)
          ∗ (((c : Thread nD τ).loc main_v5) ↦{fullShare} g) ∗ restZ c (V5 m c))
        ⊢ (StableHlo.held (c.tc : Thread nD τ) (Pipeline.ucRefs τ sig) (W6 m c g) : sProp 𝕄) := fun g => by
      have h := Pipeline.unscopedBufs_of_arrays (p := 1) (pcfgs (F := F)) adm (Ix := HIx 1) (Name := ℕ) (U := UU) (Lvl := ℕ)
        launch2.win launch2.arr_whole c (pdats m) ((pdats m 1 c).share_full fun _ => rfl)
        (fun b => W6 m c g (Proc.devRef .tc b)) (fun b => W6 m c g (Proc.devRef .tc b)) ((pdats m 1 c).arrAt · (Pipeline.pin (pcfgs (F := F)) adm 1).N)
        (fun w => (arr1 m c w _).trans (W6_arr m c g w).symm) (fun _ _ => rfl)
      rw [Pipeline.unscopedBufs_held, rest_split] at h
      refine BIBase.Entails.trans ?_ h
      iintro ⟨Ha, Hv5, Hrest⟩
      isplitl [Ha]; · iexact Ha
      isplitl [Hv5]
      · iapply (Entails.of_eq (by rw [W6_v5]))
        iexact Hv5
      iapply (Entails.of_eq (show (restZ c (V5 m c) : sProp 𝕄) = restZ c (fun b => W6 m c g (Proc.devRef .tc b)) from
        bigSep_congr fun b hb => by
          show ((((c : Thread nD τ).loc b) ↦{fullShare} V5 m c b : sProp 𝕄)) = (((c : Thread nD τ).loc b) ↦{fullShare} W6 m c g (Proc.devRef .tc b))
          rw [W6_of_ne m c g (Finset.ne_of_mem_erase hb)]))
      iexact Hrest
    iintro ⟨Ha, HO, ⟨%g, %hg, Hv5⟩, Hrest⟩
    imodintro
    iexists g; isplitr; · ipureintro; exact hg
    isplitl [Ha Hv5 Hrest]
    · iapply (hjoin g)
      isplitl [Ha]; · iexact Ha
      isplitl [Hv5] <;> iassumption
    unfold Pipeline.Dat.owesAt
    iapply (Pipeline.owesWithin_mono c (0 : CellTallies nD τ sig (HIx 1)) (B := (pdats m 1 c).bound none (Fin.last _)) (B' := Bset (F := F) c)
      (by unfold Pipeline.Dat.bound; exact Set.union_subset (fun _ h => h) (waitPairs_sub _ c)))
    iexact HO

/-! ## The segments -/

/-- A stretch of host operations from a definite valuation. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

abbrev segs : List (Pipeline.Seg (pcfgs (F := F)) adm (pdats m) (none : HIx 1) defs₀ 𝒱₀ (K (F := F)).L (K (F := F)).lev) :=
  [ .host (hseg ops1 ops1_sub ops1_fresh (W2m m)),
    .region (reg0 m),
    .host (hseg ops2 ops2_sub ops2_fresh (W4 m)),
    .region (reg1 m),
    .host (hostSegEx (γ := fun c => OB (F := F) c) (OkG m) ops3 ops3_sub ops3_fresh (W6 m)),
    .region (reg2 m),
    .host (hostSegEx (γ := fun c => OB (F := F) c) (OkG m) ops4 ops4_sub ops4_fresh (W8 m)) ]

/-- The pipelines' program IS the run of the segments. -/
theorem tail_run : tail (F := F) = Pipeline.Seg.run (segs m) := by
  chain_rfl

theorem segs_nodup : (Pipeline.Seg.pipes (segs m)).Nodup := by
  simp only [segs, Pipeline.Seg.pipes_host, Pipeline.Seg.pipes_region, Pipeline.Seg.pipes_nil]; decide

/-- What the TensorCore ends with: contents g of the stated property, every unscoped buffer at W9 g. -/
abbrev T9 (c : Dev nD) : sProp 𝕄 :=
  iprop(∃ g : OB (F := F) c, ⌜OkG m c g⌝ ∗ StableHlo.held (c.tc : Thread nD τ) (Pipeline.ucRefs τ sig) (W9 m c g))

theorem segs_chain : Pipeline.Seg.Chains (fun c => iprop(StableHlo.held (c.tc : Thread nD τ) (Pipeline.ucRefs τ sig) (W2m m c) ∗ R (F := F) c)) (segs m)
    (fun c => iprop(T9 m c ∗ R (F := F) c)) :=
  ⟨fun _ => .rfl, fun _ => .rfl, fun _ => .rfl, fun _ => .rfl, fun _ => .rfl, fun _ => .rfl, fun _ => .rfl, fun c => by
    change iprop(∃ g : OB (F := F) c, ⌜OkG m c g⌝ ∗ StableHlo.held (c.tc : Thread nD τ) (Pipeline.ucRefs τ sig) (W9 m c g) ∗ R (F := F) c) ⊢ _
    iintro ⟨%g, %hg, Hh, HR⟩
    isplitl [Hh]
    · iexists g; isplitr; · ipureintro; exact hg
      iexact Hh
    iexact HR⟩

end Cert.Kernel.Tc

end
-- ==== Proof.KB.ScTile.lean ====
/-
  The SparseCore side of the launch, part two: one worker's run, at a symbolic place.

  Worker (c, s), number w = 2 s + c, fetches entries [640 w, 640 (w + 1)) of the index array into its index scratch,
  gathers the table rows they name into its row scratch by one indirect gather, and writes the row scratch to rows
  [640 w, 640 (w + 1)) of the result; each copy is waited for before the next is issued, each on its own semaphore.
  The entries are in range by the precondition, as the gather asks of the list at that moment; the written piece is read
  back index by index and found to be the one whole-array function `gOut` on the piece.
-/
import proofs.«204097_g52673478918828_cont_9to1c4b_838_31_alg».proof.Proof.KB.ScSetup

noncomputable section

namespace Cert.Kernel.Sc

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

variable (I0 : (d : Dev nD) → Buf (Elt F) (iLoc d)) (T0 : (d : Dev nD) → Buf (Elt F) (tLoc d)) (O0 : (d : Dev nD) → Buf (Elt F) (oLoc d))

local notation "iV" => (Memref.whole Cert.Kernel.main_v0_scv : Memref Cert.Kernel.sig Kind.scVector Space.hbm Cert.Kernel.S20480 EltTy.i32)
local notation "tV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S20480x128 EltTy.f32)
local notation "sV" => (Memref.whole Cert.Kernel.cc0_scratch0 : Memref Cert.Kernel.sig Kind.scVector Space.vmem Cert.Kernel.S640 EltTy.i32)
local notation "rV" => (Memref.whole Cert.Kernel.cc0_scratch1 : Memref Cert.Kernel.sig Kind.scVector Space.vmem Cert.Kernel.S640x128 EltTy.f32)

/-! ## The worker's place and its views -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's number. -/
abbrev wL (L : grid0.Coords) : Fin 32 := wk (cL L) (jL L)

abbrev irowK (L : grid0.Coords) : Rect S20480 := Rect.unit (s := S20480) (k0_off1 L) S640.size (k0_off1_inb L)
abbrev orowK (L : grid0.Coords) : Rect S20480x128 := Rect.unit (s := S20480x128) (k0_off2 L) S640x128.size (k0_off2_inb L)
/-- The worker's piece of the index array and of the result, and the whole table, as the kernel addresses them. -/
abbrev iRowK (L : grid0.Coords) : Memref sig .scVector .hbm S640 .i32 := (iV).slice (irowK L) (fun _ => rfl)
abbrev oRowK (L : grid0.Coords) : Memref sig .scVector .hbm S640x128 .f32 := (oV).slice (orowK L) (fun _ => rfl)
abbrev tAllK : Memref sig .scVector .hbm S100000x128 .f32 :=
  (tV).slice (Rect.unit (s := S100000x128) ![0, 0] S100000x128.size inb_S100000x128_S100000x128_0_0) (fun _ => rfl)

/-- Unit-stride rectangles of equal offsets and sizes are equal. -/
theorem rect_unit_eq {s : Shape} {off off' size size' : Fin s.rank → Nat} {inb : ∀ a, off a + size a ≤ s.size a}
    {inb' : ∀ a, off' a + size' a ≤ s.size a} (ho : off = off') (hs : size = size') :
    Rect.unit (s := s) off size inb = Rect.unit off' size' inb' := by
  subst ho; subst hs; rfl

/-- The kernel's slice of the index array at offset 640 (2 s + c) is piece w of its cut into 32. -/
theorem irowK_eq : irowK L = irow (wL L) := by
  refine rect_unit_eq ?_ ?_
  · rw [k0_off1_eq]; funext a
    match a with
    | 0 => simp [Shape.partIx, Shape.partSize, wk] <;> omega
  · funext a
    match a with
    | 0 => simp [Shape.partSize]
theorem orowK_eq : orowK L = orow (wL L) := by
  refine rect_unit_eq ?_ ?_
  · rw [k0_off2_eq]; funext a
    match a with
    | 0 => simp [Shape.partIx, Shape.partSize, wk] <;> omega
    | 1 => simp [Shape.partIx, Shape.partSize]
  · funext a
    match a with
    | 0 => simp [Shape.partSize]
    | 1 => simp [Shape.partSize]

theorem set_iRowK : (iRowK L).view.set = iRowSet (wL L) := by
  show ((iV).view.slice (irowK L)).set = ((iV).view.slice (irow (wL L))).set
  rw [irowK_eq]
theorem set_oRowK : (oRowK L).view.set = oRowSet (wL L) := by
  show ((oV).view.slice (orowK L)).set = ((oV).view.slice (orow (wL L))).set
  rw [orowK_eq]

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three semaphores: the index fetch's, the gather's, the write-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the copies carry -/

/-- The index scratch written whole reads back as what was written. -/
theorem sV_read_write (fs : Buf (Elt F) ((V d (cV L) (jV L)).loc cc0_scratch0)) (pay : S640.Idx → Elt F .i32) :
    (sV).view.read (Elt F) (View.write (Elt F) (sV).view fs pay Finset.univ) = pay := by
  have h : View.write (Elt F) (sV).view fs pay Finset.univ = pay := View.write_whole_univ (Val := Elt F) cc0_scratch0 fs pay
  rw [h]; rfl
/-- The row scratch written whole reads back as what was written. -/
theorem rV_read_write (fr : Buf (Elt F) ((V d (cV L) (jV L)).loc cc0_scratch1)) (pay : S640x128.Idx → Elt F .f32) :
    (rV).view.read (Elt F) (View.write (Elt F) (rV).view fr pay Finset.univ) = pay := by
  have h : View.write (Elt F) (rV).view fr pay Finset.univ = pay := View.write_whole_univ (Val := Elt F) cc0_scratch1 fr pay
  rw [h]; rfl

/-- The worker's slice of the index array reads entry `x` of the slice off the array at the slice's placement of `x`. -/
theorem iRowK_read (f : Buf (Elt F) (iLoc d)) (x : S640.Idx) : (iRowK L).view.read (Elt F) f x = f ((irowK L).emb x) :=
  (View.read_apply _ _).trans (cast_eq _ _)

/-- The entries the gather reads are in range: what the index fetch landed in the scratch is the worker's piece of the
    index array, every entry of which names a row of the table. -/
theorem inb_of_pre (hpre : PreOK I0) (fs : Buf (Elt F) ((V d (cV L) (jV L)).loc cc0_scratch0)) (pay : S640.Idx → Elt F .i32)
    (hpay : pay = (iRowK L).view.read (Elt F) (I0 d)) :
    ∀ x, ((sV).view.read (Elt F) (View.write (Elt F) (sV).view fs pay Finset.univ) x).toNat < S100000x128.size gathers_S100000x128_S640x128.axis := by
  intro x
  rw [sV_read_write, hpay, iRowK_read]
  exact hpre d _

/-- The whole table, as the kernel slices it (offsets zero, full sizes), reads entry `y` off the table at `y`. -/
theorem tAllK_read (f : Buf (Elt F) (tLoc d)) (y : S100000x128.Idx) : (tAllK).view.read (Elt F) f y = f y := by
  refine ((View.read_apply _ _).trans (cast_eq _ _)).trans (congrArg f ?_)
  funext a; apply Fin.ext
  show ((Rect.unit (s := S100000x128) ![0, 0] S100000x128.size inb_S100000x128_S100000x128_0_0).emb y a : ℕ) = y a
  rw [Rect.emb_apply]
  match a with
  | 0 => simp
  | 1 => simp

/-- Row-major numbering of a one-axis shape is the coordinate itself. -/
theorem rowMajor_symm_val (z : Fin S640.numel) : ((S640.rowMajor.symm z) 0).val = z.val :=
  (Shape.rowMajor_val_one (d := ![640]) (S640.rowMajor.symm z)).symm.trans (congrArg Fin.val (S640.rowMajor.apply_symm_apply z))

/-- THE VALUE. What the write-out leaves in the worker's piece of the result is `gOut` there: element (k, l) of the piece
    is element l of the row scratch's row k, which the gather filled with element l of the table row that entry k of the
    index scratch names, which the index fetch filled with entry 640 w + k of the index array; and (k, l) of the piece is
    (640 w + k, l) of the result. -/
theorem out_val (hpre : PreOK I0) (fs : Buf (Elt F) ((V d (cV L) (jV L)).loc cc0_scratch0)) (fr : Buf (Elt F) ((V d (cV L) (jV L)).loc cc0_scratch1))
    (pay0 : S640.Idx → Elt F .i32) (hpay0 : pay0 = (iRowK L).view.read (Elt F) (I0 d))
    (hin : ∀ x, ((sV).view.read (Elt F) (View.write (Elt F) (sV).view fs pay0 Finset.univ) x).toNat < S100000x128.size gathers_S100000x128_S640x128.axis)
    (G : S640x128.Idx → Elt F .f32)
    (hG : G = SparseCore.gatherPayload gathers_S100000x128_S640x128 ((tAllK).view.read (Elt F) (T0 d))
        (SparseCore.rows ((sV).view.read (Elt F) (View.write (Elt F) (sV).view fs pay0 Finset.univ)) rfl hin))
    (pay2 : S640x128.Idx → Elt F .f32)
    (hpay2 : pay2 = (rV).view.read (Elt F) ((rV).view.writes (Elt F) fr [⟨Rect.whole S640x128, G⟩])) :
    ∀ x ∈ oRowSet (wL L), (oRowK L).view.writes (Elt F) (O0 d) [⟨Rect.whole S640x128, pay2⟩] x = gOut I0 T0 d x := by
  intro x hx
  rw [← set_oRowK] at hx
  simp only [View.set, Finset.mem_map, Finset.mem_univ, true_and] at hx
  obtain ⟨j, rfl⟩ := hx
  have e1 : (oRowK L).view.writes (Elt F) (O0 d) [⟨Rect.whole S640x128, pay2⟩] ((oRowK L).view.emb j) = pay2 j := by
    have h := View.read_writes_cons_emb (oRowK L).view (O0 d) (Rect.whole S640x128) pay2 [] j
    rw [Rect.emb_whole_apply] at h
    exact ((View.read_apply _ _).trans (cast_eq _ _)).symm.trans h
  have e2 : pay2 j = G j := by
    rw [hpay2]
    have h : (rV).view.read (Elt F) ((rV).view.writes (Elt F) fr [⟨Rect.whole S640x128, G⟩]) ((Rect.whole S640x128).emb j) = G j :=
      View.read_writes_cons_emb (rV).view fr (Rect.whole S640x128) G [] j
    rw [Rect.emb_whole_apply] at h
    exact h
  rw [e1, e2, hG]
  unfold SparseCore.gatherPayload
  rw [tAllK_read]
  show T0 d _ = T0 d (ix2 (gRow I0 d (((oRowK L).view.emb j) 0)) (((oRowK L).view.emb j) 1))
  refine congrArg (T0 d) ?_
  funext a
  match a with
  | 0 =>
    apply Fin.ext
    -- the table row the gather read for row (j 0) of the scratch
    have h0 : (gathers_S100000x128_S640x128.idx (SparseCore.rows ((sV).view.read (Elt F) (View.write (Elt F) (sV).view fs pay0 Finset.univ)) rfl hin) j 0).val
        = (I0 d ((irowK L).emb (S640.rowMajor.symm ((j 0).cast rfl)))).toNat := by
      have h := congrArg Fin.val (Shape.Gathers.idx_axis gathers_S100000x128_S640x128
        (SparseCore.rows ((sV).view.read (Elt F) (View.write (Elt F) (sV).view fs pay0 Finset.univ)) rfl hin) j)
      refine h.trans ?_
      show (((sV).view.read (Elt F) (View.write (Elt F) (sV).view fs pay0 Finset.univ)) (S640.rowMajor.symm ((j 0).cast rfl))).toNat = _
      rw [sV_read_write, hpay0, iRowK_read]
    -- the entry of the index array that is: entry 640 w + (j 0)
    have hix : (irowK L).emb (S640.rowMajor.symm ((j 0).cast rfl)) = ix1 (((oRowK L).view.emb j) 0) := by
      funext b
      match b with
      | 0 =>
        apply Fin.ext
        show (irowK L).off 0 + (irowK L).stride 0 * ((S640.rowMajor.symm ((j 0).cast rfl)) 0).val
          = (orowK L).off 0 + (orowK L).stride 0 * (j 0).val
        rw [rowMajor_symm_val]
        show k0_off1 L 0 + 1 * (j 0).val = k0_off2 L 0 + 1 * (j 0).val
        rw [k0_off1_eq, k0_off2_eq]; simp
    rw [h0, hix]
    have hp := hpre d (ix1 (((oRowK L).view.emb j) 0))
    exact (Nat.min_eq_left (Nat.le_of_lt_succ hp)).symm
  | 1 =>
    apply Fin.ext
    have h1 := Shape.Gathers.idx_of_ne gathers_S100000x128_S640x128
      (SparseCore.rows ((sV).view.read (Elt F) (View.write (Elt F) (sV).view fs pay0 Finset.univ)) rfl hin) j 1 (by decide)
    refine h1.trans ?_
    show (j 1).val = (orowK L).off 1 + (orowK L).stride 1 * (j 1).val
    show (j 1).val = k0_off2 L 1 + 1 * (j 1).val
    rw [k0_off2_eq]; simp

/-! ## The worker's run -/

set_option maxHeartbeats 4000000 in
/-- The run of worker `(L 0, L 1)` of device `d`: the index fetch and its wait, the indirect gather and its wait (its
    entries in range by the precondition), the write-out and its wait; the piece of the result it leaves is `gOut` there. -/
theorem tile_body [FloatOps F] (hF : (K (F := F)).Facts) (hpre : PreOK I0) (O : CellTallies nD τ sig (HIx 1)) (W : Waits sig (HIx 1)) (hO : ∀ g, O g none = 0) :
    iprop(levAts (K (F := F)).L (K (F := F)).lev ∗ emp
        ∗ (iRowPts (U := U) I0 d (wL L) ∗ tShPts (U := U) T0 d (cL L) (jL L) ∗ oRowPts (U := U) d (wL L) (O0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iV (Memref.isWhole_whole _) tV (Memref.isWhole_whole _) oV (Memref.isWhole_whole _)
            sV (Memref.isWhole_whole _) rV (Memref.isWhole_whole _) cc0_scratch2 cc0_scoped0 cc0_scoped1)
          fun _ => iprop((iRowPts (U := U) I0 d (wL L) ∗ tShPts (U := U) T0 d (cL L) (jL L) ∗ oRowPts (U := U) d (wL L) (gOut I0 T0 d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  -- the index fetch and its wait
  sl_exec
  -- the gather's entries are in range at the list's contents then, whatever the scratch held before the fetch
  have hin1 : ∀ fs', ∀ x, ((sV).view.read (Elt F) (View.write (Elt F) (sV).view fs' (tile_body.sl.dma0 I0 d L) Finset.univ) x).toNat < S100000x128.size gathers_S100000x128_S640x128.axis :=
    fun fs' => inb_of_pre I0 d L hpre fs' _ rfl
  -- the gather and its wait, the write-out and its wait
  sl_exec
  sl_step
  isplitl [Hi' Hx' Ho']
  · isplitl [Hi']; · iapply (Entails.of_eq (pts_iRowK (F := F) d L _)); iexact Hi'
    isplitl [Hx']; · iexact Hx'
    iapply (Entails.of_eq (pointsTo_congr (out_val I0 T0 O0 d L hpre fs fr (tile_body.sl.dma0 I0 d L) rfl (hin1 fs)
      (tile_body.sl.gather0 I0 T0 d L fs hin1) rfl (tile_body.sl.dma0_1 I0 T0 d L fs fr hin1) rfl)))
    iapply (Entails.of_eq (pts_oRowK (F := F) d L _)); iexact Ho'
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_k (coordsV c s)
          iV (Memref.isWhole_whole _) tV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The kernel's obligation to the launch: every worker's task, from its operands to its results. -/
theorem tileObl [FloatOps F] (hF : (K (F := F)).Facts) (hpre : PreOK I0) :
    (K (F := F)).TileObl (D (F := F)) 𝒱 (P (U := U) I0 T0 O0) v₀ 0 := by
  intro d c i O W hO _ _
  simp only [show (P (U := U) I0 T0 O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I0 T0 O0 d (coordsV ⟨_, hci.1⟩ ⟨_, hci.2⟩) hF hpre O W hO).trans (wp_mono frame _ _ fun _ => obl_post)

end Tile

end Cert.Kernel.Sc

end
-- ==== Proof.KB.KernelRun.lean ====
/-
  The program's run: every weakly fair execution of the TensorCore's program, the two sequencers' and the 32 vector
  subcores' terminates, nothing faulting, and in every final state the arguments are as launched and the result buffer
  holds the last valuation's contents, for some contents g of the big product's buffer with the stated property.
-/
import proofs.«204097_g52673478918828_cont_9to1c4b_838_31_alg».proof.Proof.KB.TcSegs
import proofs.«204097_g52673478918828_cont_9to1c4b_838_31_alg».proof.Proof.KB.ScTile

noncomputable section

namespace Cert.Kernel.Tc

open Cert.Kernel Cert.Kernel.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- What a final state satisfies on device d. -/
def fq (d : Dev nD) (s' : Phys nD τ sig (Elt F)) : Prop :=
  ∃ g : OB (F := F) d, OkG m d g ∧ ∀ b ∈ Pipeline.ucRefs τ sig, s'.mem.mem (((d.tc : Thread nD τ)).1, b) = W9 m d g b

set_option maxRecDepth 16384 in
theorem hfin (d : Dev nD) (s' : Phys nD τ sig (Elt F)) : iprop(T9 m d ∗ SI s') ⊢ (⌜fq m d s'⌝ : sProp 𝕄) := by
  iintro ⟨⟨%g, %hg, Hh⟩, HSI⟩
  unfold StableHlo.held
  ihave H := (pointsTo_read_all (Pipeline.ucRefs τ sig) (fun b => (((d.tc : Thread nD τ)).1, b)) (W9 m d g) s') $$ [Hh HSI]
  · isplitl [Hh] <;> iassumption
  icases H with ⟨%h, -⟩
  ipureintro; exact ⟨g, hg, h⟩

/-- The run's post: per device, contents g of the property, the result at the last valuation, the arguments as launched. -/
def QC : PUnit × MemSt nD τ sig (Elt F) → Prop := fun r => ∀ c : Dev nD,
  ∃ g : OB (F := F) c, OkG m c g
    ∧ r.2.mem ((c.tc : Thread nD τ).loc main_v9) = W9 m c g (Proc.devRef .tc main_v9)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hQ (s' : Phys nD τ sig (Elt F)) (h : ∀ d, fq m d s') : QC m (⟨⟩, s'.mem) := fun c => by
  obtain ⟨g, hg, hall⟩ := h c
  exact ⟨g, hg, hall _ (mem_uc main_v9 (by decide)),
    (hall _ (mem_uc main_arg0 (by decide))).trans (W9_main_arg0 m c g), (hall _ (mem_uc main_arg1 (by decide))).trans (W9_main_arg1 m c g),
    (hall _ (mem_uc main_arg2 (by decide))).trans (W9_main_arg2 m c g), (hall _ (mem_uc main_arg3 (by decide))).trans (W9_main_arg3 m c g)⟩

set_option backward.isDefEq.respectTransparency.types false in
theorem run_main [∀ e, Nonempty (Elt F e)] (hpre : Sc.PreOK (I0 m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) Sc.facts v₀
    (fun q hq => match q with | 0 => nomatch hq)
    (fun q _ => match q with | 0 => Sc.tileObl (U := UU) (I0 m) (T0 m) (O0 m) Sc.facts hpre)
    (fun q _ => match q with | 0 => SparseCore.Cfg.VecSplit.of_plain (Sc.vecSplit (U := UU) (I0 m) (T0 m) (O0 m)))
    m ρ main (fun d => G (F := F) d) (T9 m) (u₀ (F := F)) (sep_elim_left.trans (hu₀ (PP m) (fun _ _ => rfl)))
    (hmain m ρ (gO m) (PP m) (hst m) (hdn m) (pdats m) (segs m) (tail_run m) (segs_nodup m) (T9 m) (segs_chain m))
    (fq m) (hfin m) (QC m) (hQ m)

end Cert.Kernel.Tc

end
-- ==== Proof.PreRange.lean ====
/-
  What the certificate's precondition says of the row numbers: every entry of the index array, read as a signed word,
  lies in [0, 99999]. The precondition is the conjunction of three finiteness tests and the test that every entry e has 0 ≤ e and e ≤ 99999;
  its being all ones gives the last conjunct, a reduction by `and` over every entry, hence the comparison at each entry.
-/
import proofs.«204097_g52673478918828_cont_9to1c4b_838_31_alg».proof.Pre_input_domain
import Idealize.ShloMosaic.Lib.ReduceAll

namespace Cert.Proof.PreRange

open Idealize.ShloMosaic

/-- A rank-0 shape has exactly one index. -/
instance : Subsingleton Cert.Pre_input_domain.S_.Idx := ⟨fun a b => funext fun d => d.elim0⟩

/-- The precondition all ones: every entry of the index array is, as a signed word, between 0 and 99999. -/
theorem ids_range {F : FTy → Type} [FloatOps F] [Cert.Pre_input_domain.Facts]
    (a0 : IVec Cert.Pre_input_domain.S1024x20 32) (a1 a2 : FVec F Cert.Pre_input_domain.S100000x128 .f32)
    (a3 : FVec F Cert.Pre_input_domain.S100000 .f32)
    (h : Cert.Pre_input_domain.fn (F := F) a0 a1 a2 a3 = fun _ => 1#1) :
    ∀ j, 0 ≤ (a0 j).toInt ∧ (a0 j).toInt ≤ 99999 := by
  intro j
  have e := congrFun h (fun a => a.elim0)
  dsimp only [Cert.Pre_input_domain.fn, Cert.Pre_input_domain.fn_part1] at e
  -- the outermost `and`: the finiteness tests on the left, the range test on the right
  have e1 : Host.reduce IntOp.andi _ _ _ _ _ = 1#1 := (IntOp.andi_eq_one.1 e).2
  -- the range test is a reduction by `and` over every entry
  have e2 := Host.reduce_andi_all _ _ _ _ _ e1 j
  obtain ⟨hge, hle⟩ := IntOp.andi_eq_one.1 e2
  have hge' : (0#32 : BitVec 32).toInt ≤ (a0 j).toInt := IntOp.cmpi_sge.1 hge
  have hle' : (a0 j).toInt ≤ (99999#32 : BitVec 32).toInt := IntOp.cmpi_sle.1 hle
  have z0 : (0#32 : BitVec 32).toInt = 0 := by decide
  have z1 : (99999#32 : BitVec 32).toInt = 99999 := by decide
  rw [z0] at hge'
  rw [z1] at hle'
  exact ⟨hge', hle'⟩

end Cert.Proof.PreRange
-- ==== Proof.Spec.lean ====
/-
  The function both programs compute, as extended reals, index by index.

  `ids` is a [1024, 20] array of row numbers into a [100000, 128] table `T`. Row (r, j) of the looked-up block
  `gathered T ids` is the table row `ids (r, j)` names (read signed and clamped into the table, which is the identity
  on a row number in range). Each row of a [1024, 20, 128] block X is rescaled to norm at most one: with n the square
  root of its sum of squares, the factor is 1 / (n + ε) when n > 1 and 1 otherwise (ε the f32 word of 1e-7). The twenty
  rescaled rows of a batch entry are averaged (`pooledX`), and the averages P are multiplied by the transpose of W
  and shifted by b (`affine`):
      out (r, q) = Σ_k mean_j (X (r, j, k) · factor (r, j)) · W (q, k) + b q.
-/
import Idealize.ShloMosaic.PureOps.Ideal
import Idealize.ShloMosaic.Lib.ValueIdx

noncomputable section

open scoped BigOperators

namespace Cert.Spec

open Idealize.ShloMosaic Idealize.ShloMosaic.ValueIdx

abbrev STbl : Shape := ⟨2, ![100000, 128]⟩
abbrev SIds : Shape := ⟨2, ![1024, 20]⟩
abbrev SRows : Shape := ⟨3, ![1024, 20, 128]⟩
abbrev SPool : Shape := ⟨2, ![1024, 128]⟩
abbrev SBias : Shape := ⟨1, ![100000]⟩
abbrev SOut : Shape := ⟨2, ![1024, 100000]⟩

/-- The f32 words of 1, of 1e-7 and of 20, as the extended reals they denote. -/
def one : EReal := Ideal.ofBits .f32 0x3F800000#32
def eps : EReal := Ideal.ofBits .f32 0x33D6BF95#32
def twenty : EReal := Ideal.ofBits .f32 0x41A00000#32

/-- The table row that entry (r, j) of `ids` names: the word read signed, clamped into [0, 99999]. -/
def rowOf (ids : SIds.Idx → BitVec 32) (r : Fin 1024) (j : Fin 20) : Fin 100000 :=
  ⟨min (ids (ix2 r j)).toInt.toNat 99999, by omega⟩

/-- The looked-up block: entry (r, j, k) is entry k of the table row that `ids (r, j)` names. -/
def gathered (T : STbl.Idx → EReal) (ids : SIds.Idx → BitVec 32) : SRows.Idx → EReal :=
  fun i => T (ix2 (rowOf ids (i 0) (i 1)) (i 2))

/-- The norm of row (r, j) of a block. -/
def nrmX (X : SRows.Idx → EReal) (r : Fin 1024) (j : Fin 20) : EReal :=
  Ideal.sqrt (∑ k : Fin 128, X (ix3 r j k) * X (ix3 r j k))

/-- The factor that brings row (r, j) to norm at most one. -/
def factorX (X : SRows.Idx → EReal) (r : Fin 1024) (j : Fin 20) : EReal :=
  Scalar.select (Ideal.cmp .ogt (nrmX X r j) one) (Ideal.div one (nrmX X r j + eps)) one

/-- The sum over a batch entry's twenty rescaled rows, at column k. -/
def rowSumX (X : SRows.Idx → EReal) (r : Fin 1024) (k : Fin 128) : EReal :=
  ∑ j : Fin 20, X (ix3 r j k) * factorX X r j

/-- Their mean, as the quotient by 20 … -/
def pooledDivX (X : SRows.Idx → EReal) : SPool.Idx → EReal :=
  fun i => Ideal.div (rowSumX X (i 0) (i 1)) twenty

/-- … and as the product with 1/20. -/
def pooledMulX (X : SRows.Idx → EReal) : SPool.Idx → EReal :=
  fun i => rowSumX X (i 0) (i 1) * ((1 / 20 : ℝ) : EReal)

/-- A [1024, 128] array P times the transpose of W, plus b: entry (r, q). -/
def affine (P : SPool.Idx → EReal) (W : STbl.Idx → EReal) (b : SBias.Idx → EReal) : SOut.Idx → EReal :=
  fun i => (∑ k : Fin 128, P (ix2 (i 0) k) * W (ix2 (i 1) k)) + b (ix1 (i 1))

/-- The whole result array. -/
def G (T : STbl.Idx → EReal) (ids : SIds.Idx → BitVec 32) (W : STbl.Idx → EReal) (b : SBias.Idx → EReal) : SOut.Idx → EReal :=
  affine (pooledDivX (gathered T ids)) W b

/-- The f32 word 0x41A00000 denotes the real number twenty. -/
theorem twenty_eq : twenty = ((20 : ℝ) : EReal) := by
  unfold twenty; simp [Ideal.ofBits, Ideal.ieee]
  rw [← EReal.coe_mul]; exact congrArg _ (by norm_num)

/-- Twenty is real and not zero, so dividing by it is multiplying by its reciprocal, on every extended real: the mean
    written as a product with 1/20 is the mean written as a quotient by 20. -/
theorem pooledDivX_eq_mul (X : SRows.Idx → EReal) : pooledDivX X = pooledMulX X := by
  funext i; unfold pooledDivX pooledMulX; rw [twenty_eq]; exact Ideal.div_coe (by norm_num) _

/-- The result with the mean written as a product. -/
theorem G_eq_mul (T : STbl.Idx → EReal) (ids : SIds.Idx → BitVec 32) (W : STbl.Idx → EReal) (b : SBias.Idx → EReal) :
    G T ids W b = affine (pooledMulX (gathered T ids)) W b := by
  unfold G; rw [pooledDivX_eq_mul]

end Cert.Spec

end
-- ==== Proof.KernelValue.lean ====
/-
  The kernel program's host operations read at an index.

  Around its kernels the program flattens the [1024, 20] array of row numbers to [20480], regroups the [20480, 128]
  looked-up rows as [1024, 20, 128], pads the bias to [100352], cuts the last 160 rows of the weights and the last 160
  entries of the bias, and writes a [1024, 160] block over columns 99840 … 99999 of a [1024, 100000] array. Each is
  read here at explicit coordinates; together they say that an array holding the affine map on the columns below 99840,
  overwritten by a block holding it on the last 160 columns, is the affine map `Cert.Spec.affine` on every column.
-/
import proofs.«204097_g52673478918828_cont_9to1c4b_838_31_alg».proof.KernelIdeal
import proofs.«204097_g52673478918828_cont_9to1c4b_838_31_alg».proof.Proof.Gen.KernelIdeal
import proofs.«204097_g52673478918828_cont_9to1c4b_838_31_alg».proof.Proof.Spec
import Idealize.ShloMosaic.Lib.Pipeline.Value
import Idealize.ShloMosaic.Lib.KernelVsHost

noncomputable section

open scoped BigOperators

namespace Cert.KernelIdeal.Val

open Idealize.ShloMosaic Idealize.ShloMosaic.ValueIdx Cert.KernelIdeal Cert.KernelIdeal.Facts₀

/-! ## Flat positions -/

/-- The flat position of entry (r, j) of a [1024, 20] array. -/
abbrev flatIx (r : Fin 1024) (j : Fin 20) : Fin 20480 := ⟨r.val * 20 + j.val, by have := r.isLt; have := j.isLt; omega⟩
/-- The row of flat position i. -/
abbrev rowIx (i : Fin 20480) : Fin 1024 := ⟨i.val / 20, by have := i.isLt; omega⟩
/-- The column of flat position i. -/
abbrev colIx (i : Fin 20480) : Fin 20 := ⟨i.val % 20, by omega⟩

theorem rowIx_flatIx (r : Fin 1024) (j : Fin 20) : rowIx (flatIx r j) = r :=
  Fin.ext (by show (r.val * 20 + j.val) / 20 = r.val; have := j.isLt; omega)
theorem colIx_flatIx (r : Fin 1024) (j : Fin 20) : colIx (flatIx r j) = j :=
  Fin.ext (by show (r.val * 20 + j.val) % 20 = j.val; have := j.isLt; omega)

/-! ## The two reshapes -/

/-- (1) The [1024, 20] array flattened, at position i: the entry at (i / 20, i % 20). -/
theorem flat_apply [Facts₀] {α : Type} (ids : S1024x20.Idx → α) (i : Fin 20480) :
    shapeCast S20480 ids shapeCasts_S1024x20_S20480 (ix1 i) = ids (ix2 (rowIx i) (colIx i)) :=
  shapeCast_apply ids _ (ix1 i) (ix2 (rowIx i) (colIx i)) (by
    rw [Shape.rowMajor_val_two, Shape.rowMajor_val_one]
    show i.val / 20 * 20 + i.val % 20 = i.val
    omega)

/-- (2) The [20480, 128] array regrouped as [1024, 20, 128], at (r, j, k): the entry at (20 r + j, k). -/
theorem regroup_apply [Facts₀] {α : Type} (G : S20480x128.Idx → α) (r : Fin 1024) (j : Fin 20) (k : Fin 128) :
    shapeCast S1024x20x128 G shapeCasts_S20480x128_S1024x20x128 (ix3 r j k) = G (ix2 (flatIx r j) k) :=
  shapeCast_apply G _ (ix3 r j k) (ix2 (flatIx r j) k) (by
    rw [Shape.rowMajor_val_two, Shape.rowMajor_val_three]
    rfl)

/-- A 32-bit word that reads, signed, as a number in 0 … 99999 reads the same unsigned, and the clamp into the table
    leaves it alone. -/
theorem clamp_toNat (w : BitVec 32) (h0 : 0 ≤ w.toInt) (h1 : w.toInt ≤ 99999) : min w.toInt.toNat 99999 = w.toNat := by
  have hlt : w.toNat < 4294967296 := w.isLt
  have hc : w.toInt = if 2 * w.toNat < 4294967296 then (w.toNat : Int) else (w.toNat : Int) - (4294967296 : Nat) :=
    BitVec.toInt_eq_toNat_cond w
  by_cases hh : 2 * w.toNat < 4294967296
  · rw [if_pos hh] at hc; omega
  · rw [if_neg hh] at hc; omega

/-- (3) If row i of a [20480, 128] array is the table row that flat entry i of the row numbers names, read unsigned,
    and every row number is in 0 … 99999, then the regrouped array is the looked-up block. -/
theorem regroup_eq_gathered [Facts₀] (ids : IVec S1024x20 32) (T : S100000x128.Idx → EReal) (G : S20480x128.Idx → EReal)
    (h : ∀ i : Fin 20480, (shapeCast S20480 ids shapeCasts_S1024x20_S20480 (ix1 i)).toNat < 100000)
    (hG : ∀ (i : Fin 20480) (k : Fin 128),
      G (ix2 i k) = T (ix2 (⟨(shapeCast S20480 ids shapeCasts_S1024x20_S20480 (ix1 i)).toNat, h i⟩ : Fin 100000) k))
    (hin : ∀ j, 0 ≤ (ids j).toInt ∧ (ids j).toInt ≤ 99999) :
    shapeCast S1024x20x128 G shapeCasts_S20480x128_S1024x20x128 = Cert.Spec.gathered T ids := by
  funext i
  obtain ⟨r, j, k, rfl⟩ : ∃ (r : Fin 1024) (j : Fin 20) (k : Fin 128), i = ix3 r j k := ⟨i 0, i 1, i 2, eq_ix3 i⟩
  rw [regroup_apply, hG]
  show T (ix2 _ k) = T (ix2 (Cert.Spec.rowOf ids r j) k)
  refine congrArg (fun x => T (ix2 x k)) (Fin.ext ?_)
  show (shapeCast S20480 ids shapeCasts_S1024x20_S20480 (ix1 (flatIx r j))).toNat = min (ids (ix2 r j)).toInt.toNat 99999
  rw [flat_apply, rowIx_flatIx, colIx_flatIx, clamp_toNat _ (hin _).1 (hin _).2]

/-! ## The padded bias and the two slices -/

/-- (4) The bias padded with 352 entries behind, at a position below 100000: the bias there. -/
theorem padBias_apply [Facts₀] {α : Type} (b : S100000.Idx → α) (v : S_.Idx → α) (q : Fin 100352) (hq : q.val < 100000) :
    pad S100352 ![0] ![352] ![0] b v pads_S100000_S100352_03520 h_S_ (ix1 q) = b (ix1 (⟨q.val, hq⟩ : Fin 100000)) :=
  pad_apply_of_inside _ _ _ b v _ _ (ix1 q) (ix1 (⟨q.val, hq⟩ : Fin 100000)) fun a =>
    match a with
    | ⟨0, _⟩ => by show q.val = 0 + q.val * (0 + 1); omega

/-- (5) The last 160 rows of the weights, at (q, k): row 99840 + q. -/
theorem sliceW_apply [Facts₀] {α : Type} (W : S100000x128.Idx → α) (q : Fin 160) (k : Fin 128) :
    extractStridedSlice S160x128 ![99840, 0] W slices_S100000x128_S160x128_99840_0 (ix2 q k)
      = W (ix2 (⟨99840 + q.val, by have := q.isLt; omega⟩ : Fin 100000) k) :=
  extractStridedSlice_apply _ W _ (ix2 q k) _ fun a =>
    match a with
    | ⟨0, _⟩ => rfl
    | ⟨1, _⟩ => by show k.val = 0 + k.val; omega

/-- (5) The last 160 entries of the bias, at q: entry 99840 + q. -/
theorem sliceB_apply [Facts₀] {α : Type} (b : S100000.Idx → α) (q : Fin 160) :
    extractStridedSlice S160 ![99840] b slices_S100000_S160_99840 (ix1 q)
      = b (ix1 (⟨99840 + q.val, by have := q.isLt; omega⟩ : Fin 100000)) :=
  extractStridedSlice_apply _ b _ (ix1 q) _ fun a =>
    match a with
    | ⟨0, _⟩ => rfl

/-! ## The final update -/

/-- (6) A [1024, 160] block written into a [1024, 100000] array at the start (0, 99840), read at (r, q): the block at
    (r, q − 99840) from column 99840 on, the array before. -/
theorem update_apply [Facts₀] {α : Type} (M : S1024x100000.Idx → α) (Tl : S1024x160.Idx → α) (i : Fin 2 → IVec S_ 32)
    (h0 : i 0 = constantI S_ 32 0#32) (h1 : i 1 = constantI S_ 32 99840#32) (r : Fin 1024) (q : Fin 100000) :
    Host.dynamicUpdateSlice M Tl (fun k => (i k (Shape.Idx.first h_S_)).toInt) updateFits_S1024x100000_S1024x160 (ix2 r q)
      = if hq : 99840 ≤ q.val then Tl (ix2 r (⟨q.val - 99840, by have := q.isLt; omega⟩ : Fin 160)) else M (ix2 r q) := by
  have hfit : S1024x100000.Slices ![0, 99840] S1024x160 := by decide
  have hadj : ∀ a : Fin S1024x100000.rank,
      (min (max ((i a (Shape.Idx.first h_S_)).toInt) 0)
        ((S1024x100000.size a - S1024x160.size (a.cast updateFits_S1024x100000_S1024x160.1.symm) : Nat) : Int)).toNat
        = (![0, 99840] : Fin 2 → Nat) a := fun a =>
    match a with
    | ⟨0, _⟩ => by
      show (min (max ((i 0 (Shape.Idx.first h_S_)).toInt) 0) (((1024 - 1024 : Nat)) : Int)).toNat = 0
      rw [h0]; rfl
    | ⟨1, _⟩ => by
      show (min (max ((i 1 (Shape.Idx.first h_S_)).toInt) 0) (((100000 - 160 : Nat)) : Int)).toNat = 99840
      rw [h1]; rfl
  rw [Host.dynamicUpdateSlice_eq_updateSlice M Tl _ updateFits_S1024x100000_S1024x160 ![0, 99840] hadj hfit]
  unfold updateSlice
  by_cases hq : 99840 ≤ q.val
  · have hin : ∀ a : Fin S1024x100000.rank, (![0, 99840] : Fin 2 → Nat) a ≤ (ix2 r q a).val ∧
        (ix2 r q a).val < (![0, 99840] : Fin 2 → Nat) a + S1024x160.size (a.cast hfit.1.symm) := fun a =>
      match a with
      | ⟨0, _⟩ => ⟨Nat.zero_le _, by show r.val < 0 + 1024; have := r.isLt; omega⟩
      | ⟨1, _⟩ => ⟨hq, by show q.val < 99840 + 160; have := q.isLt; omega⟩
    rw [dif_pos hin, dif_pos hq]
    refine congrArg Tl (funext fun b => Fin.ext ?_)
    match b with
    | ⟨0, _⟩ => rfl
    | ⟨1, _⟩ => rfl
  · rw [dif_neg hq, dif_neg]
    intro hin
    have h := (hin ⟨1, Nat.one_lt_two⟩).1
    exact hq h

/-! ## The assembly -/

/-- (7) An array holding the affine map on the columns below 99840 (with the padded bias), overwritten from column
    99840 on by a block holding it on the last 160 columns (with the sliced weights and bias), is the affine map. -/
theorem update_eq_affine [Facts₀] (P : S1024x128.Idx → EReal) (W : S100000x128.Idx → EReal) (b : S100000.Idx → EReal)
    (v : S_.Idx → EReal) (M : S1024x100000.Idx → EReal) (Tl : S1024x160.Idx → EReal) (i : Fin 2 → IVec S_ 32)
    (h0 : i 0 = constantI S_ 32 0#32) (h1 : i 1 = constantI S_ 32 99840#32)
    (hM : ∀ (r : Fin 1024) (q : Fin 100000) (hq : q.val < 99840),
      M (ix2 r q) = (∑ k : Fin 128, P (ix2 r k) * W (ix2 q k))
        + pad S100352 ![0] ![352] ![0] b v pads_S100000_S100352_03520 h_S_ (ix1 (⟨q.val, by omega⟩ : Fin 100352)))
    (hT : ∀ (r : Fin 1024) (q : Fin 160),
      Tl (ix2 r q) = (∑ k : Fin 128, P (ix2 r k)
          * extractStridedSlice S160x128 ![99840, 0] W slices_S100000x128_S160x128_99840_0 (ix2 q k))
        + extractStridedSlice S160 ![99840] b slices_S100000_S160_99840 (ix1 q)) :
    Host.dynamicUpdateSlice M Tl (fun k => (i k (Shape.Idx.first h_S_)).toInt) updateFits_S1024x100000_S1024x160
      = Cert.Spec.affine P W b := by
  funext idx
  obtain ⟨r, q, rfl⟩ : ∃ (r : Fin 1024) (q : Fin 100000), idx = ix2 r q := ⟨idx 0, idx 1, eq_ix2 idx⟩
  rw [update_apply M Tl i h0 h1]
  show _ = (∑ k : Fin 128, P (ix2 r k) * W (ix2 q k)) + b (ix1 q)
  by_cases hq : 99840 ≤ q.val
  · rw [dif_pos hq, hT, sliceB_apply]
    have hq' : (⟨99840 + (q.val - 99840), by have := q.isLt; omega⟩ : Fin 100000) = q := Fin.ext (by show 99840 + (q.val - 99840) = q.val; omega)
    refine congrArg₂ (· + ·) (Finset.sum_congr rfl fun k _ => ?_) ?_
    · rw [sliceW_apply]
      exact congrArg (fun x => P (ix2 r k) * W (ix2 x k)) hq'
    · exact congrArg (fun x => b (ix1 x)) hq'
  · rw [dif_neg hq, hM r q (by omega), padBias_apply b v _ (by show q.val < 100000; exact q.isLt)]

end Cert.KernelIdeal.Val

end
-- ==== Proof.TcPre.lean ====
/-
  The SparseCore call's operands read off the launch memory, and the range of the row numbers.

  Before the call the program flattens the [1024, 20] array of row numbers to [20480]; nothing else is written. So at
  the call the flattened array is the launch memory's index array regrouped, and every other buffer is the launch
  memory's. The certificate's precondition says every row number, read signed, lies in 0 … 99999; each entry of the
  flattened array is an entry of the [1024, 20] array, so read unsigned it is below 100000: what the gather asks.
-/
import proofs.«204097_g52673478918828_cont_9to1c4b_838_31_alg».proof.Defs
import proofs.«204097_g52673478918828_cont_9to1c4b_838_31_alg».proof.Proof.TcCall
import proofs.«204097_g52673478918828_cont_9to1c4b_838_31_alg».proof.Proof.PreRange
import proofs.«204097_g52673478918828_cont_9to1c4b_838_31_alg».proof.Proof.KernelValue
import proofs.«204097_g52673478918828_cont_9to1c4b_838_31_alg».proof.Proof.Gen.Pre_input_domain

noncomputable section

namespace Cert.KernelIdeal.Tc

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]

variable (m : (ℓ : Loc nD τ sig) → Buf (Elt F) ℓ)

/-! ## The buffers at the call -/

/-- The flattened index array at the call: the launch memory's [1024, 20] array of row numbers, regrouped. -/
theorem W1_v0 (d : Dev nD) :
    W1 m d (Proc.devRef .tc main_v0)
      = fun i => shapeCast S20480 (m ((d.tc : Thread nD τ).loc main_arg0)) shapeCasts_S1024x20_S20480 i :=
  by
  have e : W1 m d = (StableHlo.reshape (τ := τ) (Val := Elt F) main_arg0 main_v0 rfl shapeCasts_S1024x20_S20480).result (W0 m d) := rfl
  rw [e, StableHlo.reshape_result]
  rfl

/-- Every other buffer at the call is the launch memory's. -/
theorem W1_ne (d : Dev nD) {r : Ref sig .tc} (h : r ≠ main_v0) : W1 m d (Proc.devRef .tc r) = W0 m d (Proc.devRef .tc r) :=
  StableHlo.reshape_result_ne (x := main_arg0) (y := main_v0) rfl shapeCasts_S1024x20_S20480 ⟨by decide, rfl⟩ ⟨by decide, rfl⟩ (W0 m d) h

/-- The call's operands, read off the launch memory. -/
theorem I0_apply (d : Dev nD) (j : S20480.Idx) :
    I0 m d j = shapeCast S20480 (m ((d.tc : Thread nD τ).loc main_arg0)) shapeCasts_S1024x20_S20480 j :=
  congrFun (W1_v0 m d) j
theorem T0_eq (d : Dev nD) : T0 m d = m ((d.tc : Thread nD τ).loc main_arg1) := W1_ne m d (by decide)
theorem O0_eq (d : Dev nD) : O0 m d = m ((d.tc : Thread nD τ).loc main_v1) := W1_ne m d (by decide)

/-! ## The range of the row numbers -/

/-- The precondition's test all ones on every device: every entry of the flattened index array names a row of the table. -/
theorem preOK_of_fn [Cert.Pre_input_domain.Facts]
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    Sc.PreOK (I0 m) := by
  intro d j
  have hr := Cert.Proof.PreRange.ids_range (F := F) _ _ _ _ (h d)
  obtain ⟨i, rfl⟩ : ∃ i : Fin 20480, j = ix1 i := ⟨j 0, eq_ix1 j⟩
  rw [I0_apply, Val.flat_apply]
  have hw := hr (ix2 (Val.rowIx i) (Val.colIx i))
  have hc := Val.clamp_toNat _ hw.1 hw.2
  rw [← hc]
  exact Nat.lt_succ_of_le (Nat.min_le_right _ _)

end Cert.KernelIdeal.Tc

end
-- ==== Proof.KB.KernelValueLite.lean ====
/-
  Flat positions of the [1024, 20] array of row numbers, and two facts the range of the row numbers rests on: the
  flattened array read at a position, and a signed word in 0 … 99999 read unsigned.
-/
import proofs.«204097_g52673478918828_cont_9to1c4b_838_31_alg».proof.Kernel
import proofs.«204097_g52673478918828_cont_9to1c4b_838_31_alg».proof.Proof.Gen.Kernel
import Idealize.ShloMosaic.Lib.Pipeline.Value
import Idealize.ShloMosaic.Lib.KernelVsHost

noncomputable section

namespace Cert.Kernel.Val

open Idealize.ShloMosaic Idealize.ShloMosaic.ValueIdx Cert.Kernel Cert.Kernel.Facts₀

/-- The flat position of entry (r, j) of a [1024, 20] array. -/
abbrev flatIx (r : Fin 1024) (j : Fin 20) : Fin 20480 := ⟨r.val * 20 + j.val, by have := r.isLt; have := j.isLt; omega⟩
/-- The row of flat position i. -/
abbrev rowIx (i : Fin 20480) : Fin 1024 := ⟨i.val / 20, by have := i.isLt; omega⟩
/-- The column of flat position i. -/
abbrev colIx (i : Fin 20480) : Fin 20 := ⟨i.val % 20, by omega⟩

theorem rowIx_flatIx (r : Fin 1024) (j : Fin 20) : rowIx (flatIx r j) = r :=
  Fin.ext (by show (r.val * 20 + j.val) / 20 = r.val; have := j.isLt; omega)
theorem colIx_flatIx (r : Fin 1024) (j : Fin 20) : colIx (flatIx r j) = j :=
  Fin.ext (by show (r.val * 20 + j.val) % 20 = j.val; have := j.isLt; omega)

/-- The [1024, 20] array flattened, at position i: the entry at (i / 20, i % 20). -/
theorem flat_apply [Facts₀] {α : Type} (ids : S1024x20.Idx → α) (i : Fin 20480) :
    shapeCast S20480 ids shapeCasts_S1024x20_S20480 (ix1 i) = ids (ix2 (rowIx i) (colIx i)) :=
  shapeCast_apply ids _ (ix1 i) (ix2 (rowIx i) (colIx i)) (by
    rw [Shape.rowMajor_val_two, Shape.rowMajor_val_one]
    show i.val / 20 * 20 + i.val % 20 = i.val
    omega)

/-- A 32-bit word that reads, signed, as a number in 0 … 99999 reads the same unsigned, and the clamp into the table
    leaves it alone. -/
theorem clamp_toNat (w : BitVec 32) (h0 : 0 ≤ w.toInt) (h1 : w.toInt ≤ 99999) : min w.toInt.toNat 99999 = w.toNat := by
  have hlt : w.toNat < 4294967296 := w.isLt
  have hc : w.toInt = if 2 * w.toNat < 4294967296 then (w.toNat : Int) else (w.toNat : Int) - (4294967296 : Nat) :=
    BitVec.toInt_eq_toNat_cond w
  by_cases hh : 2 * w.toNat < 4294967296
  · rw [if_pos hh] at hc; omega
  · rw [if_neg hh] at hc; omega

end Cert.Kernel.Val

end
-- ==== Proof.KB.TcPre.lean ====
/-
  The SparseCore call's operands read off the launch memory, and the range of the row numbers.

  Before the call the program flattens the [1024, 20] array of row numbers to [20480]; nothing else is written. So at
  the call the flattened array is the launch memory's index array regrouped, and every other buffer is the launch
  memory's. The certificate's precondition says every row number, read signed, lies in 0 … 99999; each entry of the
  flattened array is an entry of the [1024, 20] array, so read unsigned it is below 100000: what the gather asks.
-/
import proofs.«204097_g52673478918828_cont_9to1c4b_838_31_alg».proof.Defs
import proofs.«204097_g52673478918828_cont_9to1c4b_838_31_alg».proof.Proof.KB.TcCall
import proofs.«204097_g52673478918828_cont_9to1c4b_838_31_alg».proof.Proof.PreRange
import proofs.«204097_g52673478918828_cont_9to1c4b_838_31_alg».proof.Proof.KB.KernelValueLite
import proofs.«204097_g52673478918828_cont_9to1c4b_838_31_alg».proof.Proof.Gen.Pre_input_domain

noncomputable section

namespace Cert.Kernel.Tc

open Cert.Kernel Cert.Kernel.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-! ## The buffers at the call -/

/-- The flattened index array at the call: the launch memory's [1024, 20] array of row numbers, regrouped. -/
theorem W1_v0 (d : Dev nD) :
    W1 m d (Proc.devRef .tc main_v0)
      = fun i => shapeCast S20480 (m ((d.tc : Thread nD τ).loc main_arg0)) shapeCasts_S1024x20_S20480 i :=
  by
  have e : W1 m d = (StableHlo.reshape (τ := τ) (Val := Elt F) main_arg0 main_v0 rfl shapeCasts_S1024x20_S20480).result (W0 m d) := rfl
  rw [e, StableHlo.reshape_result]
  rfl

/-- Every other buffer at the call is the launch memory's. -/
theorem W1_ne (d : Dev nD) {r : Ref sig .tc} (h : r ≠ main_v0) : W1 m d (Proc.devRef .tc r) = W0 m d (Proc.devRef .tc r) :=
  StableHlo.reshape_result_ne (x := main_arg0) (y := main_v0) rfl shapeCasts_S1024x20_S20480 ⟨by decide, rfl⟩ ⟨by decide, rfl⟩ (W0 m d) h

/-- The call's operands, read off the launch memory. -/
theorem I0_apply (d : Dev nD) (j : S20480.Idx) :
    I0 m d j = shapeCast S20480 (m ((d.tc : Thread nD τ).loc main_arg0)) shapeCasts_S1024x20_S20480 j :=
  congrFun (W1_v0 m d) j
theorem T0_eq (d : Dev nD) : T0 m d = m ((d.tc : Thread nD τ).loc main_arg1) := W1_ne m d (by decide)
theorem O0_eq (d : Dev nD) : O0 m d = m ((d.tc : Thread nD τ).loc main_v1) := W1_ne m d (by decide)

/-! ## The range of the row numbers -/

/-- The precondition's test all ones on every device: every entry of the flattened index array names a row of the table. -/
theorem preOK_of_fn [Cert.Pre_input_domain.Facts]
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    Sc.PreOK (I0 m) := by
  intro d j
  have hr := Cert.Proof.PreRange.ids_range (F := F) _ _ _ _ (h d)
  obtain ⟨i, rfl⟩ : ∃ i : Fin 20480, j = ix1 i := ⟨j 0, eq_ix1 j⟩
  rw [I0_apply, Val.flat_apply]
  have hw := hr (ix2 (Val.rowIx i) (Val.colIx i))
  have hc := Val.clamp_toNat _ hw.1 hw.2
  rw [← hc]
  exact Nat.lt_succ_of_le (Nat.min_le_right _ _)

end Cert.Kernel.Tc

end
-- ==== Proof.TcPreValue.lean ====
/-
  The gathered rows, regrouped, are the looked-up block of the specification.

  After the call the rows' buffer holds, at row i, the table row that entry i of the flattened index array names. The
  flattened array is the launch memory's [1024, 20] array regrouped, the table is the launch memory's; regrouping the
  rows as [1024, 20, 128] therefore gives, at (r, j, k), entry k of the table row that entry (r, j) names.
-/
import proofs.«204097_g52673478918828_cont_9to1c4b_838_31_alg».proof.Proof.TcPre

noncomputable section

namespace Cert.KernelIdeal.Tc

open Cert.KernelIdeal Cert.KernelIdeal.Gen
open Idealize.ShloMosaic Idealize.ShloMosaic.TcCoe Idealize.ShloMosaic.ValueIdx
open Idealize.SL Idealize.SL.Sem

variable [Cert.Pre_input_domain.Facts] (m : (ℓ : Loc nD τ sig) → Buf (Elt Ideal) ℓ)

/-- The certificate's precondition gives the range the gather asks of the flattened index array. -/
theorem preOK_of_pre (h : Cert.Pre_KernelIdeal m) : Sc.PreOK (I0 m) := preOK_of_fn m h

/-- The rows' buffer after the call, regrouped as [1024, 20, 128], is the looked-up block. -/
theorem rows_value (h : Cert.Pre_KernelIdeal m) (d : Dev nD) :
    shapeCast S1024x20x128 (gO m d) shapeCasts_S20480x128_S1024x20x128
      = Cert.Spec.gathered (m ((d.tc : Thread nD τ).loc main_arg1)) (m ((d.tc : Thread nD τ).loc main_arg0)) := by
  have hpre := preOK_of_pre m h
  have hlt : ∀ i : Fin 20480, (shapeCast S20480 (m ((d.tc : Thread nD τ).loc main_arg0)) shapeCasts_S1024x20_S20480 (ix1 i)).toNat < 100000 :=
    fun i => by rw [← I0_apply]; exact hpre d (ix1 i)
  refine Val.regroup_eq_gathered (m ((d.tc : Thread nD τ).loc main_arg0)) (m ((d.tc : Thread nD τ).loc main_arg1)) (gO m d) hlt
    (fun i k => ?_) (Cert.Proof.PreRange.ids_range (F := Ideal) _ _ _ _ (h d))
  refine (Sc.gOut_apply (I0 m) (T0 m) hpre d i k).trans ?_
  rw [T0_eq]
  exact congrArg (fun x => m ((d.tc : Thread nD τ).loc main_arg1) (ix2 x k)) (Fin.ext (congrArg BitVec.toNat (I0_apply m d (ix1 i))))

end Cert.KernelIdeal.Tc

end
-- ==== Proof.PoolValue.lean ====
/-
  The pooled array at the exact extended reals: entry (r, k) is the mean over the twenty rows j of a batch entry of
  X (r, j, k) times the factor that brings row (r, j) to norm at most one.
-/
import proofs.«204097_g52673478918828_cont_9to1c4b_838_31_alg».proof.Proof.PoolRegion
import proofs.«204097_g52673478918828_cont_9to1c4b_838_31_alg».proof.Proof.Spec
import Idealize.ShloMosaic.PureOps.Ideal.Laws

set_option maxRecDepth 16384

noncomputable section

open scoped BigOperators

namespace Cert.KernelIdeal.Pool

open Cert.KernelIdeal Cert.KernelIdeal.Gen
open Idealize.ShloMosaic Idealize.ShloMosaic.ValueIdx

/-- The kernel's named reciprocal denotes the rational 1/20 at the exact values. -/
theorem inv_20 : Named.named (F := Ideal) Cert.KernelIdeal.κ "inv_20" (φ := .f32) 0x3D4CCCCD#32 = ((1 / 20 : ℝ) : EReal) :=
  IdealRules.named_const.ideal_named_scalar _ _ _ _ rfl

/-- A sum over the lanes of a [256, 20, 128] block, at row (p, j). -/
theorem laneSum_apply (v : FVec Ideal S256x20x128 .f32) (hacc : (0x00000000#32 : BitVec 32) = 0x00000000#32)
    (p : Fin 256) (j : Fin 20) :
    multiReduction .add [2] S256x20 v 0x00000000#32 reduces_S256x20x128_S256x20 (.inl rfl) hacc (ix2 p j)
      = ∑ k : Fin 128, v (ix3 p j k) :=
  (Ideal.multiReduction_add_single v 0x00000000#32 reduces_S256x20x128_S256x20 (.inl rfl) hacc (ix2 p j)).trans
    (Finset.sum_congr rfl fun k _ => congrArg v (funext fun a => by
      match a with
      | ⟨0, _⟩ => exact Fin.ext rfl
      | ⟨1, _⟩ => exact Fin.ext rfl
      | ⟨2, _⟩ => exact Fin.ext rfl))

/-- A sum over the twenty rows of a [256, 20, 128] block, at (p, k). -/
theorem rowSum_apply (v : FVec Ideal S256x20x128 .f32) (hacc : (0x00000000#32 : BitVec 32) = 0x00000000#32)
    (p : Fin 256) (k : Fin 128) :
    multiReduction .add [1] S256x128 v 0x00000000#32 reduces_S256x20x128_S256x128 (.inl rfl) hacc (ix2 p k)
      = ∑ j : Fin 20, v (ix3 p j k) :=
  (Ideal.multiReduction_add_single v 0x00000000#32 reduces_S256x20x128_S256x128 (.inl rfl) hacc (ix2 p k)).trans
    (Finset.sum_congr rfl fun j _ => congrArg v (funext fun a => by
      match a with
      | ⟨0, _⟩ => exact Fin.ext rfl
      | ⟨1, _⟩ => exact Fin.ext rfl
      | ⟨2, _⟩ => exact Fin.ext rfl))

/-- A [256, 20] array viewed [256, 20, 1] reads (p, j) at (p, j, 0). -/
theorem keepLane_apply {α : Type} (v : S256x20.Idx → α) (h : S256x20.ShapeCasts S256x20x1) (p : Fin 256) (j : Fin 20) (z : Fin 1) :
    shapeCast S256x20x1 v h (ix3 p j z) = v (ix2 p j) :=
  shapeCast_apply v h (ix3 p j z) (ix2 p j) (by
    rw [Shape.rowMajor_val_two, Shape.rowMajor_val_three]
    have := z.isLt
    show p.val * 20 + j.val = (p.val * 20 + j.val) * 1 + z.val
    omega)

/-- A [256, 20, 1] array spread over the 128 lanes reads (p, j, 0) at (p, j, k). -/
theorem spreadLane_apply {α : Type} (v : S256x20x1.Idx → α) (h : S256x20x1.Broadcasts S256x20x128) (p : Fin 256) (j : Fin 20) (k : Fin 128) :
    broadcastTo S256x20x128 v h (ix3 p j k) = v (ix3 p j (0 : Fin 1)) :=
  broadcastTo_apply v h (ix3 p j k) (ix3 p j (0 : Fin 1)) (fun a => by
    match a with
    | ⟨0, _⟩ => rfl
    | ⟨1, _⟩ => rfl
    | ⟨2, _⟩ => rfl)

/-- A square root at an index is the square root of the element. -/
theorem sqrt_apply {s : Shape} {φ : FTy} (v : FVec Ideal s φ) (i : s.Idx) : sqrt v i = Ideal.sqrt (v i) := rfl

/-- The factor that brings row (p, j) of a block to norm at most one. -/
def fac (x : Vec Ideal S256x20x128 .f32) (p : Fin 256) (j : Fin 20) : EReal :=
  Scalar.select (Ideal.cmp .ogt (Ideal.sqrt (∑ k : Fin 128, x (ix3 p j k) * x (ix3 p j k))) Cert.Spec.one)
    (Ideal.div Cert.Spec.one (Ideal.sqrt (∑ k : Fin 128, x (ix3 p j k) * x (ix3 p j k)) + Cert.Spec.eps)) Cert.Spec.one

/-- The body's payload at (p, k). -/
theorem payload_apply (x : Vec Ideal S256x20x128 .f32) (p : Fin 256) (k : Fin 128) :
    k1_pay1 (F := Ideal) x (ix2 p k) = (∑ j : Fin 20, x (ix3 p j k) * fac x p j) * ((1 / 20 : ℝ) : EReal) := by
  unfold k1_pay1
  dsimp only
  rw [mulf_apply, broadcast_apply, inv_20, rowSum_apply]
  congr 1
  refine Finset.sum_congr rfl fun j _ => ?_
  rw [mulf_apply, shapeCast_self, spreadLane_apply, select_apply, cmpf_apply, divf_apply, addf_apply]
  simp only [broadcast_apply]
  rw [sqrt_apply, keepLane_apply, laneSum_apply]
  simp only [mulf_apply]
  unfold fac Cert.Spec.one Cert.Spec.eps
  rfl

/-- Rows [256 q, 256 q + 256) of X at (p, j, k). -/
theorem rowsOf_apply (X : S1024x20x128.Idx → EReal) (q : Fin 4) (p : Fin 256) (j : Fin 20) (k : Fin 128) :
    rowsOf (F := Ideal) X q (ix3 p j k) = X (ix3 (⟨q.val * 256 + p.val, by have := q.isLt; have := p.isLt; omega⟩ : Fin 1024) j k) := rfl

/-- THE POOLED ARRAY at the exact values is the specification's: the mean, written as the product with 1/20, of
    the rescaled rows. -/
theorem pool_value (X : S1024x20x128.Idx → EReal) : poolArr (F := Ideal) X = Cert.Spec.pooledMulX X := by
  funext i
  have hi0 : (i 0).val < 1024 := (i 0).isLt
  unfold poolArr
  refine (payload_apply _ _ _).trans ?_
  unfold Cert.Spec.pooledMulX Cert.Spec.rowSumX
  have hr : (⟨(⟨(i 0).val / 256, by omega⟩ : Fin 4).val * 256 + (⟨(i 0).val % 256, Nat.mod_lt _ (by decide)⟩ : Fin 256).val, by
      show (i 0).val / 256 * 256 + (i 0).val % 256 < 1024; omega⟩ : Fin 1024) = i 0 :=
    Fin.ext (by show (i 0).val / 256 * 256 + (i 0).val % 256 = (i 0).val; omega)
  congr 1
  refine Finset.sum_congr rfl fun j _ => ?_
  unfold fac Cert.Spec.factorX Cert.Spec.nrmX
  simp only [rowsOf_apply, hr]
  refine congrArg (· * _) ?_
  refine (rowsOf_apply X _ _ j (i 1)).trans ?_
  rw [hr]

end Cert.KernelIdeal.Pool

end
-- ==== Proof.MmValue.lean ====
/-
  The matmul region's payload at the exact extended reals: entry (r, q) of the stored [1, 1024, 2048] block is the
  inner product of row r of the pooled block with row q of the weight block, plus entry q of the bias block.
-/
import proofs.«204097_g52673478918828_cont_9to1c4b_838_31_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.MmVal

open Cert.KernelIdeal Cert.KernelIdeal.Gen
open Idealize.ShloMosaic Idealize.ShloMosaic.ValueIdx

/-- The matmul's dimension numbers: both operands contracted on their second axis. -/
abbrev DM : DotDims S1024x128 S2048x128 S1024x2048 := dot_S1024x128_S2048x128_S1024x2048_1_1_0_0_n_n

/-! ## The dot's operand indices, coordinate by coordinate -/

theorem lhs_0 (i : S1024x2048.Idx) (q : DM.contr.Idx) : (DM.lhsIdx i q 0).val = (i 0).val := by
  unfold DotDims.lhsIdx
  rw [dif_neg (show ¬(0 : Fin S1024x128.rank) ∈ DM.lhsBatch by decide), dif_pos (show (0 : Fin S1024x128.rank) ∈ DM.lhsNonContracting by decide)]
  rfl
theorem lhs_1 (i : S1024x2048.Idx) (q : DM.contr.Idx) : (DM.lhsIdx i q 1).val = (q ⟨0, by decide⟩).val :=
  DM.lhsIdx_val_of_single rfl i q
theorem rhs_0 (i : S1024x2048.Idx) (q : DM.contr.Idx) : (DM.rhsIdx i q 0).val = (i 1).val := by
  unfold DotDims.rhsIdx
  rw [dif_neg (show ¬(0 : Fin S2048x128.rank) ∈ DM.rhsBatch by decide), dif_pos (show (0 : Fin S2048x128.rank) ∈ DM.rhsNonContracting by decide)]
  rfl
theorem rhs_1 (i : S1024x2048.Idx) (q : DM.contr.Idx) : (DM.rhsIdx i q 1).val = (q ⟨0, by decide⟩).val :=
  DM.rhsIdx_val_of_single rfl i q

/-- The product into a zero accumulator at (r, q): the inner product of row r and row q. -/
theorem matmul_apply_rq (P : FVec Ideal S1024x128 .f32) (Wb : FVec Ideal S2048x128 .f32) (r : Fin 1024) (q : Fin 2048) :
    matmul DM none P Wb (constant S1024x2048 .f32 0x00000000#32) (ix2 r q) = ∑ k : Fin 128, P (ix2 r k) * Wb (ix2 q k) := by
  simp only [matmul]
  rw [Ideal.matmul_constant_zero_apply, ← Equiv.sum_comp (contrEquiv1 DM 128 rfl rfl).symm]
  refine Finset.sum_congr rfl fun k _ => ?_
  have hk := contrEquiv1_symm_val DM 128 rfl rfl k
  have el : DM.lhsIdx (ix2 r q) ((contrEquiv1 DM 128 rfl rfl).symm k) = ix2 r k := funext fun a => Fin.ext (by
    match a with
    | ⟨0, _⟩ => exact lhs_0 _ _
    | ⟨1, _⟩ => exact (lhs_1 _ _).trans hk)
  have er : DM.rhsIdx (ix2 r q) ((contrEquiv1 DM 128 rfl rfl).symm k) = ix2 q k := funext fun a => Fin.ext (by
    match a with
    | ⟨0, _⟩ => exact rhs_0 _ _
    | ⟨1, _⟩ => exact (rhs_1 _ _).trans hk)
  rw [el, er]

/-! ## The layout operations around it -/

/-- A [2048] array viewed [1, 2048] reads q at (0, q). -/
theorem rowView_apply {α : Type} (v : S2048.Idx → α) (h : S2048.ShapeCasts S1x2048) (z : Fin 1) (q : Fin 2048) :
    shapeCast S1x2048 v h (ix2 z q) = v (ix1 q) :=
  shapeCast_apply v h (ix2 z q) (ix1 q) (by
    rw [Shape.rowMajor_val_one, Shape.rowMajor_val_two]
    have := z.isLt
    show q.val = z.val * 2048 + q.val
    omega)

/-- A [1, 2048] array spread over the 1024 rows reads (0, q) at (r, q). -/
theorem spreadRow_apply {α : Type} (v : S1x2048.Idx → α) (h : S1x2048.Broadcasts S1024x2048) (r : Fin 1024) (q : Fin 2048) :
    broadcastTo S1024x2048 v h (ix2 r q) = v (ix2 (0 : Fin 1) q) :=
  broadcastTo_apply v h (ix2 r q) (ix2 (0 : Fin 1) q) (fun a => by
    match a with
    | ⟨0, _⟩ => rfl
    | ⟨1, _⟩ => rfl)

/-- A [1024, 2048] array viewed [1, 1024, 2048] reads (r, q) at (0, r, q). -/
theorem blockView_apply {α : Type} (v : S1024x2048.Idx → α) (h : S1024x2048.ShapeCasts S1x1024x2048) (z : Fin 1) (r : Fin 1024) (q : Fin 2048) :
    shapeCast S1x1024x2048 v h (ix3 z r q) = v (ix2 r q) :=
  shapeCast_apply v h (ix3 z r q) (ix2 r q) (by
    rw [Shape.rowMajor_val_two, Shape.rowMajor_val_three]
    have := z.isLt
    show r.val * 2048 + q.val = (z.val * 1024 + r.val) * 2048 + q.val
    omega)

/-! ## The payload -/

/-- THE PAYLOAD at (0, r, q): row r of the pooled block times row q of the weight block, plus entry q of the bias. -/
theorem mm_payload_apply (P : Vec Ideal S1024x128 .f32) (Wb : Vec Ideal S2048x128 .f32) (bb : Vec Ideal S2048 .f32)
    (z : Fin 1) (r : Fin 1024) (q : Fin 2048) :
    k2_pay1 (F := Ideal) P Wb bb (ix3 z r q) = (∑ k : Fin 128, P (ix2 r k) * Wb (ix2 q k)) + bb (ix1 q) := by
  unfold k2_pay1
  rw [blockView_apply, addf_apply, spreadRow_apply, rowView_apply, shapeCast_self, shapeCast_self, matmul_apply_rq]

/-- At column q the payload reads row q of the weight block only. -/
theorem mm_payload_congr (P : Vec Ideal S1024x128 .f32) (Wb Wb' : Vec Ideal S2048x128 .f32) (bb : Vec Ideal S2048 .f32)
    (z : Fin 1) (r : Fin 1024) (q : Fin 2048) (h : ∀ k : Fin 128, Wb (ix2 q k) = Wb' (ix2 q k)) :
    k2_pay1 (F := Ideal) P Wb bb (ix3 z r q) = k2_pay1 (F := Ideal) P Wb' bb (ix3 z r q) := by
  rw [mm_payload_apply, mm_payload_apply]
  exact congrArg (· + bb (ix1 q)) (Finset.sum_congr rfl fun k _ => by rw [h k])

end Cert.KernelIdeal.MmVal

end
-- ==== Proof.MmIdeal.lean ====
/-
  The matmul region's stored value at the exact extended reals, at the index (0, r, q) of the stored block: row r of
  the first operand times row q of the second, plus entry q of the third; so column q reads the second operand through
  its row q alone.
-/
import proofs.«204097_g52673478918828_cont_9to1c4b_838_31_alg».proof.Proof.MmRegion
import proofs.«204097_g52673478918828_cont_9to1c4b_838_31_alg».proof.Proof.MmValue

noncomputable section

open scoped BigOperators

namespace Cert.KernelIdeal.Mm

open Cert.KernelIdeal Cert.KernelIdeal.Gen
open Idealize.ShloMosaic Idealize.ShloMosaic.ValueIdx

/-- THE STORED VALUE at (0, r, q). -/
theorem pay_apply (x0 : Vec Ideal S1024x128 .f32) (x1 : Vec Ideal S2048x128 .f32) (x2 : Vec Ideal S2048 .f32)
    (r : Fin 1024) (q : Fin 2048) :
    k2_pay1 (F := Ideal) x0 x1 x2 (ix3 (0 : Fin 1) r q) = (∑ k : Fin 128, x0 (ix2 r k) * x1 (ix2 q k)) + x2 (ix1 q) :=
  MmVal.mm_payload_apply x0 x1 x2 0 r q

/-- At column q the stored value reads the second operand through its row q alone. -/
theorem pay_congr (x0 : Vec Ideal S1024x128 .f32) (x1 x1' : Vec Ideal S2048x128 .f32) (x2 : Vec Ideal S2048 .f32)
    (r : Fin 1024) (q : Fin 2048) (h : ∀ k : Fin 128, x1 (ix2 q k) = x1' (ix2 q k)) :
    k2_pay1 (F := Ideal) x0 x1 x2 (ix3 (0 : Fin 1) r q) = k2_pay1 (F := Ideal) x0 x1' x2 (ix3 (0 : Fin 1) r q) :=
  MmVal.mm_payload_congr x0 x1 x1' x2 0 r q h

end Cert.KernelIdeal.Mm

end
-- ==== Proof.MmRead.lean ====
import proofs.«204097_g52673478918828_cont_9to1c4b_838_31_alg».proof.Proof.MmRegion
import Idealize.ShloMosaic.Lib.Pipeline.Value
import Idealize.ShloMosaic.Lib.ValueIdx

set_option maxRecDepth 16384

/-! # The big matmul's region: the value of a written column block, read back

The body stores its payload into a slot of the ring through the slot's rectangle of the ring buffer, and a copy of the
slot, read through its squeezed view, lands whole in the column block of the output. Read back through the column
block, the output holds the payload at `(0, r, q)` at the block's `(r, q)`. -/

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

open Idealize.ShloMosaic.ValueIdx

-- The contents of each TensorCore's buffers when the region is entered.
variable (V : (c : Dev nD) → (b : Ref sig .tc) → Buf (Elt F) ((c : Thread nD τ).loc b)) (c : Dev nD)

/-! ## The loads of the staged blocks read the blocks -/

theorem hz2 : (![0, 0] : Fin 2 → Nat) = fun _ => 0 := funext fun a => by fin_cases a <;> rfl
theorem hz1 : (![0] : Fin 1 → Nat) = fun _ => 0 := funext fun a => by fin_cases a; rfl

/-- A load of the whole rectangle of a whole memref held at contents it reads `x0` through reads `x0`. -/
theorem ld0_eq (arg1 : Memref sig .tc .vmem S1024x128 .f32) (harg1 : arg1.IsWhole) (x0 : Vec F S1024x128 .f32) :
    ld0 arg1 harg1 x0 = x0 := by
  show View.ld (arg1.view.read (Elt F) (harg1.unread x0)) (Rect.unit (s := S1024x128) ![0, 0] S1024x128.size inb_S1024x128_S1024x128_0_0) = x0
  rw [harg1.read_unread, View.ld_unit_zero hz2]
theorem ld1_eq (arg2 : Memref sig .tc .vmem S2048x128 .f32) (harg2 : arg2.IsWhole) (x1 : Vec F S2048x128 .f32) :
    ld1 arg2 harg2 x1 = x1 := by
  show View.ld (arg2.view.read (Elt F) (harg2.unread x1)) (Rect.unit (s := S2048x128) ![0, 0] S2048x128.size inb_S2048x128_S2048x128_0_0) = x1
  rw [harg2.read_unread, View.ld_unit_zero hz2]
theorem ld2_eq (arg3 : Memref sig .tc .vmem S2048 .f32) (harg3 : arg3.IsWhole) (x2 : Vec F S2048 .f32) :
    ld2 arg3 harg3 x2 = x2 := by
  show View.ld (arg3.view.read (Elt F) (harg3.unread x2)) (Rect.unit (s := S2048) ![0] S2048.size inb_S2048_S2048_0) = x2
  rw [harg3.read_unread, View.ld_unit_zero hz1]

/-- The value stored at point `t` is the payload of the three blocks. -/
theorem payAt_eq (t : Fin cfg2.N) (d : (cfg2.win 1).block.Idx → Elt F (cfg2.win 1).elt) :
    payAt V c t d = k2_pay1 (iblk V c 0 t) (wblk V c t d) (iblk V c 2 t) := by
  unfold payAt; rw [ld0_eq, ld1_eq, ld2_eq]

/-! ## A slot read back after the store -/

/-- Writes through rectangles of one memref of the same sizes at equal offsets are equal. -/
theorem write_access_unit_congr {κ : Kind} {sp : Space} {s : Shape} {e : EltTy} (m : Memref sig κ sp s e)
    {off off' size : Fin s.rank → Nat} (h : off = off') (p : ∀ a, off a + size a ≤ s.size a) (p' : ∀ a, off' a + size a ≤ s.size a)
    (f : (m.access (Rect.unit off size p)).ty.Contents (Elt F)) (w : (Rect.unit off size p).shape.Idx → Elt F e) (M : Finset (Rect.unit off size p).shape.Idx) :
    (m.access (Rect.unit off size p)).write (Elt F) f w M = (m.access (Rect.unit off' size p')).write (Elt F) f w M := by
  subst h; rfl

/-- A reshaped view reads the view at the matched multi-index. -/
theorem read_reshape' (Val : EltTy → Type) {κ : Kind} {sp : Space} {s s' : Shape} {e : EltTy} (v : View sig κ sp s e) (h : s'.numel = s.numel)
    (f : v.ty.Contents Val) : (v.reshape s' h).read Val f = fun x => v.read Val f (Shape.reshapeEquiv h x) := rfl

/-- What was written, unmasked, through a rectangle of a memref, read back through the squeezed slice at that
    rectangle: the payload at the matched multi-index, whatever the buffer held. -/
theorem read_squeeze_write (Val : EltTy → Type) {κ : Kind} {sp : Space} {s s' : Shape} {e : EltTy} (m : Memref sig κ sp s e) (r : Rect s)
    (hr : ∀ a, r.stride a = 1) (hsq : r.shape.Squeezes s') (f : (m.access r).ty.Contents Val) (w : r.shape.Idx → Val e) :
    ((m.slice r hr).squeeze s' hsq).view.read Val ((m.access r).write Val f w Finset.univ)
      = fun x => w (Shape.reshapeEquiv hsq.numel_eq x) := by
  show ((m.access r).reshape s' hsq.numel_eq).read Val ((m.access r).write Val f w Finset.univ) = _
  rw [read_reshape', View.read_write_univ]

/-- The index of the `[1,1024,2048]` slot that an index of its squeezed `[1024,2048]` view names. -/
theorem squeeze_idx (x : S1024x2048.Idx) :
    Shape.reshapeEquiv (s := S1x1024x2048) squeezes_S1x1024x2048_S1024x2048.numel_eq x = ix3 (0 : Fin 1) (x 0 : Fin 1024) (x 1 : Fin 2048) := by
  refine Shape.reshapeEquiv_eq_of_rowMajor _ ?_
  have h3 := Shape.rowMajor_val_three (d := ![1, 1024, 2048]) (ix3 (0 : Fin 1) (x 0 : Fin 1024) (x 1 : Fin 2048))
  have h2 := Shape.rowMajor_val_two (d := ![1024, 2048]) x
  refine h3.trans (Eq.trans ?_ h2.symm)
  show ((0 : ℕ) * 1024 + (x 0).val) * 2048 + (x 1).val = (x 0).val * 2048 + (x 1).val
  omega

set_option maxHeartbeats 1000000 in
/-- THE SLOT READ BACK through its squeezed view after the point's store is the stored value, whatever the ring held:
    in the library's spelling of the squeeze's index map, -/
theorem read_stored' (i : grid2.Coords) (fs0 : RBuf (F := F) c) (w : FVec F S1x1024x2048 .f32) :
    (rslot (i 0).val).view.read (Elt F) (storedW c i fs0 w)
      = fun x => w (Shape.reshapeEquiv (s := S1x1024x2048) squeezes_S1x1024x2048_S1024x2048.numel_eq x) := by
  refine (congrArg (fun X : RBuf (F := F) c => (rslot (i 0).val).view.read (Elt F) X)
    (write_access_unit_congr ringM (k2_off4_eq i) (k2_off4_inb i) (inb_slot (i 0).val) fs0 w Finset.univ)).trans ?_
  exact read_squeeze_write (Elt F) ringM (Rect.unit (s := S4x1024x2048) ![(i 0).val % 4, 0, 0] S1x1024x2048.size (inb_slot (i 0).val))
    (fun _ => rfl) squeezes_S1x1024x2048_S1024x2048 fs0 w

/-- and by coordinates: the squeezed view's `(r, q)` is the slot's `(0, r, q)`. -/
theorem read_stored (i : grid2.Coords) (fs0 : RBuf (F := F) c) (w : FVec F S1x1024x2048 .f32) :
    (rslot (i 0).val).view.read (Elt F) (storedW c i fs0 w) = fun x => w (ix3 (0 : Fin 1) (x 0 : Fin 1024) (x 1 : Fin 2048)) :=
  (read_stored' c i fs0 w).trans (funext fun x => congrArg w (squeeze_idx x))

/-- The same at the slot named by a number equal to the point's coordinate. -/
theorem read_stored_at (i : grid2.Coords) (n : ℕ) (hn : (i 0).val = n) (fs0 : RBuf (F := F) c) (w : FVec F S1x1024x2048 .f32) :
    (rslot n).view.read (Elt F) (storedW c i fs0 w) = fun x => w (ix3 (0 : Fin 1) (x 0 : Fin 1024) (x 1 : Fin 2048)) := by
  subst hn; exact read_stored c i fs0 w

/-! ## A column block read back after the copy has landed -/

set_option maxHeartbeats 1000000 in
/-- THE COLUMN BLOCK READ BACK: the value stored at the point that computes it, at `(0, r, q)`. -/
theorem read_landed (j : Fin 48) (fs0 : RBuf (F := F) c) (d : (cfg2.win 1).block.Idx → Elt F (cfg2.win 1).elt) :
    (colB j).view.read (Elt F) (landedW c j.val j (V c main_v5) (storedW c (grid2.coords (tpt j)) fs0 (payAt V c (tpt j) d)))
      = fun x => payAt V c (tpt j) d (ix3 (0 : Fin 1) (x 0 : Fin 1024) (x 1 : Fin 2048)) :=
  (View.read_writes_whole (colB j).view _ _).trans
    (read_stored_at c (grid2.coords (tpt j)) j.val (crd_val (tpt j)) fs0 (payAt V c (tpt j) d))

/-- A written block's contents read back, from the invariant's description of them. -/
theorem read_blockOk (j : Fin 48) (g : OBuf (F := F) c) (h : BlockOk V c j g) :
    ∃ d, (colB j).view.read (Elt F) g = fun x => payAt V c (tpt j) d (ix3 (0 : Fin 1) (x 0 : Fin 1024) (x 1 : Fin 2048)) := by
  obtain ⟨fs0, d, rfl⟩ := h
  exact ⟨d, read_landed V c j fs0 d⟩

/-! ## Before the last point the second window's block is whole -/

/-- No transfer of the second window is cut before the last point. -/
theorem clip_none : ∀ t : Fin cfg2.N, t.val < 48 → ∀ a, (cfg2.win 1).clip (cfg2.grid.coords t) a = none :=
  (by decide +kernel : ∀ t : Fin grid2.N, t.val < 48 → ∀ a, win2_1.clip (grid2.coords t) a = none)

/-- So the fetch fills the whole staging buffer: nothing of its earlier contents is left. -/
theorem wblk_congr (t : Fin cfg2.N) (ht : t.val < 48) (d d' : (cfg2.win 1).block.Idx → Elt F (cfg2.win 1).elt) :
    wblk V c t d = wblk V c t d' := by
  funext j
  have hm : (cfg2.win 1).moved (cfg2.grid.coords t) j = true :=
    ((cfg2.win 1).moved_iff _ j).mpr fun a => by
      have := (j a).isLt; unfold Window.xsize; rw [clip_none t ht a]; exact this
  unfold wblk Window.fill; rw [dif_pos hm, dif_pos hm]

end Cert.KernelIdeal.Mm

end
-- ==== Proof.MmRead2.lean ====
import proofs.«204097_g52673478918828_cont_9to1c4b_838_31_alg».proof.Proof.MmRead
import Idealize.ShloMosaic.Lib.Pipeline.Value
import Idealize.ShloMosaic.Lib.ValueIdx

set_option maxRecDepth 16384

/-! # The big matmul's region: the last block read back, and the payload at an index

The last point's copy moves only the first 1536 columns of its slot (the part of the last block inside the array): read
back through the output's columns `[98304, 99840)`, they hold the payload at `(0, r, q)`, `q < 1536`. And the payload at
`(0, r, q)` is the product plus the broadcast bias at `(r, q)`: its last operation only adds a leading unit axis. -/

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]
variable {Ix : Type} [DecidableEq Ix] {Name : Type} [DecidableEq Name] [Infinite Name]
variable {U : Type} [URA U] [CountersIn U] {Lvl : Type} [Preorder Lvl]

local notation "𝕄" => MT nD τ sig Ix (Elt F) Name U Lvl

open Idealize.ShloMosaic.ValueIdx

-- The contents of each TensorCore's buffers when the region is entered.
variable (V : (c : Dev nD) → (b : Ref sig .tc) → Buf (Elt F) ((c : Thread nD τ).loc b)) (c : Dev nD)

/-! ## Reading through one rectangle what was written through another -/

/-- A slice reads the view at the rectangle's index. -/
theorem read_slice' (Val : EltTy → Type) {κ : Kind} {sp : Space} {s : Shape} {e : EltTy} (v : View sig κ sp s e) (r' : Rect s)
    (g : v.ty.Contents Val) (y : r'.shape.Idx) : (v.slice r').read Val g y = v.read Val g (r'.emb y) := rfl

/-- Read through rectangle `r'` after an unmasked write through rectangle `r`: at an index of `r'` that is also
    `r`'s index `x`, the payload at `x`. -/
theorem read_slice_write_slice_emb (Val : EltTy → Type) {κ : Kind} {sp : Space} {s : Shape} {e : EltTy} (v : View sig κ sp s e) (r r' : Rect s)
    (f : v.ty.Contents Val) (w : r.shape.Idx → Val e) (y : r'.shape.Idx) (x : r.shape.Idx) (hxy : r.emb x = r'.emb y) :
    (v.slice r').read Val ((v.slice r).write Val f w Finset.univ) y = w x := by
  rw [read_slice', ← hxy, View.read_slice_write_emb r f w (Finset.mem_univ x)]

/-- The same through the squeezed slice at `r'`. -/
theorem read_squeeze_write_slice (Val : EltTy → Type) {κ : Kind} {sp : Space} {s s' : Shape} {e : EltTy} (m : Memref sig κ sp s e) (r r' : Rect s)
    (hr' : ∀ a, r'.stride a = 1) (hsq : r'.shape.Squeezes s') (f : (m.access r).ty.Contents Val) (w : r.shape.Idx → Val e)
    (y : s'.Idx) (x : r.shape.Idx) (hxy : r.emb x = r'.emb (Shape.reshapeEquiv hsq.numel_eq y)) :
    ((m.slice r' hr').squeeze s' hsq).view.read Val ((m.access r).write Val f w Finset.univ) y = w x := by
  show ((m.access r').reshape s' hsq.numel_eq).read Val ((m.access r).write Val f w Finset.univ) y = _
  rw [read_reshape']
  exact read_slice_write_slice_emb Val m.view r r' f w _ x hxy

/-! ## The last block read back -/

/-- The index of the `[1,1024,1536]` part of the slot that an index of its squeezed `[1024,1536]` view names. -/
theorem squeeze_idxL (x : S1024x1536.Idx) :
    Shape.reshapeEquiv (s := S1x1024x1536) squeezes_S1x1024x1536_S1024x1536.numel_eq x = ix3 (0 : Fin 1) (x 0 : Fin 1024) (x 1 : Fin 1536) := by
  refine Shape.reshapeEquiv_eq_of_rowMajor _ ?_
  have h3 := Shape.rowMajor_val_three (d := ![1, 1024, 1536]) (ix3 (0 : Fin 1) (x 0 : Fin 1024) (x 1 : Fin 1536))
  have h2 := Shape.rowMajor_val_two (d := ![1024, 1536]) x
  refine h3.trans (Eq.trans ?_ h2.symm)
  show ((0 : ℕ) * 1024 + (x 0).val) * 1536 + (x 1).val = (x 0).val * 1536 + (x 1).val
  omega

/-- The last point stores into slot `48 % 4`. -/
theorem k2_off4_t48 : k2_off4 (grid2.coords t48) = ![48 % 4, 0, 0] := by
  rw [k2_off4_eq, crd_val t48]; rfl

set_option maxHeartbeats 1000000 in
/-- THE SLOT'S FIRST 1536 COLUMNS READ BACK after the last point's store: the stored value there. -/
theorem read_storedL (fs0 : RBuf (F := F) c) (w : FVec F S1x1024x2048 .f32) :
    rslotL.view.read (Elt F) (storedW c (grid2.coords t48) fs0 w)
      = fun x : S1024x1536.Idx => w (ix3 (0 : Fin 1) (x 0 : Fin 1024) (Fin.castLE (by decide : 1536 ≤ 2048) (x 1 : Fin 1536))) := by
  refine (congrArg (fun X : RBuf (F := F) c => rslotL.view.read (Elt F) X)
    (write_access_unit_congr ringM k2_off4_t48 (k2_off4_inb (grid2.coords t48)) (inb_slot 48) fs0 w Finset.univ)).trans ?_
  funext x
  refine read_squeeze_write_slice (Elt F) ringM (Rect.unit (s := S4x1024x2048) ![48 % 4, 0, 0] S1x1024x2048.size (inb_slot 48))
    (Rect.unit (s := S4x1024x2048) ![48 % 4, 0, 0] S1x1024x1536.size inb_slotL) (fun _ => rfl) squeezes_S1x1024x1536_S1024x1536 fs0 w x
    (ix3 (0 : Fin 1) (x 0 : Fin 1024) (Fin.castLE (by decide : 1536 ≤ 2048) (x 1 : Fin 1536))) ?_
  rw [squeeze_idxL]
  funext a; apply Fin.ext
  match a with
  | ⟨0, _⟩ => rfl
  | ⟨1, _⟩ => rfl
  | ⟨2, _⟩ => rfl

set_option maxHeartbeats 1000000 in
/-- THE LAST BLOCK'S COLUMNS READ BACK, from the invariant's description of them. -/
theorem read_lastOk (g : OBuf (F := F) c) (h : LastOk V c g) :
    ∃ d, colL.view.read (Elt F) g
      = fun x : S1024x1536.Idx => payAt V c t48 d (ix3 (0 : Fin 1) (x 0 : Fin 1024) (Fin.castLE (by decide : 1536 ≤ 2048) (x 1 : Fin 1536))) := by
  obtain ⟨fs0, d, rfl⟩ := h
  exact ⟨d, (View.read_writes_whole colL.view _ _).trans (read_storedL c fs0 (payAt V c t48 d))⟩

/-! ## The payload at an index -/

/-- The payload as the tree of its operations. -/
theorem k2_pay1_eq (v1 : Vec F S1024x128 .f32) (v3 : Vec F S2048x128 .f32) (v8 : Vec F S2048 .f32) :
    k2_pay1 v1 v3 v8 = shapeCast S1x1024x2048 (addf (matmul dot_S1024x128_S2048x128_S1024x2048_1_1_0_0_n_n none
          (shapeCast S1024x128 v1 shapeCasts_S1024x128_S1024x128) v3 (constant S1024x2048 .f32 0x00000000#32))
        (broadcastTo S1024x2048 (shapeCast S1x2048 (shapeCast S2048 v8 shapeCasts_S2048_S2048) shapeCasts_S2048_S1x2048) broadcasts_S1x2048_S1024x2048))
      shapeCasts_S1024x2048_S1x1024x2048 := rfl

/-- THE PAYLOAD AT `(0, r, q)`: the product into zero plus the bias broadcast along the rows, at `(r, q)`. -/
theorem k2_pay1_apply (v1 : Vec F S1024x128 .f32) (v3 : Vec F S2048x128 .f32) (v8 : Vec F S2048 .f32) (r : Fin 1024) (q : Fin 2048) :
    k2_pay1 v1 v3 v8 (ix3 (0 : Fin 1) r q)
      = addf (matmul dot_S1024x128_S2048x128_S1024x2048_1_1_0_0_n_n none v1 v3 (constant S1024x2048 .f32 0x00000000#32))
          (broadcastTo S1024x2048 (shapeCast S1x2048 v8 shapeCasts_S2048_S1x2048) broadcasts_S1x2048_S1024x2048) (ix2 r q) := by
  rw [k2_pay1_eq, shapeCast_self, shapeCast_self]
  refine (shapeCast_addUnit_apply ![1024, 2048] _ shapeCasts_S1024x2048_S1x1024x2048 (ix3 (0 : Fin 1) r q)).trans ?_
  refine congrArg _ (funext fun a => ?_)
  match a with
  | ⟨0, _⟩ => rfl
  | ⟨1, _⟩ => rfl

end Cert.KernelIdeal.Mm

end
-- ==== Proof.MmFinal.lean ====
/-
  The matmul region's output array at the exact extended reals: from the final contents the invariant gives back,
  entry (r, q) below column 99840 is row r of the pooled array times row q of the weights plus entry q of the padded
  bias, and from column 99840 on it is the entry contents.
-/
import proofs.«204097_g52673478918828_cont_9to1c4b_838_31_alg».proof.Proof.MmInOut
import proofs.«204097_g52673478918828_cont_9to1c4b_838_31_alg».proof.Proof.MmIdeal
import proofs.«204097_g52673478918828_cont_9to1c4b_838_31_alg».proof.Proof.MmRead2

set_option maxRecDepth 16384

noncomputable section

open scoped BigOperators

namespace Cert.KernelIdeal.Mm

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The windows' blocks at an index (any float instance) -/

section Blocks
variable {F : FTy → Type} [FloatOps F] [Named F]
variable (V : (c : Dev nD) → (b : Ref sig .tc) → Buf (Elt F) ((c : Thread nD τ).loc b)) (c : Dev nD)

/-- The printed index maps, decided over the grid: the first window stays at block 0, the second and third move with the
    point along their first axis; the second window's block is cut at the array's end at the last point only. -/
theorem win_idx_facts : ∀ t : Fin cfg2.N, win2_0.index t (0 : Fin 2) = 0 ∧ win2_0.index t (1 : Fin 2) = 0
    ∧ win2_1.index t (0 : Fin 2) = t.val ∧ win2_1.index t (1 : Fin 2) = 0 ∧ win2_2.index t (0 : Fin 1) = t.val ∧ t.val < 49
    ∧ win2_1.xsize (grid2.coords t) (0 : Fin 2) = (if t.val = 48 then 1696 else 2048) ∧ win2_1.xsize (grid2.coords t) (1 : Fin 2) = 128 :=
  (by decide +kernel : ∀ t : Fin grid2.N, _)

/-- The first window's block is the whole pooled array. -/
theorem iblk0_apply (t : Fin cfg2.N) (r : Fin 1024) (k : Fin 128) :
    (iblk V c 0 t : S1024x128.Idx → Elt F .f32) (ix2 r k) = (V c main_v3 : S1024x128.Idx → Elt F .f32) (ix2 r k) := by
  obtain ⟨e0, e1, e2, e3, e4, e5, e6, e7⟩ := win_idx_facts t
  show V c main_v3 (((cfg2.win 0).blk t).view.emb (ix2 r k)) = V c main_v3 (ix2 r k)
  congr 1
  funext a; apply Fin.ext
  match a with
  | ⟨0, _⟩ => show win2_0.index t (0 : Fin 2) * 1024 + 1 * r.val = r.val; omega
  | ⟨1, _⟩ => show win2_0.index t (1 : Fin 2) * 128 + 1 * k.val = k.val; omega

/-- The third window's block at point `t` is entries [2048 t, 2048 t + 2048) of the padded bias. -/
theorem iblk2_apply (t : Fin cfg2.N) (q' : Fin 2048) (hq : 2048 * t.val + q'.val < 100352) :
    (iblk V c 2 t : S2048.Idx → Elt F .f32) (ix1 q') = (V c main_v4 : S100352.Idx → Elt F .f32) (ix1 (⟨2048 * t.val + q'.val, hq⟩ : Fin 100352)) := by
  obtain ⟨e0, e1, e2, e3, e4, e5, e6, e7⟩ := win_idx_facts t
  show V c main_v4 (((cfg2.win 2).blk t).view.emb (ix1 q')) = V c main_v4 (ix1 (⟨2048 * t.val + q'.val, hq⟩ : Fin 100352))
  congr 1
  funext a; apply Fin.ext
  match a with
  | ⟨0, _⟩ => show win2_2.index t (0 : Fin 1) * 2048 + 1 * q'.val = 2048 * t.val + q'.val; omega

/-- The second window's staging buffer at point `t`, at a row inside the array, holds that row of the weights:
    rows [2048 t, 2048 t + 2048) cut at row 100000. -/
theorem wblk_apply (t : Fin cfg2.N) (d : (cfg2.win 1).block.Idx → Elt F (cfg2.win 1).elt) (q' : Fin 2048) (k : Fin 128)
    (hq : 2048 * t.val + q'.val < 100000) :
    (wblk V c t d : S2048x128.Idx → Elt F .f32) (ix2 q' k)
      = (V c main_arg2 : S100000x128.Idx → Elt F .f32) (ix2 (⟨2048 * t.val + q'.val, hq⟩ : Fin 100000) k) := by
  obtain ⟨e0, e1, e2, e3, e4, e5, e6, e7⟩ := win_idx_facts t
  have hm : (cfg2.win 1).moved (cfg2.grid.coords t) (ix2 q' k : S2048x128.Idx) = true := by
    rw [Window.moved_iff]
    intro a
    match a with
    | ⟨0, _⟩ =>
      show q'.val < win2_1.xsize (grid2.coords t) (0 : Fin 2)
      rw [e6]; split <;> omega
    | ⟨1, _⟩ =>
      show k.val < win2_1.xsize (grid2.coords t) (1 : Fin 2)
      rw [e7]; exact k.isLt
  unfold wblk Window.fill
  rw [dif_pos hm]
  show V c main_arg2 (((cfg2.win 1).blk t).view.emb _) = V c main_arg2 (ix2 (⟨2048 * t.val + q'.val, hq⟩ : Fin 100000) k)
  congr 1
  funext a; apply Fin.ext
  match a with
  | ⟨0, _⟩ => show win2_1.index t (0 : Fin 2) * 2048 + 1 * q'.val = 2048 * t.val + q'.val; omega
  | ⟨1, _⟩ => show win2_1.index t (1 : Fin 2) * 128 + 1 * k.val = k.val; omega

end Blocks

/-! ## The output array at the exact values -/

section Final
variable (V : (c : Dev nD) → (b : Ref sig .tc) → Buf (Elt Ideal) ((c : Thread nD τ).loc b)) (c : Dev nD)

/-- The arrays the region reads and the output array as it finds it, on core `c`, as arrays of extended reals: the pooled
    array [1024, 128], the weights [100000, 128], the padded bias [100352], the output [1024, 100000]. -/
abbrev poolA : S1024x128.Idx → EReal := V c main_v3
abbrev wtA : S100000x128.Idx → EReal := V c main_arg2
abbrev biasA : S100352.Idx → EReal := V c main_v4
abbrev outA : S1024x100000.Idx → EReal := V c main_v5

/-- The value stored at point `t`, at row r and a column whose row of the weights is inside the array: row r of the
    pooled array times that row of the weights, plus that entry of the padded bias. -/
theorem payAt_apply (t : Fin cfg2.N) (d : (cfg2.win 1).block.Idx → Elt Ideal (cfg2.win 1).elt) (r : Fin 1024) (q' : Fin 2048)
    (hq : 2048 * t.val + q'.val < 100000) :
    (payAt V c t d (ix3 (0 : Fin 1) r q') : EReal)
      = (∑ k : Fin 128, poolA V c (ix2 r k) * wtA V c (ix2 (⟨2048 * t.val + q'.val, hq⟩ : Fin 100000) k))
        + biasA V c (ix1 (⟨2048 * t.val + q'.val, Nat.lt_trans hq (by decide)⟩ : Fin 100352)) := by
  rw [payAt_eq]
  refine (pay_apply _ _ _ r q').trans ?_
  exact congrArg₂ (fun a b : EReal => a + b)
    (Finset.sum_congr rfl fun k _ => congrArg₂ (fun a b : EReal => a * b) (iblk0_apply V c t r k) (wblk_apply V c t d q' k hq))
    (iblk2_apply V c t q' (Nat.lt_trans hq (by decide)))

/-- THE OUTPUT ARRAY below column 99840: entry (r, q) is row r of the pooled array times row q of the weights, plus
    entry q of the padded bias. -/
theorem final_apply_lt (g : OBuf (F := Ideal) c) (h : FinalOk V c g) (r : Fin 1024) (q : Fin 100000) (hq : q.val < 99840) :
    (g : S1024x100000.Idx → EReal) (ix2 r q)
      = (∑ k : Fin 128, poolA V c (ix2 r k) * wtA V c (ix2 q k))
        + biasA V c (ix1 (⟨q.val, Nat.lt_trans q.isLt (by decide)⟩ : Fin 100352)) := by
  have hq' := q.isLt
  by_cases hb : q.val < 98304
  · -- a full column block: block j = q / 2048, column q % 2048 of it
    obtain ⟨j, hj⟩ : ∃ j : Fin 48, j.val = q.val / 2048 := ⟨⟨q.val / 2048, by omega⟩, rfl⟩
    obtain ⟨y, hy⟩ : ∃ y : Fin 2048, y.val = q.val % 2048 := ⟨⟨q.val % 2048, Nat.mod_lt _ (by decide)⟩, rfl⟩
    obtain ⟨gj, hB, hagree⟩ := h.1 j
    obtain ⟨d, hread⟩ := read_blockOk V c j gj hB
    have hmem : (ix2 r q : S1024x100000.Idx) ∈ colSet j := by
      rw [mem_colSet]; show 2048 * j.val ≤ q.val ∧ q.val < 2048 * j.val + 2048; omega
    have hemb : (ix2 r q : S1024x100000.Idx) = (colB j).view.emb (ix2 r y : S1024x2048.Idx) := by
      funext a; apply Fin.ext
      match a with
      | ⟨0, _⟩ => show r.val = 0 + 1 * r.val; omega
      | ⟨1, _⟩ => show q.val = 2048 * j.val + 1 * y.val; omega
    have h1 : (gj : S1024x100000.Idx → EReal) (ix2 r q) = (colB j).view.read (Elt Ideal) gj (ix2 r y) := by
      rw [hemb]; rfl
    have hlt : 2048 * (tpt j).val + y.val < 100000 := by
      show 2048 * j.val + y.val < 100000; omega
    have e : (⟨2048 * (tpt j).val + y.val, hlt⟩ : Fin 100000) = q :=
      Fin.ext (by show 2048 * j.val + y.val = q.val; omega)
    have e' : (⟨2048 * (tpt j).val + y.val, Nat.lt_trans hlt (by decide)⟩ : Fin 100352) = ⟨q.val, Nat.lt_trans q.isLt (by decide)⟩ :=
      Fin.ext (by show 2048 * j.val + y.val = q.val; omega)
    rw [hagree _ hmem, h1, hread]
    refine (payAt_apply V c (tpt j) d r y hlt).trans ?_
    rw [e, e']
  · -- the last block's columns inside the array: column q - 98304 of it
    obtain ⟨y, hy⟩ : ∃ y : Fin 1536, y.val = q.val - 98304 := ⟨⟨q.val - 98304, by omega⟩, rfl⟩
    obtain ⟨gL, hL, hagree⟩ := h.2.1
    obtain ⟨d, hread⟩ := read_lastOk V c gL hL
    have hmem : (ix2 r q : S1024x100000.Idx) ∈ colLSet := by
      rw [mem_colLSet]; show 98304 ≤ q.val ∧ q.val < 99840; omega
    have hemb : (ix2 r q : S1024x100000.Idx) = colL.view.emb (ix2 r y : S1024x1536.Idx) := by
      funext a; apply Fin.ext
      match a with
      | ⟨0, _⟩ => show r.val = 0 + 1 * r.val; omega
      | ⟨1, _⟩ => show q.val = 2048 * 48 + 1 * y.val; omega
    have h1 : (gL : S1024x100000.Idx → EReal) (ix2 r q) = colL.view.read (Elt Ideal) gL (ix2 r y) := by
      rw [hemb]; rfl
    have hlt : 2048 * t48.val + (Fin.castLE (by decide : 1536 ≤ 2048) y).val < 100000 := by
      show 2048 * 48 + y.val < 100000; omega
    have e : (⟨2048 * t48.val + (Fin.castLE (by decide : 1536 ≤ 2048) y).val, hlt⟩ : Fin 100000) = q :=
      Fin.ext (by show 2048 * 48 + y.val = q.val; omega)
    have e' : (⟨2048 * t48.val + (Fin.castLE (by decide : 1536 ≤ 2048) y).val, Nat.lt_trans hlt (by decide)⟩ : Fin 100352)
        = ⟨q.val, Nat.lt_trans q.isLt (by decide)⟩ :=
      Fin.ext (by show 2048 * 48 + y.val = q.val; omega)
    rw [hagree _ hmem, h1, hread]
    refine (payAt_apply V c t48 d r (Fin.castLE (by decide : 1536 ≤ 2048) y) hlt).trans ?_
    rw [e, e']

/-- THE OUTPUT ARRAY from column 99840 on: its entry contents. -/
theorem final_apply_ge (g : OBuf (F := Ideal) c) (h : FinalOk V c g) (r : Fin 1024) (q : Fin 100000) (hq : 99840 ≤ q.val) :
    (g : S1024x100000.Idx → EReal) (ix2 r q) = outA V c (ix2 r q) :=
  h.2.2 _ (by rw [mem_tailSet]; exact hq)

end Final

end Cert.KernelIdeal.Mm

end
-- ==== Proof.TailValue.lean ====
import proofs.«204097_g52673478918828_cont_9to1c4b_838_31_alg».proof.Proof.TailRegion
import Idealize.ShloMosaic.Lib.ValueIdx
import Idealize.ShloMosaic.Lib.Pipeline.Value
import Idealize.ShloMosaic.PureOps.Ideal.Laws

/-! # The tail matmul's payload at an index, over the extended reals

What the tail kernel stores at row `r`, column `q` of its `[1024,160]` result: the product of the pooled rows with the
last 160 rows of the weights, BOTH operands contracted on their second axis (a product with the transpose), accumulated
into zero, plus the bias broadcast along the rows. -/

set_option maxRecDepth 16384

noncomputable section

namespace Cert.KernelIdeal.Tail

open Cert.KernelIdeal Cert.KernelIdeal.Gen
open Idealize.ShloMosaic Idealize.ShloMosaic.ValueIdx
open scoped BigOperators

/-- The matmul's dimension numbers: both operands contracted on axis 1, rows of the first then rows of the second. -/
abbrev DD : DotDims S1024x128 S160x128 S1024x160 := dot_S1024x128_S160x128_S1024x160_1_1_0_0_n_n

/-! ## The operands' indices at an output index and a contraction position -/

theorem lhs_0 (i : S1024x160.Idx) (q : DD.contr.Idx) : (DD.lhsIdx i q 0).val = (i 0).val := by
  unfold DotDims.lhsIdx
  rw [dif_neg (show ¬(0 : Fin S1024x128.rank) ∈ DD.lhsBatch by decide), dif_pos (show (0 : Fin S1024x128.rank) ∈ DD.lhsNonContracting by decide)]
  rfl
theorem lhs_1 (i : S1024x160.Idx) (q : DD.contr.Idx) : (DD.lhsIdx i q 1).val = (q ⟨0, by decide⟩).val :=
  DD.lhsIdx_val_of_single rfl i q
theorem rhs_0 (i : S1024x160.Idx) (q : DD.contr.Idx) : (DD.rhsIdx i q 0).val = (i 1).val := by
  unfold DotDims.rhsIdx
  rw [dif_neg (show ¬(0 : Fin S160x128.rank) ∈ DD.rhsBatch by decide), dif_pos (show (0 : Fin S160x128.rank) ∈ DD.rhsNonContracting by decide)]
  rfl
theorem rhs_1 (i : S1024x160.Idx) (q : DD.contr.Idx) : (DD.rhsIdx i q 1).val = (q ⟨0, by decide⟩).val :=
  DD.rhsIdx_val_of_single rfl i q

/-! ## The payload -/

/-- The payload as the tree of its operations. -/
theorem pay_eq (v0 : Vec Ideal S1024x128 .f32) (v2 : Vec Ideal S160x128 .f32) (v5 : Vec Ideal S160 .f32) :
    k3_pay1 v0 v2 v5 = addf (matmul (φ₁ := .f32) (φ₂ := .f32) DD none (shapeCast S1024x128 v0 shapeCasts_S1024x128_S1024x128)
        (shapeCast S160x128 v2 shapeCasts_S160x128_S160x128) (constant (F := Ideal) S1024x160 .f32 0x00000000#32))
      (broadcastTo S1024x160 (shapeCast S1x160 (shapeCast S160 v5 shapeCasts_S160_S160) shapeCasts_S160_S1x160) broadcasts_S1x160_S1024x160) := rfl

/-- The product at `(r, q)`: row `r` of the first operand against row `q` of the second. -/
theorem mm_apply (P : S1024x128.Idx → EReal) (W6 : S160x128.Idx → EReal) (r : Fin 1024) (q : Fin 160) :
    FloatOps.matmul (F := Ideal) (φ₁ := .f32) (φ₂ := .f32) DD none P W6 (constant (F := Ideal) S1024x160 .f32 0x00000000#32) (ix2 r q)
      = ∑ k : Fin 128, P (ix2 r k) * W6 (ix2 q k) := by
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 r q) ((contrEquiv1 DD 128 rfl rfl).symm k) = ix2 r k := funext fun a => Fin.ext (by
    match a with
    | ⟨0, _⟩ => exact lhs_0 _ _
    | ⟨1, _⟩ => exact (lhs_1 _ _).trans hk)
  have er : DD.rhsIdx (ix2 r q) ((contrEquiv1 DD 128 rfl rfl).symm k) = ix2 q k := funext fun a => Fin.ext (by
    match a with
    | ⟨0, _⟩ => exact rhs_0 _ _
    | ⟨1, _⟩ => exact (rhs_1 _ _).trans hk)
  rw [el, er]

/-- The bias, a `[160]` vector viewed `[1,160]` and broadcast along the rows, at `(r, q)`. -/
theorem bias_apply (b7 : S160.Idx → EReal) (r : Fin 1024) (q : Fin 160) :
    broadcastTo S1024x160 (shapeCast S1x160 b7 shapeCasts_S160_S1x160) broadcasts_S1x160_S1024x160 (ix2 r q) = b7 (ix1 q) := by
  refine (broadcastTo_apply _ _ (ix2 r q) (ix2 (0 : Fin 1) q) (fun a => ?_)).trans ?_
  · match a with
    | ⟨0, _⟩ => rfl
    | ⟨1, _⟩ => rfl
  · refine (shapeCast_addUnit_apply ![160] b7 shapeCasts_S160_S1x160 (ix2 (0 : Fin 1) q)).trans ?_
    exact congrArg b7 (funext fun a => by match a with | ⟨0, _⟩ => rfl)

/-- THE TAIL KERNEL'S RESULT at row `r`, column `q`. -/
theorem tail_value (P : S1024x128.Idx → EReal) (W6 : S160x128.Idx → EReal) (b7 : S160.Idx → EReal) (r : Fin 1024) (q : Fin 160) :
    out3 (F := Ideal) P W6 b7 (ix2 r q) = (∑ k : Fin 128, P (ix2 r k) * W6 (ix2 q k)) + b7 (ix1 q) := by
  rw [out3_eq, pay_eq, addf_apply, shapeCast_self, shapeCast_self, shapeCast_self, bias_apply]
  simp only [matmul]
  rw [mm_apply]

end Cert.KernelIdeal.Tail

end
-- ==== Proof.TcChainValue.lean ====
/-
  The value of the whole program at the exact extended reals: the TensorCore's buffers are followed boundary by
  boundary — the regrouped rows, the pooled array, the padded bias, the big product, the two slices, the tail product,
  the final update — and the result buffer is the specification's function of the four arguments.
-/
import proofs.«204097_g52673478918828_cont_9to1c4b_838_31_alg».proof.Proof.TcChain
import proofs.«204097_g52673478918828_cont_9to1c4b_838_31_alg».proof.Proof.TcPreValue
import proofs.«204097_g52673478918828_cont_9to1c4b_838_31_alg».proof.Proof.KernelValue
import proofs.«204097_g52673478918828_cont_9to1c4b_838_31_alg».proof.Proof.PoolValue
import proofs.«204097_g52673478918828_cont_9to1c4b_838_31_alg».proof.Proof.MmFinal
import proofs.«204097_g52673478918828_cont_9to1c4b_838_31_alg».proof.Proof.TailValue

set_option maxRecDepth 16384

noncomputable section

open scoped BigOperators

namespace Cert.KernelIdeal.Tc.Value

open Cert.KernelIdeal Cert.KernelIdeal.Gen
open Idealize.ShloMosaic Idealize.ShloMosaic.TcCoe Idealize.ShloMosaic.ValueIdx
open Idealize.ShloMosaic.StableHlo
open Idealize.SL Idealize.SL.Sem
open Idealize.ShloMosaic.Pipeline (Dat)

variable (m : (ℓ : Loc nD τ sig) → Buf (Elt Ideal) ℓ) (c : Dev nD)

/-! ## The buffers, boundary by boundary -/

/-- After the call, a buffer other than the rows' and the flattened index array is as launched. -/
theorem W2m_of_ne (r : Ref sig .tc) (h1 : r ≠ main_v1) (h0 : r ≠ main_v0) :
    W2m m c (Proc.devRef .tc r) = m ((c.tc : Thread nD τ).loc r) := by
  show Function.update (W1 m c) (Proc.devRef .tc main_v1) (gO m c) (Proc.devRef .tc r) = _
  rw [Function.update_of_ne (StableHlo.devRef_ne_of_ne h1)]
  show StableHlo.after (ops0 (F := Ideal)) (W0 m c) (Proc.devRef .tc r) = _
  simp only [after_cons, after_nil]
  rw [StableHlo.reshape_result_ne (h := h0)]

/-- The regrouped rows. -/
theorem W3_v2 : W3 m c (Proc.devRef .tc main_v2) = shapeCast S1024x20x128 (gO m c) shapeCasts_S20480x128_S1024x20x128 := by
  show StableHlo.after (ops1 (F := Ideal)) (W2m m c) (Proc.devRef .tc main_v2) = _
  after_results
  show (fun i => shapeCast S1024x20x128 (Function.update (W1 m c) (Proc.devRef .tc main_v1) (gO m c) (Proc.devRef .tc main_v1)) shapeCasts_S20480x128_S1024x20x128 i) = _
  rw [Function.update_self]

theorem W3_of_ne (r : Ref sig .tc) (h2 : r ≠ main_v2) (h1 : r ≠ main_v1) (h0 : r ≠ main_v0) :
    W3 m c (Proc.devRef .tc r) = m ((c.tc : Thread nD τ).loc r) := by
  show StableHlo.after (ops1 (F := Ideal)) (W2m m c) (Proc.devRef .tc r) = _
  simp only [after_cons, after_nil]
  rw [StableHlo.reshape_result_ne (h := h2)]
  exact W2m_of_ne m c r h1 h0

/-- The pooled array. -/
theorem W4_v3 : W4 m c (Proc.devRef .tc main_v3) = Pool.poolArr (W3 m c (Proc.devRef .tc main_v2)) := by
  unfold W4
  refine (Pipeline.withArrays_arr spec1 winFacts1.arr_inj c (W3 m c) _ (1 : Fin 2)).trans ?_
  exact Pool.final (V3 m) (Bset c) c

theorem W4_of_ne (r : Ref sig .tc) (h2 : r ≠ main_v2) (h3 : r ≠ main_v3) :
    W4 m c (Proc.devRef .tc r) = W3 m c (Proc.devRef .tc r) := by
  unfold W4
  exact Pipeline.withArrays_of_ne spec1 c (W3 m c) _ r fun w =>
    match w with
    | ⟨0, _⟩ => Ne.symm h2
    | ⟨1, _⟩ => Ne.symm h3

/-- The buffers the big product reads. -/
theorem W5_v3 : W5 m c (Proc.devRef .tc main_v3) = W4 m c (Proc.devRef .tc main_v3) := by
  show StableHlo.after (ops2 (F := Ideal)) (W4 m c) (Proc.devRef .tc main_v3) = _
  after_results
theorem W5_arg2 : W5 m c (Proc.devRef .tc main_arg2) = W4 m c (Proc.devRef .tc main_arg2) := by
  show StableHlo.after (ops2 (F := Ideal)) (W4 m c) (Proc.devRef .tc main_arg2) = _
  after_results
theorem W5_arg3 : W5 m c (Proc.devRef .tc main_arg3) = W4 m c (Proc.devRef .tc main_arg3) := by
  show StableHlo.after (ops2 (F := Ideal)) (W4 m c) (Proc.devRef .tc main_arg3) = _
  after_results
/-- The scalar the bias is padded with: the integer zero converted. -/
abbrev zeroV : S_.Idx → EReal := sitofp (F := Ideal) .f32 (constantI S_ 32 0#32)
theorem W5_v4 : W5 m c (Proc.devRef .tc main_v4)
    = pad S100352 ![0] ![352] ![0] (W4 m c (Proc.devRef .tc main_arg3) : S100000.Idx → EReal) zeroV pads_S100000_S100352_03520 h_S_ := by
  show StableHlo.after (ops2 (F := Ideal)) (W4 m c) (Proc.devRef .tc main_v4) = _
  after_results
  rfl

/-- After the two slices. -/
theorem W7_v5 (g : OB (F := Ideal) c) : W7 m c g (Proc.devRef .tc main_v5) = g := by
  show StableHlo.after (ops3 (F := Ideal)) (W6 m c g) (Proc.devRef .tc main_v5) = _
  after_results
  unfold W6; rw [Function.update_self]
theorem W7_v3 (g : OB (F := Ideal) c) : W7 m c g (Proc.devRef .tc main_v3) = W4 m c (Proc.devRef .tc main_v3) := by
  show StableHlo.after (ops3 (F := Ideal)) (W6 m c g) (Proc.devRef .tc main_v3) = _
  after_results
  unfold W6; rw [Function.update_of_ne (StableHlo.devRef_ne_of_ne (by decide))]
  exact W5_v3 m c
theorem W7_v6 (g : OB (F := Ideal) c) : W7 m c g (Proc.devRef .tc main_v6)
    = extractStridedSlice S160x128 ![99840, 0] (W4 m c (Proc.devRef .tc main_arg2)) slices_S100000x128_S160x128_99840_0 := by
  show StableHlo.after (ops3 (F := Ideal)) (W6 m c g) (Proc.devRef .tc main_v6) = _
  after_results
  unfold W6; rw [Function.update_of_ne (StableHlo.devRef_ne_of_ne (by decide)), W5_arg2]
theorem W7_v7 (g : OB (F := Ideal) c) : W7 m c g (Proc.devRef .tc main_v7)
    = extractStridedSlice S160 ![99840] (W4 m c (Proc.devRef .tc main_arg3)) slices_S100000_S160_99840 := by
  show StableHlo.after (ops3 (F := Ideal)) (W6 m c g) (Proc.devRef .tc main_v7) = _
  after_results
  unfold W6; rw [Function.update_of_ne (StableHlo.devRef_ne_of_ne (by decide)), W5_arg3]

/-- After the tail region. -/
theorem W8_v8 (g : OB (F := Ideal) c) : W8 m c g (Proc.devRef .tc main_v8)
    = Tail.out3 (V7 m c main_v3) (V7 m c main_v6) (V7 m c main_v7) := by
  unfold W8
  refine (Pipeline.withArrays_arr spec3 winFacts3.arr_inj c (W7 m c g) _ (3 : Fin 4)).trans ?_
  exact Tail.final (V7 m) (Bset c) c
theorem W8_v5 (g : OB (F := Ideal) c) : W8 m c g (Proc.devRef .tc main_v5) = g := by
  unfold W8
  refine (Pipeline.withArrays_of_ne spec3 c (W7 m c g) _ main_v5 (by decide)).trans ?_
  exact W7_v5 m c g

/-- The result buffer: the tail's columns written over the big product's. -/
theorem W9_v9 (g : OB (F := Ideal) c) :
    W9 m c g (Proc.devRef .tc main_v9)
      = Host.dynamicUpdateSlice (W8 m c g (Proc.devRef .tc main_v5) : S1024x100000.Idx → EReal) (W8 m c g (Proc.devRef .tc main_v8) : S1024x160.Idx → EReal)
          (fun k => ((![constantI S_ 32 0#32, constantI S_ 32 99840#32] : Fin 2 → IVec S_ 32) k (Shape.Idx.first h_S_)).toInt) updateFits_S1024x100000_S1024x160 := by
  show StableHlo.after (ops4 (F := Ideal)) (W8 m c g) (Proc.devRef .tc main_v9) = _
  after_results
  congr 1
  funext k
  fin_cases k
  · rfl
  · rfl

/-! ## The result -/

section Result
variable [Cert.Pre_input_domain.Facts]

/-- The pooled array, the weights and the padded bias as the big product's region finds them. -/
theorem pool_eq (h : Cert.Pre_KernelIdeal m) :
    (W4 m c (Proc.devRef .tc main_v3) : S1024x128.Idx → EReal)
      = Cert.Spec.pooledMulX (Cert.Spec.gathered (m ((c.tc : Thread nD τ).loc main_arg1)) (m ((c.tc : Thread nD τ).loc main_arg0))) := by
  rw [W4_v3, W3_v2, rows_value m h c]
  exact Pool.pool_value _

theorem W4_arg2 : W4 m c (Proc.devRef .tc main_arg2) = m ((c.tc : Thread nD τ).loc main_arg2) := by
  rw [W4_of_ne m c main_arg2 (by decide) (by decide), W3_of_ne m c main_arg2 (by decide) (by decide) (by decide)]
theorem W4_arg3 : W4 m c (Proc.devRef .tc main_arg3) = m ((c.tc : Thread nD τ).loc main_arg3) := by
  rw [W4_of_ne m c main_arg3 (by decide) (by decide), W3_of_ne m c main_arg3 (by decide) (by decide) (by decide)]

theorem poolA_eq (h : Cert.Pre_KernelIdeal m) :
    Mm.poolA (V5 m) c = Cert.Spec.pooledMulX (Cert.Spec.gathered (m ((c.tc : Thread nD τ).loc main_arg1)) (m ((c.tc : Thread nD τ).loc main_arg0))) :=
  (W5_v3 m c).trans (pool_eq m c h)
theorem wtA_eq : Mm.wtA (V5 m) c = (m ((c.tc : Thread nD τ).loc main_arg2) : S100000x128.Idx → EReal) :=
  (W5_arg2 m c).trans (W4_arg2 m c)
theorem biasA_eq : Mm.biasA (V5 m) c
    = pad S100352 ![0] ![352] ![0] (m ((c.tc : Thread nD τ).loc main_arg3) : S100000.Idx → EReal) zeroV pads_S100000_S100352_03520 h_S_ := by
  refine (W5_v4 m c).trans ?_
  rw [W4_arg3]

/-- The tail product's block. -/
theorem tail_eq (h : Cert.Pre_KernelIdeal m) (g : OB (F := Ideal) c) :
    (W8 m c g (Proc.devRef .tc main_v8) : S1024x160.Idx → EReal)
      = Tail.out3 (F := Ideal)
          (Cert.Spec.pooledMulX (Cert.Spec.gathered (m ((c.tc : Thread nD τ).loc main_arg1)) (m ((c.tc : Thread nD τ).loc main_arg0))))
          (extractStridedSlice S160x128 ![99840, 0] (m ((c.tc : Thread nD τ).loc main_arg2) : S100000x128.Idx → EReal) slices_S100000x128_S160x128_99840_0)
          (extractStridedSlice S160 ![99840] (m ((c.tc : Thread nD τ).loc main_arg3) : S100000.Idx → EReal) slices_S100000_S160_99840) := by
  refine (W8_v8 m c g).trans ?_
  show Tail.out3 (F := Ideal) (W7 m c (V5 m c main_v5) (Proc.devRef .tc main_v3)) (W7 m c (V5 m c main_v5) (Proc.devRef .tc main_v6))
    (W7 m c (V5 m c main_v5) (Proc.devRef .tc main_v7)) = _
  rw [W7_v3, W7_v6, W7_v7, pool_eq m c h, W4_arg2, W4_arg3]

/-- THE RESULT BUFFER after the whole program, given what is known of the big product's buffer after its region: the
    specification's function of the table, the index array, the weights and the bias. -/
theorem result_value (h : Cert.Pre_KernelIdeal m) (g : OB (F := Ideal) c) (hg : OkG m c g) :
    W9 m c g (Proc.devRef .tc main_v9)
      = Cert.Spec.G (m ((c.tc : Thread nD τ).loc main_arg1)) (m ((c.tc : Thread nD τ).loc main_arg0))
          (m ((c.tc : Thread nD τ).loc main_arg2)) (m ((c.tc : Thread nD τ).loc main_arg3)) := by
  rw [W9_v9, Cert.Spec.G_eq_mul, W8_v5, tail_eq m c h g]
  refine Val.update_eq_affine _ _ _ zeroV _ _ _ rfl rfl (fun r q hq => ?_) (fun r q => ?_)
  · rw [Mm.final_apply_lt (V5 m) c g hg r q hq, poolA_eq m c h, wtA_eq, biasA_eq]
  · exact Tail.tail_value _ _ _ r q

end Result

end Cert.KernelIdeal.Tc.Value

end
-- ==== Proof.RefFn.lean ====
/-
  The reference program's result as one pure term of its four arguments: the operations of @main in their printed
  order, each call's body written out at the call, every operation applied exactly as the printed program applies it
  and every intermediate value named after the buffer the program keeps it in.
-/
import proofs.«204097_g52673478918828_cont_9to1c4b_838_31_alg».proof.ReferenceIdeal

noncomputable section

namespace Cert.ReferenceIdeal.RefV

open Cert.ReferenceIdeal Idealize.ShloMosaic
open Cert.ReferenceIdeal.Facts₀ Cert.ReferenceIdeal.Facts

/-- The value @main leaves in its result buffer `main_v18`, as a function of the launch contents of its four
    arguments: `ids` (`main_arg0`), the table `T` (`main_arg1`), the weights `W` (`main_arg2`) and the bias `b`
    (`main_arg3`). -/
def refFn {F : FTy → Type} [FloatOps F] [Cert.ReferenceIdeal.Facts]
    (ids : IVec S1024x20 32) (T : FVec F S100000x128 .f32) (W : FVec F S100000x128 .f32) (b : FVec F S100000 .f32) :
    FVec F S1024x100000 .f32 :=
  -- @_take (T, ids)
  let call0_c : IVec S_ 32 := constantI S_ 32 0#32
  let call0_v0 : IVec S1024x20 32 := broadcastInDim S1024x20 ![] bcast_S_S1024x20 call0_c
  let call0_v1 : IVec S1024x20 1 := cmpi .slt ids call0_v0
  let call0_c_0 : IVec S_ 32 := constantI S_ 32 100000#32
  let call0_v2 : IVec S1024x20 32 := broadcastInDim S1024x20 ![] bcast_S_S1024x20 call0_c_0
  let call0_v3 : IVec S1024x20 32 := addi ids call0_v2
  -- @_where (%1, %3, ids)
  let call0_v4 : IVec S1024x20 32 := select call0_v1 call0_v3 ids
  let call0_v5 : IVec S1024x20x1 32 := broadcastInDim S1024x20x1 ![0, 1] bcast_S1024x20_S1024x20x1_0_1 call0_v4
  let call0_c_1 : IVec S1 32 := constantI S1 32 99999#32
  let call0_c_2 : IVec S_ 32 := constantI S_ 32 0#32
  let call0_v6 : IVec S1024x20x1 32 := broadcastInDim S1024x20x1 ![] bcast_S_S1024x20x1 call0_c_2
  let call0_v7 : IVec S1024x20x1 1 := cmpi .sge call0_v5 call0_v6
  let call0_v8 : IVec S1x1x1 32 := broadcastInDim S1x1x1 ![2] bcast_S1_S1x1x1_2 call0_c_1
  let call0_v9 : IVec S1024x20x1 32 := broadcastInDim S1024x20x1 ![0, 1, 2] bcast_S1x1x1_S1024x20x1_0_1_2 call0_v8
  let call0_v10 : IVec S1024x20x1 1 := cmpi .sle call0_v5 call0_v9
  let call0_v11 : IVec S1024x20x1 1 := andi call0_v7 call0_v10
  let call0_c_3 : IVec S_ 1 := constantI S_ 1 1#1
  let call0_v12 : IVec S1024x20 1 := Host.reduce IntOp.andi call0_v11 call0_c_3 reducesTo_S1024x20x1_S1024x20_d2 h_S_
  let call0_v13 : FVec F S1024x20x128 .f32 := Host.gather gather_S100000x128_S1024x20x1_S1024x20x128_2_0_n_n_0_2_1128 T call0_v5
  let call0_v14 : IVec S1024x20x128 1 := broadcastInDim S1024x20x128 ![0, 1] bcast_S1024x20_S1024x20x128_0_1 call0_v12
  let call0_cst : FVec F S_ .f32 := constant S_ .f32 0x7FC00000#32
  let call0_v15 : FVec F S1024x20x128 .f32 := broadcastInDim S1024x20x128 ![] bcast_S_S1024x20x128 call0_cst
  let v0 : FVec F S1024x20x128 .f32 := select call0_v14 call0_v13 call0_v15
  -- @norm (%0)
  let call1_v0 : FVec F S1024x20x128 .f32 := mulf v0 v0
  let call1_cst : FVec F S_ .f32 := constant S_ .f32 0x00000000#32
  let call1_v1 : FVec F S1024x20 .f32 := Host.reduceAdd call1_v0 call1_cst reducesTo_S1024x20x128_S1024x20_d2 h_S_
  let call1_v2 : FVec F S1024x20x1 .f32 := broadcastInDim S1024x20x1 ![0, 1] bcast_S1024x20_S1024x20x1_0_1 call1_v1
  let v1 : FVec F S1024x20x1 .f32 := Host.sqrt call1_v2
  -- @main
  let cst : FVec F S_ .f32 := constant S_ .f32 0x3F800000#32
  let v2 : FVec F S1024x20x1 .f32 := broadcastInDim S1024x20x1 ![] bcast_S_S1024x20x1 cst
  let v3 : IVec S1024x20x1 1 := cmpf .ogt v1 v2
  let cst_0 : FVec F S_ .f32 := constant S_ .f32 0x33D6BF95#32
  let v4 : FVec F S1024x20x1 .f32 := broadcastInDim S1024x20x1 ![] bcast_S_S1024x20x1 cst_0
  let v5 : FVec F S1024x20x1 .f32 := addf v1 v4
  let cst_1 : FVec F S_ .f32 := constant S_ .f32 0x3F800000#32
  let v6 : FVec F S1024x20x1 .f32 := broadcastInDim S1024x20x1 ![] bcast_S_S1024x20x1 cst_1
  let v7 : FVec F S1024x20x1 .f32 := Host.divf v6 v5
  let cst_2 : FVec F S_ .f32 := constant S_ .f32 0x3F800000#32
  -- @_where_0 (%3, %7, %cst_2)
  let call2_v0 : FVec F S_ .f32 := id cst_2
  let call2_v1 : FVec F S1024x20x1 .f32 := broadcastInDim S1024x20x1 ![] bcast_S_S1024x20x1 call2_v0
  let v8 : FVec F S1024x20x1 .f32 := select v3 v7 call2_v1
  let v9 : FVec F S1024x20x128 .f32 := broadcastInDim S1024x20x128 ![0, 1, 2] bcast_S1024x20x1_S1024x20x128_0_1_2 v8
  let v10 : FVec F S1024x20x128 .f32 := mulf v0 v9
  let cst_3 : FVec F S_ .f32 := constant S_ .f32 0x00000000#32
  let v11 : FVec F S1024x128 .f32 := Host.reduceAdd v10 cst_3 reducesTo_S1024x20x128_S1024x128_d1 h_S_
  let cst_4 : FVec F S_ .f32 := constant S_ .f32 0x41A00000#32
  let v12 : FVec F S1024x128 .f32 := broadcastInDim S1024x128 ![] bcast_S_S1024x128 cst_4
  let v13 : FVec F S1024x128 .f32 := Host.divf v11 v12
  let v14 : FVec F S128x100000 .f32 := transpose S128x100000 [1, 0] W transposes_S100000x128_S128x100000_1_0
  let v15 : FVec F S1024x100000 .f32 := Host.dotGeneral dot_S1024x128_S128x100000_S1024x100000_1_0_0_1_n_n none v13 v14
  let v16 : FVec F S1x100000 .f32 := broadcastInDim S1x100000 ![1] bcast_S100000_S1x100000_1 b
  let v17 : FVec F S1024x100000 .f32 := broadcastInDim S1024x100000 ![0, 1] bcast_S1x100000_S1024x100000_0_1 v16
  addf v15 v17

end Cert.ReferenceIdeal.RefV

end
-- ==== Proof.RefRun.lean ====
/-
  The reference program's run. @main is a straight line of host operations once each call is replaced by the callee's
  body over that call's buffers: the list `ops` below, in the printed order. Run from any memory with zero counters,
  every weakly fair execution terminates with the result buffer at `refFn` of the arguments' launch contents and the
  arguments unchanged.
-/
import proofs.«204097_g52673478918828_cont_9to1c4b_838_31_alg».proof.Proof.RefFn
import Idealize.ShloMosaic.Lib.StableHlo.Run

noncomputable section

namespace Cert.ReferenceIdeal.RefV

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's fifty-three operations in order, the calls unfolded: `_take` is twenty-three (its `_where` the seventh),
    `norm` five, then ten of @main's own, `_where_0`'s three, and @main's last twelve. -/
abbrev ops : List (HloOp τ sig (Elt F)) :=
  [
    TRef.nullary main_call0.c (constantI S_ 32 0#32),
    TRef.unary main_call0.c main_call0.v0 (broadcastInDim S1024x20 ![] bcast_S_S1024x20),
    TRef.binary (.of main_arg0 : TRef sig ⟨S1024x20, .i32⟩) main_call0.v0 main_call0.v1 (cmpi .slt),
    TRef.nullary main_call0.c_0 (constantI S_ 32 100000#32),
    TRef.unary main_call0.c_0 main_call0.v2 (broadcastInDim S1024x20 ![] bcast_S_S1024x20),
    TRef.binary (.of main_arg0 : TRef sig ⟨S1024x20, .i32⟩) main_call0.v2 main_call0.v3 addi,
    TRef.ternary main_call0.v1 main_call0.v3 (.of main_arg0 : TRef sig ⟨S1024x20, .i32⟩) main_call0.call0.v0 select,
    TRef.unary main_call0.call0.v0 main_call0.v5 (broadcastInDim S1024x20x1 ![0, 1] bcast_S1024x20_S1024x20x1_0_1),
    TRef.nullary main_call0.c_1 (constantI S1 32 99999#32),
    TRef.nullary main_call0.c_2 (constantI S_ 32 0#32),
    TRef.unary main_call0.c_2 main_call0.v6 (broadcastInDim S1024x20x1 ![] bcast_S_S1024x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x20x1 ![0, 1, 2] bcast_S1x1x1_S1024x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x20x1_S1024x20_d2 h_S_),
    TRef.binary (.of main_arg1 : TRef sig ⟨S100000x128, .f32⟩) main_call0.v5 main_call0.v13 (fun x i => Host.gather gather_S100000x128_S1024x20x1_S1024x20x128_2_0_n_n_0_2_1128 x i),
    TRef.unary main_call0.v12 main_call0.v14 (broadcastInDim S1024x20x128 ![0, 1] bcast_S1024x20_S1024x20x128_0_1),
    TRef.nullary main_call0.cst (constant S_ .f32 0x7FC00000#32),
    TRef.unary main_call0.cst main_call0.v15 (broadcastInDim S1024x20x128 ![] bcast_S_S1024x20x128),
    TRef.ternary main_call0.v14 main_call0.v13 main_call0.v15 main_call0.v16 select,
    TRef.binary (.of main_v0 : TRef sig ⟨S1024x20x128, .f32⟩) (.of main_v0 : TRef sig ⟨S1024x20x128, .f32⟩) main_call1.v0 mulf,
    TRef.nullary main_call1.cst (constant S_ .f32 0x00000000#32),
    TRef.binary main_call1.v0 main_call1.cst main_call1.v1 (fun x v => Host.reduceAdd x v reducesTo_S1024x20x128_S1024x20_d2 h_S_),
    TRef.unary main_call1.v1 main_call1.v2 (broadcastInDim S1024x20x1 ![0, 1] bcast_S1024x20_S1024x20x1_0_1),
    TRef.unary main_call1.v2 main_call1.v3 Host.sqrt,
    nullary main_cst (constant S_ .f32 0x3F800000#32),
    unary main_cst main_v2 (broadcastInDim S1024x20x1 ![] bcast_S_S1024x20x1 : (⟨S_, .f32⟩ : BufTy).Contents (Elt F) → (⟨S1024x20x1, .f32⟩ : BufTy).Contents (Elt F)),
    binary main_v1 main_v2 main_v3 (cmpf .ogt : (⟨S1024x20x1, .f32⟩ : BufTy).Contents (Elt F) → (⟨S1024x20x1, .f32⟩ : BufTy).Contents (Elt F) → (⟨S1024x20x1, .i1⟩ : BufTy).Contents (Elt F)),
    nullary main_cst_0 (constant S_ .f32 0x33D6BF95#32),
    unary main_cst_0 main_v4 (broadcastInDim S1024x20x1 ![] bcast_S_S1024x20x1 : (⟨S_, .f32⟩ : BufTy).Contents (Elt F) → (⟨S1024x20x1, .f32⟩ : BufTy).Contents (Elt F)),
    binary main_v1 main_v4 main_v5 (addf : (⟨S1024x20x1, .f32⟩ : BufTy).Contents (Elt F) → (⟨S1024x20x1, .f32⟩ : BufTy).Contents (Elt F) → (⟨S1024x20x1, .f32⟩ : BufTy).Contents (Elt F)),
    nullary main_cst_1 (constant S_ .f32 0x3F800000#32),
    unary main_cst_1 main_v6 (broadcastInDim S1024x20x1 ![] bcast_S_S1024x20x1 : (⟨S_, .f32⟩ : BufTy).Contents (Elt F) → (⟨S1024x20x1, .f32⟩ : BufTy).Contents (Elt F)),
    binary main_v6 main_v5 main_v7 (Host.divf : (⟨S1024x20x1, .f32⟩ : BufTy).Contents (Elt F) → (⟨S1024x20x1, .f32⟩ : BufTy).Contents (Elt F) → (⟨S1024x20x1, .f32⟩ : BufTy).Contents (Elt F)),
    nullary main_cst_2 (constant S_ .f32 0x3F800000#32),
    TRef.unary (.of main_cst_2 : TRef sig ⟨S_, .f32⟩) main_call2.v0 id,
    TRef.unary main_call2.v0 main_call2.v1 (broadcastInDim S1024x20x1 ![] bcast_S_S1024x20x1),
    TRef.ternary (.of main_v3 : TRef sig ⟨S1024x20x1, .i1⟩) (.of main_v7 : TRef sig ⟨S1024x20x1, .f32⟩) main_call2.v1 main_call2.v2 select,
    unary main_v8 main_v9 (broadcastInDim S1024x20x128 ![0, 1, 2] bcast_S1024x20x1_S1024x20x128_0_1_2 : (⟨S1024x20x1, .f32⟩ : BufTy).Contents (Elt F) → (⟨S1024x20x128, .f32⟩ : BufTy).Contents (Elt F)),
    binary main_v0 main_v9 main_v10 (mulf : (⟨S1024x20x128, .f32⟩ : BufTy).Contents (Elt F) → (⟨S1024x20x128, .f32⟩ : BufTy).Contents (Elt F) → (⟨S1024x20x128, .f32⟩ : BufTy).Contents (Elt F)),
    nullary main_cst_3 (constant S_ .f32 0x00000000#32),
    binary main_v10 main_cst_3 main_v11 ((fun x v => Host.reduceAdd x v reducesTo_S1024x20x128_S1024x128_d1 h_S_) : (⟨S1024x20x128, .f32⟩ : BufTy).Contents (Elt F) → (⟨S_, .f32⟩ : BufTy).Contents (Elt F) → (⟨S1024x128, .f32⟩ : BufTy).Contents (Elt F)),
    nullary main_cst_4 (constant S_ .f32 0x41A00000#32),
    unary main_cst_4 main_v12 (broadcastInDim S1024x128 ![] bcast_S_S1024x128 : (⟨S_, .f32⟩ : BufTy).Contents (Elt F) → (⟨S1024x128, .f32⟩ : BufTy).Contents (Elt F)),
    binary main_v11 main_v12 main_v13 (Host.divf : (⟨S1024x128, .f32⟩ : BufTy).Contents (Elt F) → (⟨S1024x128, .f32⟩ : BufTy).Contents (Elt F) → (⟨S1024x128, .f32⟩ : BufTy).Contents (Elt F)),
    unary main_arg2 main_v14 ((transpose S128x100000 [1, 0] · transposes_S100000x128_S128x100000_1_0) : (⟨S100000x128, .f32⟩ : BufTy).Contents (Elt F) → (⟨S128x100000, .f32⟩ : BufTy).Contents (Elt F)),
    binary main_v13 main_v14 main_v15 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    unary main_arg3 main_v16 (broadcastInDim S1x100000 ![1] bcast_S100000_S1x100000_1 : (⟨S100000, .f32⟩ : BufTy).Contents (Elt F) → (⟨S1x100000, .f32⟩ : BufTy).Contents (Elt F)),
    unary main_v16 main_v17 (broadcastInDim S1024x100000 ![0, 1] bcast_S1x100000_S1024x100000_0_1 : (⟨S1x100000, .f32⟩ : BufTy).Contents (Elt F) → (⟨S1024x100000, .f32⟩ : BufTy).Contents (Elt F)),
    binary main_v15 main_v17 main_v18 (addf : (⟨S1024x100000, .f32⟩ : BufTy).Contents (Elt F) → (⟨S1024x100000, .f32⟩ : BufTy).Contents (Elt F) → (⟨S1024x100000, .f32⟩ : BufTy).Contents (Elt F)) ]

-- fifty-three binds re-associated: the rewrite under the chain recurses once per statement
set_option maxRecDepth 4096 in
/-- @main is that straight line: the functions' definitions unfolded at their calls, both sides are one chain of
    `hlo` steps once sequencing is reassociated. -/
theorem main_eq (c : Dev nD) : main (F := F) c = seq ops := by
  simp only [main, fn_take.body, fn_where.body, fn_norm.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., nullary_bufs_sub .., binary_bufs_sub .., nullary_bufs_sub .., unary_bufs_sub .., binary_bufs_sub .., unary_bufs_sub .., binary_bufs_sub .., unary_bufs_sub .., unary_bufs_sub .., binary_bufs_sub ..⟩

attribute [local irreducible] Host.reduce Host.gather in
set_option maxRecDepth 8192 in
set_option maxHeartbeats 1600000 in
/-- The fold at the result buffer is `refFn` of the arguments' contents: each operation's result at its own buffer is
    its function's value of its operands' contents, and at any other buffer what was there; what is left is the
    composed term, which is `refFn` unfolded. -/
theorem out_eq (V : Valuation τ sig (Elt F)) :
    after ops V (main_v18 : DevRef τ sig)
      = refFn (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of @main
    terminates with the result at `refFn` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v18) = refFn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v18).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefV

end
-- ==== Proof.RefValue.lean ====
/-
  The reference's result read at an index.

  Each stage of the reference that is not pointwise — the row lookup, the sum over a row's 128 lanes, the sum
  over a batch entry's 20 rows, the product with the transposed weights, the broadcasts — is read at explicit
  coordinates; the pointwise stages read through by definition. Under the input range 0 ≤ ids ≤ 99999 the wrap of
  negative row numbers is the identity and the validity mask is all ones, so the looked-up row is the one
  `Cert.Spec.rowOf` names, and the whole reference is `Cert.Spec.G`.
-/
import proofs.«204097_g52673478918828_cont_9to1c4b_838_31_alg».proof.Proof.RefFn
import proofs.«204097_g52673478918828_cont_9to1c4b_838_31_alg».proof.Proof.Spec
import Idealize.ShloMosaic.Lib.IdealHost
import Idealize.ShloMosaic.Lib.ValueLayout
import Idealize.ShloMosaic.Lib.Pipeline.Value
import Idealize.ShloMosaic.Lib.Affine

noncomputable section

open scoped BigOperators

namespace Cert.ReferenceIdeal.RefV

open Idealize.ShloMosaic Idealize.ShloMosaic.ValueIdx Cert.ReferenceIdeal Cert.ReferenceIdeal.Facts₀

/-! ## The row lookup -/

/-- The table row a 32-bit word names: the word read signed and clamped into [0, 99999]. -/
def rowAt (w : BitVec 32) : Fin 100000 := ⟨min w.toInt.toNat 99999, by omega⟩

/-- The gather of rows of a [100000, 128] table at a [1024, 20, 1] array of row numbers, read at (r, j, k): entry k of
    the table row that the number at (r, j, 0) names, read signed and clamped into the table. -/
theorem gather_apply [Facts₀] {α : Type} (x : S100000x128.Idx → α) (idx : IVec S1024x20x1 32)
    (r : Fin 1024) (j : Fin 20) (k : Fin 128) :
    Host.gather gather_S100000x128_S1024x20x1_S1024x20x128_2_0_n_n_0_2_1128 x idx (ix3 r j k)
      = x (ix2 (rowAt (idx (ix3 r j (0 : Fin 1)))) k) := by
  unfold Host.gather
  refine congrArg x (funext fun a => Fin.ext ?_)
  match a with
  | ⟨0, _⟩ =>
    show GatherDims.start _ (ix3 r j k) idx 0 + GatherDims.batchCoord _ (ix3 r j k) 0 + GatherDims.offCoord _ (ix3 r j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1024x20x1_S1024x20x128_2_0_n_n_0_2_1128.startIndexMap from
      List.mem_singleton.mpr rfl)]
    have hsi : gather_S100000x128_S1024x20x1_S1024x20x128_2_0_n_n_0_2_1128.siIdx (ix3 r j k)
        ⟨List.idxOf (0 : Fin 2) gather_S100000x128_S1024x20x1_S1024x20x128_2_0_n_n_0_2_1128.startIndexMap,
          List.idxOf_lt_length_iff.2 (List.mem_singleton.mpr rfl)⟩ = ix3 r j (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 r j k) idx 1 + GatherDims.batchCoord _ (ix3 r j k) 1 + GatherDims.offCoord _ (ix3 r j k) 1 = _
    rw [GatherDims.batchCoord_eq_zero _ _ _ List.not_mem_nil]
    unfold GatherDims.start
    rw [dif_neg (show (1 : Fin 2) ∉ gather_S100000x128_S1024x20x1_S1024x20x128_2_0_n_n_0_2_1128.startIndexMap from
      (by decide : (1 : Fin 2) ∉ ([0] : List (Fin 2))))]
    unfold GatherDims.offCoord
    rw [dif_pos (show (1 : Fin 2) ∈ gather_S100000x128_S1024x20x1_S1024x20x128_2_0_n_n_0_2_1128.sKept from
      (GatherDims.mem_sKept _ _).mpr ⟨(by decide : (1 : Fin 2) ∉ ([0] : List (Fin 2))), List.not_mem_nil⟩)]
    simp only [Nat.add_zero, Nat.zero_add]
    rfl

/-! ## The reductions -/

/-- The host's square root at an index is the square root of the element. -/
theorem hostSqrt_apply {s : Shape} {φ : FTy} (x : FVec Ideal s φ) (i : s.Idx) : Host.sqrt x i = Ideal.sqrt (x i) := rfl

/-- The sum over the 128 lanes of a [1024, 20, 128] block, read at (r, j): the initial value plus the lane sum. -/
theorem sumLanes_apply [Facts₀] (x : FVec Ideal S1024x20x128 .f32) (init : FVec Ideal S_ .f32) (r : Fin 1024) (j : Fin 20) :
    Host.reduceAdd x init reducesTo_S1024x20x128_S1024x20_d2 h_S_ (ix2 r j)
      = init ix0 + ∑ k : Fin 128, x (ix3 r j k) := by
  have h : S1024x20x128.Reduces [2] S1024x20 := by decide
  show Ideal.hostReduceAdd reducesTo_S1024x20x128_S1024x20_d2 x (init (Shape.Idx.first h_S_)) (ix2 r j) = _
  refine (Ideal.hostReduceAdd_single reducesTo_S1024x20x128_S1024x20_d2 h x _ (ix2 r j)).trans ?_
  refine congrArg₂ (· + ·) (congrArg init (eq_ix0 _)) ?_
  show ∑ k : Fin 128, x (h.lift (ix2 r j) k) = _
  refine Finset.sum_congr rfl fun k _ => congrArg x ?_
  funext c; refine Fin.ext ?_
  match c with
  | ⟨0, _⟩ => rfl
  | ⟨1, _⟩ => rfl
  | ⟨2, _⟩ => rfl

/-- The sum over the 20 rows of a [1024, 20, 128] block, read at (r, k): the initial value plus the sum over the rows. -/
theorem sumRows_apply [Facts₀] (x : FVec Ideal S1024x20x128 .f32) (init : FVec Ideal S_ .f32) (r : Fin 1024) (k : Fin 128) :
    Host.reduceAdd x init reducesTo_S1024x20x128_S1024x128_d1 h_S_ (ix2 r k)
      = init ix0 + ∑ j : Fin 20, x (ix3 r j k) := by
  have h : S1024x20x128.Reduces [1] S1024x128 := by decide
  show Ideal.hostReduceAdd reducesTo_S1024x20x128_S1024x128_d1 x (init (Shape.Idx.first h_S_)) (ix2 r k) = _
  refine (Ideal.hostReduceAdd_single reducesTo_S1024x20x128_S1024x128_d1 h x _ (ix2 r k)).trans ?_
  refine congrArg₂ (· + ·) (congrArg init (eq_ix0 _)) ?_
  show ∑ j : Fin 20, x (h.lift (ix2 r k) j) = _
  refine Finset.sum_congr rfl fun j _ => congrArg x ?_
  funext c; refine Fin.ext ?_
  match c with
  | ⟨0, _⟩ => rfl
  | ⟨1, _⟩ => rfl
  | ⟨2, _⟩ => rfl

/-- A fold over the one element of `Fin 1`. -/
theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl]
  exact Finset.fold_singleton

/-- The conjunction over the trailing unit axis of a [1024, 20, 1] array of bits, read at (r, j): the one bit there,
    and the initial bit. -/
theorem allBits_apply [Facts₀] (p : IVec S1024x20x1 1) (init : IVec S_ 1) (r : Fin 1024) (j : Fin 20) :
    Host.reduce IntOp.andi p init reducesTo_S1024x20x1_S1024x20_d2 h_S_ (ix2 r j)
      = IntOp.andi (p (ix3 r j (0 : Fin 1))) (init ix0) := by
  have h : S1024x20x1.Reduces [2] S1024x20 := by decide
  refine (Host.reduce_eq_fold_single IntOp.andi p init reducesTo_S1024x20x1_S1024x20_d2 h h_S_ (ix2 r j)).trans ?_
  refine (fold_fin_one IntOp.andi (init (Shape.Idx.first h_S_)) (p ∘ h.lift (ix2 r j))).trans ?_
  refine congrArg₂ IntOp.andi (congrArg p ?_) (congrArg init (eq_ix0 _))
  funext c; refine Fin.ext ?_
  match c with
  | ⟨0, _⟩ => rfl
  | ⟨1, _⟩ => rfl
  | ⟨2, _⟩ => rfl

/-! ## The broadcasts and the transpose -/

/-- A [1024, 20] array given a trailing unit axis. -/
theorem bcast_rj_rj1_apply [Facts₀] {α : Type} (x : S1024x20.Idx → α) (r : Fin 1024) (j : Fin 20) (u : Fin 1) :
    broadcastInDim S1024x20x1 ![0, 1] bcast_S1024x20_S1024x20x1_0_1 x (ix3 r j u) = x (ix2 r j) :=
  broadcastInDim_apply _ _ x _ (ix2 r j) fun a => match a with | ⟨0, _⟩ => rfl | ⟨1, _⟩ => rfl

/-- A [1024, 20] array copied along 128 lanes. -/
theorem bcast_rj_rjk_apply [Facts₀] {α : Type} (x : S1024x20.Idx → α) (r : Fin 1024) (j : Fin 20) (k : Fin 128) :
    broadcastInDim S1024x20x128 ![0, 1] bcast_S1024x20_S1024x20x128_0_1 x (ix3 r j k) = x (ix2 r j) :=
  broadcastInDim_apply _ _ x _ (ix2 r j) fun a => match a with | ⟨0, _⟩ => rfl | ⟨1, _⟩ => rfl

/-- A [1024, 20, 1] array copied along 128 lanes. -/
theorem bcast_rj1_rjk_apply [Facts₀] {α : Type} (x : S1024x20x1.Idx → α) (r : Fin 1024) (j : Fin 20) (k : Fin 128) :
    broadcastInDim S1024x20x128 ![0, 1, 2] bcast_S1024x20x1_S1024x20x128_0_1_2 x (ix3 r j k) = x (ix3 r j (0 : Fin 1)) :=
  broadcastInDim_apply _ _ x _ (ix3 r j (0 : Fin 1)) fun a => match a with | ⟨0, _⟩ => rfl | ⟨1, _⟩ => rfl | ⟨2, _⟩ => rfl

/-- A one-element array as a [1, 1, 1] array. -/
theorem bcast_1_111_apply [Facts₀] {α : Type} (x : S1.Idx → α) (i : S1x1x1.Idx) :
    broadcastInDim S1x1x1 ![2] bcast_S1_S1x1x1_2 x i = x (ix1 (0 : Fin 1)) :=
  broadcastInDim_apply _ _ x _ (ix1 (0 : Fin 1)) fun a => match a with | ⟨0, _⟩ => rfl

/-- A [1, 1, 1] array copied over [1024, 20, 1]. -/
theorem bcast_111_rj1_apply [Facts₀] {α : Type} (x : S1x1x1.Idx → α) (i : S1024x20x1.Idx) :
    broadcastInDim S1024x20x1 ![0, 1, 2] bcast_S1x1x1_S1024x20x1_0_1_2 x i = x (ix3 (0 : Fin 1) (0 : Fin 1) (0 : Fin 1)) :=
  broadcastInDim_apply _ _ x _ (ix3 (0 : Fin 1) (0 : Fin 1) (0 : Fin 1)) fun a =>
    match a with | ⟨0, _⟩ => rfl | ⟨1, _⟩ => rfl | ⟨2, _⟩ => rfl

/-- A [100000] array as one row. -/
theorem bcast_q_1q_apply [Facts₀] {α : Type} (x : S100000.Idx → α) (u : Fin 1) (q : Fin 100000) :
    broadcastInDim S1x100000 ![1] bcast_S100000_S1x100000_1 x (ix2 u q) = x (ix1 q) :=
  broadcastInDim_apply _ _ x _ (ix1 q) fun a => match a with | ⟨0, _⟩ => rfl

/-- One row copied down 1024 rows. -/
theorem bcast_1q_rq_apply [Facts₀] {α : Type} (x : S1x100000.Idx → α) (r : Fin 1024) (q : Fin 100000) :
    broadcastInDim S1024x100000 ![0, 1] bcast_S1x100000_S1024x100000_0_1 x (ix2 r q) = x (ix2 (0 : Fin 1) q) :=
  broadcastInDim_apply _ _ x _ (ix2 (0 : Fin 1) q) fun a => match a with | ⟨0, _⟩ => rfl | ⟨1, _⟩ => rfl

/-- The transposed weights at (k, q) are the weights at (q, k). -/
theorem transposeW_apply [Facts₀] {α : Type} (x : S100000x128.Idx → α) (k : Fin 128) (q : Fin 100000) :
    transpose S128x100000 [1, 0] x transposes_S100000x128_S128x100000_1_0 (ix2 k q) = x (ix2 q k) :=
  transpose_ix2_apply x _ k q

/-! ## The product with the transposed weights -/

/-- The product of a [1024, 128] array with a [128, 100000] one, read at (r, q): the sum over the 128 shared
    coordinates of the products. -/
theorem dot_apply [Facts₀] (P : FVec Ideal S1024x128 .f32) (V : FVec Ideal S128x100000 .f32) (r : Fin 1024) (q : Fin 100000) :
    Host.dotGeneral dot_S1024x128_S128x100000_S1024x100000_1_0_0_1_n_n none P V (ix2 r q)
      = ∑ k : Fin 128, P (ix2 r k) * V (ix2 k q) := by
  refine (Ideal.dotGeneral_apply dot_S1024x128_S128x100000_S1024x100000_1_0_0_1_n_n none .single P V (ix2 r q)).trans ?_
  have hr : dot_S1024x128_S128x100000_S1024x100000_1_0_0_1_n_n.contr.rank = 1 := rfl
  have hs : dot_S1024x128_S128x100000_S1024x100000_1_0_0_1_n_n.contr.size ⟨0, by omega⟩ = 128 := rfl
  rw [← Equiv.sum_comp (contrEquiv1 dot_S1024x128_S128x100000_S1024x100000_1_0_0_1_n_n 128 hr hs).symm]
  refine Finset.sum_congr rfl fun k _ => ?_
  have hk := contrEquiv1_symm_val dot_S1024x128_S128x100000_S1024x100000_1_0_0_1_n_n 128 hr hs k
  refine congrArg₂ (· * ·) (congrArg P ?_) (congrArg V ?_)
  · funext a; refine Fin.ext ?_
    match a with
    | ⟨0, _⟩ => rfl
    | ⟨1, _⟩ =>
      exact (DotDims.lhsIdx_val_of_single dot_S1024x128_S128x100000_S1024x100000_1_0_0_1_n_n (cl := (1 : Fin 2)) rfl
        (ix2 r q) _).trans hk
  · funext a; refine Fin.ext ?_
    match a with
    | ⟨0, _⟩ =>
      exact (DotDims.rhsIdx_val_of_single dot_S1024x128_S128x100000_S1024x100000_1_0_0_1_n_n (cr := (0 : Fin 2)) rfl
        (ix2 r q) _).trans hk
    | ⟨1, _⟩ => rfl

/-! ## The reference in four stages

The stages of `refFn`, named: the row numbers as the lookup reads them (`idxOf`), the looked-up block under its validity
mask (`rowsOf`), the norm of each row and the factor it is rescaled by (`normOf`, `scaleOf`), the mean of the rescaled
rows (`pooledOf`), and the product with the transposed weights plus the bias (`outOf`). Each is the corresponding part of `refFn`, term for term. -/

section Stages
variable {F : FTy → Type} [FloatOps F] [Cert.ReferenceIdeal.Facts]

/-- The row numbers, a negative one moved up by 100000, as a [1024, 20, 1] array. -/
def idxOf (ids : IVec S1024x20 32) : IVec S1024x20x1 32 :=
  broadcastInDim S1024x20x1 ![0, 1] bcast_S1024x20_S1024x20x1_0_1
    (select (cmpi .slt ids (broadcastInDim S1024x20 ![] bcast_S_S1024x20 (constantI S_ 32 0#32)))
      (addi ids (broadcastInDim S1024x20 ![] bcast_S_S1024x20 (constantI S_ 32 100000#32))) ids)

/-- Which entries name a row of the table: 0 ≤ number ≤ 99999. -/
def validOf (i5 : IVec S1024x20x1 32) : IVec S1024x20 1 :=
  Host.reduce IntOp.andi
    (andi (cmpi .sge i5 (broadcastInDim S1024x20x1 ![] bcast_S_S1024x20x1 (constantI S_ 32 0#32)))
      (cmpi .sle i5 (broadcastInDim S1024x20x1 ![0, 1, 2] bcast_S1x1x1_S1024x20x1_0_1_2
        (broadcastInDim S1x1x1 ![2] bcast_S1_S1x1x1_2 (constantI S1 32 99999#32)))))
    (constantI S_ 1 1#1) reducesTo_S1024x20x1_S1024x20_d2 h_S_

/-- The looked-up block: the table's rows where the number is valid, the constant 0x7FC00000 elsewhere. -/
def rowsOf (ids : IVec S1024x20 32) (T : FVec F S100000x128 .f32) : FVec F S1024x20x128 .f32 :=
  select (broadcastInDim S1024x20x128 ![0, 1] bcast_S1024x20_S1024x20x128_0_1 (validOf (idxOf ids)))
    (Host.gather gather_S100000x128_S1024x20x1_S1024x20x128_2_0_n_n_0_2_1128 T (idxOf ids))
    (broadcastInDim S1024x20x128 ![] bcast_S_S1024x20x128 (constant S_ .f32 0x7FC00000#32))

/-- The norm of each row, as a [1024, 20, 1] array. -/
def normOf (X : FVec F S1024x20x128 .f32) : FVec F S1024x20x1 .f32 :=
  Host.sqrt (broadcastInDim S1024x20x1 ![0, 1] bcast_S1024x20_S1024x20x1_0_1
    (Host.reduceAdd (mulf X X) (constant S_ .f32 0x00000000#32) reducesTo_S1024x20x128_S1024x20_d2 h_S_))

/-- The factor each row is rescaled by: 1 / (norm + 1e-7) where the norm exceeds 1, and 1 elsewhere. -/
def scaleOf (X : FVec F S1024x20x128 .f32) : FVec F S1024x20x1 .f32 :=
  select (cmpf .ogt (normOf X) (broadcastInDim S1024x20x1 ![] bcast_S_S1024x20x1 (constant S_ .f32 0x3F800000#32)))
    (Host.divf (broadcastInDim S1024x20x1 ![] bcast_S_S1024x20x1 (constant S_ .f32 0x3F800000#32))
      (addf (normOf X) (broadcastInDim S1024x20x1 ![] bcast_S_S1024x20x1 (constant S_ .f32 0x33D6BF95#32))))
    (broadcastInDim S1024x20x1 ![] bcast_S_S1024x20x1 (id (constant S_ .f32 0x3F800000#32)))

/-- The mean over a batch entry's 20 rescaled rows. -/
def pooledOf (X : FVec F S1024x20x128 .f32) : FVec F S1024x128 .f32 :=
  Host.divf
    (Host.reduceAdd (mulf X (broadcastInDim S1024x20x128 ![0, 1, 2] bcast_S1024x20x1_S1024x20x128_0_1_2 (scaleOf X)))
      (constant S_ .f32 0x00000000#32) reducesTo_S1024x20x128_S1024x128_d1 h_S_)
    (broadcastInDim S1024x128 ![] bcast_S_S1024x128 (constant S_ .f32 0x41A00000#32))

/-- The product with the transposed weights, plus the bias along the rows. -/
def outOf (P : FVec F S1024x128 .f32) (W : FVec F S100000x128 .f32) (b : FVec F S100000 .f32) : FVec F S1024x100000 .f32 :=
  addf
    (Host.dotGeneral dot_S1024x128_S128x100000_S1024x100000_1_0_0_1_n_n none P
      (transpose S128x100000 [1, 0] W transposes_S100000x128_S128x100000_1_0))
    (broadcastInDim S1024x100000 ![0, 1] bcast_S1x100000_S1024x100000_0_1
      (broadcastInDim S1x100000 ![1] bcast_S100000_S1x100000_1 b))

/-- The reference is the composition of the stages. -/
theorem refFn_stages (ids : IVec S1024x20 32) (T W : FVec F S100000x128 .f32) (b : FVec F S100000 .f32) :
    refFn ids T W b = outOf (pooledOf (rowsOf ids T)) W b := rfl

end Stages

/-! ## Each stage at an index -/

section AtIdeal
variable [Cert.ReferenceIdeal.Facts]

/-- With every row number in 0 … 99999 no number is moved: the lookup reads `ids` itself. -/
theorem idxOf_apply (ids : IVec S1024x20 32) (hin : ∀ j, 0 ≤ (ids j).toInt ∧ (ids j).toInt ≤ 99999)
    (r : Fin 1024) (j : Fin 20) (u : Fin 1) : idxOf ids (ix3 r j u) = ids (ix2 r j) := by
  unfold idxOf
  rw [bcast_rj_rj1_apply]
  show Scalar.select (IntOp.cmpi .slt (ids (ix2 r j)) 0#32) _ (ids (ix2 r j)) = _
  unfold Scalar.select
  rw [if_neg]
  intro h
  have h1 := IntOp.cmpi_slt.mp h
  have h0 : (0#32 : BitVec 32).toInt = 0 := by decide
  have := (hin (ix2 r j)).1
  omega

/-- … and every entry is valid. -/
theorem validOf_apply (i5 : IVec S1024x20x1 32) (hin : ∀ i, 0 ≤ (i5 i).toInt ∧ (i5 i).toInt ≤ 99999)
    (r : Fin 1024) (j : Fin 20) : validOf i5 (ix2 r j) = 1#1 := by
  unfold validOf
  rw [allBits_apply]
  show IntOp.andi (IntOp.andi (IntOp.cmpi .sge (i5 (ix3 r j (0 : Fin 1))) 0#32)
    (IntOp.cmpi .sle (i5 (ix3 r j (0 : Fin 1))) 99999#32)) 1#1 = 1#1
  have h0 : (0#32 : BitVec 32).toInt = 0 := by decide
  have h9 : (99999#32 : BitVec 32).toInt = 99999 := by decide
  have hh := hin (ix3 r j (0 : Fin 1))
  rw [IntOp.andi_eq_one, IntOp.andi_eq_one, IntOp.cmpi_sge, IntOp.cmpi_sle, h0, h9]
  exact ⟨hh, rfl⟩

/-- The looked-up block is the table's rows at the numbers `ids` names. -/
theorem rowsOf_apply (ids : IVec S1024x20 32) (T : FVec Ideal S100000x128 .f32)
    (hin : ∀ j, 0 ≤ (ids j).toInt ∧ (ids j).toInt ≤ 99999) (r : Fin 1024) (j : Fin 20) (k : Fin 128) :
    rowsOf ids T (ix3 r j k) = T (ix2 (Cert.Spec.rowOf ids r j) k) := by
  have hv : ∀ i, 0 ≤ (idxOf ids i).toInt ∧ (idxOf ids i).toInt ≤ 99999 := fun i => by
    obtain ⟨r', j', u', rfl⟩ : ∃ (r' : Fin 1024) (j' : Fin 20) (u' : Fin 1), i = ix3 r' j' u' := ⟨i 0, i 1, i 2, eq_ix3 i⟩
    rw [idxOf_apply ids hin]; exact hin _
  unfold rowsOf
  rw [select_apply, bcast_rj_rjk_apply, validOf_apply _ hv, select_one, gather_apply, idxOf_apply ids hin]
  rfl

theorem rowsOf_eq (ids : IVec S1024x20 32) (T : FVec Ideal S100000x128 .f32)
    (hin : ∀ j, 0 ≤ (ids j).toInt ∧ (ids j).toInt ≤ 99999) : rowsOf ids T = Cert.Spec.gathered T ids := by
  funext i
  obtain ⟨r, j, k, rfl⟩ : ∃ (r : Fin 1024) (j : Fin 20) (k : Fin 128), i = ix3 r j k := ⟨i 0, i 1, i 2, eq_ix3 i⟩
  exact rowsOf_apply ids T hin r j k

/-- The norm of row (r, j). -/
theorem normOf_apply (X : FVec Ideal S1024x20x128 .f32) (r : Fin 1024) (j : Fin 20) (u : Fin 1) :
    normOf X (ix3 r j u) = Cert.Spec.nrmX X r j := by
  unfold normOf
  rw [hostSqrt_apply, bcast_rj_rj1_apply, sumLanes_apply]
  show Ideal.sqrt (Ideal.ofBits .f32 0x00000000#32 + ∑ k : Fin 128, X (ix3 r j k) * X (ix3 r j k)) = _
  rw [Ideal.ofBits_zero_f32, zero_add]
  rfl

/-- The factor of row (r, j). -/
theorem scaleOf_apply (X : FVec Ideal S1024x20x128 .f32) (r : Fin 1024) (j : Fin 20) (u : Fin 1) :
    scaleOf X (ix3 r j u) = Cert.Spec.factorX X r j := by
  unfold scaleOf
  show Scalar.select (Ideal.cmp .ogt (normOf X (ix3 r j u)) (Ideal.ofBits .f32 0x3F800000#32))
    (Ideal.div (Ideal.ofBits .f32 0x3F800000#32) (normOf X (ix3 r j u) + Ideal.ofBits .f32 0x33D6BF95#32))
    (Ideal.ofBits .f32 0x3F800000#32) = _
  rw [normOf_apply]
  rfl

/-- The mean of the rescaled rows at (r, k). -/
theorem pooledOf_apply (X : FVec Ideal S1024x20x128 .f32) (r : Fin 1024) (k : Fin 128) :
    pooledOf X (ix2 r k) = Cert.Spec.pooledDivX X (ix2 r k) := by
  unfold pooledOf
  rw [hostDivf_apply, sumRows_apply]
  have hs : ∀ j : Fin 20,
      (mulf X (broadcastInDim S1024x20x128 ![0, 1, 2] bcast_S1024x20x1_S1024x20x128_0_1_2 (scaleOf X))) (ix3 r j k)
        = X (ix3 r j k) * Cert.Spec.factorX X r j := fun j => by
    rw [mulf_apply, bcast_rj1_rjk_apply, scaleOf_apply]
  rw [Finset.sum_congr rfl fun j _ => hs j]
  show Ideal.div (Ideal.ofBits .f32 0x00000000#32 + ∑ j : Fin 20, X (ix3 r j k) * Cert.Spec.factorX X r j)
    (Ideal.ofBits .f32 0x41A00000#32) = _
  rw [Ideal.ofBits_zero_f32, zero_add]
  rfl

theorem pooledOf_eq (X : FVec Ideal S1024x20x128 .f32) : pooledOf X = Cert.Spec.pooledDivX X := by
  funext i
  obtain ⟨r, k, rfl⟩ : ∃ (r : Fin 1024) (k : Fin 128), i = ix2 r k := ⟨i 0, i 1, eq_ix2 i⟩
  exact pooledOf_apply X r k

/-- The product with the transposed weights plus the bias, at (r, q). -/
theorem outOf_apply (P : FVec Ideal S1024x128 .f32) (W : FVec Ideal S100000x128 .f32) (b : FVec Ideal S100000 .f32)
    (r : Fin 1024) (q : Fin 100000) :
    outOf P W b (ix2 r q) = (∑ k : Fin 128, P (ix2 r k) * W (ix2 q k)) + b (ix1 q) := by
  unfold outOf
  rw [addf_apply, dot_apply, bcast_1q_rq_apply, bcast_q_1q_apply]
  refine congrArg (· + b (ix1 q)) (Finset.sum_congr rfl fun k _ => ?_)
  rw [transposeW_apply]

theorem outOf_eq (P : FVec Ideal S1024x128 .f32) (W : FVec Ideal S100000x128 .f32) (b : FVec Ideal S100000 .f32) :
    outOf P W b = Cert.Spec.affine P W b := by
  funext i
  obtain ⟨r, q, rfl⟩ : ∃ (r : Fin 1024) (q : Fin 100000), i = ix2 r q := ⟨i 0, i 1, eq_ix2 i⟩
  exact outOf_apply P W b r q

/-- THE REFERENCE'S VALUE: with every row number in 0 … 99999, the reference computes `Cert.Spec.G`. -/
theorem refFn_eq (ids : IVec S1024x20 32) (T W : FVec Ideal S100000x128 .f32) (b : FVec Ideal S100000 .f32)
    (hin : ∀ j, 0 ≤ (ids j).toInt ∧ (ids j).toInt ≤ 99999) :
    refFn (F := Ideal) ids T W b = Cert.Spec.G T ids W b := by
  unfold Cert.Spec.G
  rw [refFn_stages, outOf_eq, pooledOf_eq, rowsOf_eq ids T hin]

end AtIdeal

end Cert.ReferenceIdeal.RefV

end
-- ==== Proof.Claims.lean ====
/-
  The five claims.

  The word-level program and its idealization run to the end, nothing faulting, with the arguments unchanged: the launch
  of the gather kernel on the two SparseCores with the three pipelines' regions on the TensorCore, under the index range
  the precondition states. The reference is a straight line of host operations. The idealization names one constant,
  1/20. At the ideal instance both programs end with the result
      out (r, q) = Σ_k mean_j (row (r, j) k · factor (r, j)) · W (q, k) + b q
  on the extended reals: the kernel's mean is the row sum times the named 1/20, the reference's the row sum divided by
  20, and dividing by a non-zero real is multiplying by its reciprocal; the kernel's product in 48 column blocks of 2048,
  a last block of 1536 and a tail of 160 columns is the reference's one product, column by column the same sum.
-/
import proofs.«204097_g52673478918828_cont_9to1c4b_838_31_alg».proof.Defs
import proofs.«204097_g52673478918828_cont_9to1c4b_838_31_alg».proof.Proof.Gen.Kernel
import proofs.«204097_g52673478918828_cont_9to1c4b_838_31_alg».proof.Proof.Gen.KernelIdeal
import proofs.«204097_g52673478918828_cont_9to1c4b_838_31_alg».proof.Proof.Gen.ReferenceIdeal
import proofs.«204097_g52673478918828_cont_9to1c4b_838_31_alg».proof.Proof.Gen.Pre_input_domain
import proofs.«204097_g52673478918828_cont_9to1c4b_838_31_alg».proof.Proof.KernelRun
import proofs.«204097_g52673478918828_cont_9to1c4b_838_31_alg».proof.Proof.KB.KernelRun
import proofs.«204097_g52673478918828_cont_9to1c4b_838_31_alg».proof.Proof.TcPre
import proofs.«204097_g52673478918828_cont_9to1c4b_838_31_alg».proof.Proof.KB.TcPre
import proofs.«204097_g52673478918828_cont_9to1c4b_838_31_alg».proof.Proof.TcPreValue
import proofs.«204097_g52673478918828_cont_9to1c4b_838_31_alg».proof.Proof.TcChainValue
import proofs.«204097_g52673478918828_cont_9to1c4b_838_31_alg».proof.Proof.RefRun
import proofs.«204097_g52673478918828_cont_9to1c4b_838_31_alg».proof.Proof.RefValue
import proofs.«204097_g52673478918828_cont_9to1c4b_838_31_alg».proof.Proof.PreRange
import Idealize.ShloMosaic.PureOps.IdealRules

noncomputable section

namespace Cert.Proof.Claims

open Idealize.ShloMosaic Idealize.SL.Sem

/-- The word-level program runs and keeps its arguments. -/
theorem frame_k : Cert.frame_Kernel := fun m ρ hpre =>
  (θ_run (Cert.Kernel.defs (F := Bits)) _ _).mono (fun r h c => by obtain ⟨g, hg, hv, ha⟩ := h c; exact ha)
    (Cert.Kernel.Tc.run_main (F := Bits) m ρ (Cert.Kernel.Tc.preOK_of_fn (F := Bits) m hpre))

/-- So does its idealization. -/
theorem frame_ki : Cert.frame_KernelIdeal := fun m ρ hpre =>
  (θ_run (Cert.KernelIdeal.defs (F := Ideal)) _ _).mono (fun r h c => by obtain ⟨g, hg, hv, ha⟩ := h c; exact ha)
    (Cert.KernelIdeal.Tc.run_main (F := Ideal) m ρ (Cert.KernelIdeal.Tc.preOK_of_fn (F := Ideal) m hpre))

/-- The reference is a straight line of host operations. -/
theorem frame_ri : Cert.frame_ReferenceIdeal := fun m ρ _ =>
  (θ_run (Cert.ReferenceIdeal.defs (F := Ideal)) _ _).mono (fun _ h c => (h c).2) (Cert.ReferenceIdeal.RefV.run (F := Ideal) m ρ)

/-- The one named constant: the f32 word 0x3D4CCCCD is read as the rational 1/20. -/
theorem preserves : Cert.preserves_Kernel_KernelIdeal :=
  IdealRules.named_const.statement Cert.KernelIdeal.κ "inv_20" .f32 0x3D4CCCCD#32 ((1 / 20 : ℝ) : EReal) rfl

/-- At the ideal instance both programs end with the one function of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun r h c => ?_)
      (Cert.KernelIdeal.Tc.run_main (F := Ideal) m ρ (Cert.KernelIdeal.Tc.preOK_of_fn (F := Ideal) m hpre))
    obtain ⟨g, hg, hv, ha⟩ := h c
    exact ⟨hv.trans (Cert.KernelIdeal.Tc.Value.result_value m c hpre g hg), ha⟩
  · refine (θ_run (Cert.ReferenceIdeal.defs (F := Ideal)) _ _).mono (fun r h c => ⟨(h c).1.trans ?_, (h c).2⟩)
      (Cert.ReferenceIdeal.RefV.run (F := Ideal) m' ρ')
    rw [(hagree c).1, (hagree c).2.1, (hagree c).2.2.1, (hagree c).2.2.2]
    exact Cert.ReferenceIdeal.RefV.refFn_eq _ _ _ _ (Cert.Proof.PreRange.ids_range _ _ _ _ (hpre c))

end Cert.Proof.Claims

end
-- ==== Proof.lean ====
/-
  The certificate: the witnesses of the programs' stated side conditions, then the five claims (Proof/Claims.lean).

  The kernel looks up 1024 × 20 table rows on the SparseCores, rescales each row to norm at most one and averages the
  twenty rows of a batch entry on the TensorCore, and multiplies the averages by the transpose of W, adding b, in three
  pipelines' regions; the reference does the same with one gather, one mean and one product. The two agree at the ideal
  instance, where a float is an extended real and a sum does not depend on how it is tiled.
-/
import proofs.«204097_g52673478918828_cont_9to1c4b_838_31_alg».proof.Defs
import proofs.«204097_g52673478918828_cont_9to1c4b_838_31_alg».proof.Proof.Gen.Kernel
import proofs.«204097_g52673478918828_cont_9to1c4b_838_31_alg».proof.Proof.Gen.Kernel.Skeleton
import proofs.«204097_g52673478918828_cont_9to1c4b_838_31_alg».proof.Proof.Gen.Kernel.Launch
import proofs.«204097_g52673478918828_cont_9to1c4b_838_31_alg».proof.Proof.Gen.Kernel.Regions
import proofs.«204097_g52673478918828_cont_9to1c4b_838_31_alg».proof.Proof.Gen.Kernel.Points
import proofs.«204097_g52673478918828_cont_9to1c4b_838_31_alg».proof.Proof.Gen.KernelIdeal
import proofs.«204097_g52673478918828_cont_9to1c4b_838_31_alg».proof.Proof.Gen.KernelIdeal.Skeleton
import proofs.«204097_g52673478918828_cont_9to1c4b_838_31_alg».proof.Proof.Gen.KernelIdeal.Launch
import proofs.«204097_g52673478918828_cont_9to1c4b_838_31_alg».proof.Proof.Gen.KernelIdeal.Regions
import proofs.«204097_g52673478918828_cont_9to1c4b_838_31_alg».proof.Proof.Gen.KernelIdeal.Points
import proofs.«204097_g52673478918828_cont_9to1c4b_838_31_alg».proof.Proof.Gen.ReferenceIdeal
import proofs.«204097_g52673478918828_cont_9to1c4b_838_31_alg».proof.Proof.Gen.Pre_input_domain
import proofs.«204097_g52673478918828_cont_9to1c4b_838_31_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Claims.frame_k, Claims.frame_ki, Claims.frame_ri, Claims.preserves, Claims.algebraic⟩

end Cert.Proof

end
